-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg23 : FVec F S2 .f32) (main_v98 : IVec S_ 1) (main_v101 : IVec S32x2 1) (main_c_39 : IVec S_ 1) : IVec S_ 1 :=
  let main_v102 : IVec S_ 1 := (fun x v => Host.reduce IntOp.andi x v reducesTo_S32x2_S_d0_1 h_S_) main_v101 main_c_39
  let main_v103 : IVec S_ 1 := andi main_v98 main_v102
  let main_v104 : FVec F S2 .f32 := Host.absf main_arg23
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  main_v108

def fn_part5 {F : FTy → Type} [FloatOps F] (main_arg20 : FVec F S64x32 .f32) (main_arg21 : FVec F S32 .f32) (main_arg22 : FVec F S32x2 .f32) (main_arg23 : FVec F S2 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x32 .f32 := Host.absf main_arg20
  let main_cst_34 : FVec F S_ .f32 := constant S_ .f32 0x7F800000#32
  let main_v90 : FVec F S64x32 .f32 := broadcastInDim S64x32 ![] bcast_S_S64x32 main_cst_34
  let main_v91 : IVec S64x32 1 := cmpf .olt main_v89 main_v90
  let main_c_35 : IVec S_ 1 := constantI S_ 1 1#1
  let main_v92 : IVec S_ 1 := (fun x v => Host.reduce IntOp.andi x v reducesTo_S64x32_S_d0_1 h_S_) main_v91 main_c_35
  let main_v93 : IVec S_ 1 := andi main_v88 main_v92
  let main_v94 : FVec F S32 .f32 := Host.absf main_arg21
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_v99 : FVec F S32x2 .f32 := Host.absf main_arg22
  let main_cst_38 : FVec F S_ .f32 := constant S_ .f32 0x7F800000#32
  let main_v100 : FVec F S32x2 .f32 := broadcastInDim S32x2 ![] bcast_S_S32x2 main_cst_38
  let main_v101 : IVec S32x2 1 := cmpf .olt main_v99 main_v100
  let main_c_39 : IVec S_ 1 := constantI S_ 1 1#1
  fn_part6 (F := F) main_arg23 main_v98 main_v101 main_c_39

def fn_part4 {F : FTy → Type} [FloatOps F] (main_arg16 : FVec F S64 .f32) (main_arg17 : FVec F S64 .f32) (main_arg18 : FVec F S64x64 .f32) (main_arg19 : FVec F S64 .f32) (main_arg20 : FVec F S64x32 .f32) (main_arg21 : FVec F S32 .f32) (main_arg22 : FVec F S32x2 .f32) (main_arg23 : FVec F S2 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg18
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_arg23 main_v83 main_v84 main_cst_32

def fn_part3 {F : FTy → Type} [FloatOps F] (main_arg13 : FVec F S128x64 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_arg20 : FVec F S64x32 .f32) (main_arg21 : FVec F S32 .f32) (main_arg22 : FVec F S32x2 .f32) (main_arg23 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg13
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_arg22 main_arg23 main_v63 main_v67

def fn_part2 {F : FTy → Type} [FloatOps F] (main_arg9 : FVec F S256x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_arg20 : FVec F S64x32 .f32) (main_arg21 : FVec F S32 .f32) (main_arg22 : FVec F S32x2 .f32) (main_arg23 : FVec F S2 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_arg17 main_arg18 main_arg19 main_arg20 main_arg21 main_arg22 main_arg23 main_v48 main_v49 main_v50

def fn_part1 {F : FTy → Type} [FloatOps F] (main_arg6 : FVec F S256 .f32) (main_arg7 : FVec F S256 .f32) (main_arg8 : FVec F S256x128 .f32) (main_arg9 : FVec F S256x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_arg20 : FVec F S64x32 .f32) (main_arg21 : FVec F S32 .f32) (main_arg22 : FVec F S32x2 .f32) (main_arg23 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x128 .f32 := Host.absf main_arg8
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S50000x128 .f32) (main_arg1 : IVec S2x800000 32) (main_arg2 : IVec S50000 32) (main_arg3 : FVec F S128x256 .f32) (main_arg4 : FVec F S128x256 .f32) (main_arg5 : FVec F S256 .f32) (main_arg6 : FVec F S256 .f32) (main_arg7 : FVec F S256 .f32) (main_arg8 : FVec F S256x128 .f32) (main_arg9 : FVec F S256x128 .f32) (main_arg10 : FVec F S128 .f32) (main_arg11 : FVec F S128 .f32) (main_arg12 : FVec F S128 .f32) (main_arg13 : FVec F S128x64 .f32) (main_arg14 : FVec F S128x64 .f32) (main_arg15 : FVec F S64 .f32) (main_arg16 : FVec F S64 .f32) (main_arg17 : FVec F S64 .f32) (main_arg18 : FVec F S64x64 .f32) (main_arg19 : FVec F S64 .f32) (main_arg20 : FVec F S64x32 .f32) (main_arg21 : FVec F S32 .f32) (main_arg22 : FVec F S32x2 .f32) (main_arg23 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x1 : Shape := ⟨2, ![2000, 1]⟩
abbrev S2000x256 : Shape := ⟨2, ![2000, 256]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S64x1 : Shape := ⟨2, ![64, 1]⟩
abbrev S1x32 : Shape := ⟨2, ![1, 32]⟩
abbrev S1x2 : Shape := ⟨2, ![1, 2]⟩
abbrev S64x2 : Shape := ⟨2, ![64, 2]⟩

abbrev nBuf : Space → Nat
  | .hbm => 185
  | .vmem => 71
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S128x256, .f32⟩
  | 5 => ⟨S256, .f32⟩
  | 6 => ⟨S256, .f32⟩
  | 7 => ⟨S256, .f32⟩
  | 8 => ⟨S256x128, .f32⟩
  | 9 => ⟨S256x128, .f32⟩
  | 10 => ⟨S128, .f32⟩
  | 11 => ⟨S128, .f32⟩
  | 12 => ⟨S128, .f32⟩
  | 13 => ⟨S128x64, .f32⟩
  | 14 => ⟨S128x64, .f32⟩
  | 15 => ⟨S64, .f32⟩
  | 16 => ⟨S64, .f32⟩
  | 17 => ⟨S64, .f32⟩
  | 18 => ⟨S64x64, .f32⟩
  | 19 => ⟨S64, .f32⟩
  | 20 => ⟨S64x32, .f32⟩
  | 21 => ⟨S32, .f32⟩
  | 22 => ⟨S32x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S50000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x128, .f32⟩
  | 50 => ⟨S_, .f32⟩
  | 51 => ⟨S50000x128, .f32⟩
  | 52 => ⟨S800000x1, .i32⟩
  | 53 => ⟨S50000x128, .f32⟩
  | 54 => ⟨S128x256, .bf16⟩
  | 55 => ⟨S128x256, .bf16⟩
  | 56 => ⟨S1x256, .f32⟩
  | 57 => ⟨S50000x256, .f32⟩
  | 58 => ⟨S_, .f32⟩
  | 59 => ⟨S256, .f32⟩
  | 60 => ⟨S50000x256, .f32⟩
  | 61 => ⟨S_, .f32⟩
  | 62 => ⟨S256, .f32⟩
  | 63 => ⟨S_, .f32⟩
  | 64 => ⟨S256, .f32⟩
  | 65 => ⟨S256, .f32⟩
  | 66 => ⟨S_, .f32⟩
  | 67 => ⟨S256, .f32⟩
  | 68 => ⟨S256, .f32⟩
  | 69 => ⟨S256, .f32⟩
  | 70 => ⟨S256, .f32⟩
  | 71 => ⟨S_, .f32⟩
  | 72 => ⟨S256, .f32⟩
  | 73 => ⟨S256, .f32⟩
  | 74 => ⟨S256, .f32⟩
  | 75 => ⟨S256, .f32⟩
  | 76 => ⟨S256, .f32⟩
  | 77 => ⟨S256, .f32⟩
  | 78 => ⟨S1x256, .f32⟩
  | 79 => ⟨S1x256, .f32⟩
  | 80 => ⟨S50000x256, .f32⟩
  | 81 => ⟨S256x128, .bf16⟩
  | 82 => ⟨S256x128, .bf16⟩
  | 83 => ⟨S50000x128, .f32⟩
  | 84 => ⟨S50000x128, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x128, .f32⟩
  | 94 => ⟨S_, .f32⟩
  | 95 => ⟨S50000x128, .f32⟩
  | 96 => ⟨S800000x1, .i32⟩
  | 97 => ⟨S50000x128, .f32⟩
  | 98 => ⟨S1x128, .f32⟩
  | 99 => ⟨S50000x128, .f32⟩
  | 100 => ⟨S_, .f32⟩
  | 101 => ⟨S128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S_, .f32⟩
  | 109 => ⟨S128, .f32⟩
  | 110 => ⟨S128, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S128, .f32⟩
  | 118 => ⟨S128, .f32⟩
  | 119 => ⟨S128, .f32⟩
  | 120 => ⟨S1x128, .f32⟩
  | 121 => ⟨S1x128, .f32⟩
  | 122 => ⟨S50000x128, .f32⟩
  | 123 => ⟨S128x64, .bf16⟩
  | 124 => ⟨S128x64, .bf16⟩
  | 125 => ⟨S50000x64, .f32⟩
  | 126 => ⟨S50000x64, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S_, .f32⟩
  | 9 => ⟨S50000x64, .f32⟩
  | 10 => ⟨S800000x1, .i32⟩
  | 11 => ⟨S50000x64, .f32⟩
  | 12 => ⟨S1x64, .f32⟩
  | 13 => ⟨S50000x64, .f32⟩
  | 14 => ⟨S_, .f32⟩
  | 15 => ⟨S64, .f32⟩
  | 16 => ⟨S50000x64, .f32⟩
  | 17 => ⟨S_, .f32⟩
  | 18 => ⟨S64, .f32⟩
  | 19 => ⟨S_, .f32⟩
  | 20 => ⟨S64, .f32⟩
  | 21 => ⟨S64, .f32⟩
  | 22 => ⟨S_, .f32⟩
  | 23 => ⟨S64, .f32⟩
  | 24 => ⟨S64, .f32⟩
  | 25 => ⟨S64, .f32⟩
  | 26 => ⟨S64, .f32⟩
  | 27 => ⟨S_, .f32⟩
  | 28 => ⟨S64, .f32⟩
  | 29 => ⟨S64, .f32⟩
  | 30 => ⟨S64, .f32⟩
  | 31 => ⟨S64, .f32⟩
  | 32 => ⟨S64, .f32⟩
  | 33 => ⟨S64, .f32⟩
  | 34 => ⟨S1x64, .f32⟩
  | 35 => ⟨S1x64, .f32⟩
  | 36 => ⟨S50000x64, .f32⟩
  | 37 => ⟨S_, .f32⟩
  | 38 => ⟨S50000, .f32⟩
  | 39 => ⟨S_, .f32⟩
  | 40 => ⟨S64x64, .f32⟩
  | 41 => ⟨S50000x1, .i32⟩
  | 42 => ⟨S64x64, .f32⟩
  | 43 => ⟨S_, .f32⟩
  | 44 => ⟨S64, .f32⟩
  | 45 => ⟨S50000x1, .i32⟩
  | 46 => ⟨S64, .f32⟩
  | 47 => ⟨S_, .f32⟩
  | 48 => ⟨S64, .f32⟩
  | 49 => ⟨S64, .f32⟩
  | 50 => ⟨S64x1, .f32⟩
  | 51 => ⟨S64x64, .f32⟩
  | 52 => ⟨S64x64, .f32⟩
  | 53 => ⟨S1x64, .f32⟩
  | 54 => ⟨S1x32, .f32⟩
  | 55 => ⟨S1x2, .f32⟩
  | 56 => ⟨S64x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S1x256, .f32⟩
  | .local _ .vmem, ⟨14, _⟩ => ⟨S1x256, .f32⟩
  | .local _ .vmem, ⟨15, _⟩ => ⟨S2000x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S256x128, .bf16⟩
  | .local _ .vmem, ⟨20, _⟩ => ⟨S256x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x1, .f32⟩
  | .local _ .vmem, ⟨30, _⟩ => ⟨S2000x1, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S128x64, .bf16⟩
  | .local _ .vmem, ⟨43, _⟩ => ⟨S128x64, .bf16⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | .local _ .vmem, ⟨48, _⟩ => ⟨S2000x64, .f32⟩
  | .local _ .vmem, ⟨49, _⟩ => ⟨S2000x64, .f32⟩
  | .local _ .vmem, ⟨50, _⟩ => ⟨S2000x64, .f32⟩
  | .local _ .vmem, ⟨51, _⟩ => ⟨S2000x64, .f32⟩
  | .local _ .vmem, ⟨52, _⟩ => ⟨S2000x1, .f32⟩
  | .local _ .vmem, ⟨53, _⟩ => ⟨S2000x1, .f32⟩
  | .local _ .vmem, ⟨54, _⟩ => ⟨S1x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S1x64, .f32⟩
  | .local _ .vmem, ⟨60, _⟩ => ⟨S1x64, .f32⟩
  | .local _ .vmem, ⟨61, _⟩ => ⟨S2000x64, .f32⟩
  | .local _ .vmem, ⟨62, _⟩ => ⟨S2000x64, .f32⟩
  | .local _ .vmem, ⟨63, _⟩ => ⟨S64x64, .f32⟩
  | .local _ .vmem, ⟨64, _⟩ => ⟨S64x64, .f32⟩
  | .local _ .vmem, ⟨65, _⟩ => ⟨S1x64, .f32⟩
  | .local _ .vmem, ⟨66, _⟩ => ⟨S64x32, .f32⟩
  | .local _ .vmem, ⟨67, _⟩ => ⟨S1x32, .f32⟩
  | .local _ .vmem, ⟨68, _⟩ => ⟨S32x2, .f32⟩
  | .local _ .vmem, ⟨69, _⟩ => ⟨S1x2, .f32⟩
  | .local _ .vmem, ⟨70, _⟩ => ⟨S64x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst : Ref sig .tc := ⟨.hbm, 28, rfl⟩
abbrev main_v4 : Ref sig .tc := ⟨.hbm, 29, rfl⟩
abbrev main_cst_0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_cst_1 : Ref sig .tc := ⟨.hbm, 34, rfl⟩
abbrev main_v8 : Ref sig .tc := ⟨.hbm, 35, rfl⟩
abbrev main_v9 : Ref sig .tc := ⟨.hbm, 36, rfl⟩
abbrev main_cst_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_v13 : Ref sig .tc := ⟨.hbm, 42, rfl⟩
abbrev main_v14 : Ref sig .tc := ⟨.hbm, 43, rfl⟩
abbrev main_c_3 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_5 : Ref sig .tc := ⟨.hbm, 58, rfl⟩
abbrev main_v27 : Ref sig .tc := ⟨.hbm, 59, rfl⟩
abbrev main_v28 : Ref sig .tc := ⟨.hbm, 60, rfl⟩
abbrev main_cst_6 : Ref sig .tc := ⟨.hbm, 61, rfl⟩
abbrev main_v29 : Ref sig .tc := ⟨.hbm, 62, rfl⟩
abbrev main_cst_7 : Ref sig .tc := ⟨.hbm, 63, rfl⟩
abbrev main_v30 : Ref sig .tc := ⟨.hbm, 64, rfl⟩
abbrev main_v31 : Ref sig .tc := ⟨.hbm, 65, rfl⟩
abbrev main_cst_8 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_9 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47_0 : Ref sig .tc := ⟨.hbm, 83, rfl⟩
abbrev main_v47_1 : Ref sig .tc := ⟨.hbm, 84, rfl⟩
abbrev main_c_10 : Ref sig .tc := ⟨.hbm, 85, rfl⟩
abbrev main_v48 : Ref sig .tc := ⟨.hbm, 86, rfl⟩
abbrev main_v49 : Ref sig .tc := ⟨.hbm, 87, rfl⟩
abbrev main_c_11 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_12 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_13 : Ref sig .tc := ⟨.hbm, 100, rfl⟩
abbrev main_v60 : Ref sig .tc := ⟨.hbm, 101, rfl⟩
abbrev main_v61 : Ref sig .tc := ⟨.hbm, 102, rfl⟩
abbrev main_cst_14 : Ref sig .tc := ⟨.hbm, 103, rfl⟩
abbrev main_v62 : Ref sig .tc := ⟨.hbm, 104, rfl⟩
abbrev main_cst_15 : Ref sig .tc := ⟨.hbm, 105, rfl⟩
abbrev main_v63 : Ref sig .tc := ⟨.hbm, 106, rfl⟩
abbrev main_v64 : Ref sig .tc := ⟨.hbm, 107, rfl⟩
abbrev main_cst_16 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_cst_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80_0 : Ref sig .tc := ⟨.hbm, 125, rfl⟩
abbrev main_v80_1 : Ref sig .tc := ⟨.hbm, 126, rfl⟩
abbrev main_c_18 : Ref sig .tc := ⟨.hbm, 127, rfl⟩
abbrev main_v81 : Ref sig .tc := ⟨.hbm, 128, rfl⟩
abbrev main_v82 : Ref sig .tc := ⟨.hbm, 129, rfl⟩
abbrev main_c_19 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_20 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_21 : Ref sig .tc := ⟨.hbm, 142, rfl⟩
abbrev main_v93 : Ref sig .tc := ⟨.hbm, 143, rfl⟩
abbrev main_v94 : Ref sig .tc := ⟨.hbm, 144, rfl⟩
abbrev main_cst_22 : Ref sig .tc := ⟨.hbm, 145, rfl⟩
abbrev main_v95 : Ref sig .tc := ⟨.hbm, 146, rfl⟩
abbrev main_cst_23 : Ref sig .tc := ⟨.hbm, 147, rfl⟩
abbrev main_v96 : Ref sig .tc := ⟨.hbm, 148, rfl⟩
abbrev main_v97 : Ref sig .tc := ⟨.hbm, 149, rfl⟩
abbrev main_cst_24 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_cst_25 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_26 : Ref sig .tc := ⟨.hbm, 165, rfl⟩
abbrev main_v111 : Ref sig .tc := ⟨.hbm, 166, rfl⟩
abbrev main_cst_27 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_28 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_29 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc6_stg2_0 : Ref sig .tc := ⟨.vmem, 52, rfl⟩
abbrev cc6_stg2_1 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg4_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc7_stg3_1 : Ref sig .tc := ⟨.vmem, 62, rfl⟩
abbrev cc8_stg0_0 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg5_0 : Ref sig .tc := ⟨.vmem, 68, rfl⟩
abbrev cc8_stg6_0 : Ref sig .tc := ⟨.vmem, 69, rfl⟩
abbrev cc8_stg7_0 : Ref sig .tc := ⟨.vmem, 70, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem2_1 : DmaSem sig := 53
abbrev cc6_sem3_0 : DmaSem sig := 54
abbrev cc6_sem4_0 : DmaSem sig := 55
abbrev cc6_sem4_1 : DmaSem sig := 56
abbrev cc7_sem0_0 : DmaSem sig := 57
abbrev cc7_sem0_1 : DmaSem sig := 58
abbrev cc7_sem1_0 : DmaSem sig := 59
abbrev cc7_sem2_0 : DmaSem sig := 60
abbrev cc7_sem3_0 : DmaSem sig := 61
abbrev cc7_sem3_1 : DmaSem sig := 62
abbrev cc8_sem0_0 : DmaSem sig := 63
abbrev cc8_sem1_0 : DmaSem sig := 64
abbrev cc8_sem2_0 : DmaSem sig := 65
abbrev cc8_sem3_0 : DmaSem sig := 66
abbrev cc8_sem4_0 : DmaSem sig := 67
abbrev cc8_sem5_0 : DmaSem sig := 68
abbrev cc8_sem6_0 : DmaSem sig := 69
abbrev cc8_sem7_0 : DmaSem sig := 70

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x64 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S64x64 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x32 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x32 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S32x2 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x2 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S64x2 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  reducesTo_S50000x256_S256_d0 : S50000x256.ReducesTo [0] S256
  h_S_ : 0 < S_.numel
  bcast_S_S256 : S_.BroadcastsInDim S256 (![] : Fin 0 → Fin S256.rank)
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S128_S1x128 : S128.ShapeCasts S1x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  bcast_S_S128 : S_.BroadcastsInDim S128 (![] : Fin 0 → Fin S128.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reducesTo_S50000x64_S64_d0 : S50000x64.ReducesTo [0] S64
  bcast_S_S64 : S_.BroadcastsInDim S64 (![] : Fin 0 → Fin S64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S32_S1x32 : S32.ShapeCasts S1x32
  shapeCasts_S2_S1x2 : S2.ShapeCasts S1x2
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S64x64 : S1x64.Broadcasts S64x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .bf16 = 32 ∨ (Rect.block (s := S256x128) S256x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .bf16 = 32 ∨ (Rect.block (s := S128x64) S128x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .bf16 = 32 ∨ (Rect.block (s := S128x64) S128x64.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x64.size a ≤ S50000x64.size a
  hwx5_3 : ∀ i : grid5.Coords, EltTy.bits .f32 = 32 ∨ (Rect.block (s := S50000x64) S2000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x64.size a ≤ S50000x64.size a
  hwx7_3 : ∀ i : grid7.Coords, EltTy.bits .f32 = 32 ∨ (Rect.block (s := S50000x64) S2000x64.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S64x64.size a ≤ S64x64.size a
  hwx8_0 : ∀ i : grid8.Coords, EltTy.bits .f32 = 32 ∨ (Rect.block (s := S64x64) S64x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x32.size a ≤ S64x32.size a
  hwx8_3 : ∀ i : grid8.Coords, EltTy.bits .f32 = 32 ∨ (Rect.block (s := S64x32) S64x32.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x32.size a ≤ S1x32.size a
  hwx8_4 : ∀ i : grid8.Coords, EltTy.bits .f32 = 32 ∨ (Rect.block (s := S1x32) S1x32.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S32x2.size a ≤ S32x2.size a
  hwx8_5 : ∀ i : grid8.Coords, EltTy.bits .f32 = 32 ∨ (Rect.block (s := S32x2) S32x2.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x2.size a ≤ S1x2.size a
  hwx8_6 : ∀ i : grid8.Coords, EltTy.bits .f32 = 32 ∨ (Rect.block (s := S1x2) S1x2.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S64x2.size a ≤ S64x2.size a
  hwx8_7 : ∀ i : grid8.Coords, EltTy.bits .f32 = 32 ∨ (Rect.block (s := S64x2) S64x2.size (cc8_transform_7 i) (hinb8_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v47_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v57) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47_1) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v77) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v80_0) S2000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v80_1) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v90) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80_1) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v12) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S2000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v92) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v108) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v109) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v110) S2000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v122) S64x64.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg18) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v123) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg20) S64x32.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v124) S1x32.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_arg22) S32x2.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v125) S1x2.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v126) S64x2.size cc8_transform_7 reads8_7 true true 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S50000x64 : Shape := ⟨2, ![50000, 64]⟩
abbrev S1x64 : Shape := ⟨2, ![1, 64]⟩
abbrev S64x1 : Shape := ⟨2, ![64, 1]⟩
abbrev S1x32 : Shape := ⟨2, ![1, 32]⟩
abbrev S64x2 : Shape := ⟨2, ![64, 2]⟩
abbrev S1x2 : Shape := ⟨2, ![1, 2]⟩

abbrev nBuf : Space → Nat
  | .hbm => 296
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S128x256, .f32⟩
  | 5 => ⟨S256, .f32⟩
  | 6 => ⟨S256, .f32⟩
  | 7 => ⟨S256, .f32⟩
  | 8 => ⟨S256x128, .f32⟩
  | 9 => ⟨S256x128, .f32⟩
  | 10 => ⟨S128, .f32⟩
  | 11 => ⟨S128, .f32⟩
  | 12 => ⟨S128, .f32⟩
  | 13 => ⟨S128x64, .f32⟩
  | 14 => ⟨S128x64, .f32⟩
  | 15 => ⟨S64, .f32⟩
  | 16 => ⟨S64, .f32⟩
  | 17 => ⟨S64, .f32⟩
  | 18 => ⟨S64x64, .f32⟩
  | 19 => ⟨S64, .f32⟩
  | 20 => ⟨S64x32, .f32⟩
  | 21 => ⟨S32, .f32⟩
  | 22 => ⟨S32x2, .f32⟩
  | 23 => ⟨S2, .f32⟩
  | 24 => ⟨S1x800000, .i32⟩
  | 25 => ⟨S800000, .i32⟩
  | 26 => ⟨S1x800000, .i32⟩
  | 27 => ⟨S800000, .i32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x256, .f32⟩
  | 54 => ⟨S1x256, .f32⟩
  | 55 => ⟨S50000x256, .f32⟩
  | 56 => ⟨S50000x256, .f32⟩
  | 57 => ⟨S50000x256, .f32⟩
  | 58 => ⟨S50000x256, .f32⟩
  | 59 => ⟨S_, .f32⟩
  | 60 => ⟨S256, .f32⟩
  | 61 => ⟨S_, .f32⟩
  | 62 => ⟨S256, .f32⟩
  | 63 => ⟨S256, .f32⟩
  | 64 => ⟨S_, .i32⟩
  | 65 => ⟨S_, .f32⟩
  | 66 => ⟨S256, .f32⟩
  | 67 => ⟨S1x256, .f32⟩
  | 68 => ⟨S_, .f32⟩
  | 69 => ⟨S1x256, .f32⟩
  | 70 => ⟨S1x256, .f32⟩
  | 71 => ⟨S50000x256, .f32⟩
  | 72 => ⟨S50000x256, .f32⟩
  | 73 => ⟨S50000x256, .f32⟩
  | 74 => ⟨S_, .f32⟩
  | 75 => ⟨S_, .f32⟩
  | 76 => ⟨S_, .f32⟩
  | 77 => ⟨S_, .f32⟩
  | 78 => ⟨S256, .f32⟩
  | 79 => ⟨S256, .f32⟩
  | 80 => ⟨S256, .f32⟩
  | 81 => ⟨S_, .f32⟩
  | 82 => ⟨S_, .i1⟩
  | 83 => ⟨S_, .f32⟩
  | 84 => ⟨S_, .f32⟩
  | 85 => ⟨S256, .f32⟩
  | 86 => ⟨S256, .f32⟩
  | 87 => ⟨S1x256, .f32⟩
  | 88 => ⟨S50000x256, .f32⟩
  | 89 => ⟨S50000x256, .f32⟩
  | 90 => ⟨S1x256, .f32⟩
  | 91 => ⟨S50000x256, .f32⟩
  | 92 => ⟨S50000x256, .f32⟩
  | 93 => ⟨S_, .f32⟩
  | 94 => ⟨S256, .f32⟩
  | 95 => ⟨S256, .f32⟩
  | 96 => ⟨S256, .f32⟩
  | 97 => ⟨S1x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S_, .f32⟩
  | 104 => ⟨S50000x256, .f32⟩
  | 105 => ⟨S50000x256, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x256, .f32⟩
  | 115 => ⟨S_, .f32⟩
  | 116 => ⟨S50000x256, .f32⟩
  | 117 => ⟨S800000x1, .i32⟩
  | 118 => ⟨S50000x256, .f32⟩
  | 119 => ⟨S_, .f32⟩
  | 120 => ⟨S800000, .f32⟩
  | 121 => ⟨S_, .f32⟩
  | 122 => ⟨S50000, .f32⟩
  | 123 => ⟨S800000x1, .i32⟩
  | 124 => ⟨S50000, .f32⟩
  | 125 => ⟨S_, .f32⟩
  | 126 => ⟨S50000, .f32⟩
  | 127 => ⟨S50000, .f32⟩
  | _ => ⟨S50000x128, .f32⟩

abbrev hbmTy0_1 (i : Nat) : BufTy := match i % 128 with
  | 0 => ⟨S50000x1, .f32⟩
  | 1 => ⟨S50000x256, .f32⟩
  | 2 => ⟨S50000x256, .f32⟩
  | 3 => ⟨S50000x128, .f32⟩
  | 4 => ⟨S1x128, .f32⟩
  | 5 => ⟨S50000x128, .f32⟩
  | 6 => ⟨S50000x128, .f32⟩
  | 7 => ⟨S50000x128, .f32⟩
  | 8 => ⟨S50000x128, .f32⟩
  | 9 => ⟨S_, .f32⟩
  | 10 => ⟨S128, .f32⟩
  | 11 => ⟨S_, .f32⟩
  | 12 => ⟨S128, .f32⟩
  | 13 => ⟨S128, .f32⟩
  | 14 => ⟨S_, .i32⟩
  | 15 => ⟨S_, .f32⟩
  | 16 => ⟨S128, .f32⟩
  | 17 => ⟨S1x128, .f32⟩
  | 18 => ⟨S_, .f32⟩
  | 19 => ⟨S1x128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S_, .f32⟩
  | 26 => ⟨S_, .f32⟩
  | 27 => ⟨S_, .f32⟩
  | 28 => ⟨S128, .f32⟩
  | 29 => ⟨S128, .f32⟩
  | 30 => ⟨S128, .f32⟩
  | 31 => ⟨S_, .f32⟩
  | 32 => ⟨S_, .i1⟩
  | 33 => ⟨S_, .f32⟩
  | 34 => ⟨S_, .f32⟩
  | 35 => ⟨S128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S50000x128, .f32⟩
  | 42 => ⟨S50000x128, .f32⟩
  | 43 => ⟨S_, .f32⟩
  | 44 => ⟨S128, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S_, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S_, .f32⟩
  | 70 => ⟨S800000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .f32⟩
  | 78 => ⟨S50000x1, .f32⟩
  | 79 => ⟨S50000x128, .f32⟩
  | 80 => ⟨S50000x128, .f32⟩
  | 81 => ⟨S50000x64, .f32⟩
  | 82 => ⟨S1x64, .f32⟩
  | 83 => ⟨S50000x64, .f32⟩
  | 84 => ⟨S50000x64, .f32⟩
  | 85 => ⟨S50000x64, .f32⟩
  | 86 => ⟨S50000x64, .f32⟩
  | 87 => ⟨S_, .f32⟩
  | 88 => ⟨S64, .f32⟩
  | 89 => ⟨S_, .f32⟩
  | 90 => ⟨S64, .f32⟩
  | 91 => ⟨S64, .f32⟩
  | 92 => ⟨S_, .i32⟩
  | 93 => ⟨S_, .f32⟩
  | 94 => ⟨S64, .f32⟩
  | 95 => ⟨S1x64, .f32⟩
  | 96 => ⟨S_, .f32⟩
  | 97 => ⟨S1x64, .f32⟩
  | 98 => ⟨S1x64, .f32⟩
  | 99 => ⟨S50000x64, .f32⟩
  | 100 => ⟨S50000x64, .f32⟩
  | 101 => ⟨S50000x64, .f32⟩
  | 102 => ⟨S_, .f32⟩
  | 103 => ⟨S_, .f32⟩
  | 104 => ⟨S_, .f32⟩
  | 105 => ⟨S_, .f32⟩
  | 106 => ⟨S64, .f32⟩
  | 107 => ⟨S64, .f32⟩
  | 108 => ⟨S64, .f32⟩
  | 109 => ⟨S_, .f32⟩
  | 110 => ⟨S_, .i1⟩
  | 111 => ⟨S_, .f32⟩
  | 112 => ⟨S_, .f32⟩
  | 113 => ⟨S64, .f32⟩
  | 114 => ⟨S64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S64, .f32⟩
  | 123 => ⟨S64, .f32⟩
  | 124 => ⟨S64, .f32⟩
  | 125 => ⟨S1x64, .f32⟩
  | 126 => ⟨S50000x64, .f32⟩
  | 127 => ⟨S50000x64, .f32⟩
  | _ => ⟨S50000x128, .f32⟩

abbrev hbmTy0_2 (i : Nat) : BufTy := match i % 128 with
  | 0 => ⟨S1x64, .f32⟩
  | 1 => ⟨S50000x64, .f32⟩
  | 2 => ⟨S50000x64, .f32⟩
  | 3 => ⟨S_, .f32⟩
  | 4 => ⟨S50000x64, .f32⟩
  | 5 => ⟨S50000x64, .f32⟩
  | 6 => ⟨S_, .f32⟩
  | 7 => ⟨S64x64, .f32⟩
  | 8 => ⟨S50000x1, .i32⟩
  | 9 => ⟨S64x64, .f32⟩
  | 10 => ⟨S_, .f32⟩
  | 11 => ⟨S50000, .f32⟩
  | 12 => ⟨S_, .f32⟩
  | 13 => ⟨S64, .f32⟩
  | 14 => ⟨S50000x1, .i32⟩
  | 15 => ⟨S64, .f32⟩
  | 16 => ⟨S_, .f32⟩
  | 17 => ⟨S64, .f32⟩
  | 18 => ⟨S64, .f32⟩
  | 19 => ⟨S64x1, .f32⟩
  | 20 => ⟨S64x64, .f32⟩
  | 21 => ⟨S64x64, .f32⟩
  | 22 => ⟨S64x64, .f32⟩
  | 23 => ⟨S1x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S64x32, .f32⟩
  | 30 => ⟨S1x32, .f32⟩
  | 31 => ⟨S64x32, .f32⟩
  | 32 => ⟨S64x32, .f32⟩
  | 33 => ⟨S_, .f32⟩
  | 34 => ⟨S64x32, .f32⟩
  | 35 => ⟨S64x32, .f32⟩
  | 36 => ⟨S64x2, .f32⟩
  | 37 => ⟨S1x2, .f32⟩
  | 38 => ⟨S64x2, .f32⟩
  | 39 => ⟨S64x2, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c : Ref sig .tc := ⟨.hbm, 28, rfl⟩
abbrev main_v4 : Ref sig .tc := ⟨.hbm, 29, rfl⟩
abbrev main_v5 : Ref sig .tc := ⟨.hbm, 30, rfl⟩
abbrev main_c_0 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_v14 : Ref sig .tc := ⟨.hbm, 42, rfl⟩
abbrev main_cst_2 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_4 : Ref sig .tc := ⟨.hbm, 59, rfl⟩
abbrev main_v29 : Ref sig .tc := ⟨.hbm, 60, rfl⟩
abbrev main_cst_5 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_cst_3 : Ref sig .tc := ⟨.hbm, 81, rfl⟩
abbrev main_call0_v12 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_cst_7 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_call1_cst : Ref sig .tc := ⟨.hbm, 103, rfl⟩
abbrev main_call1_v0 : Ref sig .tc := ⟨.hbm, 104, rfl⟩
abbrev main_v48 : Ref sig .tc := ⟨.hbm, 105, rfl⟩
abbrev main_c_8 : Ref sig .tc := ⟨.hbm, 106, rfl⟩
abbrev main_v49 : Ref sig .tc := ⟨.hbm, 107, rfl⟩
abbrev main_v50 : Ref sig .tc := ⟨.hbm, 108, rfl⟩
abbrev main_c_9 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_10 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_cst_11 : Ref sig .tc := ⟨.hbm, 119, rfl⟩
abbrev main_v59 : Ref sig .tc := ⟨.hbm, 120, rfl⟩
abbrev main_cst_12 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_cst_13 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_cst_14 : Ref sig .tc := ⟨.hbm, 137, rfl⟩
abbrev main_v74 : Ref sig .tc := ⟨.hbm, 138, rfl⟩
abbrev main_cst_15 : Ref sig .tc := ⟨.hbm, 139, rfl⟩
abbrev main_v75 : Ref sig .tc := ⟨.hbm, 140, rfl⟩
abbrev main_v76 : Ref sig .tc := ⟨.hbm, 141, rfl⟩
abbrev main_c_16 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_cst_0 : Ref sig .tc := ⟨.hbm, 146, rfl⟩
abbrev main_call2_v2 : Ref sig .tc := ⟨.hbm, 147, rfl⟩
abbrev main_call2_v3 : Ref sig .tc := ⟨.hbm, 148, rfl⟩
abbrev main_call2_v4 : Ref sig .tc := ⟨.hbm, 149, rfl⟩
abbrev main_call2_v5 : Ref sig .tc := ⟨.hbm, 150, rfl⟩
abbrev main_call2_v6 : Ref sig .tc := ⟨.hbm, 151, rfl⟩
abbrev main_call2_v7 : Ref sig .tc := ⟨.hbm, 152, rfl⟩
abbrev main_call2_cst_1 : Ref sig .tc := ⟨.hbm, 153, rfl⟩
abbrev main_call2_v8 : Ref sig .tc := ⟨.hbm, 154, rfl⟩
abbrev main_call2_cst_2 : Ref sig .tc := ⟨.hbm, 155, rfl⟩
abbrev main_call2_v9 : Ref sig .tc := ⟨.hbm, 156, rfl⟩
abbrev main_call2_v10 : Ref sig .tc := ⟨.hbm, 157, rfl⟩
abbrev main_call2_v11 : Ref sig .tc := ⟨.hbm, 158, rfl⟩
abbrev main_call2_cst_3 : Ref sig .tc := ⟨.hbm, 159, rfl⟩
abbrev main_call2_v12 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_cst_17 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_call3_cst : Ref sig .tc := ⟨.hbm, 181, rfl⟩
abbrev main_call3_v0 : Ref sig .tc := ⟨.hbm, 182, rfl⟩
abbrev main_v93 : Ref sig .tc := ⟨.hbm, 183, rfl⟩
abbrev main_c_18 : Ref sig .tc := ⟨.hbm, 184, rfl⟩
abbrev main_v94 : Ref sig .tc := ⟨.hbm, 185, rfl⟩
abbrev main_v95 : Ref sig .tc := ⟨.hbm, 186, rfl⟩
abbrev main_c_19 : Ref sig .tc := ⟨.hbm, 187, rfl⟩
abbrev main_v96 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_v100 : Ref sig .tc := ⟨.hbm, 192, rfl⟩
abbrev main_cst_20 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_21 : Ref sig .tc := ⟨.hbm, 197, rfl⟩
abbrev main_v104 : Ref sig .tc := ⟨.hbm, 198, rfl⟩
abbrev main_cst_22 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_cst_23 : Ref sig .tc := ⟨.hbm, 203, rfl⟩
abbrev main_v108 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_v114 : Ref sig .tc := ⟨.hbm, 210, rfl⟩
abbrev main_v115 : Ref sig .tc := ⟨.hbm, 211, rfl⟩
abbrev main_v116 : Ref sig .tc := ⟨.hbm, 212, rfl⟩
abbrev main_v117 : Ref sig .tc := ⟨.hbm, 213, rfl⟩
abbrev main_v118 : Ref sig .tc := ⟨.hbm, 214, rfl⟩
abbrev main_cst_24 : Ref sig .tc := ⟨.hbm, 215, rfl⟩
abbrev main_v119 : Ref sig .tc := ⟨.hbm, 216, rfl⟩
abbrev main_cst_25 : Ref sig .tc := ⟨.hbm, 217, rfl⟩
abbrev main_v120 : Ref sig .tc := ⟨.hbm, 218, rfl⟩
abbrev main_v121 : Ref sig .tc := ⟨.hbm, 219, rfl⟩
abbrev main_c_26 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_cst_0 : Ref sig .tc := ⟨.hbm, 224, rfl⟩
abbrev main_call4_v2 : Ref sig .tc := ⟨.hbm, 225, rfl⟩
abbrev main_call4_v3 : Ref sig .tc := ⟨.hbm, 226, rfl⟩
abbrev main_call4_v4 : Ref sig .tc := ⟨.hbm, 227, rfl⟩
abbrev main_call4_v5 : Ref sig .tc := ⟨.hbm, 228, rfl⟩
abbrev main_call4_v6 : Ref sig .tc := ⟨.hbm, 229, rfl⟩
abbrev main_call4_v7 : Ref sig .tc := ⟨.hbm, 230, rfl⟩
abbrev main_call4_cst_1 : Ref sig .tc := ⟨.hbm, 231, rfl⟩
abbrev main_call4_v8 : Ref sig .tc := ⟨.hbm, 232, rfl⟩
abbrev main_call4_cst_2 : Ref sig .tc := ⟨.hbm, 233, rfl⟩
abbrev main_call4_v9 : Ref sig .tc := ⟨.hbm, 234, rfl⟩
abbrev main_call4_v10 : Ref sig .tc := ⟨.hbm, 235, rfl⟩
abbrev main_call4_v11 : Ref sig .tc := ⟨.hbm, 236, rfl⟩
abbrev main_call4_cst_3 : Ref sig .tc := ⟨.hbm, 237, rfl⟩
abbrev main_call4_v12 : Ref sig .tc := ⟨.hbm, 238, rfl⟩
abbrev main_call4_cst_4 : Ref sig .tc := ⟨.hbm, 239, rfl⟩
abbrev main_call4_call0_v0 : Ref sig .tc := ⟨.hbm, 240, rfl⟩
abbrev main_call4_call0_v1 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_v128 : Ref sig .tc := ⟨.hbm, 248, rfl⟩
abbrev main_cst_27 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_call5_cst : Ref sig .tc := ⟨.hbm, 259, rfl⟩
abbrev main_call5_v0 : Ref sig .tc := ⟨.hbm, 260, rfl⟩
abbrev main_v138 : Ref sig .tc := ⟨.hbm, 261, rfl⟩
abbrev main_cst_28 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_cst_29 : Ref sig .tc := ⟨.hbm, 266, rfl⟩
abbrev main_v142 : Ref sig .tc := ⟨.hbm, 267, rfl⟩
abbrev main_cst_30 : Ref sig .tc := ⟨.hbm, 268, rfl⟩
abbrev main_v143 : Ref sig .tc := ⟨.hbm, 269, rfl⟩
abbrev main_v144 : Ref sig .tc := ⟨.hbm, 270, rfl⟩
abbrev main_v145 : Ref sig .tc := ⟨.hbm, 271, rfl⟩
abbrev main_cst_31 : Ref sig .tc := ⟨.hbm, 272, rfl⟩
abbrev main_v146 : Ref sig .tc := ⟨.hbm, 273, rfl⟩
abbrev main_v147 : Ref sig .tc := ⟨.hbm, 274, rfl⟩
abbrev main_v148 : Ref sig .tc := ⟨.hbm, 275, rfl⟩
abbrev main_v149 : Ref sig .tc := ⟨.hbm, 276, rfl⟩
abbrev main_v150 : Ref sig .tc := ⟨.hbm, 277, rfl⟩
abbrev main_v151 : Ref sig .tc := ⟨.hbm, 278, rfl⟩
abbrev main_v152 : Ref sig .tc := ⟨.hbm, 279, rfl⟩
abbrev main_v153 : Ref sig .tc := ⟨.hbm, 280, rfl⟩
abbrev main_v154 : Ref sig .tc := ⟨.hbm, 281, rfl⟩
abbrev main_call6_cst : Ref sig .tc := ⟨.hbm, 282, rfl⟩
abbrev main_call6_v0 : Ref sig .tc := ⟨.hbm, 283, rfl⟩
abbrev main_v155 : Ref sig .tc := ⟨.hbm, 284, rfl⟩
abbrev main_v156 : Ref sig .tc := ⟨.hbm, 285, rfl⟩
abbrev main_v157 : Ref sig .tc := ⟨.hbm, 286, rfl⟩
abbrev main_v158 : Ref sig .tc := ⟨.hbm, 287, rfl⟩
abbrev main_v159 : Ref sig .tc := ⟨.hbm, 288, rfl⟩
abbrev main_call7_cst : Ref sig .tc := ⟨.hbm, 289, rfl⟩
abbrev main_call7_v0 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_v164 : Ref sig .tc := ⟨.hbm, 295, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  bcast_S_S64x64 : S_.BroadcastsInDim S64x64 (![] : Fin 0 → Fin S64x64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  scatter_S64x64_S50000x1_S50000x64_1_0_0_1_wf : ScatterDims.WF S64x64 S50000x1 S50000x64 [1] [0] [0] 1
  scatter_S64_S50000x1_S50000_n_0_0_1_wf : ScatterDims.WF S64 S50000x1 S50000 [] [0] [0] 1
  dot_S64x64_S64x64_S64x64_1_0_0_1_n_n_wf : DotDims.WF S64x64 S64x64 S64x64 [1] [0] [0] [1] [] []
  dot_S64x64_S64x32_S64x32_1_0_0_1_n_n_wf : DotDims.WF S64x64 S64x32 S64x32 [1] [0] [0] [1] [] []
  dot_S64x32_S32x2_S64x2_1_0_0_1_n_n_wf : DotDims.WF S64x32 S32x2 S64x2 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S64x64_S50000x1_S50000x64_1_0_0_1 : ScatterDims S64x64 S50000x1 S50000x64 where
  updateWindowDims := [1]
  insertedWindowDims := [0]
  scatterDimsToOperandDims := [0]
  indexVectorDim := 1
  wf := scatter_S64x64_S50000x1_S50000x64_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x32_S64x32_1_0_0_1_n_n : DotDims S64x64 S64x32 S64x32 where
  lhsContracting := [1]
  rhsContracting := [0]
  lhsNonContracting := [0]
  rhsNonContracting := [1]
  lhsBatch := []
  rhsBatch := []
  wf := dot_S64x64_S64x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.KRun.lean ====
/-
  The idealized kernel program's run with its RESULT named.

  The program is nine pipelined regions among stretches of host operations.  Its buffer contents at every
  boundary form a chain: a stretch maps the contents through its operations, a region replaces its windows'
  arrays by what its write-backs leave.  Every weakly fair execution ends with every unscoped buffer at the last
  link of that chain; read at the result buffer this gives the program's value, and read at the arguments it
  gives back the launch contents.
-/
import proofs.«180069_j11596411699546_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the
    last boundary's contents of it, and every argument array is as launched. -/
theorem run_result : θ_run defs (onTc (τ := τ) (main (F := F))) ⟨m, fun _ => 0, ρ⟩ (fun r => ∀ c : Dev nD,
      r.2.mem ((c.tc : Thread nD τ).loc main_v126) = Gen.W18 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v126 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c),
       (h c _ (mem_uc main_arg16 (by decide))).trans (W18_main_arg16 m ρ c),
       (h c _ (mem_uc main_arg17 (by decide))).trans (W18_main_arg17 m ρ c),
       (h c _ (mem_uc main_arg18 (by decide))).trans (W18_main_arg18 m ρ c),
       (h c _ (mem_uc main_arg19 (by decide))).trans (W18_main_arg19 m ρ c),
       (h c _ (mem_uc main_arg20 (by decide))).trans (W18_main_arg20 m ρ c),
       (h c _ (mem_uc main_arg21 (by decide))).trans (W18_main_arg21 m ρ c),
       (h c _ (mem_uc main_arg22 (by decide))).trans (W18_main_arg22 m ρ c),
       (h c _ (mem_uc main_arg23 (by decide))).trans (W18_main_arg23 m ρ c)⟩)

end Cert.KernelIdeal.Val

end
-- ==== Proof.KCarryA.lean ====
/-
  Buffers that a stage of the kernel program does not write keep their contents across it: a stretch of host
  operations writes only its operations' results, a pipelined region only its output windows' arrays (an input
  window's array is read and left as it was).  Here: the stored edge rows, the reciprocal degree column, each
  region's output across the next stretch, and the arguments of the first two layers.
-/
import proofs.«180069_j11596411699546_2_alg».proof.Proof.Gen.KernelIdeal.Frame
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem carry_v1_6_1 : Gen.W6 (F := Ideal) m ρ c (Proc.devRef .tc main_v1) = Gen.W1 m ρ c (Proc.devRef .tc main_v1) :=
  calc Gen.W6 (F := Ideal) m ρ c (Proc.devRef .tc main_v1)
    _ = Gen.W5 m ρ c (Proc.devRef .tc main_v1) := Gen.W6_of_ne m ρ c main_v1 (by decide)
    _ = Gen.W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_v1) := Gen.W4_of_ne m ρ c main_v1 (by decide)
    _ = Gen.W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v1) := Gen.W2_of_ne m ρ c main_v1 (by decide)

theorem carry_v1_12_6 : Gen.W12 (F := Ideal) m ρ c (Proc.devRef .tc main_v1) = Gen.W6 m ρ c (Proc.devRef .tc main_v1) :=
  calc Gen.W12 (F := Ideal) m ρ c (Proc.devRef .tc main_v1)
    _ = Gen.W11 m ρ c (Proc.devRef .tc main_v1) := Gen.W12_of_ne m ρ c main_v1 (by decide)
    _ = Gen.W10 m ρ c (Proc.devRef .tc main_v1) := StableHlo.after_of_forall_not_mem (b := Proc.devRef .tc main_v1) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_v1) := Gen.W10_of_ne m ρ c main_v1 (by decide)
    _ = Gen.W8 m ρ c (Proc.devRef .tc main_v1) := StableHlo.after_of_forall_not_mem (b := Proc.devRef .tc main_v1) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_v1) := Gen.W8_of_ne m ρ c main_v1 (by decide)
    _ = Gen.W6 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v3_6_1 : Gen.W6 (F := Ideal) m ρ c (Proc.devRef .tc main_v3) = Gen.W1 m ρ c (Proc.devRef .tc main_v3) :=
  calc Gen.W6 (F := Ideal) m ρ c (Proc.devRef .tc main_v3)
    _ = Gen.W5 m ρ c (Proc.devRef .tc main_v3) := Gen.W6_of_ne m ρ c main_v3 (by decide)
    _ = Gen.W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_v3) := Gen.W4_of_ne m ρ c main_v3 (by decide)
    _ = Gen.W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v3) := Gen.W2_of_ne m ρ c main_v3 (by decide)

theorem carry_v3_12_6 : Gen.W12 (F := Ideal) m ρ c (Proc.devRef .tc main_v3) = Gen.W6 m ρ c (Proc.devRef .tc main_v3) :=
  calc Gen.W12 (F := Ideal) m ρ c (Proc.devRef .tc main_v3)
    _ = Gen.W11 m ρ c (Proc.devRef .tc main_v3) := Gen.W12_of_ne m ρ c main_v3 (by decide)
    _ = Gen.W10 m ρ c (Proc.devRef .tc main_v3) := StableHlo.after_of_forall_not_mem (b := Proc.devRef .tc main_v3) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_v3) := Gen.W10_of_ne m ρ c main_v3 (by decide)
    _ = Gen.W8 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_v3) := Gen.W8_of_ne m ρ c main_v3 (by decide)
    _ = Gen.W6 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v12_7_1 : Gen.W7 (F := Ideal) m ρ c (Proc.devRef .tc main_v12) = Gen.W1 m ρ c (Proc.devRef .tc main_v12) :=
  calc Gen.W7 (F := Ideal) m ρ c (Proc.devRef .tc main_v12)
    _ = Gen.W6 m ρ c (Proc.devRef .tc main_v12) := StableHlo.after_of_forall_not_mem (b := Proc.devRef .tc main_v12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_v12) := Gen.W6_of_ne m ρ c main_v12 (by decide)
    _ = Gen.W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_v12) := Gen.W4_of_ne m ρ c main_v12 (by decide)
    _ = Gen.W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_v12) := (Gen.W2_arr m ρ c 2).trans (((Gen.dat0 (Gen.V1 m ρ) c).arrAt_in 2 rfl _).trans (Gen.A_eq0 (Gen.V1 m ρ) c 2))

theorem carry_v12_13_7 : Gen.W13 (F := Ideal) m ρ c (Proc.devRef .tc main_v12) = Gen.W7 m ρ c (Proc.devRef .tc main_v12) :=
  calc Gen.W13 (F := Ideal) m ρ c (Proc.devRef .tc main_v12)
    _ = Gen.W12 m ρ c (Proc.devRef .tc main_v12) := StableHlo.after_of_forall_not_mem (b := Proc.devRef .tc main_v12) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_v12) := Gen.W12_of_ne m ρ c main_v12 (by decide)
    _ = Gen.W10 m ρ c (Proc.devRef .tc main_v12) := StableHlo.after_of_forall_not_mem (b := Proc.devRef .tc main_v12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_v12) := Gen.W10_of_ne m ρ c main_v12 (by decide)
    _ = Gen.W8 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_v12) := (Gen.W8_arr m ρ c 2).trans (((Gen.dat3 (Gen.V7 m ρ) c).arrAt_in 2 rfl _).trans (Gen.A_eq3 (Gen.V7 m ρ) c 2))

theorem carry_arg0_1_0 : Gen.W1 (F := Ideal) m ρ c (Proc.devRef .tc main_arg0) = Gen.W0 m ρ c (Proc.devRef .tc main_arg0) :=
  calc Gen.W1 (F := Ideal) m ρ c (Proc.devRef .tc main_arg0)
    _ = Gen.W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v26_3_2 : Gen.W3 (F := Ideal) m ρ c (Proc.devRef .tc main_v26) = Gen.W2 m ρ c (Proc.devRef .tc main_v26) :=
  calc Gen.W3 (F := Ideal) m ρ c (Proc.devRef .tc main_v26)
    _ = Gen.W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v44_5_4 : Gen.W5 (F := Ideal) m ρ c (Proc.devRef .tc main_v44) = Gen.W4 m ρ c (Proc.devRef .tc main_v44) :=
  calc Gen.W5 (F := Ideal) m ρ c (Proc.devRef .tc main_v44)
    _ = Gen.W4 m ρ c (Proc.devRef .tc main_v44) := StableHlo.after_of_forall_not_mem (b := Proc.devRef .tc main_v44) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v47_1_7_6 : Gen.W7 (F := Ideal) m ρ c (Proc.devRef .tc main_v47_1) = Gen.W6 m ρ c (Proc.devRef .tc main_v47_1) :=
  calc Gen.W7 (F := Ideal) m ρ c (Proc.devRef .tc main_v47_1)
    _ = Gen.W6 m ρ c (Proc.devRef .tc main_v47_1) := StableHlo.after_of_forall_not_mem (b := Proc.devRef .tc main_v47_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v59_9_8 : Gen.W9 (F := Ideal) m ρ c (Proc.devRef .tc main_v59) = Gen.W8 m ρ c (Proc.devRef .tc main_v59) :=
  calc Gen.W9 (F := Ideal) m ρ c (Proc.devRef .tc main_v59)
    _ = Gen.W8 m ρ c (Proc.devRef .tc main_v59) := StableHlo.after_of_forall_not_mem (b := Proc.devRef .tc main_v59) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v77_11_10 : Gen.W11 (F := Ideal) m ρ c (Proc.devRef .tc main_v77) = Gen.W10 m ρ c (Proc.devRef .tc main_v77) :=
  calc Gen.W11 (F := Ideal) m ρ c (Proc.devRef .tc main_v77)
    _ = Gen.W10 m ρ c (Proc.devRef .tc main_v77) := StableHlo.after_of_forall_not_mem (b := Proc.devRef .tc main_v77) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v80_1_13_12 : Gen.W13 (F := Ideal) m ρ c (Proc.devRef .tc main_v80_1) = Gen.W12 m ρ c (Proc.devRef .tc main_v80_1) :=
  calc Gen.W13 (F := Ideal) m ρ c (Proc.devRef .tc main_v80_1)
    _ = Gen.W12 m ρ c (Proc.devRef .tc main_v80_1) := StableHlo.after_of_forall_not_mem (b := Proc.devRef .tc main_v80_1) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_v92_15_14 : Gen.W15 (F := Ideal) m ρ c (Proc.devRef .tc main_v92) = Gen.W14 m ρ c (Proc.devRef .tc main_v92) :=
  calc Gen.W15 (F := Ideal) m ρ c (Proc.devRef .tc main_v92)
    _ = Gen.W14 m ρ c (Proc.devRef .tc main_v92) := StableHlo.after_of_forall_not_mem (b := Proc.devRef .tc main_v92) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg6_2_0 : Gen.W2 (F := Ideal) m ρ c (Proc.devRef .tc main_arg6) = Gen.W0 m ρ c (Proc.devRef .tc main_arg6) :=
  calc Gen.W2 (F := Ideal) m ρ c (Proc.devRef .tc main_arg6)
    _ = Gen.W1 m ρ c (Proc.devRef .tc main_arg6) := Gen.W2_of_ne m ρ c main_arg6 (by decide)
    _ = Gen.W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg7_2_0 : Gen.W2 (F := Ideal) m ρ c (Proc.devRef .tc main_arg7) = Gen.W0 m ρ c (Proc.devRef .tc main_arg7) :=
  calc Gen.W2 (F := Ideal) m ρ c (Proc.devRef .tc main_arg7)
    _ = Gen.W1 m ρ c (Proc.devRef .tc main_arg7) := Gen.W2_of_ne m ρ c main_arg7 (by decide)
    _ = Gen.W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg8_4_0 : Gen.W4 (F := Ideal) m ρ c (Proc.devRef .tc main_arg8) = Gen.W0 m ρ c (Proc.devRef .tc main_arg8) :=
  calc Gen.W4 (F := Ideal) m ρ c (Proc.devRef .tc main_arg8)
    _ = Gen.W3 m ρ c (Proc.devRef .tc main_arg8) := Gen.W4_of_ne m ρ c main_arg8 (by decide)
    _ = Gen.W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg8) := Gen.W2_of_ne m ρ c main_arg8 (by decide)
    _ = Gen.W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg9_4_0 : Gen.W4 (F := Ideal) m ρ c (Proc.devRef .tc main_arg9) = Gen.W0 m ρ c (Proc.devRef .tc main_arg9) :=
  calc Gen.W4 (F := Ideal) m ρ c (Proc.devRef .tc main_arg9)
    _ = Gen.W3 m ρ c (Proc.devRef .tc main_arg9) := Gen.W4_of_ne m ρ c main_arg9 (by decide)
    _ = Gen.W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg9) := Gen.W2_of_ne m ρ c main_arg9 (by decide)
    _ = Gen.W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg10_6_0 : Gen.W6 (F := Ideal) m ρ c (Proc.devRef .tc main_arg10) = Gen.W0 m ρ c (Proc.devRef .tc main_arg10) :=
  calc Gen.W6 (F := Ideal) m ρ c (Proc.devRef .tc main_arg10)
    _ = Gen.W5 m ρ c (Proc.devRef .tc main_arg10) := Gen.W6_of_ne m ρ c main_arg10 (by decide)
    _ = Gen.W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg10) := Gen.W4_of_ne m ρ c main_arg10 (by decide)
    _ = Gen.W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg10) := Gen.W2_of_ne m ρ c main_arg10 (by decide)
    _ = Gen.W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Val

end
-- ==== Proof.KCarryB.lean ====
/-
  Buffers that a stage of the kernel program does not write keep their contents across it (see KCarryA): the
  arguments of the second and third layers, read back to the launch contents.
-/
import proofs.«180069_j11596411699546_2_alg».proof.Proof.Gen.KernelIdeal.Frame
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem carry_arg11_8_0 : Gen.W8 (F := Ideal) m ρ c (Proc.devRef .tc main_arg11) = Gen.W0 m ρ c (Proc.devRef .tc main_arg11) :=
  calc Gen.W8 (F := Ideal) m ρ c (Proc.devRef .tc main_arg11)
    _ = Gen.W7 m ρ c (Proc.devRef .tc main_arg11) := Gen.W8_of_ne m ρ c main_arg11 (by decide)
    _ = Gen.W6 m ρ c (Proc.devRef .tc main_arg11) := StableHlo.after_of_forall_not_mem (b := Proc.devRef .tc main_arg11) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg11) := Gen.W6_of_ne m ρ c main_arg11 (by decide)
    _ = Gen.W4 m ρ c (Proc.devRef .tc main_arg11) := StableHlo.after_of_forall_not_mem (b := Proc.devRef .tc main_arg11) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg11) := Gen.W4_of_ne m ρ c main_arg11 (by decide)
    _ = Gen.W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg11) := Gen.W2_of_ne m ρ c main_arg11 (by decide)
    _ = Gen.W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg12_8_0 : Gen.W8 (F := Ideal) m ρ c (Proc.devRef .tc main_arg12) = Gen.W0 m ρ c (Proc.devRef .tc main_arg12) :=
  calc Gen.W8 (F := Ideal) m ρ c (Proc.devRef .tc main_arg12)
    _ = Gen.W7 m ρ c (Proc.devRef .tc main_arg12) := Gen.W8_of_ne m ρ c main_arg12 (by decide)
    _ = Gen.W6 m ρ c (Proc.devRef .tc main_arg12) := StableHlo.after_of_forall_not_mem (b := Proc.devRef .tc main_arg12) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg12) := Gen.W6_of_ne m ρ c main_arg12 (by decide)
    _ = Gen.W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg12) := Gen.W4_of_ne m ρ c main_arg12 (by decide)
    _ = Gen.W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg12) := Gen.W2_of_ne m ρ c main_arg12 (by decide)
    _ = Gen.W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg13_10_0 : Gen.W10 (F := Ideal) m ρ c (Proc.devRef .tc main_arg13) = Gen.W0 m ρ c (Proc.devRef .tc main_arg13) :=
  calc Gen.W10 (F := Ideal) m ρ c (Proc.devRef .tc main_arg13)
    _ = Gen.W9 m ρ c (Proc.devRef .tc main_arg13) := Gen.W10_of_ne m ρ c main_arg13 (by decide)
    _ = Gen.W8 m ρ c (Proc.devRef .tc main_arg13) := StableHlo.after_of_forall_not_mem (b := Proc.devRef .tc main_arg13) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg13) := Gen.W8_of_ne m ρ c main_arg13 (by decide)
    _ = Gen.W6 m ρ c (Proc.devRef .tc main_arg13) := StableHlo.after_of_forall_not_mem (b := Proc.devRef .tc main_arg13) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg13) := Gen.W6_of_ne m ρ c main_arg13 (by decide)
    _ = Gen.W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg13) := Gen.W4_of_ne m ρ c main_arg13 (by decide)
    _ = Gen.W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg13) := Gen.W2_of_ne m ρ c main_arg13 (by decide)
    _ = Gen.W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg14_10_0 : Gen.W10 (F := Ideal) m ρ c (Proc.devRef .tc main_arg14) = Gen.W0 m ρ c (Proc.devRef .tc main_arg14) :=
  calc Gen.W10 (F := Ideal) m ρ c (Proc.devRef .tc main_arg14)
    _ = Gen.W9 m ρ c (Proc.devRef .tc main_arg14) := Gen.W10_of_ne m ρ c main_arg14 (by decide)
    _ = Gen.W8 m ρ c (Proc.devRef .tc main_arg14) := StableHlo.after_of_forall_not_mem (b := Proc.devRef .tc main_arg14) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg14) := Gen.W8_of_ne m ρ c main_arg14 (by decide)
    _ = Gen.W6 m ρ c (Proc.devRef .tc main_arg14) := StableHlo.after_of_forall_not_mem (b := Proc.devRef .tc main_arg14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg14) := Gen.W6_of_ne m ρ c main_arg14 (by decide)
    _ = Gen.W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg14) := Gen.W4_of_ne m ρ c main_arg14 (by decide)
    _ = Gen.W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg14) := Gen.W2_of_ne m ρ c main_arg14 (by decide)
    _ = Gen.W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg15_12_0 : Gen.W12 (F := Ideal) m ρ c (Proc.devRef .tc main_arg15) = Gen.W0 m ρ c (Proc.devRef .tc main_arg15) :=
  calc Gen.W12 (F := Ideal) m ρ c (Proc.devRef .tc main_arg15)
    _ = Gen.W11 m ρ c (Proc.devRef .tc main_arg15) := Gen.W12_of_ne m ρ c main_arg15 (by decide)
    _ = Gen.W10 m ρ c (Proc.devRef .tc main_arg15) := StableHlo.after_of_forall_not_mem (b := Proc.devRef .tc main_arg15) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg15) := Gen.W10_of_ne m ρ c main_arg15 (by decide)
    _ = Gen.W8 m ρ c (Proc.devRef .tc main_arg15) := StableHlo.after_of_forall_not_mem (b := Proc.devRef .tc main_arg15) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg15) := Gen.W8_of_ne m ρ c main_arg15 (by decide)
    _ = Gen.W6 m ρ c (Proc.devRef .tc main_arg15) := StableHlo.after_of_forall_not_mem (b := Proc.devRef .tc main_arg15) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg15) := Gen.W6_of_ne m ρ c main_arg15 (by decide)
    _ = Gen.W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg15) := Gen.W4_of_ne m ρ c main_arg15 (by decide)
    _ = Gen.W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg15) := Gen.W2_of_ne m ρ c main_arg15 (by decide)
    _ = Gen.W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg16_14_0 : Gen.W14 (F := Ideal) m ρ c (Proc.devRef .tc main_arg16) = Gen.W0 m ρ c (Proc.devRef .tc main_arg16) :=
  calc Gen.W14 (F := Ideal) m ρ c (Proc.devRef .tc main_arg16)
    _ = Gen.W13 m ρ c (Proc.devRef .tc main_arg16) := Gen.W14_of_ne m ρ c main_arg16 (by decide)
    _ = Gen.W12 m ρ c (Proc.devRef .tc main_arg16) := StableHlo.after_of_forall_not_mem (b := Proc.devRef .tc main_arg16) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg16) := Gen.W12_of_ne m ρ c main_arg16 (by decide)
    _ = Gen.W10 m ρ c (Proc.devRef .tc main_arg16) := StableHlo.after_of_forall_not_mem (b := Proc.devRef .tc main_arg16) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg16) := Gen.W10_of_ne m ρ c main_arg16 (by decide)
    _ = Gen.W8 m ρ c (Proc.devRef .tc main_arg16) := StableHlo.after_of_forall_not_mem (b := Proc.devRef .tc main_arg16) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg16) := Gen.W8_of_ne m ρ c main_arg16 (by decide)
    _ = Gen.W6 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg16) := Gen.W6_of_ne m ρ c main_arg16 (by decide)
    _ = Gen.W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg16) := Gen.W4_of_ne m ρ c main_arg16 (by decide)
    _ = Gen.W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg16) := Gen.W2_of_ne m ρ c main_arg16 (by decide)
    _ = Gen.W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg17_14_0 : Gen.W14 (F := Ideal) m ρ c (Proc.devRef .tc main_arg17) = Gen.W0 m ρ c (Proc.devRef .tc main_arg17) :=
  calc Gen.W14 (F := Ideal) m ρ c (Proc.devRef .tc main_arg17)
    _ = Gen.W13 m ρ c (Proc.devRef .tc main_arg17) := Gen.W14_of_ne m ρ c main_arg17 (by decide)
    _ = Gen.W12 m ρ c (Proc.devRef .tc main_arg17) := StableHlo.after_of_forall_not_mem (b := Proc.devRef .tc main_arg17) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg17) := Gen.W12_of_ne m ρ c main_arg17 (by decide)
    _ = Gen.W10 m ρ c (Proc.devRef .tc main_arg17) := StableHlo.after_of_forall_not_mem (b := Proc.devRef .tc main_arg17) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg17) := Gen.W10_of_ne m ρ c main_arg17 (by decide)
    _ = Gen.W8 m ρ c (Proc.devRef .tc main_arg17) := StableHlo.after_of_forall_not_mem (b := Proc.devRef .tc main_arg17) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg17) := Gen.W8_of_ne m ρ c main_arg17 (by decide)
    _ = Gen.W6 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg17) := Gen.W6_of_ne m ρ c main_arg17 (by decide)
    _ = Gen.W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg17) := Gen.W4_of_ne m ρ c main_arg17 (by decide)
    _ = Gen.W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg17) := Gen.W2_of_ne m ρ c main_arg17 (by decide)
    _ = Gen.W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Val

end
-- ==== Proof.KCarryC.lean ====
/-
  Buffers that a stage of the kernel program does not write keep their contents across it (see KCarryA): the
  graph assignment and the head's weights and biases, read back to the launch contents.
-/
import proofs.«180069_j11596411699546_2_alg».proof.Proof.Gen.KernelIdeal.Frame
import Idealize.ShloMosaic.PureOps.Ideal

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

theorem carry_arg2_16_0 : Gen.W16 (F := Ideal) m ρ c (Proc.devRef .tc main_arg2) = Gen.W0 m ρ c (Proc.devRef .tc main_arg2) :=
  calc Gen.W16 (F := Ideal) m ρ c (Proc.devRef .tc main_arg2)
    _ = Gen.W15 m ρ c (Proc.devRef .tc main_arg2) := Gen.W16_of_ne m ρ c main_arg2 (by decide)
    _ = Gen.W14 m ρ c (Proc.devRef .tc main_arg2) := StableHlo.after_of_forall_not_mem (b := Proc.devRef .tc main_arg2) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg2) := Gen.W14_of_ne m ρ c main_arg2 (by decide)
    _ = Gen.W12 m ρ c (Proc.devRef .tc main_arg2) := StableHlo.after_of_forall_not_mem (b := Proc.devRef .tc main_arg2) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg2) := Gen.W12_of_ne m ρ c main_arg2 (by decide)
    _ = Gen.W10 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg2) := Gen.W10_of_ne m ρ c main_arg2 (by decide)
    _ = Gen.W8 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg2) := Gen.W8_of_ne m ρ c main_arg2 (by decide)
    _ = Gen.W6 m ρ c (Proc.devRef .tc main_arg2) := StableHlo.after_of_forall_not_mem (b := Proc.devRef .tc main_arg2) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg2) := Gen.W6_of_ne m ρ c main_arg2 (by decide)
    _ = Gen.W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg2) := Gen.W4_of_ne m ρ c main_arg2 (by decide)
    _ = Gen.W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg2) := Gen.W2_of_ne m ρ c main_arg2 (by decide)
    _ = Gen.W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg18_17_0 : Gen.W17 (F := Ideal) m ρ c (Proc.devRef .tc main_arg18) = Gen.W0 m ρ c (Proc.devRef .tc main_arg18) :=
  calc Gen.W17 (F := Ideal) m ρ c (Proc.devRef .tc main_arg18)
    _ = Gen.W16 m ρ c (Proc.devRef .tc main_arg18) := StableHlo.after_of_forall_not_mem (b := Proc.devRef .tc main_arg18) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W15 m ρ c (Proc.devRef .tc main_arg18) := Gen.W16_of_ne m ρ c main_arg18 (by decide)
    _ = Gen.W14 m ρ c (Proc.devRef .tc main_arg18) := StableHlo.after_of_forall_not_mem (b := Proc.devRef .tc main_arg18) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg18) := Gen.W14_of_ne m ρ c main_arg18 (by decide)
    _ = Gen.W12 m ρ c (Proc.devRef .tc main_arg18) := StableHlo.after_of_forall_not_mem (b := Proc.devRef .tc main_arg18) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg18) := Gen.W12_of_ne m ρ c main_arg18 (by decide)
    _ = Gen.W10 m ρ c (Proc.devRef .tc main_arg18) := StableHlo.after_of_forall_not_mem (b := Proc.devRef .tc main_arg18) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg18) := Gen.W10_of_ne m ρ c main_arg18 (by decide)
    _ = Gen.W8 m ρ c (Proc.devRef .tc main_arg18) := StableHlo.after_of_forall_not_mem (b := Proc.devRef .tc main_arg18) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg18) := Gen.W8_of_ne m ρ c main_arg18 (by decide)
    _ = Gen.W6 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg18) := Gen.W6_of_ne m ρ c main_arg18 (by decide)
    _ = Gen.W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg18) := Gen.W4_of_ne m ρ c main_arg18 (by decide)
    _ = Gen.W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg18) := Gen.W2_of_ne m ρ c main_arg18 (by decide)
    _ = Gen.W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg19_16_0 : Gen.W16 (F := Ideal) m ρ c (Proc.devRef .tc main_arg19) = Gen.W0 m ρ c (Proc.devRef .tc main_arg19) :=
  calc Gen.W16 (F := Ideal) m ρ c (Proc.devRef .tc main_arg19)
    _ = Gen.W15 m ρ c (Proc.devRef .tc main_arg19) := Gen.W16_of_ne m ρ c main_arg19 (by decide)
    _ = Gen.W14 m ρ c (Proc.devRef .tc main_arg19) := StableHlo.after_of_forall_not_mem (b := Proc.devRef .tc main_arg19) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg19) := Gen.W14_of_ne m ρ c main_arg19 (by decide)
    _ = Gen.W12 m ρ c (Proc.devRef .tc main_arg19) := StableHlo.after_of_forall_not_mem (b := Proc.devRef .tc main_arg19) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg19) := Gen.W12_of_ne m ρ c main_arg19 (by decide)
    _ = Gen.W10 m ρ c (Proc.devRef .tc main_arg19) := StableHlo.after_of_forall_not_mem (b := Proc.devRef .tc main_arg19) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg19) := Gen.W10_of_ne m ρ c main_arg19 (by decide)
    _ = Gen.W8 m ρ c (Proc.devRef .tc main_arg19) := StableHlo.after_of_forall_not_mem (b := Proc.devRef .tc main_arg19) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg19) := Gen.W8_of_ne m ρ c main_arg19 (by decide)
    _ = Gen.W6 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg19) := Gen.W6_of_ne m ρ c main_arg19 (by decide)
    _ = Gen.W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg19) := Gen.W4_of_ne m ρ c main_arg19 (by decide)
    _ = Gen.W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg19) := Gen.W2_of_ne m ρ c main_arg19 (by decide)
    _ = Gen.W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg20_17_0 : Gen.W17 (F := Ideal) m ρ c (Proc.devRef .tc main_arg20) = Gen.W0 m ρ c (Proc.devRef .tc main_arg20) :=
  calc Gen.W17 (F := Ideal) m ρ c (Proc.devRef .tc main_arg20)
    _ = Gen.W16 m ρ c (Proc.devRef .tc main_arg20) := StableHlo.after_of_forall_not_mem (b := Proc.devRef .tc main_arg20) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W15 m ρ c (Proc.devRef .tc main_arg20) := Gen.W16_of_ne m ρ c main_arg20 (by decide)
    _ = Gen.W14 m ρ c (Proc.devRef .tc main_arg20) := StableHlo.after_of_forall_not_mem (b := Proc.devRef .tc main_arg20) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg20) := Gen.W14_of_ne m ρ c main_arg20 (by decide)
    _ = Gen.W12 m ρ c (Proc.devRef .tc main_arg20) := StableHlo.after_of_forall_not_mem (b := Proc.devRef .tc main_arg20) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg20) := Gen.W12_of_ne m ρ c main_arg20 (by decide)
    _ = Gen.W10 m ρ c (Proc.devRef .tc main_arg20) := StableHlo.after_of_forall_not_mem (b := Proc.devRef .tc main_arg20) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg20) := Gen.W10_of_ne m ρ c main_arg20 (by decide)
    _ = Gen.W8 m ρ c (Proc.devRef .tc main_arg20) := StableHlo.after_of_forall_not_mem (b := Proc.devRef .tc main_arg20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg20) := Gen.W8_of_ne m ρ c main_arg20 (by decide)
    _ = Gen.W6 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg20) := Gen.W6_of_ne m ρ c main_arg20 (by decide)
    _ = Gen.W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg20) := Gen.W4_of_ne m ρ c main_arg20 (by decide)
    _ = Gen.W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg20) := Gen.W2_of_ne m ρ c main_arg20 (by decide)
    _ = Gen.W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg21_16_0 : Gen.W16 (F := Ideal) m ρ c (Proc.devRef .tc main_arg21) = Gen.W0 m ρ c (Proc.devRef .tc main_arg21) :=
  calc Gen.W16 (F := Ideal) m ρ c (Proc.devRef .tc main_arg21)
    _ = Gen.W15 m ρ c (Proc.devRef .tc main_arg21) := Gen.W16_of_ne m ρ c main_arg21 (by decide)
    _ = Gen.W14 m ρ c (Proc.devRef .tc main_arg21) := StableHlo.after_of_forall_not_mem (b := Proc.devRef .tc main_arg21) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg21) := Gen.W14_of_ne m ρ c main_arg21 (by decide)
    _ = Gen.W12 m ρ c (Proc.devRef .tc main_arg21) := StableHlo.after_of_forall_not_mem (b := Proc.devRef .tc main_arg21) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg21) := Gen.W12_of_ne m ρ c main_arg21 (by decide)
    _ = Gen.W10 m ρ c (Proc.devRef .tc main_arg21) := StableHlo.after_of_forall_not_mem (b := Proc.devRef .tc main_arg21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg21) := Gen.W10_of_ne m ρ c main_arg21 (by decide)
    _ = Gen.W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg21) := Gen.W8_of_ne m ρ c main_arg21 (by decide)
    _ = Gen.W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg21) := Gen.W6_of_ne m ρ c main_arg21 (by decide)
    _ = Gen.W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg21) := Gen.W4_of_ne m ρ c main_arg21 (by decide)
    _ = Gen.W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg21) := Gen.W2_of_ne m ρ c main_arg21 (by decide)
    _ = Gen.W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg22_17_0 : Gen.W17 (F := Ideal) m ρ c (Proc.devRef .tc main_arg22) = Gen.W0 m ρ c (Proc.devRef .tc main_arg22) :=
  calc Gen.W17 (F := Ideal) m ρ c (Proc.devRef .tc main_arg22)
    _ = Gen.W16 m ρ c (Proc.devRef .tc main_arg22) := StableHlo.after_of_forall_not_mem (b := Proc.devRef .tc main_arg22) _ _ (List.forall_iff_forall_mem.mp (by
          simp only [hostOps8, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W15 m ρ c (Proc.devRef .tc main_arg22) := Gen.W16_of_ne m ρ c main_arg22 (by decide)
    _ = Gen.W14 m ρ c (Proc.devRef .tc main_arg22) := StableHlo.after_of_forall_not_mem (b := Proc.devRef .tc main_arg22) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg22) := Gen.W14_of_ne m ρ c main_arg22 (by decide)
    _ = Gen.W12 m ρ c (Proc.devRef .tc main_arg22) := StableHlo.after_of_forall_not_mem (b := Proc.devRef .tc main_arg22) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg22) := Gen.W12_of_ne m ρ c main_arg22 (by decide)
    _ = Gen.W10 m ρ c (Proc.devRef .tc main_arg22) := StableHlo.after_of_forall_not_mem (b := Proc.devRef .tc main_arg22) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg22) := Gen.W10_of_ne m ρ c main_arg22 (by decide)
    _ = Gen.W8 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg22) := Gen.W8_of_ne m ρ c main_arg22 (by decide)
    _ = Gen.W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg22) := Gen.W6_of_ne m ρ c main_arg22 (by decide)
    _ = Gen.W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg22) := Gen.W4_of_ne m ρ c main_arg22 (by decide)
    _ = Gen.W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg22) := Gen.W2_of_ne m ρ c main_arg22 (by decide)
    _ = Gen.W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem carry_arg23_16_0 : Gen.W16 (F := Ideal) m ρ c (Proc.devRef .tc main_arg23) = Gen.W0 m ρ c (Proc.devRef .tc main_arg23) :=
  calc Gen.W16 (F := Ideal) m ρ c (Proc.devRef .tc main_arg23)
    _ = Gen.W15 m ρ c (Proc.devRef .tc main_arg23) := Gen.W16_of_ne m ρ c main_arg23 (by decide)
    _ = Gen.W14 m ρ c (Proc.devRef .tc main_arg23) := StableHlo.after_of_forall_not_mem (b := Proc.devRef .tc main_arg23) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W13 m ρ c (Proc.devRef .tc main_arg23) := Gen.W14_of_ne m ρ c main_arg23 (by decide)
    _ = Gen.W12 m ρ c (Proc.devRef .tc main_arg23) := StableHlo.after_of_forall_not_mem (b := Proc.devRef .tc main_arg23) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W11 m ρ c (Proc.devRef .tc main_arg23) := Gen.W12_of_ne m ρ c main_arg23 (by decide)
    _ = Gen.W10 m ρ c (Proc.devRef .tc main_arg23) := StableHlo.after_of_forall_not_mem (b := Proc.devRef .tc main_arg23) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W9 m ρ c (Proc.devRef .tc main_arg23) := Gen.W10_of_ne m ρ c main_arg23 (by decide)
    _ = Gen.W8 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W7 m ρ c (Proc.devRef .tc main_arg23) := Gen.W8_of_ne m ρ c main_arg23 (by decide)
    _ = Gen.W6 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W5 m ρ c (Proc.devRef .tc main_arg23) := Gen.W6_of_ne m ρ c main_arg23 (by decide)
    _ = Gen.W4 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W3 m ρ c (Proc.devRef .tc main_arg23) := Gen.W4_of_ne m ρ c main_arg23 (by decide)
    _ = Gen.W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = Gen.W1 m ρ c (Proc.devRef .tc main_arg23) := Gen.W2_of_ne m ρ c main_arg23 (by decide)
    _ = Gen.W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Val

end
-- ==== Proof.LibRows.lean ====
/-
  Row blocks of a two-axis array at the ideal values.

  A kernel that walks an `N × C` array in blocks of `B` rows computes, at each block, the same
  function of the block's rows that a whole-array program computes of all rows at once, provided
  every operation is local to a row: a matrix product against a fixed right factor, the addition
  of a bias row, a pointwise operation.  This module states that locality once:

  * `rows off h A` is the block of `B` rows of `A` starting at row `off`;
  * `PlainSum d`: the contraction of the dot `d` is the plain matrix product
    `∑ j, f (p, j) · g (j, c)`;
  * `rows_dot`: the rows of a whole-array product are the product of the rows;
  * `rows_bias`: the rows of a bias row broadcast down the array are the bias row broadcast down
    the block;
  * `rows_silu`: `x · (1 / (1 + e^(-x)))` spelt with divide, add, exponential and negate is
    `x · logistic x`, pointwise, hence also on rows;
  * `dot_assoc`: over finite entries `(A · U) · V = A · (U · V)`.
-/
import Idealize.ShloMosaic.Lib.ValueIdx
import Idealize.ShloMosaic.Lib.Pipeline.Value
import Idealize.ShloMosaic.PureOps.Ideal.Laws

noncomputable section

namespace RowBlocks

open Idealize.ShloMosaic Idealize.ShloMosaic.ValueIdx

/-- Rows `off … off + B - 1` of an `N × C` array, as a `B × C` array. -/
def rows {α : Type} {N B C : ℕ} (off : ℕ) (h : off + B ≤ N) (A : (⟨2, ![N, C]⟩ : Shape).Idx → α) :
    (⟨2, ![B, C]⟩ : Shape).Idx → α :=
  fun y => A (ix2 (n0 := N) (n1 := C) ⟨off + (y 0).val, by have := idx2_lt0 y; omega⟩ (y 1))

theorem rows_apply {α : Type} {N B C : ℕ} (off : ℕ) (h : off + B ≤ N) (A : (⟨2, ![N, C]⟩ : Shape).Idx → α)
    (p : Fin B) (q : Fin C) :
    rows off h A (ix2 p q) = A (ix2 ⟨off + p.val, by have := p.isLt; omega⟩ q) := rfl

/-- The contraction of `d`, a dot of an `m × k` by a `k × n` array, is the plain matrix product. -/
def PlainSum {m k n : ℕ} (d : DotDims ⟨2, ![m, k]⟩ ⟨2, ![k, n]⟩ ⟨2, ![m, n]⟩) : Prop :=
  ∀ (f : (⟨2, ![m, k]⟩ : Shape).Idx → EReal) (g : (⟨2, ![k, n]⟩ : Shape).Idx → EReal) (p : Fin m) (c : Fin n),
    (∑ q : d.contr.Idx, f (d.lhsIdx (ix2 p c) q) * g (d.rhsIdx (ix2 p c) q)) = ∑ j : Fin k, f (ix2 p j) * g (ix2 j c)

/-- A dot with one contracted axis, the left factor's second against the right factor's first, and no
    batch axis, is a plain matrix product: its operand indices at output `(p, c)` and contraction
    index `j` are `(p, j)` and `(j, c)`. -/
theorem plainSum_of {m k n : ℕ} (d : DotDims ⟨2, ![m, k]⟩ ⟨2, ![k, n]⟩ ⟨2, ![m, n]⟩) (hr : d.contr.rank = 1)
    (hs : d.contr.size ⟨0, by omega⟩ = k)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val) :
    PlainSum d := by
  intro f g p c
  rw [← Equiv.sum_comp (contrEquiv1 d k hr hs).symm]
  refine Finset.sum_congr rfl fun j _ => ?_
  have hj := contrEquiv1_symm_val d k hr hs j
  have el : d.lhsIdx (ix2 p c) ((contrEquiv1 d k hr hs).symm j) = ix2 p j := funext fun a => Fin.ext (by
    match a with
    | ⟨0, _⟩ => exact hl0 _ _
    | ⟨1, _⟩ => exact (hl1 _ _).trans hj)
  have er : d.rhsIdx (ix2 p c) ((contrEquiv1 d k hr hs).symm j) = ix2 j c := funext fun a => Fin.ext (by
    match a with
    | ⟨0, _⟩ => exact (hr0 _ _).trans hj
    | ⟨1, _⟩ => exact hr1 _ _)
  rw [el, er]

/-- The host's product read at an index. -/
theorem dotGeneral_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    Host.dotGeneral d prec A W (ix2 p c) = ∑ j : Fin k, A (ix2 p j) * W (ix2 j c) := by
  simp only [Host.dotGeneral]
  rw [Ideal.dotGeneral_apply]
  exact hd A W p c

/-- The matrix unit's product into a zero accumulator read at an index. -/
theorem matmul_zero_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    matmul d prec A W (constant ⟨2, ![m, n]⟩ .f32 0x00000000#32) (ix2 p c) = ∑ j : Fin k, A (ix2 p j) * W (ix2 j c) := by
  simp only [matmul]
  rw [Ideal.matmul_constant_zero_apply]
  exact hd A W p c

/-- THE ROWS OF A PRODUCT are the product of the rows: the whole-array product of `A` by `W`, read on a
    block of rows, is the matrix unit's product of that block of `A` by `W` (both operands passed
    through a change of float format, which is the identity at the ideal values). -/
theorem rows_dot {N B K M : ℕ} (dB : DotDims ⟨2, ![N, K]⟩ ⟨2, ![K, M]⟩ ⟨2, ![N, M]⟩)
    (dS : DotDims ⟨2, ![B, K]⟩ ⟨2, ![K, M]⟩ ⟨2, ![B, M]⟩) (hB : PlainSum dB) (hS : PlainSum dS)
    (off : ℕ) (h : off + B ≤ N) (p p' : Option ContractPrecision)
    (A : FVec Ideal ⟨2, ![N, K]⟩ .f32) (W : FVec Ideal ⟨2, ![K, M]⟩ .f32)
    (h1 : FTy.bf16.bits < FTy.f32.bits) :
    rows off h (Host.dotGeneral dB p A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, dotGeneral_ix2 dB hB, matmul_zero_ix2 dS hS]
  rfl

/-- THE ROWS OF A BIAS: a bias row of 128 entries, made a `1 × 128` array and broadcast down the whole
    array, read on a block of rows, is the bias row broadcast down the block. -/
theorem rows_bias {α : Type} {N B : ℕ} (off : ℕ) (h : off + B ≤ N) (b : (⟨1, ![128]⟩ : Shape).Idx → α)
    (hb1 : (⟨1, ![128]⟩ : Shape).BroadcastsInDim ⟨2, ![1, 128]⟩ ![1])
    (hb2 : (⟨2, ![1, 128]⟩ : Shape).BroadcastsInDim ⟨2, ![N, 128]⟩ ![0, 1])
    (hsc : (⟨1, ![128]⟩ : Shape).ShapeCasts ⟨2, ![1, 128]⟩)
    (hbt : (⟨2, ![1, 128]⟩ : Shape).Broadcasts ⟨2, ![B, 128]⟩) :
    rows off h (broadcastInDim ⟨2, ![N, 128]⟩ ![0, 1] hb2 (broadcastInDim ⟨2, ![1, 128]⟩ ![1] hb1 b))
      = broadcastTo ⟨2, ![B, 128]⟩ (shapeCast ⟨2, ![1, 128]⟩ b hsc) hbt := by
  funext y
  obtain ⟨r, c, rfl⟩ : ∃ (r : Fin B) (c : Fin 128), y = ix2 r c := ⟨y 0, y 1, eq_ix2 y⟩
  rw [rows_apply]
  rw [broadcastInDim_apply _ hb2 _ _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [broadcastInDim_apply _ hb1 _ _ (ix1 c) (fun a => match a with
    | ⟨0, _⟩ => by show c.val = if (128 : Nat) = 1 then 0 else c.val; rw [if_neg (by decide)])]
  rw [broadcastTo_apply _ hbt _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [shapeCast_addUnit_apply ![128] b hsc]
  exact congrArg b (funext fun a => match a with | ⟨0, _⟩ => rfl)

/-- The bit pattern of `1.0` denotes `1`. -/
theorem ofBits_one : Ideal.ofBits .f32 0x3F800000#32 = 1 := by
  simp [Ideal.ofBits, Ideal.ieee, -EReal.coe_mul]; norm_num

/-- `x · (1 / (1 + e^(-x)))`, spelt with the host's divide, add, exponential and negate over splats of
    `1.0`, is `x · logistic x` pointwise. -/
theorem silu_eq {s : Shape} (X : FVec Ideal s .f32) (hb : (⟨0, ![]⟩ : Shape).BroadcastsInDim s ![]) :
    mulf X (Host.divf (broadcastInDim s ![] hb (constant ⟨0, ![]⟩ .f32 0x3F800000#32))
        (addf (broadcastInDim s ![] hb (constant ⟨0, ![]⟩ .f32 0x3F800000#32)) (Host.exp (Host.negf X))))
      = mulf X (logistic X) := by
  funext i
  show X i * Ideal.div (Ideal.ofBits .f32 0x3F800000#32) (Ideal.ofBits .f32 0x3F800000#32 + Ideal.exp (-(X i)))
    = X i * Ideal.logistic (X i)
  rw [ofBits_one]
  rfl

/-- Pointwise operations commute with taking rows (by definition). -/
theorem rows_mulf {N B C : ℕ} (off : ℕ) (h : off + B ≤ N) (X Y : FVec Ideal ⟨2, ![N, C]⟩ .f32) :
    rows off h (mulf X Y) = mulf (rows off h X) (rows off h Y) := rfl
theorem rows_addf {N B C : ℕ} (off : ℕ) (h : off + B ≤ N) (X Y : FVec Ideal ⟨2, ![N, C]⟩ .f32) :
    rows off h (addf X Y) = addf (rows off h X) (rows off h Y) := rfl
theorem rows_logistic {N B C : ℕ} (off : ℕ) (h : off + B ≤ N) (X : FVec Ideal ⟨2, ![N, C]⟩ .f32) :
    rows off h (logistic X) = logistic (rows off h X) := rfl

/-! ## The plain matrix product as a function, and its associativity over finite entries -/

/-- The plain matrix product `(A · W) (p, c) = ∑ j, A (p, j) · W (j, c)` on the extended reals. -/
def mm {m k n : ℕ} (A : (⟨2, ![m, k]⟩ : Shape).Idx → EReal) (W : (⟨2, ![k, n]⟩ : Shape).Idx → EReal) :
    (⟨2, ![m, n]⟩ : Shape).Idx → EReal :=
  fun i => ∑ j : Fin k, A (ix2 (i 0) j) * W (ix2 j (i 1))

/-- The host's product IS the plain matrix product. -/
theorem dot_eq_mm {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂) :
    Host.dotGeneral d prec A W = mm A W := by
  funext y
  obtain ⟨r, c, rfl⟩ : ∃ (r : Fin m) (c : Fin n), y = ix2 r c := ⟨y 0, y 1, eq_ix2 y⟩
  rw [dotGeneral_ix2 d hd]
  rfl

/-- The rows of a plain matrix product are the matrix unit's product of the rows. -/
theorem rows_mm {N B K M : ℕ} (dS : DotDims ⟨2, ![B, K]⟩ ⟨2, ![K, M]⟩ ⟨2, ![B, M]⟩) (hS : PlainSum dS)
    (off : ℕ) (h : off + B ≤ N) (p' : Option ContractPrecision)
    (A : FVec Ideal ⟨2, ![N, K]⟩ .f32) (W : FVec Ideal ⟨2, ![K, M]⟩ .f32)
    (h1 : FTy.bf16.bits < FTy.f32.bits) :
    rows off h (mm A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, matmul_zero_ix2 dS hS]
  rfl

/-- A finite sum of reals, coerced termwise. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over FINITE entries the plain matrix product is associative (on the extended reals it is not in general:
    distributing a product over a sum fails at the infinities). -/
theorem mm_assoc {m k l n : ℕ} (A : (⟨2, ![m, k]⟩ : Shape).Idx → EReal) (U : (⟨2, ![k, l]⟩ : Shape).Idx → EReal)
    (V : (⟨2, ![l, n]⟩ : Shape).Idx → EReal) (hA : ∀ i, ∃ r : ℝ, A i = (r : EReal)) (hU : ∀ i, ∃ r : ℝ, U i = (r : EReal))
    (hV : ∀ i, ∃ r : ℝ, V i = (r : EReal)) :
    mm (mm A U) V = mm A (mm U V) := by
  choose a ha using hA
  choose u hu using hU
  choose v hv using hV
  funext i
  show (∑ j : Fin l, (∑ q : Fin k, A (ix2 (i 0) q) * U (ix2 q j)) * V (ix2 j (i 1)))
    = ∑ q : Fin k, A (ix2 (i 0) q) * (∑ j : Fin l, U (ix2 q j) * V (ix2 j (i 1)))
  simp only [ha, hu, hv, ← EReal.coe_mul, coe_sum]
  refine congrArg _ ?_
  simp only [Finset.sum_mul, Finset.mul_sum]
  rw [Finset.sum_comm]
  exact Finset.sum_congr rfl fun q _ => Finset.sum_congr rfl fun j _ => mul_assoc _ _ _

end RowBlocks

end
-- ==== Proof.Spec.lean ====
/-
  The mathematics of the two programs, stated once over whole arrays of extended reals.

  A graph of `n` nodes and `E` edges is given by, for every node `i`, the finite set `inc i` of edges that
  arrive at `i`, and for every edge `e` the node `src e` it leaves.  Mean aggregation of a node feature
  matrix `H` adds, into row `i`, the rows `H (src e)` over `e ∈ inc i`, and divides by `max (deg i) 1`.
  One layer is: aggregate, two linear maps and a bias; then a normalisation of every column over the nodes to
  mean zero and variance one (with a small constant under the square root), an affine map, and a positive part.

  The two programs differ in the ORDER of these steps: one multiplies by the reciprocal of the degree after
  the linear map (or aggregates the already projected features), and folds the normalisation into one scale and
  one shift per column computed from the sum and the sum of squares; the other divides the aggregated features
  first and centres every entry before squaring.  Over finite entries these are the same numbers.
-/
import proofs.«180069_j11596411699546_2_alg».proof.Proof.LibRows

noncomputable section

namespace GraphSage

open Idealize.ShloMosaic Idealize.ShloMosaic.ValueIdx RowBlocks

/-- An `n × c` array of extended reals. -/
abbrev Mat (n c : ℕ) := (⟨2, ![n, c]⟩ : Shape).Idx → EReal
/-- A vector of `c` extended reals. -/
abbrev Vect (c : ℕ) := (⟨1, ![c]⟩ : Shape).Idx → EReal

/-- Every entry is a real number. -/
def IsReal {ι : Type} (A : ι → EReal) : Prop := ∀ i, ∃ r : ℝ, A i = (r : EReal)

section Graph
variable {n E : ℕ} (inc : Fin n → Finset (Fin E)) (src : Fin E → Fin n)

/-- Row `i` of the result is the sum of the rows `src e` of `H` over the edges `e` arriving at `i`. -/
def aggr {c : ℕ} (H : Mat n c) : Mat n c := fun i => ∑ e ∈ inc (i 0), H (ix2 (src e) (i 1))

/-- `max (deg i) 1`: the number of edges arriving at `i`, at least one. -/
def degMax (i : Fin n) : EReal := max (((inc i).card : ℝ) : EReal) 1

/-- The reciprocal of `max (deg i) 1`, as an `n × 1` column. -/
def invDeg : Mat n 1 := fun j => Ideal.div 1 (degMax inc (j 0))
end Graph

/-- The first layer's linear part as one program computes it: the aggregated features times `wl`, scaled
    row by row by `invd`, plus the features times `wr`, plus the bias row. -/
def linAgg {n k c : ℕ} (ag x : Mat n k) (invd : Mat n 1) (wl wr : Mat k c) (b : Mat 1 c) : Mat n c :=
  fun i => mm ag wl i * invd (ix2 (i 0) 0) + mm x wr i + b (ix2 0 (i 1))

/-- The later layers' linear part as that program computes it: the aggregated PROJECTED features scaled row
    by row, plus the second projection, plus the bias row. -/
def combine {n c : ℕ} (ag hwr : Mat n c) (invd : Mat n 1) (b : Mat 1 c) : Mat n c :=
  fun i => ag i * invd (ix2 (i 0) 0) + hwr i + b (ix2 0 (i 1))

/-- The linear part as the other program computes it: the MEAN-aggregated features times `wl`, plus the
    bias, plus the features times `wr`. -/
def linRef {n k c : ℕ} (meanAg x : Mat n k) (wl wr : Mat k c) (b : Vect c) : Mat n c :=
  fun i => mm meanAg wl i + b (ix1 (i 1)) + mm x wr i

/-- An affine map per column followed by the positive part. -/
def affRelu {n c : ℕ} (lin : Mat n c) (scale shift : Mat 1 c) : Mat n c :=
  fun i => max (lin i * scale (ix2 0 (i 1)) + shift (ix2 0 (i 1))) 0

/-- Column sums over the `n` rows, starting from zero. -/
def colSum {n c : ℕ} (L : Mat n c) : Vect c := fun j => 0 + ∑ i : Fin n, L (ix2 i (j 0))

/-- The scale of the folded normalisation: `g · rsqrt (E[x²] − E[x]² + ε)`. -/
def foldScale {n c : ℕ} (cnt eps : EReal) (L : Mat n c) (g : Vect c) : Vect c := fun j =>
  g j * Ideal.rsqrt (Ideal.div (colSum (fun i => L i * L i) j) cnt
      - Ideal.div (colSum L j) cnt * Ideal.div (colSum L j) cnt + eps)

/-- The shift of the folded normalisation: `β − E[x] · scale`. -/
def foldShift {n c : ℕ} (cnt eps : EReal) (L : Mat n c) (g be : Vect c) : Vect c := fun j =>
  be j - Ideal.div (colSum L j) cnt * foldScale cnt eps L g j

/-- The normalisation as the other program computes it, entry by entry:
    `max (g · (x − μ) · rsqrt (E[(x − μ)²] + ε) + β) 0`, the second mean taken over `cnt'`. -/
def normRelu {n c : ℕ} (cnt cnt' eps : EReal) (L : Mat n c) (g be : Vect c) : Mat n c := fun i =>
  max (g (ix1 (i 1)) * (L i - Ideal.div (colSum L (ix1 (i 1))) cnt)
        * Ideal.rsqrt (Ideal.div (colSum (fun a => (L a - Ideal.div (colSum L (ix1 (a 1))) cnt)
            * (L a - Ideal.div (colSum L (ix1 (a 1))) cnt)) (ix1 (i 1))) cnt' + eps)
      + be (ix1 (i 1))) 0

end GraphSage

end
-- ==== Proof.KStages.lean ====
/-
  What the short stretches of host operations of the kernel program leave: a weight matrix passed through a
  change of float format is the same array of extended reals; a bias vector made a one-row array reads, at
  (0, j), the vector at j; the per-graph mean of the node features is the segment sum over the graph
  assignment divided by the segment count, at least one.
-/
import proofs.«180069_j11596411699546_2_alg».proof.Proof.Gen.KernelIdeal.Frame
import Idealize.ShloMosaic.PureOps.Ideal
import Idealize.ShloMosaic.Lib.StableHlo.Run
import Idealize.ShloMosaic.Lib.ValueLayout
import proofs.«180069_j11596411699546_2_alg».proof.Proof.Spec

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen RowBlocks GraphSage
open Idealize.ShloMosaic.StableHlo

variable (m : (ℓ : Loc nD τ sig) → Buf (Elt Ideal) ℓ) (ρ : Dev nD → PrngReg) (c : Dev nD)

set_option maxHeartbeats 4000000

/-- The per-graph mean of node features `h` under the graph assignment `bt`: segment sums divided by segment
    counts, the counts at least one. -/
def kPool (bt : IVec S50000 32) (h : FVec Ideal S50000x64 .f32) : FVec Ideal S64x64 .f32 :=
  Host.divf
    (Host.scatterAdd scatter_S64x64_S50000x1_S50000x64_1_0_0_1
      (broadcastInDim S64x64 ![] bcast_S_S64x64 (constant S_ FTy.f32 0#32))
      (broadcastInDim S50000x1 ![0] bcast_S50000_S50000x1_0 bt) h)
    (broadcastInDim S64x64 ![0, 1] bcast_S64x1_S64x64_0_1
      (broadcastInDim S64x1 ![0] bcast_S64_S64x1_0
        (maximumf
          (Host.scatterAdd scatter_S64_S50000x1_S50000_n_0_0_1
            (broadcastInDim S64 ![] bcast_S_S64 (constant S_ FTy.f32 0#32))
            (broadcastInDim S50000x1 ![0] bcast_S50000_S50000x1_0 bt)
            (broadcastInDim S50000 ![] bcast_S_S50000 (constant S_ FTy.f32 1065353216#32)))
          (broadcastInDim S64 ![] bcast_S_S64 (constant S_ FTy.f32 1065353216#32)))))

theorem st1_v23 : Gen.W1 (F := Ideal) m ρ c (Proc.devRef .tc main_v23) = (Gen.W0 m ρ c (Proc.devRef .tc main_arg3) : FVec Ideal S128x256 .f32) := by
  show StableHlo.after hostOps0 (Gen.W0 m ρ c) _ = _
  after_results_simp
  rfl

theorem st1_v24 : Gen.W1 (F := Ideal) m ρ c (Proc.devRef .tc main_v24) = (Gen.W0 m ρ c (Proc.devRef .tc main_arg4) : FVec Ideal S128x256 .f32) := by
  show StableHlo.after hostOps0 (Gen.W0 m ρ c) _ = _
  after_results_simp
  rfl

theorem st1_v25 : Gen.W1 (F := Ideal) m ρ c (Proc.devRef .tc main_v25) = ((fun j => (Gen.W0 m ρ c (Proc.devRef .tc main_arg5) : Vect 256) (ix1 (j 1))) : Mat 1 256) := by
  show StableHlo.after hostOps0 (Gen.W0 m ρ c) _ = _
  after_results_simp
  funext j
  obtain ⟨u, i, rfl⟩ : ∃ (u : Fin 1) (i : Fin _), j = ix2 u i := ⟨j 0, j 1, eq_ix2 j⟩
  exact shapeCast_a_1a_apply _ _ u i

theorem st5_v45 : Gen.W5 (F := Ideal) m ρ c (Proc.devRef .tc main_v45) = (Gen.W4 m ρ c (Proc.devRef .tc main_arg8) : FVec Ideal S256x128 .f32) := by
  show StableHlo.after hostOps2 (Gen.W4 m ρ c) _ = _
  after_results_simp
  rfl

theorem st5_v46 : Gen.W5 (F := Ideal) m ρ c (Proc.devRef .tc main_v46) = (Gen.W4 m ρ c (Proc.devRef .tc main_arg9) : FVec Ideal S256x128 .f32) := by
  show StableHlo.after hostOps2 (Gen.W4 m ρ c) _ = _
  after_results_simp
  rfl

theorem st7_v58 : Gen.W7 (F := Ideal) m ρ c (Proc.devRef .tc main_v58) = ((fun j => (Gen.W6 m ρ c (Proc.devRef .tc main_arg10) : Vect 128) (ix1 (j 1))) : Mat 1 128) := by
  show StableHlo.after hostOps3 (Gen.W6 m ρ c) _ = _
  after_results_simp
  funext j
  obtain ⟨u, i, rfl⟩ : ∃ (u : Fin 1) (i : Fin _), j = ix2 u i := ⟨j 0, j 1, eq_ix2 j⟩
  exact shapeCast_a_1a_apply _ _ u i

theorem st11_v78 : Gen.W11 (F := Ideal) m ρ c (Proc.devRef .tc main_v78) = (Gen.W10 m ρ c (Proc.devRef .tc main_arg13) : FVec Ideal S128x64 .f32) := by
  show StableHlo.after hostOps5 (Gen.W10 m ρ c) _ = _
  after_results_simp
  rfl

theorem st11_v79 : Gen.W11 (F := Ideal) m ρ c (Proc.devRef .tc main_v79) = (Gen.W10 m ρ c (Proc.devRef .tc main_arg14) : FVec Ideal S128x64 .f32) := by
  show StableHlo.after hostOps5 (Gen.W10 m ρ c) _ = _
  after_results_simp
  rfl

theorem st13_v91 : Gen.W13 (F := Ideal) m ρ c (Proc.devRef .tc main_v91) = ((fun j => (Gen.W12 m ρ c (Proc.devRef .tc main_arg15) : Vect 64) (ix1 (j 1))) : Mat 1 64) := by
  show StableHlo.after hostOps6 (Gen.W12 m ρ c) _ = _
  after_results_simp
  funext j
  obtain ⟨u, i, rfl⟩ : ∃ (u : Fin 1) (i : Fin _), j = ix2 u i := ⟨j 0, j 1, eq_ix2 j⟩
  exact shapeCast_a_1a_apply _ _ u i

theorem st17_v122 : Gen.W17 (F := Ideal) m ρ c (Proc.devRef .tc main_v122) = kPool (Gen.W16 m ρ c (Proc.devRef .tc main_arg2)) (Gen.W16 m ρ c (Proc.devRef .tc main_v110)) := by
  show StableHlo.after hostOps8 (Gen.W16 m ρ c) _ = _
  after_results_simp
  rfl

theorem st17_v123 : Gen.W17 (F := Ideal) m ρ c (Proc.devRef .tc main_v123) = ((fun j => (Gen.W16 m ρ c (Proc.devRef .tc main_arg19) : Vect 64) (ix1 (j 1))) : Mat 1 64) := by
  show StableHlo.after hostOps8 (Gen.W16 m ρ c) _ = _
  after_results_simp
  funext j
  obtain ⟨u, i, rfl⟩ : ∃ (u : Fin 1) (i : Fin _), j = ix2 u i := ⟨j 0, j 1, eq_ix2 j⟩
  exact shapeCast_a_1a_apply _ _ u i

theorem st17_v124 : Gen.W17 (F := Ideal) m ρ c (Proc.devRef .tc main_v124) = ((fun j => (Gen.W16 m ρ c (Proc.devRef .tc main_arg21) : Vect 32) (ix1 (j 1))) : Mat 1 32) := by
  show StableHlo.after hostOps8 (Gen.W16 m ρ c) _ = _
  after_results_simp
  funext j
  obtain ⟨u, i, rfl⟩ : ∃ (u : Fin 1) (i : Fin _), j = ix2 u i := ⟨j 0, j 1, eq_ix2 j⟩
  exact shapeCast_a_1a_apply _ _ u i

theorem st17_v125 : Gen.W17 (F := Ideal) m ρ c (Proc.devRef .tc main_v125) = ((fun j => (Gen.W16 m ρ c (Proc.devRef .tc main_arg23) : Vect 2) (ix1 (j 1))) : Mat 1 2) := by
  show StableHlo.after hostOps8 (Gen.W16 m ρ c) _ = _
  after_results_simp
  funext j
  obtain ⟨u, i, rfl⟩ : ∃ (u : Fin 1) (i : Fin _), j = ix2 u i := ⟨j 0, j 1, eq_ix2 j⟩
  exact shapeCast_a_1a_apply _ _ u i

end Cert.KernelIdeal.Val

end
-- ==== Proof.KHostNorm.lean ====
/-
  The three normalisation stretches of host operations, read as the folded normalisation's scale and shift.

  Between two pipelined regions the program computes, from an `N × C` array `L` and two vectors `g`, `β` of `C`
  entries: the column sums `s` of `L` and `q` of the entrywise squares (each a sum over the rows from a zero
  initial value), the means `s / cnt` and `q / cnt`, the variance `q / cnt − (s / cnt)²`, the scale
  `g · rsqrt (variance + ε)` and the shift `β − (s / cnt) · scale`, and stores each with a unit axis in front.
  Every operation but the sums is entrywise, a scalar constant broadcast to a vector reads that constant at every
  entry, and adding a unit axis in front moves no entry; so at column `j` these are `foldScale` and `foldShift`
  of the specification, with `cnt` and `ε` the values of the two constants' bit patterns.
-/
import proofs.«180069_j11596411699546_2_alg».proof.Proof.Gen.KernelIdeal.Frame
import Idealize.ShloMosaic.PureOps.Ideal
import Idealize.ShloMosaic.PureOps.Ideal.Laws
import Idealize.ShloMosaic.Lib.IdealHost
import Idealize.ShloMosaic.Lib.ValueLayout
import Idealize.ShloMosaic.Lib.StableHlo.Run
import proofs.«180069_j11596411699546_2_alg».proof.Proof.Spec

set_option maxRecDepth 16384

noncomputable section

namespace Cert.KernelIdeal.Val

open Idealize.ShloMosaic Idealize.ShloMosaic.TcCoe Idealize.ShloMosaic.Tactic Idealize.SL.Sem
open Cert.KernelIdeal Cert.KernelIdeal.Gen
open Idealize.ShloMosaic.StableHlo
open Idealize.ShloMosaic.ValueIdx

/-- An `N × C` array summed over its rows is a vector of `C` entries. -/
theorem reduces_rows (N C : ℕ) : (⟨2, ![N, C]⟩ : Shape).Reduces [0] ⟨1, ![C]⟩ :=
  ⟨rfl, Nat.one_pos, fun b => match b with | ⟨0, _⟩ => rfl⟩

/-- The host's sum over the rows from a zero initial value is the column sum. -/
theorem reduceAdd_rows {N C : ℕ} (L : FVec Ideal ⟨2, ![N, C]⟩ .f32)
    (hred : (⟨2, ![N, C]⟩ : Shape).ReducesTo [0] ⟨1, ![C]⟩) (hS : 0 < (⟨0, ![]⟩ : Shape).numel) :
    Host.reduceAdd L (constant ⟨0, ![]⟩ .f32 0x00000000#32) hred hS = GraphSage.colSum L := by
  funext j
  rw [hostReduceAdd_apply, Ideal.hostReduceAdd_single hred (reduces_rows N C), constant_apply, Ideal.ofBits_zero_f32]
  show (0 : EReal) + ∑ k : Fin N, L ((reduces_rows N C).lift j k) = 0 + ∑ i : Fin N, L (ix2 i (j 0))
  refine congrArg _ (Finset.sum_congr rfl fun k _ => congrArg L (funext fun a => Fin.ext ?_))
  match a with
  | ⟨0, _⟩ => rfl
  | ⟨1, _⟩ => rfl

/-- A scalar constant broadcast to a vector reads the constant's value everywhere. -/
theorem splat_apply {T : Shape} (hb : (⟨0, ![]⟩ : Shape).BroadcastsInDim T ![]) (b : BitVec 32) (j : T.Idx) :
    broadcastInDim T ![] hb (constant (F := Ideal) ⟨0, ![]⟩ .f32 b) j = Ideal.ofBits .f32 b :=
  broadcastInDim_scalar_apply hb _ j

/-- The scale of the folded normalisation as the host operations spell it: the sums over the rows, the two
    quotients by the count, the difference, the small constant, the reciprocal square root and the product by
    `g`, then a unit axis in front. -/
theorem scale_term {N C : ℕ} (L : FVec Ideal ⟨2, ![N, C]⟩ .f32) (g : FVec Ideal ⟨1, ![C]⟩ .f32) (cnt eps : BitVec 32)
    (hred : (⟨2, ![N, C]⟩ : Shape).ReducesTo [0] ⟨1, ![C]⟩) (hS : 0 < (⟨0, ![]⟩ : Shape).numel)
    (hb : (⟨0, ![]⟩ : Shape).BroadcastsInDim ⟨1, ![C]⟩ ![]) (hsc : (⟨1, ![C]⟩ : Shape).ShapeCasts ⟨2, ![1, C]⟩) :
    (fun i => shapeCast ⟨2, ![1, C]⟩
        (mulf g
          (Host.rsqrt
            (addf
              (subf
                (Host.divf (Host.reduceAdd (mulf L L) (constant ⟨0, ![]⟩ .f32 0x00000000#32) hred hS)
                  (broadcastInDim ⟨1, ![C]⟩ ![] hb (constant ⟨0, ![]⟩ .f32 cnt)))
                (mulf
                  (Host.divf (Host.reduceAdd L (constant ⟨0, ![]⟩ .f32 0x00000000#32) hred hS)
                    (broadcastInDim ⟨1, ![C]⟩ ![] hb (constant ⟨0, ![]⟩ .f32 cnt)))
                  (Host.divf (Host.reduceAdd L (constant ⟨0, ![]⟩ .f32 0x00000000#32) hred hS)
                    (broadcastInDim ⟨1, ![C]⟩ ![] hb (constant ⟨0, ![]⟩ .f32 cnt)))))
              (broadcastInDim ⟨1, ![C]⟩ ![] hb (constant ⟨0, ![]⟩ .f32 eps)))))
        hsc i)
      = fun j => GraphSage.foldScale (Ideal.ofBits .f32 cnt) (Ideal.ofBits .f32 eps) L g (ix1 (j 1)) := by
  rw [reduceAdd_rows L hred hS, reduceAdd_rows (mulf L L) hred hS]
  funext i
  obtain ⟨u, q, rfl⟩ : ∃ (u : Fin 1) (q : Fin C), i = ix2 u q := ⟨i 0, i 1, eq_ix2 i⟩
  rw [shapeCast_a_1a_apply]
  show g (ix1 q) * Ideal.rsqrt (Ideal.div (GraphSage.colSum (mulf L L) (ix1 q))
        (broadcastInDim ⟨1, ![C]⟩ ![] hb (constant (F := Ideal) ⟨0, ![]⟩ .f32 cnt) (ix1 q))
      - Ideal.div (GraphSage.colSum L (ix1 q)) (broadcastInDim ⟨1, ![C]⟩ ![] hb (constant (F := Ideal) ⟨0, ![]⟩ .f32 cnt) (ix1 q))
        * Ideal.div (GraphSage.colSum L (ix1 q)) (broadcastInDim ⟨1, ![C]⟩ ![] hb (constant (F := Ideal) ⟨0, ![]⟩ .f32 cnt) (ix1 q))
      + broadcastInDim ⟨1, ![C]⟩ ![] hb (constant (F := Ideal) ⟨0, ![]⟩ .f32 eps) (ix1 q)) = _
  rw [splat_apply, splat_apply]
  rfl

/-- The shift of the folded normalisation as the host operations spell it. -/
theorem shift_term {N C : ℕ} (L : FVec Ideal ⟨2, ![N, C]⟩ .f32) (g be : FVec Ideal ⟨1, ![C]⟩ .f32) (cnt eps : BitVec 32)
    (hred : (⟨2, ![N, C]⟩ : Shape).ReducesTo [0] ⟨1, ![C]⟩) (hS : 0 < (⟨0, ![]⟩ : Shape).numel)
    (hb : (⟨0, ![]⟩ : Shape).BroadcastsInDim ⟨1, ![C]⟩ ![]) (hsc : (⟨1, ![C]⟩ : Shape).ShapeCasts ⟨2, ![1, C]⟩) :
    (fun i => shapeCast ⟨2, ![1, C]⟩
        (subf be
          (mulf
            (Host.divf (Host.reduceAdd L (constant ⟨0, ![]⟩ .f32 0x00000000#32) hred hS)
              (broadcastInDim ⟨1, ![C]⟩ ![] hb (constant ⟨0, ![]⟩ .f32 cnt)))
            (mulf g
              (Host.rsqrt
                (addf
                  (subf
                    (Host.divf (Host.reduceAdd (mulf L L) (constant ⟨0, ![]⟩ .f32 0x00000000#32) hred hS)
                      (broadcastInDim ⟨1, ![C]⟩ ![] hb (constant ⟨0, ![]⟩ .f32 cnt)))
                    (mulf
                      (Host.divf (Host.reduceAdd L (constant ⟨0, ![]⟩ .f32 0x00000000#32) hred hS)
                        (broadcastInDim ⟨1, ![C]⟩ ![] hb (constant ⟨0, ![]⟩ .f32 cnt)))
                      (Host.divf (Host.reduceAdd L (constant ⟨0, ![]⟩ .f32 0x00000000#32) hred hS)
                        (broadcastInDim ⟨1, ![C]⟩ ![] hb (constant ⟨0, ![]⟩ .f32 cnt)))))
                  (broadcastInDim ⟨1, ![C]⟩ ![] hb (constant ⟨0, ![]⟩ .f32 eps)))))))
        hsc i)
      = fun j => GraphSage.foldShift (Ideal.ofBits .f32 cnt) (Ideal.ofBits .f32 eps) L g be (ix1 (j 1)) := by
  rw [reduceAdd_rows L hred hS, reduceAdd_rows (mulf L L) hred hS]
  funext i
  obtain ⟨u, q, rfl⟩ : ∃ (u : Fin 1) (q : Fin C), i = ix2 u q := ⟨i 0, i 1, eq_ix2 i⟩
  rw [shapeCast_a_1a_apply]
  show be (ix1 q) - Ideal.div (GraphSage.colSum L (ix1 q))
          (broadcastInDim ⟨1, ![C]⟩ ![] hb (constant (F := Ideal) ⟨0, ![]⟩ .f32 cnt) (ix1 q))
        * (g (ix1 q) * Ideal.rsqrt (Ideal.div (GraphSage.colSum (mulf L L) (ix1 q))
            (broadcastInDim ⟨1, ![C]⟩ ![] hb (constant (F := Ideal) ⟨0, ![]⟩ .f32 cnt) (ix1 q))
          - Ideal.div (GraphSage.colSum L (ix1 q)) (broadcastInDim ⟨1, ![C]⟩ ![] hb (constant (F := Ideal) ⟨0, ![]⟩ .f32 cnt) (ix1 q))
            * Ideal.div (GraphSage.colSum L (ix1 q)) (broadcastInDim ⟨1, ![C]⟩ ![] hb (constant (F := Ideal) ⟨0, ![]⟩ .f32 cnt) (ix1 q))
          + broadcastInDim ⟨1, ![C]⟩ ![] hb (constant (F := Ideal) ⟨0, ![]⟩ .f32 eps) (ix1 q))) = _
  rw [splat_apply, splat_apply]
  rfl

variable (m : (ℓ : Loc nD τ sig) → Buf (Elt Ideal) ℓ) (ρ : Dev nD → PrngReg) (c : Dev nD)

set_option maxHeartbeats 4000000 in
/-- The scale row the stretch before the next region leaves is the folded normalisation's scale. -/
theorem norm1_scale :
    Gen.W3 (F := Ideal) m ρ c (Proc.devRef .tc main_v42)
      = (fun j => GraphSage.foldScale (Ideal.ofBits .f32 0x47435000#32) (Ideal.ofBits .f32 0x3727C5AC#32)
          (Gen.W2 m ρ c (Proc.devRef .tc main_v26)) (Gen.W2 m ρ c (Proc.devRef .tc main_arg6))
          (ix1 (j 1)) : GraphSage.Mat 1 256) := by
  show StableHlo.after hostOps1 (Gen.W2 m ρ c) _ = _
  after_results_simp
  exact scale_term _ _ _ _ _ _ _ _

set_option maxHeartbeats 4000000 in
/-- The shift row the stretch before the next region leaves is the folded normalisation's shift. -/
theorem norm1_shift :
    Gen.W3 (F := Ideal) m ρ c (Proc.devRef .tc main_v43)
      = (fun j => GraphSage.foldShift (Ideal.ofBits .f32 0x47435000#32) (Ideal.ofBits .f32 0x3727C5AC#32)
          (Gen.W2 m ρ c (Proc.devRef .tc main_v26)) (Gen.W2 m ρ c (Proc.devRef .tc main_arg6))
          (Gen.W2 m ρ c (Proc.devRef .tc main_arg7)) (ix1 (j 1)) : GraphSage.Mat 1 256) := by
  show StableHlo.after hostOps1 (Gen.W2 m ρ c) _ = _
  after_results_simp
  exact shift_term _ _ _ _ _ _ _ _ _

set_option maxHeartbeats 4000000 in
/-- The scale row the stretch before the next region leaves is the folded normalisation's scale. -/
theorem norm2_scale :
    Gen.W9 (F := Ideal) m ρ c (Proc.devRef .tc main_v75)
      = (fun j => GraphSage.foldScale (Ideal.ofBits .f32 0x47435000#32) (Ideal.ofBits .f32 0x3727C5AC#32)
          (Gen.W8 m ρ c (Proc.devRef .tc main_v59)) (Gen.W8 m ρ c (Proc.devRef .tc main_arg11))
          (ix1 (j 1)) : GraphSage.Mat 1 128) := by
  show StableHlo.after hostOps4 (Gen.W8 m ρ c) _ = _
  after_results_simp
  exact scale_term _ _ _ _ _ _ _ _

set_option maxHeartbeats 4000000 in
/-- The shift row the stretch before the next region leaves is the folded normalisation's shift. -/
theorem norm2_shift :
    Gen.W9 (F := Ideal) m ρ c (Proc.devRef .tc main_v76)
      = (fun j => GraphSage.foldShift (Ideal.ofBits .f32 0x47435000#32) (Ideal.ofBits .f32 0x3727C5AC#32)
          (Gen.W8 m ρ c (Proc.devRef .tc main_v59)) (Gen.W8 m ρ c (Proc.devRef .tc main_arg11))
          (Gen.W8 m ρ c (Proc.devRef .tc main_arg12)) (ix1 (j 1)) : GraphSage.Mat 1 128) := by
  show StableHlo.after hostOps4 (Gen.W8 m ρ c) _ = _
  after_results_simp
  exact shift_term _ _ _ _ _ _ _ _ _

set_option maxHeartbeats 4000000 in
/-- The scale row the stretch before the next region leaves is the folded normalisation's scale. -/
theorem norm3_scale :
    Gen.W15 (F := Ideal) m ρ c (Proc.devRef .tc main_v108)
      = (fun j => GraphSage.foldScale (Ideal.ofBits .f32 0x47435000#32) (Ideal.ofBits .f32 0x3727C5AC#32)
          (Gen.W14 m ρ c (Proc.devRef .tc main_v92)) (Gen.W14 m ρ c (Proc.devRef .tc main_arg16))
          (ix1 (j 1)) : GraphSage.Mat 1 64) := by
  show StableHlo.after hostOps7 (Gen.W14 m ρ c) _ = _
  after_results_simp
  exact scale_term _ _ _ _ _ _ _ _

set_option maxHeartbeats 4000000 in
/-- The shift row the stretch before the next region leaves is the folded normalisation's shift. -/
theorem norm3_shift :
    Gen.W15 (F := Ideal) m ρ c (Proc.devRef .tc main_v109)
      = (fun j => GraphSage.foldShift (Ideal.ofBits .f32 0x47435000#32) (Ideal.ofBits .f32 0x3727C5AC#32)
          (Gen.W14 m ρ c (Proc.devRef .tc main_v92)) (Gen.W14 m ρ c (Proc.devRef .tc main_arg16))
          (Gen.W14 m ρ c (Proc.devRef .tc main_arg17)) (ix1 (j 1)) : GraphSage.Mat 1 64) := by
  show StableHlo.after hostOps7 (Gen.W14 m ρ c) _ = _
  after_results_simp
  exact shift_term _ _ _ _ _ _ _ _ _

end Cert.KernelIdeal.Val

end
-- ==== Proof.LibRowGather.lean ====
/-
  A gather of rows and a scatter-add of rows, read at an index.

  Mean aggregation over a graph is computed as: take, for every edge `e`, the row of the feature matrix named by
  the edge's source index (a gather of whole rows), then add each of these rows into the row named by the edge's
  destination index (a scatter with an addition body).  This module reads both operations at one entry:

  * `srcRow hn idx e`: the row a gather start index selects — the index read as a signed integer and clamped
    into `[0, n − 1]`;
  * `incOf n idx i`: the edges whose scatter index, read as a signed integer, is exactly `i` (an index outside
    `[0, n)` belongs to no node: its update is dropped);
  * `gather_rows`: entry `(e, f)` of the gather is entry `(srcRow e, f)` of the operand;
  * `scatterAdd_rows` / `scatterAdd_vec`: entry `(i, f)` (entry `i`) of the scatter-add is the operand's entry plus
    the sum of the updates' entries `(e, f)` (entries `e`) over `e ∈ incOf i`;
  * `aggregate_eq` / `degree_eq`: scatter-add of a gather into zeros is the aggregation `aggr`; scatter-add of ones
    into zeros counts the edges arriving at each node.

  The dimension numbers are hypotheses on the records' fields, closed by `rfl` at each literal record.
-/
import proofs.«180069_j11596411699546_2_alg».proof.Proof.Spec
import Idealize.ShloMosaic.Lib.ValueIdx
import Idealize.ShloMosaic.PureOps.Ideal
import Idealize.ShloMosaic.PureOps.Ideal.Laws

noncomputable section

namespace GraphSage

open Idealize.ShloMosaic Idealize.ShloMosaic.ValueIdx

/-- The row a gather start index selects: entry `e` of the index column read as a signed integer and clamped into `[0, n − 1]`. -/
def srcRow {n E : ℕ} (hn : 0 < n) (idx : IVec ⟨2, ![E, 1]⟩ 32) (e : Fin E) : Fin n :=
  ⟨min (idx (ix2 e 0)).toInt.toNat (n - 1), by omega⟩

/-- The edges whose scatter index, read as a signed integer, is exactly the node `i`. -/
def incOf (n : ℕ) {E : ℕ} (idx : IVec ⟨2, ![E, 1]⟩ 32) (i : Fin n) : Finset (Fin E) :=
  Finset.univ.filter fun e => (idx (ix2 e 0)).toInt = (i.val : ℤ)

/-- Membership in `incOf`, unfolded. -/
theorem mem_incOf {n E : ℕ} (idx : IVec ⟨2, ![E, 1]⟩ 32) (i : Fin n) (e : Fin E) :
    e ∈ incOf n idx i ↔ (idx (ix2 e 0)).toInt = (i.val : ℤ) := by
  simp [incOf]

/-- An update lands at the operand index `i` exactly when, on every axis, its start plus its window coordinate is
    `i`'s coordinate. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : ℤ) := by
  unfold ScatterDims.resultIdx?
  constructor
  · intro h
    split at h
    · rename_i hc
      have h' := Option.some.inj h
      intro a
      have h1 := congrArg Fin.val (congrFun h' a)
      have h2 := hc a
      simp only at h1
      omega
    · cases h
  · intro h
    have hc : ∀ a, 0 ≤ d.start j idx a + d.window j a ∧ d.start j idx a + d.window j a < s.size a := fun a => by
      have := h a; have := (i a).isLt; omega
    rw [dif_pos hc]
    congr 1; funext a; apply Fin.ext
    have := h a
    simp only
    omega

/-- The rows scatter's start on the node axis is the edge's scatter index read signed; on the feature axis it is zero. -/
theorem start_rows {n E c : ℕ} (wf : ScatterDims.WF ⟨2, ![n, c]⟩ ⟨2, ![E, 1]⟩ ⟨2, ![E, c]⟩ [1] [0] [0] 1)
    (idx : IVec ⟨2, ![E, 1]⟩ 32) (e : Fin E) (f' : Fin c) :
    (ScatterDims.mk [1] [0] [0] 1 wf).start (ix2 e f') idx 0 = (idx (ix2 e 0)).toInt
    ∧ (ScatterDims.mk [1] [0] [0] 1 wf).start (ix2 e f') idx 1 = 0
    ∧ (ScatterDims.mk [1] [0] [0] 1 wf).window (ix2 e f') 0 = 0
    ∧ (ScatterDims.mk [1] [0] [0] 1 wf).window (ix2 e f') 1 = f'.val := by
  refine ⟨?_, ?_, ?_, ?_⟩
  · unfold ScatterDims.start
    rw [dif_pos (List.mem_singleton.mpr rfl)]
    congr 2
    funext b
    match b with
    | ⟨0, _⟩ => rfl
    | ⟨1, _⟩ => rfl
  · unfold ScatterDims.start
    exact dif_neg (show ¬ ((1 : Fin 2) ∈ ([0] : List (Fin 2))) from by decide)
  · unfold ScatterDims.window
    exact dif_neg (show ¬ ((0 : Fin 2) ∈ (List.finRange 2).filter (· ∉ ([0] : List (Fin 2)))) from by decide)
  · unfold ScatterDims.window
    exact (dif_pos (show (1 : Fin 2) ∈ (List.finRange 2).filter (· ∉ ([0] : List (Fin 2))) from by decide)).trans rfl

/-- WHERE A ROW UPDATE LANDS: entry `(e, f')` of the updates lands on `(i, f)` exactly when `f' = f` and edge
    `e`'s scatter index, read signed, is `i`. -/
theorem resultIdx?_rows {n E c : ℕ} (d : ScatterDims ⟨2, ![n, c]⟩ ⟨2, ![E, 1]⟩ ⟨2, ![E, c]⟩)
    (h1 : d.updateWindowDims = [1]) (h2 : d.insertedWindowDims = [0]) (h3 : d.scatterDimsToOperandDims = [0])
    (h4 : d.indexVectorDim = 1) (idx : IVec ⟨2, ![E, 1]⟩ 32) (e : Fin E) (f' : Fin c) (i : Fin n) (f : Fin c) :
    d.resultIdx? (ix2 e f') idx = some (ix2 i f) ↔ f' = f ∧ e ∈ incOf n idx i := by
  obtain ⟨uw, iw, sd, iv, wf⟩ := d
  simp only at h1 h2 h3 h4
  subst h1 h2 h3 h4
  obtain ⟨s0, s1, w0, w1⟩ := start_rows wf idx e f'
  rw [resultIdx?_eq_some_iff, mem_incOf]
  constructor
  · intro h
    have a0 := h 0
    have a1 := h 1
    rw [s0, w0] at a0
    rw [s1, w1] at a1
    refine ⟨Fin.ext ?_, ?_⟩
    · have : ((ix2 i f : (⟨2, ![n, c]⟩ : Shape).Idx) 1).val = f.val := rfl
      omega
    · have : ((ix2 i f : (⟨2, ![n, c]⟩ : Shape).Idx) 0).val = i.val := rfl
      omega
  · rintro ⟨rfl, hi⟩ a
    match a with
    | ⟨0, _⟩ =>
      show ScatterDims.start _ _ idx 0 + (ScatterDims.window _ _ 0 : ℤ) = _
      rw [s0, w0, hi]; simp
    | ⟨1, _⟩ =>
      show ScatterDims.start _ _ idx 1 + (ScatterDims.window _ _ 1 : ℤ) = _
      rw [s1, w1]; simp

/-- A ROW SCATTER-ADD READ AT `(i, f)`: the operand's entry plus the entries `(e, f)` of the updates over the edges `e`
    whose scatter index is `i`. -/
theorem scatterAdd_rows {n E c : ℕ} (d : ScatterDims ⟨2, ![n, c]⟩ ⟨2, ![E, 1]⟩ ⟨2, ![E, c]⟩)
    (h1 : d.updateWindowDims = [1]) (h2 : d.insertedWindowDims = [0]) (h3 : d.scatterDimsToOperandDims = [0])
    (h4 : d.indexVectorDim = 1) (X : FVec Ideal ⟨2, ![n, c]⟩ .f32) (idx : IVec ⟨2, ![E, 1]⟩ 32)
    (U : FVec Ideal ⟨2, ![E, c]⟩ .f32) (i : Fin n) (f : Fin c) :
    Host.scatterAdd d X idx U (ix2 i f) = X (ix2 i f) + ∑ e ∈ incOf n idx i, U (ix2 e f) := by
  have hdef : Host.scatterAdd d X idx U = Ideal.hostScatterAdd d X idx U := rfl
  rw [hdef]
  unfold Ideal.hostScatterAdd
  refine congrArg (X (ix2 i f) + ·) ?_
  have key := resultIdx?_rows d h1 h2 h3 h4 idx
  refine Finset.sum_bij (fun j _ => j 0) ?_ ?_ ?_ ?_
  · intro j hj
    obtain ⟨e, f', rfl⟩ : ∃ e f', j = ix2 e f' := ⟨j 0, j 1, eq_ix2 j⟩
    exact ((key e f' i f).1 (Finset.mem_filter.1 hj).2).2
  · intro j hj j' hj' h0
    obtain ⟨e, f', rfl⟩ : ∃ e f', j = ix2 e f' := ⟨j 0, j 1, eq_ix2 j⟩
    obtain ⟨e', f'', rfl⟩ : ∃ e f', j' = ix2 e f' := ⟨j' 0, j' 1, eq_ix2 j'⟩
    have a := ((key e f' i f).1 (Finset.mem_filter.1 hj).2).1
    have b := ((key e' f'' i f).1 (Finset.mem_filter.1 hj').2).1
    have h0' : e = e' := h0
    rw [a, b, h0']
  · intro e he
    exact ⟨ix2 e f, Finset.mem_filter.2 ⟨Finset.mem_univ _, (key e f i f).2 ⟨rfl, he⟩⟩, rfl⟩
  · intro j hj
    obtain ⟨e, f', rfl⟩ : ∃ e f', j = ix2 e f' := ⟨j 0, j 1, eq_ix2 j⟩
    have a := ((key e f' i f).1 (Finset.mem_filter.1 hj).2).1
    rw [a]
    rfl

/-- A ROW GATHER READ AT `(e, f)`: entry `f` of the operand's row selected by edge `e`'s start index, read signed and
    clamped into `[0, n − 1]`. -/
theorem gather_rows {α : Type} {n E c : ℕ} (hn : 0 < n) (g : GatherDims ⟨2, ![n, c]⟩ ⟨2, ![E, 1]⟩ ⟨2, ![E, c]⟩)
    (g1 : g.offsetDims = [1]) (g2 : g.collapsedSliceDims = [0]) (g3 : g.operandBatchingDims = [])
    (g4 : g.startIndexMap = [0]) (g5 : g.indexVectorDim = 1)
    (H : (⟨2, ![n, c]⟩ : Shape).Idx → α) (idx : IVec ⟨2, ![E, 1]⟩ 32) (e : Fin E) (f : Fin c) :
    Host.gather g H idx (ix2 e f) = H (ix2 (srcRow hn idx e) f) := by
  obtain ⟨od, cd, ob, sb, sm, iv, ss, wf⟩ := g
  simp only at g1 g2 g3 g4 g5
  subst g1 g2 g3 g4 g5
  unfold Host.gather
  congr 1
  funext a
  refine Fin.ext ?_
  have hss : ss 0 = 1 := GatherDims.slice_collapsed ⟨[1], [0], [], sb, [0], 1, ss, wf⟩ 0 (List.mem_singleton.mpr rfl)
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx ⟨[1], [0], [], sb, [0], 1, ss, wf⟩ (ix2 e f) ⟨List.idxOf (0 : Fin 2) [0],
        List.idxOf_lt_length_iff.2 (List.mem_singleton.mpr rfl)⟩ = ix2 e 0 := by
      funext b; refine Fin.ext ?_
      match b with
      | ⟨0, _⟩ => rfl
      | ⟨1, _⟩ => rfl
    rw [hsi]
    show min _ (n - ss 0) = min _ (n - 1)
    rw [hss]
  | ⟨1, _⟩ =>
    show GatherDims.start _ (ix2 e f) idx 1 + GatherDims.batchCoord _ (ix2 e f) 1 + GatherDims.offCoord _ (ix2 e f) 1 = f.val
    rw [GatherDims.batchCoord_eq_zero _ _ _ List.not_mem_nil]
    have hst : GatherDims.start ⟨[1], [0], [], sb, [0], 1, ss, wf⟩ (ix2 e f) idx 1 = 0 := by
      unfold GatherDims.start
      exact dif_neg (show ¬ ((1 : Fin 2) ∈ ([0] : List (Fin 2))) from by decide)
    have hof : GatherDims.offCoord ⟨[1], [0], [], sb, [0], 1, ss, wf⟩ (ix2 e f) 1 = f.val := by
      unfold GatherDims.offCoord
      exact (dif_pos (show (1 : Fin 2) ∈ (List.finRange 2).filter (· ∉ ([0] ++ [] : List (Fin 2))) from by decide)).trans rfl
    rw [hst, hof]; simp

/-- The vector scatter's start is the edge's scatter index read signed; its window coordinate is zero. -/
theorem start_vec {n E : ℕ} (wf : ScatterDims.WF ⟨1, ![n]⟩ ⟨2, ![E, 1]⟩ ⟨1, ![E]⟩ [] [0] [0] 1)
    (idx : IVec ⟨2, ![E, 1]⟩ 32) (e : Fin E) :
    (ScatterDims.mk [] [0] [0] 1 wf).start (ix1 e) idx 0 = (idx (ix2 e 0)).toInt
    ∧ (ScatterDims.mk [] [0] [0] 1 wf).window (ix1 e) 0 = 0 := by
  refine ⟨?_, ?_⟩
  · unfold ScatterDims.start
    rw [dif_pos (List.mem_singleton.mpr rfl)]
    congr 2
    funext b
    match b with
    | ⟨0, _⟩ => rfl
    | ⟨1, _⟩ => rfl
  · unfold ScatterDims.window
    exact dif_neg (show ¬ ((0 : Fin 1) ∈ (List.finRange 1).filter (· ∉ ([0] : List (Fin 1)))) from by decide)

/-- WHERE A VECTOR UPDATE LANDS: entry `e` of the updates lands on `i` exactly when edge `e`'s scatter index, read
    signed, is `i`. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0])
    (h4 : d.indexVectorDim = 1) (idx : IVec ⟨2, ![E, 1]⟩ 32) (e : Fin E) (i : Fin n) :
    d.resultIdx? (ix1 e) idx = some (ix1 i) ↔ e ∈ incOf n idx i := by
  obtain ⟨uw, iw, sd, iv, wf⟩ := d
  simp only at h1 h2 h3 h4
  subst h1 h2 h3 h4
  obtain ⟨s0, w0⟩ := start_vec wf idx e
  rw [resultIdx?_eq_some_iff, mem_incOf]
  constructor
  · intro h
    have a0 := h 0
    rw [s0, w0] at a0
    have : ((ix1 i : (⟨1, ![n]⟩ : Shape).Idx) 0).val = i.val := rfl
    omega
  · intro hi a
    match a with
    | ⟨0, _⟩ =>
      show ScatterDims.start _ _ idx 0 + (ScatterDims.window _ _ 0 : ℤ) = _
      rw [s0, w0, hi]; simp

/-- A VECTOR SCATTER-ADD READ AT `i`: the operand's entry plus the entries `e` of the updates over the edges `e` whose
    scatter index is `i`. -/
theorem scatterAdd_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0])
    (h4 : d.indexVectorDim = 1) (X : FVec Ideal ⟨1, ![n]⟩ .f32) (idx : IVec ⟨2, ![E, 1]⟩ 32)
    (U : FVec Ideal ⟨1, ![E]⟩ .f32) (i : Fin n) :
    Host.scatterAdd d X idx U (ix1 i) = X (ix1 i) + ∑ e ∈ incOf n idx i, U (ix1 e) := by
  have hdef : Host.scatterAdd d X idx U = Ideal.hostScatterAdd d X idx U := rfl
  rw [hdef]
  unfold Ideal.hostScatterAdd
  refine congrArg (X (ix1 i) + ·) ?_
  have key := resultIdx?_vec d h1 h2 h3 h4 idx
  refine Finset.sum_bij (fun j _ => j 0) ?_ ?_ ?_ ?_
  · intro j hj
    obtain ⟨e, rfl⟩ : ∃ e, j = ix1 e := ⟨j 0, eq_ix1 j⟩
    exact (key e i).1 (Finset.mem_filter.1 hj).2
  · intro j _ j' _ h0
    obtain ⟨e, rfl⟩ : ∃ e, j = ix1 e := ⟨j 0, eq_ix1 j⟩
    obtain ⟨e', rfl⟩ : ∃ e, j' = ix1 e := ⟨j' 0, eq_ix1 j'⟩
    have h0' : e = e' := h0
    rw [h0']
  · intro e he
    exact ⟨ix1 e, Finset.mem_filter.2 ⟨Finset.mem_univ _, (key e i).2 he⟩, rfl⟩
  · intro j _
    obtain ⟨e, rfl⟩ : ∃ e, j = ix1 e := ⟨j 0, eq_ix1 j⟩
    rfl

/-- GATHER THEN SCATTER-ADD INTO ZEROS IS THE AGGREGATION: row `i` of the result is zero plus the sum, over the edges
    whose destination index is `i`, of the rows of `H` their source indices select. -/
theorem aggregate_eq {n E c : ℕ} (hn : 0 < n) (d : ScatterDims ⟨2, ![n, c]⟩ ⟨2, ![E, 1]⟩ ⟨2, ![E, c]⟩)
    (h1 : d.updateWindowDims = [1]) (h2 : d.insertedWindowDims = [0]) (h3 : d.scatterDimsToOperandDims = [0])
    (h4 : d.indexVectorDim = 1) (g : GatherDims ⟨2, ![n, c]⟩ ⟨2, ![E, 1]⟩ ⟨2, ![E, c]⟩)
    (g1 : g.offsetDims = [1]) (g2 : g.collapsedSliceDims = [0]) (g3 : g.operandBatchingDims = [])
    (g4 : g.startIndexMap = [0]) (g5 : g.indexVectorDim = 1)
    (X : FVec Ideal ⟨2, ![n, c]⟩ .f32) (hX : ∀ j, X j = 0) (H : FVec Ideal ⟨2, ![n, c]⟩ .f32)
    (dst srcI : IVec ⟨2, ![E, 1]⟩ 32) :
    Host.scatterAdd d X dst (Host.gather g H srcI) = fun i => 0 + aggr (incOf n dst) (srcRow hn srcI) H i := by
  funext y
  obtain ⟨i, f, rfl⟩ : ∃ i f, y = ix2 i f := ⟨y 0, y 1, eq_ix2 y⟩
  rw [scatterAdd_rows d h1 h2 h3 h4, hX]
  refine congrArg ((0 : EReal) + ·) ?_
  exact Finset.sum_congr rfl fun e _ => gather_rows hn g g1 g2 g3 g4 g5 H srcI e f

/-- SCATTER-ADD OF ONES INTO ZEROS COUNTS: entry `i` of the result is zero plus the number of edges whose destination
    index is `i`. -/
theorem degree_eq {n E : ℕ} (d : ScatterDims ⟨1, ![n]⟩ ⟨2, ![E, 1]⟩ ⟨1, ![E]⟩)
    (h1 : d.updateWindowDims = []) (h2 : d.insertedWindowDims = [0]) (h3 : d.scatterDimsToOperandDims = [0])
    (h4 : d.indexVectorDim = 1) (X : FVec Ideal ⟨1, ![n]⟩ .f32) (hX : ∀ j, X j = 0)
    (U : FVec Ideal ⟨1, ![E]⟩ .f32) (hU : ∀ j, U j = 1) (dst : IVec ⟨2, ![E, 1]⟩ 32) (i : Fin n) :
    Host.scatterAdd d X dst U (ix1 i) = 0 + (((incOf n dst i).card : ℝ) : EReal) := by
  rw [scatterAdd_vec d h1 h2 h3 h4, hX]
  refine congrArg ((0 : EReal) + ·) ?_
  rw [Finset.sum_congr rfl fun e _ => hU (ix1 e)]
  rw [Finset.sum_const]
  show (incOf n dst i).card • (1 : EReal) = _
  rw [nsmul_one]
  rfl

end GraphSage

end
-- ==== Proof.Consts.lean ====
/-
  The float constants the two programs spell, as the extended reals their bit patterns denote: zero, one, the
  node count 50000, and the small positive constant added to the variance (the single-precision number nearest
  to one hundred-thousandth, which is 10995116 / 2^40).
-/
import Idealize.ShloMosaic.PureOps.Ideal

noncomputable section

namespace GraphSage.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_count : Ideal.ofBits .f32 0x47435000#32 = ((50000 : ℝ) : EReal) := by
  simp [Ideal.ofBits, Ideal.ieee, -EReal.coe_mul]; norm_num

/-- The variance offset as a real. -/
def epsR : ℝ := 10995116 / 2 ^ 40

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]; norm_num

end GraphSage.Consts

end
-- ==== Proof.KHostAggr.lean ====
/-
  The host stretches of the kernel program that aggregate over the graph, read as the mathematics.

  Before its first region the program cuts the two rows of the edge array into the source and destination index
  vectors, counts the edges arriving at every node by adding ones into a zero vector at the destination indices,
  forms the reciprocal of `max (deg, 1)` as a column, and aggregates the features: it gathers the rows named by the
  source indices (a negative index first shifted up by the node count) and adds them into a zero matrix at the
  destination indices.  Twice more, before later regions, it aggregates the rows of a region's output the same
  way from the stored index vectors.  Each of these is the aggregation `aggr` over the edge sets `incOf` and the
  source rows `srcRow`, and the reciprocal column is `invDeg`.
-/
import proofs.«180069_j11596411699546_2_alg».proof.Proof.Gen.KernelIdeal.Frame
import Idealize.ShloMosaic.PureOps.Ideal
import Idealize.ShloMosaic.Lib.StableHlo.Run
import proofs.«180069_j11596411699546_2_alg».proof.Proof.LibRowGather
import proofs.«180069_j11596411699546_2_alg».proof.Proof.Consts

set_option maxRecDepth 16384

noncomputable section

namespace Cert.KernelIdeal.Val

open Idealize.ShloMosaic Idealize.ShloMosaic.TcCoe Idealize.ShloMosaic.Tactic Idealize.SL.Sem
open Idealize.ShloMosaic.ValueIdx
open Cert.KernelIdeal Cert.KernelIdeal.Gen
open Idealize.ShloMosaic.StableHlo

variable (m : (ℓ : Loc nD τ sig) → Buf (Elt Ideal) ℓ) (ρ : Dev nD → PrngReg) (c : Dev nD)

/-- Row 0 of the `2 × E` edge array (the source indices) as a vector of length `E`. -/
def rowOf0 (a : IVec S2x800000 32) : IVec S800000 32 :=
  fun i => shapeCast S800000 (extractStridedSlice S1x800000 ![0, 0] a slices_S2x800000_S1x800000_0_0) shapeCasts_S1x800000_S800000 i

/-- Row 1 of the `2 × E` edge array (the destination indices) as a vector of length `E`. -/
def rowOf1 (a : IVec S2x800000 32) : IVec S800000 32 :=
  fun i => shapeCast S800000 (extractStridedSlice S1x800000 ![1, 0] a slices_S2x800000_S1x800000_1_0) shapeCasts_S1x800000_S800000 i

/-- The destination indices as the `E × 1` column the scatter reads. -/
def dstIdx (v3 : IVec S800000 32) : IVec S800000x1 32 :=
  broadcastInDim S800000x1 ![0] bcast_S800000_S800000x1_0 v3

/-- The source indices as the `E × 1` column the gather reads: a negative index is first shifted up by the node
    count. -/
def srcIdx (v1 : IVec S800000 32) : IVec S800000x1 32 :=
  broadcastInDim S800000x1 ![0] bcast_S800000_S800000x1_0
    (select (cmpi CmpIPredicate.slt v1 (broadcastInDim S800000 ![] bcast_S_S800000 (constantI S_ 32 0#32)))
      (addi v1 (broadcastInDim S800000 ![] bcast_S_S800000 (constantI S_ 32 50000#32))) v1)

set_option maxHeartbeats 4000000 in
/-- The stored source index vector is row 0 of the edge array. -/
theorem stage1_v1 : Gen.W1 (F := Ideal) m ρ c (Proc.devRef .tc main_v1) = rowOf0 (Gen.W0 m ρ c (Proc.devRef .tc main_arg1)) := by
  show StableHlo.after hostOps0 (Gen.W0 m ρ c) _ = _
  after_results_simp
  rfl

set_option maxHeartbeats 4000000 in
/-- The stored destination index vector is row 1 of the edge array. -/
theorem stage1_v3 : Gen.W1 (F := Ideal) m ρ c (Proc.devRef .tc main_v3) = rowOf1 (Gen.W0 m ρ c (Proc.devRef .tc main_arg1)) := by
  show StableHlo.after hostOps0 (Gen.W0 m ρ c) _ = _
  after_results_simp
  rfl

set_option maxHeartbeats 4000000 in
/-- The first aggregation: the features' rows named by the source indices, added at the destination indices. -/
theorem stage1_aggr : Gen.W1 (F := Ideal) m ρ c (Proc.devRef .tc main_v22)
    = (fun i => 0 + GraphSage.aggr (GraphSage.incOf 50000 (dstIdx (Gen.W1 m ρ c (Proc.devRef .tc main_v3))))
        (GraphSage.srcRow (by norm_num) (srcIdx (Gen.W1 m ρ c (Proc.devRef .tc main_v1))))
        (Gen.W0 m ρ c (Proc.devRef .tc main_arg0)) i) := by
  rw [stage1_v1 m ρ c, stage1_v3 m ρ c]
  show StableHlo.after hostOps0 (Gen.W0 m ρ c) _ = _
  after_results_simp
  exact GraphSage.aggregate_eq (by norm_num) _ rfl rfl rfl rfl _ rfl rfl rfl rfl rfl _
    (fun j => GraphSage.Consts.ofBits_zero) _ _ _

set_option maxHeartbeats 4000000 in
/-- The reciprocal column: `1 / max (deg i, 1)` at every node `i`, the degree counted over the destination indices. -/
theorem stage1_invdeg : Gen.W1 (F := Ideal) m ρ c (Proc.devRef .tc main_v12)
    = GraphSage.invDeg (GraphSage.incOf 50000 (dstIdx (Gen.W1 m ρ c (Proc.devRef .tc main_v3)))) := by
  rw [stage1_v3 m ρ c]
  show StableHlo.after hostOps0 (Gen.W0 m ρ c) _ = _
  after_results_simp
  funext j
  obtain ⟨i, z, rfl⟩ : ∃ (i : Fin 50000) (z : Fin 1), j = ix2 i z := ⟨j 0, j 1, eq_ix2 j⟩
  rw [broadcastInDim_apply _ bcast_S50000_S50000x1_0 _ _ (ix1 i) (fun a => match a with
    | ⟨0, _⟩ => by show i.val = if (50000 : Nat) = 1 then 0 else i.val; rw [if_neg (by decide)])]
  have hdeg := GraphSage.degree_eq scatter_S50000_S800000x1_S800000_n_0_0_1 rfl rfl rfl rfl
    (broadcastInDim S50000 ![] bcast_S_S50000 (constant (F := Ideal) S_ .f32 0x00000000#32))
    (fun _ => GraphSage.Consts.ofBits_zero)
    (broadcastInDim S800000 ![] bcast_S_S800000 (constant (F := Ideal) S_ .f32 0x3F800000#32))
    (fun _ => GraphSage.Consts.ofBits_one.trans EReal.coe_one)
    (dstIdx (rowOf1 (Gen.W0 m ρ c (Proc.devRef .tc main_arg1)))) i
  have hone : (broadcastInDim S50000 ![] bcast_S_S50000 (constant (F := Ideal) S_ .f32 0x3F800000#32)) (ix1 i) = (1 : EReal) :=
    GraphSage.Consts.ofBits_one.trans EReal.coe_one
  have hdiv : ∀ (A B : FVec Ideal S50000 .f32) (k : S50000.Idx), Host.divf A B k = Ideal.div (A k) (B k) :=
    fun _ _ _ => rfl
  rw [hdiv, maximumf_apply, hone]
  refine Eq.trans (congrArg (fun t : EReal => Ideal.div 1 (max t 1)) hdeg) ?_
  simp only [zero_add]
  unfold GraphSage.invDeg GraphSage.degMax
  rfl

set_option maxHeartbeats 4000000 in
/-- The second aggregation: the rows of the first layer's output named by the stored source indices, added at the
    stored destination indices. -/
theorem stage7_aggr : Gen.W7 (F := Ideal) m ρ c (Proc.devRef .tc main_v57)
    = (fun i => 0 + GraphSage.aggr (GraphSage.incOf 50000 (dstIdx (Gen.W6 m ρ c (Proc.devRef .tc main_v3))))
        (GraphSage.srcRow (by norm_num) (srcIdx (Gen.W6 m ρ c (Proc.devRef .tc main_v1))))
        (Gen.W6 m ρ c (Proc.devRef .tc main_v47_0)) i) := by
  show StableHlo.after hostOps3 (Gen.W6 m ρ c) _ = _
  after_results_simp
  exact GraphSage.aggregate_eq (by norm_num) _ rfl rfl rfl rfl _ rfl rfl rfl rfl rfl _
    (fun j => GraphSage.Consts.ofBits_zero) _ _ _

set_option maxHeartbeats 4000000 in
/-- The third aggregation, at width 64: the rows of the second layer's projected output named by the stored source
    indices, added at the stored destination indices. -/
theorem stage13_aggr : Gen.W13 (F := Ideal) m ρ c (Proc.devRef .tc main_v90)
    = (fun i => 0 + GraphSage.aggr (GraphSage.incOf 50000 (dstIdx (Gen.W12 m ρ c (Proc.devRef .tc main_v3))))
        (GraphSage.srcRow (by norm_num) (srcIdx (Gen.W12 m ρ c (Proc.devRef .tc main_v1))))
        (Gen.W12 m ρ c (Proc.devRef .tc main_v80_0)) i) := by
  show StableHlo.after hostOps6 (Gen.W12 m ρ c) _ = _
  after_results_simp
  exact GraphSage.aggregate_eq (by norm_num) _ rfl rfl rfl rfl _ rfl rfl rfl rfl rfl _
    (fun j => GraphSage.Consts.ofBits_zero) _ _ _

end Cert.KernelIdeal.Val

end
-- ==== Proof.Algebra.lean ====
/-
  The algebra over the real numbers behind the two orders of computation.

  Every array here has real entries.  An array of extended reals all of whose entries are real is the
  entrywise coercion of an array of reals; sums, products, differences and quotients by a nonzero real of
  coerced reals are coerced reals.  So each identity between the two programs is read entry by entry, both
  sides are written as one coerced real, and the identity is an identity of real numbers:

  * scaling a row of a product by `1 / max (deg, 1)` is the product of the scaled row (distributivity);
  * aggregating the projected features is projecting the aggregated ones (one exchange of two finite sums);
  * with `μ = (Σ x) / n`, `(Σ x²) / n − μ² = (Σ (x − μ)²) / n`, a nonnegative number, so the quantity under
    the square root is the same positive real in both programs, and
    `x · (g · r) + (β − μ · (g · r)) = g · (x − μ) · r + β`.
-/
import proofs.«180069_j11596411699546_2_alg».proof.Proof.Spec

noncomputable section

namespace GraphSage

open Idealize.ShloMosaic Idealize.ShloMosaic.ValueIdx RowBlocks

/-- An array with real entries is the entrywise coercion of an array of reals. -/
theorem IsReal.exists_eq {ι : Type} {A : ι → EReal} (h : IsReal A) :
    ∃ a : ι → ℝ, A = fun i => (a i : EReal) := by
  choose a ha using h
  exact ⟨a, funext ha⟩

/-- The entrywise coercion of an array of reals has real entries. -/
theorem isReal_coe {ι : Type} (a : ι → ℝ) : IsReal (fun i => (a i : EReal)) := fun i => ⟨a i, rfl⟩

/-- The maximum of two coerced reals is the coerced maximum. -/
theorem max_coe_coe (a b : ℝ) : max (a : EReal) (b : EReal) = ((max a b : ℝ) : EReal) :=
  (EReal.coe_strictMono.monotone.map_max).symm

/-- A product of coerced arrays, entry by entry. -/
theorem mm_coe {m k c : ℕ} (a : (⟨2, ![m, k]⟩ : Shape).Idx → ℝ) (w : (⟨2, ![k, c]⟩ : Shape).Idx → ℝ) :
    mm (fun i => (a i : EReal)) (fun i => (w i : EReal))
      = fun i => ((∑ j : Fin k, a (ix2 (i 0) j) * w (ix2 j (i 1)) : ℝ) : EReal) := by
  funext i
  show (∑ j : Fin k, (a (ix2 (i 0) j) : EReal) * (w (ix2 j (i 1)) : EReal)) = _
  simp only [← EReal.coe_mul, coe_sum]

theorem mm_isReal {m k c : ℕ} (A : Mat m k) (W : Mat k c) (hA : IsReal A) (hW : IsReal W) : IsReal (mm A W) := by
  obtain ⟨a, rfl⟩ := hA.exists_eq
  obtain ⟨w, rfl⟩ := hW.exists_eq
  rw [mm_coe]
  exact isReal_coe _

section Graph
variable {n E : ℕ} (inc : Fin n → Finset (Fin E)) (src : Fin E → Fin n)

/-- The real number `max (deg i) 1`. -/
def dg (i : Fin n) : ℝ := max ((inc i).card : ℝ) 1

theorem dg_pos (i : Fin n) : 0 < dg inc i := lt_of_lt_of_le one_pos (le_max_right _ _)

theorem dg_ne (i : Fin n) : dg inc i ≠ 0 := (dg_pos inc i).ne'

theorem degMax_coe (i : Fin n) : degMax inc i = ((dg inc i : ℝ) : EReal) :=
  max_coe_coe _ _

theorem invDeg_coe (j : (⟨2, ![n, 1]⟩ : Shape).Idx) : invDeg inc j = ((1 / dg inc (j 0) : ℝ) : EReal) := by
  unfold invDeg
  rw [degMax_coe inc (j 0), Ideal.div_coe (dg_ne inc (j 0)), one_mul]

/-- The aggregation of a coerced array, entry by entry. -/
theorem aggr_coe {c : ℕ} (h : (⟨2, ![n, c]⟩ : Shape).Idx → ℝ) :
    aggr inc src (fun i => (h i : EReal))
      = fun i => ((∑ e ∈ inc (i 0), h (ix2 (src e) (i 1)) : ℝ) : EReal) := by
  funext i
  show (∑ e ∈ inc (i 0), (h (ix2 (src e) (i 1)) : EReal)) = _
  exact coe_sum _ _

theorem aggr_isReal {c : ℕ} (H : Mat n c) (hH : IsReal H) : IsReal (aggr inc src H) := by
  obtain ⟨h, rfl⟩ := hH.exists_eq
  rw [aggr_coe]
  exact isReal_coe _

/-- The mean aggregation of a coerced array, entry by entry. -/
theorem meanAggr_coe {c : ℕ} (h : (⟨2, ![n, c]⟩ : Shape).Idx → ℝ) :
    (fun j => Ideal.div (aggr inc src (fun i => (h i : EReal)) j) (degMax inc (j 0)))
      = fun j => (((∑ e ∈ inc (j 0), h (ix2 (src e) (j 1))) * (1 / dg inc (j 0)) : ℝ) : EReal) := by
  funext j
  rw [aggr_coe, degMax_coe inc (j 0), Ideal.div_coe (dg_ne inc (j 0)), ← EReal.coe_mul]

/-- first layer: scaling by 1/max(deg,1) after the product = dividing the aggregated features before it -/
theorem linAgg_eq_linRef {k c : ℕ} (x : Mat n k) (wl wr : Mat k c) (b : Vect c)
    (hx : IsReal x) (hwl : IsReal wl) (hwr : IsReal wr) (hb : IsReal b) :
    linAgg (aggr inc src x) x (invDeg inc) wl wr (fun j => b (ix1 (j 1)))
      = linRef (fun j => Ideal.div (aggr inc src x j) (degMax inc (j 0))) x wl wr b := by
  obtain ⟨x', rfl⟩ := hx.exists_eq
  obtain ⟨wl', rfl⟩ := hwl.exists_eq
  obtain ⟨wr', rfl⟩ := hwr.exists_eq
  obtain ⟨b', rfl⟩ := hb.exists_eq
  rw [meanAggr_coe, aggr_coe]
  unfold linAgg linRef
  rw [mm_coe, mm_coe, mm_coe]
  funext i
  obtain ⟨r, q, rfl⟩ : ∃ (r : Fin n) (q : Fin c), i = ix2 r q := ⟨i 0, i 1, eq_ix2 i⟩
  rw [invDeg_coe]
  show ((∑ j : Fin k, (∑ e ∈ inc r, x' (ix2 (src e) j)) * wl' (ix2 j q) : ℝ) : EReal) * ((1 / dg inc r : ℝ) : EReal)
        + ((∑ j : Fin k, x' (ix2 r j) * wr' (ix2 j q) : ℝ) : EReal) + (b' (ix1 q) : EReal)
      = ((∑ j : Fin k, ((∑ e ∈ inc r, x' (ix2 (src e) j)) * (1 / dg inc r)) * wl' (ix2 j q) : ℝ) : EReal)
        + (b' (ix1 q) : EReal) + ((∑ j : Fin k, x' (ix2 r j) * wr' (ix2 j q) : ℝ) : EReal)
  rw [← EReal.coe_mul, ← EReal.coe_add, ← EReal.coe_add, ← EReal.coe_add, ← EReal.coe_add]
  refine congrArg _ ?_
  rw [Finset.sum_mul]
  have h : ∀ j : Fin k, (∑ e ∈ inc r, x' (ix2 (src e) j)) * wl' (ix2 j q) * (1 / dg inc r)
      = (∑ e ∈ inc r, x' (ix2 (src e) j)) * (1 / dg inc r) * wl' (ix2 j q) := fun j => by ring
  rw [Finset.sum_congr rfl fun j _ => h j]
  ring

/-- later layers: aggregating the projected features = projecting the aggregated features -/
theorem combine_eq_linRef {k c : ℕ} (H : Mat n k) (wl wr : Mat k c) (b : Vect c)
    (hH : IsReal H) (hwl : IsReal wl) (hwr : IsReal wr) (hb : IsReal b) :
    combine (aggr inc src (mm H wl)) (mm H wr) (invDeg inc) (fun j => b (ix1 (j 1)))
      = linRef (fun j => Ideal.div (aggr inc src H j) (degMax inc (j 0))) H wl wr b := by
  obtain ⟨h', rfl⟩ := hH.exists_eq
  obtain ⟨wl', rfl⟩ := hwl.exists_eq
  obtain ⟨wr', rfl⟩ := hwr.exists_eq
  obtain ⟨b', rfl⟩ := hb.exists_eq
  rw [meanAggr_coe, mm_coe, mm_coe, aggr_coe]
  unfold combine linRef
  rw [mm_coe, mm_coe]
  funext i
  obtain ⟨r, q, rfl⟩ : ∃ (r : Fin n) (q : Fin c), i = ix2 r q := ⟨i 0, i 1, eq_ix2 i⟩
  rw [invDeg_coe]
  show ((∑ e ∈ inc r, ∑ j : Fin k, h' (ix2 (src e) j) * wl' (ix2 j q) : ℝ) : EReal) * ((1 / dg inc r : ℝ) : EReal)
        + ((∑ j : Fin k, h' (ix2 r j) * wr' (ix2 j q) : ℝ) : EReal) + (b' (ix1 q) : EReal)
      = ((∑ j : Fin k, ((∑ e ∈ inc r, h' (ix2 (src e) j)) * (1 / dg inc r)) * wl' (ix2 j q) : ℝ) : EReal)
        + (b' (ix1 q) : EReal) + ((∑ j : Fin k, h' (ix2 r j) * wr' (ix2 j q) : ℝ) : EReal)
  rw [← EReal.coe_mul, ← EReal.coe_add, ← EReal.coe_add, ← EReal.coe_add, ← EReal.coe_add]
  refine congrArg _ ?_
  rw [Finset.sum_comm, Finset.sum_mul]
  have h : ∀ j : Fin k, (∑ e ∈ inc r, h' (ix2 (src e) j) * wl' (ix2 j q)) * (1 / dg inc r)
      = (∑ e ∈ inc r, h' (ix2 (src e) j)) * (1 / dg inc r) * wl' (ix2 j q) := fun j => by
    rw [← Finset.sum_mul]; ring
  rw [Finset.sum_congr rfl fun j _ => h j]
  ring

theorem linRef_isReal {k c : ℕ} (H : Mat n k) (wl wr : Mat k c) (b : Vect c)
    (hH : IsReal H) (hwl : IsReal wl) (hwr : IsReal wr) (hb : IsReal b) :
    IsReal (linRef (fun j => Ideal.div (aggr inc src H j) (degMax inc (j 0))) H wl wr b) := by
  obtain ⟨h', rfl⟩ := hH.exists_eq
  obtain ⟨wl', rfl⟩ := hwl.exists_eq
  obtain ⟨wr', rfl⟩ := hwr.exists_eq
  obtain ⟨b', rfl⟩ := hb.exists_eq
  rw [meanAggr_coe]
  unfold linRef
  rw [mm_coe, mm_coe]
  intro i
  exact ⟨_, by beta_reduce; rw [← EReal.coe_add, ← EReal.coe_add]⟩

end Graph

section Norm
variable {n c : ℕ}

/-- The real column sums. -/
def rsum (l : (⟨2, ![n, c]⟩ : Shape).Idx → ℝ) (q : Fin c) : ℝ := ∑ i : Fin n, l (ix2 i q)

/-- The real column means, the count being `cnt`. -/
def cmean (cnt : ℝ) (l : (⟨2, ![n, c]⟩ : Shape).Idx → ℝ) (q : Fin c) : ℝ := rsum l q * (1 / cnt)

/-- Mean of the squares minus the square of the mean, plus `eps`. -/
def vfold (cnt eps : ℝ) (l : (⟨2, ![n, c]⟩ : Shape).Idx → ℝ) (q : Fin c) : ℝ :=
  rsum (fun i => l i * l i) q * (1 / cnt) - cmean cnt l q * cmean cnt l q + eps

/-- Mean of the squares of the centred entries, plus `eps`. -/
def vctr (cnt eps : ℝ) (l : (⟨2, ![n, c]⟩ : Shape).Idx → ℝ) (q : Fin c) : ℝ :=
  rsum (fun a => (l a - cmean cnt l (a 1)) * (l a - cmean cnt l (a 1))) q * (1 / cnt) + eps

theorem colSum_coe (l : (⟨2, ![n, c]⟩ : Shape).Idx → ℝ) :
    colSum (fun i => (l i : EReal)) = fun j => ((rsum l (j 0) : ℝ) : EReal) := by
  funext j
  show 0 + (∑ i : Fin n, (l (ix2 i (j 0)) : EReal)) = _
  rw [zero_add, coe_sum]
  rfl

/-- `(Σ x²)/n − ((Σ x)/n)² = (Σ (x − (Σ x)/n)²)/n` for a positive count `n`. -/
theorem var_fold (cnt : ℝ) (hcnt : (n : ℝ) = cnt) (hn : 0 < n) (f : Fin n → ℝ) :
    (∑ i, f i * f i) * (1 / cnt) - (∑ i, f i) * (1 / cnt) * ((∑ i, f i) * (1 / cnt))
      = (∑ i, (f i - (∑ i, f i) * (1 / cnt)) * (f i - (∑ i, f i) * (1 / cnt))) * (1 / cnt) := by
  have hc : cnt ≠ 0 := by rw [← hcnt]; exact_mod_cast hn.ne'
  have e : ∀ i, (f i - (∑ i, f i) * (1 / cnt)) * (f i - (∑ i, f i) * (1 / cnt))
      = f i * f i - 2 * ((∑ i, f i) * (1 / cnt)) * f i
        + ((∑ i, f i) * (1 / cnt)) * ((∑ i, f i) * (1 / cnt)) := fun i => by ring
  rw [Finset.sum_congr rfl fun i _ => e i, Finset.sum_add_distrib, Finset.sum_sub_distrib, ← Finset.mul_sum,
    Finset.sum_const, Finset.card_univ, Fintype.card_fin, nsmul_eq_mul, hcnt]
  field_simp
  ring

theorem vfold_eq_vctr (cnt eps : ℝ) (hcnt : (n : ℝ) = cnt) (hn : 0 < n)
    (l : (⟨2, ![n, c]⟩ : Shape).Idx → ℝ) (q : Fin c) : vfold cnt eps l q = vctr cnt eps l q := by
  unfold vfold vctr cmean rsum
  exact congrArg (· + eps) (var_fold cnt hcnt hn fun i => l (ix2 i q))

theorem vctr_pos (cnt eps : ℝ) (hc : 0 < cnt) (heps : 0 < eps)
    (l : (⟨2, ![n, c]⟩ : Shape).Idx → ℝ) (q : Fin c) : 0 < vctr cnt eps l q :=
  add_pos_of_nonneg_of_pos
    (mul_nonneg (Finset.sum_nonneg fun _ _ => mul_self_nonneg _) (one_div_pos.mpr hc).le) heps

/-- The reciprocal square root of a positive real. -/
theorem rsqrt_coe_pos {v : ℝ} (hv : 0 < v) : Ideal.rsqrt (v : EReal) = (((Real.sqrt v)⁻¹ : ℝ) : EReal) := by
  rw [Ideal.rsqrt_coe, if_neg (not_lt.mpr hv.le), if_neg hv.ne']

theorem foldScale_coe (cnt eps : ℝ) (hc : cnt ≠ 0) (l : (⟨2, ![n, c]⟩ : Shape).Idx → ℝ)
    (g : (⟨1, ![c]⟩ : Shape).Idx → ℝ) (j : (⟨1, ![c]⟩ : Shape).Idx) :
    foldScale (cnt : EReal) (eps : EReal) (fun i => (l i : EReal)) (fun j => (g j : EReal)) j
      = (g j : EReal) * Ideal.rsqrt ((vfold cnt eps l (j 0) : ℝ) : EReal) := by
  unfold foldScale vfold cmean
  simp only [← EReal.coe_mul, colSum_coe, Ideal.div_coe hc, ← EReal.coe_sub, ← EReal.coe_add]

theorem foldShift_coe (cnt eps : ℝ) (hc : cnt ≠ 0) (l : (⟨2, ![n, c]⟩ : Shape).Idx → ℝ)
    (g be : (⟨1, ![c]⟩ : Shape).Idx → ℝ) (j : (⟨1, ![c]⟩ : Shape).Idx) :
    foldShift (cnt : EReal) (eps : EReal) (fun i => (l i : EReal)) (fun j => (g j : EReal)) (fun j => (be j : EReal)) j
      = (be j : EReal) - ((cmean cnt l (j 0) : ℝ) : EReal)
          * ((g j : EReal) * Ideal.rsqrt ((vfold cnt eps l (j 0) : ℝ) : EReal)) := by
  unfold foldShift
  rw [foldScale_coe cnt eps hc, colSum_coe, Ideal.div_coe hc, ← EReal.coe_mul]
  rfl

theorem normRelu_coe (cnt eps : ℝ) (hc : cnt ≠ 0) (l : (⟨2, ![n, c]⟩ : Shape).Idx → ℝ)
    (g be : (⟨1, ![c]⟩ : Shape).Idx → ℝ) (i : (⟨2, ![n, c]⟩ : Shape).Idx) :
    normRelu (cnt : EReal) (cnt : EReal) (eps : EReal) (fun i => (l i : EReal)) (fun j => (g j : EReal))
        (fun j => (be j : EReal)) i
      = max ((g (ix1 (i 1)) : EReal) * ((l i : EReal) - ((cmean cnt l (i 1) : ℝ) : EReal))
          * Ideal.rsqrt ((vctr cnt eps l (i 1) : ℝ) : EReal) + (be (ix1 (i 1)) : EReal)) 0 := by
  unfold normRelu vctr cmean
  simp only [colSum_coe, Ideal.div_coe hc, ← EReal.coe_mul, ← EReal.coe_sub, ← EReal.coe_add]
  rfl

end Norm

section Fold
variable {n : ℕ}

/-- the folded normalisation (one scale and one shift per column from the sum and the sum of squares)
    is the entrywise one (centre, square, mean), for a positive row count `cnt = n` and `eps > 0` -/
theorem affRelu_fold_eq_normRelu {c : ℕ} (cnt eps : ℝ) (hcnt : (n : ℝ) = cnt) (hn : 0 < n) (heps : 0 < eps)
    (L : Mat n c) (g be : Vect c) (hL : IsReal L) (hg : IsReal g) (hbe : IsReal be) :
    affRelu L (fun j => foldScale (cnt : EReal) (eps : EReal) L g (ix1 (j 1)))
              (fun j => foldShift (cnt : EReal) (eps : EReal) L g be (ix1 (j 1)))
      = normRelu (cnt : EReal) (cnt : EReal) (eps : EReal) L g be := by
  obtain ⟨l, rfl⟩ := hL.exists_eq
  obtain ⟨g', rfl⟩ := hg.exists_eq
  obtain ⟨be', rfl⟩ := hbe.exists_eq
  have hc0 : 0 < cnt := by rw [← hcnt]; exact_mod_cast hn
  have hc : cnt ≠ 0 := hc0.ne'
  funext i
  obtain ⟨p, q, rfl⟩ : ∃ (p : Fin n) (q : Fin c), i = ix2 p q := ⟨i 0, i 1, eq_ix2 i⟩
  rw [normRelu_coe cnt eps hc]
  show max ((l (ix2 p q) : EReal)
        * foldScale (cnt : EReal) (eps : EReal) (fun i => (l i : EReal)) (fun j => (g' j : EReal)) (ix1 q)
      + foldShift (cnt : EReal) (eps : EReal) (fun i => (l i : EReal)) (fun j => (g' j : EReal))
          (fun j => (be' j : EReal)) (ix1 q)) 0
    = max ((g' (ix1 q) : EReal) * ((l (ix2 p q) : EReal) - ((cmean cnt l q : ℝ) : EReal))
          * Ideal.rsqrt ((vctr cnt eps l q : ℝ) : EReal) + (be' (ix1 q) : EReal)) 0
  rw [foldScale_coe cnt eps hc, foldShift_coe cnt eps hc]
  show max ((l (ix2 p q) : EReal) * ((g' (ix1 q) : EReal) * Ideal.rsqrt ((vfold cnt eps l q : ℝ) : EReal))
      + ((be' (ix1 q) : EReal) - ((cmean cnt l q : ℝ) : EReal)
          * ((g' (ix1 q) : EReal) * Ideal.rsqrt ((vfold cnt eps l q : ℝ) : EReal)))) 0 = _
  rw [vfold_eq_vctr cnt eps hcnt hn, rsqrt_coe_pos (vctr_pos cnt eps hc0 heps l q)]
  simp only [← EReal.coe_mul, ← EReal.coe_sub, ← EReal.coe_add]
  refine congrArg (fun t : ℝ => max (t : EReal) 0) ?_
  ring

theorem normRelu_isReal {c : ℕ} (cnt eps : ℝ) (hcnt : (n : ℝ) = cnt) (hn : 0 < n) (heps : 0 < eps)
    (L : Mat n c) (g be : Vect c) (hL : IsReal L) (hg : IsReal g) (hbe : IsReal be) :
    IsReal (normRelu (cnt : EReal) (cnt : EReal) (eps : EReal) L g be) := by
  obtain ⟨l, rfl⟩ := hL.exists_eq
  obtain ⟨g', rfl⟩ := hg.exists_eq
  obtain ⟨be', rfl⟩ := hbe.exists_eq
  have hc0 : 0 < cnt := by rw [← hcnt]; exact_mod_cast hn
  have hc : cnt ≠ 0 := hc0.ne'
  intro i
  rw [normRelu_coe cnt eps hc, rsqrt_coe_pos (vctr_pos cnt eps hc0 heps l (i 1))]
  simp only [← EReal.coe_mul, ← EReal.coe_sub, ← EReal.coe_add]
  exact ⟨_, max_coe_coe _ 0⟩

end Fold

end GraphSage

end
-- ==== Proof.Net.lean ====
/-
  The three layers end to end.  With the graph (the edges arriving at each node, the node each edge leaves) and
  the weights fixed, each program maps the node features through three layers; the two pipelines agree on real
  entries, layer by layer: the linear parts by distributivity and an exchange of finite sums, the normalisations
  because the mean of the squares less the square of the mean is the mean of the squared deviations.  Every
  intermediate array of reals stays an array of reals, which is what lets the next layer's laws apply.
-/
import proofs.«180069_j11596411699546_2_alg».proof.Proof.Algebra
import proofs.«180069_j11596411699546_2_alg».proof.Proof.Consts

noncomputable section

namespace GraphSage

open Idealize.ShloMosaic Idealize.ShloMosaic.ValueIdx RowBlocks

/-- The node count as the programs spell it. -/
def cntE : EReal := Ideal.ofBits .f32 0x47435000#32
/-- The variance offset as the programs spell it. -/
def epsE : EReal := Ideal.ofBits .f32 0x3727C5AC#32

section
variable {n E : ℕ} (inc : Fin n → Finset (Fin E)) (src : Fin E → Fin n)

/-- First layer, linear part, scaling after the product. -/
def kLinFirst {k c : ℕ} (x : Mat n k) (wl wr : Mat k c) (b : Vect c) : Mat n c :=
  linAgg (aggr inc src x) x (invDeg inc) wl wr (fun j => b (ix1 (j 1)))

/-- Later layers, linear part, aggregating the projected features. -/
def kLinNext {k c : ℕ} (H : Mat n k) (wl wr : Mat k c) (b : Vect c) : Mat n c :=
  combine (aggr inc src (mm H wl)) (mm H wr) (invDeg inc) (fun j => b (ix1 (j 1)))

/-- The folded normalisation and positive part. -/
def kNorm {c : ℕ} (L : Mat n c) (g be : Vect c) : Mat n c :=
  affRelu L (fun j => foldScale cntE epsE L g (ix1 (j 1))) (fun j => foldShift cntE epsE L g be (ix1 (j 1)))

/-- A layer's linear part, dividing the aggregated features first. -/
def rLin {k c : ℕ} (H : Mat n k) (wl wr : Mat k c) (b : Vect c) : Mat n c :=
  linRef (fun j => Ideal.div (aggr inc src H j) (degMax inc (j 0))) H wl wr b

/-- The entrywise normalisation and positive part. -/
def rNorm {c : ℕ} (L : Mat n c) (g be : Vect c) : Mat n c := normRelu cntE cntE epsE L g be

theorem kLinFirst_eq {k c : ℕ} (x : Mat n k) (wl wr : Mat k c) (b : Vect c)
    (hx : IsReal x) (hwl : IsReal wl) (hwr : IsReal wr) (hb : IsReal b) :
    kLinFirst inc src x wl wr b = rLin inc src x wl wr b := linAgg_eq_linRef inc src x wl wr b hx hwl hwr hb

theorem kLinNext_eq {k c : ℕ} (H : Mat n k) (wl wr : Mat k c) (b : Vect c)
    (hH : IsReal H) (hwl : IsReal wl) (hwr : IsReal wr) (hb : IsReal b) :
    kLinNext inc src H wl wr b = rLin inc src H wl wr b := combine_eq_linRef inc src H wl wr b hH hwl hwr hb

theorem rLin_isReal {k c : ℕ} (H : Mat n k) (wl wr : Mat k c) (b : Vect c)
    (hH : IsReal H) (hwl : IsReal wl) (hwr : IsReal wr) (hb : IsReal b) :
    IsReal (rLin inc src H wl wr b) := linRef_isReal inc src H wl wr b hH hwl hwr hb
end

theorem kNorm_eq {c : ℕ} (L : Mat 50000 c) (g be : Vect c) (hL : IsReal L) (hg : IsReal g) (hbe : IsReal be) :
    kNorm L g be = rNorm L g be := by
  unfold kNorm rNorm cntE epsE
  rw [Consts.ofBits_count, Consts.ofBits_eps]
  exact affRelu_fold_eq_normRelu (n := 50000) 50000 Consts.epsR (by norm_num) (by norm_num) Consts.epsR_pos L g be hL hg hbe

theorem rNorm_isReal {c : ℕ} (L : Mat 50000 c) (g be : Vect c) (hL : IsReal L) (hg : IsReal g) (hbe : IsReal be) :
    IsReal (rNorm L g be) := by
  unfold rNorm cntE epsE
  rw [Consts.ofBits_count, Consts.ofBits_eps]
  exact normRelu_isReal (n := 50000) 50000 Consts.epsR (by norm_num) (by norm_num) Consts.epsR_pos L g be hL hg hbe

section
variable {E : ℕ} (inc : Fin 50000 → Finset (Fin E)) (src : Fin E → Fin 50000)
variable (x : Mat 50000 128) (wl1 wr1 : Mat 128 256) (b1 g1 be1 : Vect 256)
  (wl2 wr2 : Mat 256 128) (b2 g2 be2 : Vect 128) (wl3 wr3 : Mat 128 64) (b3 g3 be3 : Vect 64)

/-- The node features after three layers, computed the first way. -/
def kFeatures : Mat 50000 64 :=
  kNorm (kLinNext inc src (kNorm (kLinNext inc src (kNorm (kLinFirst inc src x wl1 wr1 b1) g1 be1) wl2 wr2 b2) g2 be2) wl3 wr3 b3) g3 be3

/-- The node features after three layers, computed the second way. -/
def rFeatures : Mat 50000 64 :=
  rNorm (rLin inc src (rNorm (rLin inc src (rNorm (rLin inc src x wl1 wr1 b1) g1 be1) wl2 wr2 b2) g2 be2) wl3 wr3 b3) g3 be3

/-- On real inputs the two ways give the same node features. -/
theorem kFeatures_eq_rFeatures (hx : IsReal x) (hwl1 : IsReal wl1) (hwr1 : IsReal wr1) (hb1 : IsReal b1) (hg1 : IsReal g1)
    (hbe1 : IsReal be1) (hwl2 : IsReal wl2) (hwr2 : IsReal wr2) (hb2 : IsReal b2) (hg2 : IsReal g2) (hbe2 : IsReal be2)
    (hwl3 : IsReal wl3) (hwr3 : IsReal wr3) (hb3 : IsReal b3) (hg3 : IsReal g3) (hbe3 : IsReal be3) :
    kFeatures inc src x wl1 wr1 b1 g1 be1 wl2 wr2 b2 g2 be2 wl3 wr3 b3 g3 be3
      = rFeatures inc src x wl1 wr1 b1 g1 be1 wl2 wr2 b2 g2 be2 wl3 wr3 b3 g3 be3 := by
  unfold kFeatures rFeatures
  have hL1 := rLin_isReal inc src x wl1 wr1 b1 hx hwl1 hwr1 hb1
  have hH1 := rNorm_isReal _ g1 be1 hL1 hg1 hbe1
  have hL2 := rLin_isReal inc src _ wl2 wr2 b2 hH1 hwl2 hwr2 hb2
  have hH2 := rNorm_isReal _ g2 be2 hL2 hg2 hbe2
  have hL3 := rLin_isReal inc src _ wl3 wr3 b3 hH2 hwl3 hwr3 hb3
  rw [kLinFirst_eq inc src x wl1 wr1 b1 hx hwl1 hwr1 hb1, kNorm_eq _ g1 be1 hL1 hg1 hbe1,
    kLinNext_eq inc src _ wl2 wr2 b2 hH1 hwl2 hwr2 hb2, kNorm_eq _ g2 be2 hL2 hg2 hbe2,
    kLinNext_eq inc src _ wl3 wr3 b3 hH2 hwl3 hwr3 hb3, kNorm_eq _ g3 be3 hL3 hg3 hbe3]
end

end GraphSage

end
-- ==== Proof.SpecMlp.lean ====
/-
  The head of the network: three linear maps with biases, the first two followed by a positive part, applied to
  the per-graph mean of the node features.
-/
import proofs.«180069_j11596411699546_2_alg».proof.Proof.Spec

noncomputable section

namespace GraphSage

open Idealize.ShloMosaic Idealize.ShloMosaic.ValueIdx RowBlocks

/-- One linear map with a bias row followed by the positive part. -/
def linRelu {n k c : ℕ} (p : Mat n k) (w : Mat k c) (b : Mat 1 c) : Mat n c :=
  fun i => max (mm p w i + b (ix2 0 (i 1))) 0

/-- The head: `max (p·w1 + b1) 0`, then `max (·w2 + b2) 0`, then `·w3 + b3`. -/
def mlp (p : Mat 64 64) (w1 : Mat 64 64) (b1 : Mat 1 64) (w2 : Mat 64 32) (b2 : Mat 1 32) (w3 : Mat 32 2) (b3 : Mat 1 2) :
    Mat 64 2 :=
  fun i => mm (linRelu (linRelu p w1 b1) w2 b2) w3 i + b3 (ix2 0 (i 1))

end GraphSage

end
-- ==== Proof.KRegion0.lean ====
/-
  The first layer's linear part, block by block and then as one array.

  The region walks the 50000 nodes in 25 blocks of 2000 rows.  At each block it multiplies the block of
  aggregated features by the left weights, scales each row by that row's reciprocal degree, adds the block of
  features times the right weights and the bias row.  Every one of these operations is local to a row, so the
  array the region leaves is the same formula read on all rows at once.
-/
import proofs.«180069_j11596411699546_2_alg».proof.Proof.Gen.KernelIdeal.Frame
import proofs.«180069_j11596411699546_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen RowBlocks GraphSage

/-- The contraction of the block's product is the plain matrix product. -/
theorem plain0 : PlainSum dot_S2000x128_S128x256_S2000x256_1_0_0_1_n_n :=
  plainSum_of _ rfl rfl (fun _ _ => rfl) (fun _ _ => rfl) (fun _ _ => rfl) (fun _ _ => rfl)

/-- The block's payload at row `r`, column `q`. -/
theorem pay0_ix (x0 x1 : Vec Ideal S2000x128 .f32) (wl wr : Vec Ideal S128x256 .bf16) (d : Vec Ideal S2000x1 .f32)
    (b : Vec Ideal S1x256 .f32) (r : Fin 2000) (q : Fin 256) :
    k0_pay1 (F := Ideal) x0 x1 wl wr d b (ix2 r q)
      = (∑ j : Fin 128, x0 (ix2 r j) * wl (ix2 j q)) * d (ix2 r 0) + (∑ j : Fin 128, x1 (ix2 r j) * wr (ix2 j q))
        + b (ix2 0 q) := by
  unfold k0_pay1
  simp only [shapeCast_self]
  rw [addf_apply, addf_apply, mulf_apply]
  rw [matmul_zero_ix2 _ plain0, matmul_zero_ix2 _ plain0]
  rw [broadcastTo_apply d _ _ (ix2 r 0) (fun a => match a with
    | ⟨0, _⟩ => by show r.val = if (2000 : Nat) = 1 then 0 else r.val; rw [if_neg (by decide)]
    | ⟨1, _⟩ => by show 0 = if (1 : Nat) = 1 then 0 else _; rw [if_pos rfl])]
  rw [broadcastTo_apply b _ _ (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])]
  rfl

/-- The whole-buffer rectangle's offsets are zero. -/
theorem hz0 : (![0, 0] : Fin 2 → Nat) = fun _ => 0 := funext fun a => by fin_cases a <;> rfl

/-- The block's payload on a block of rows: when the row blocks are rows `off …` of whole arrays and the weights
    and the bias are the whole arrays, the payload at a block index is the whole-array formula at the array index
    `off` rows further down. -/
theorem pay0_rows (A0 A1 : Mat 50000 128) (Dg : Mat 50000 1) (WL WR : Mat 128 256) (B : Mat 1 256)
    (x0 x1 : Vec Ideal S2000x128 .f32) (wl wr : Vec Ideal S128x256 .bf16) (d : Vec Ideal S2000x1 .f32)
    (b : Vec Ideal S1x256 .f32) (off : ℕ) (hoff : off + 2000 ≤ 50000)
    (h0 : x0 = rows off hoff A0) (h1 : x1 = rows off hoff A1) (hd : d = rows off hoff Dg)
    (hwl : wl = WL) (hwr : wr = WR) (hb : b = B)
    (y : S2000x256.Idx) (i : S50000x256.Idx) (hi0 : (i 0).val = off + (y 0).val) (hi1 : (i 1).val = (y 1).val) :
    k0_pay1 (F := Ideal) x0 x1 wl wr d b y = linAgg A0 A1 Dg WL WR B i := by
  subst h0 h1 hd hwl hwr hb
  obtain ⟨r, q, rfl⟩ : ∃ (r : Fin 2000) (q : Fin 256), y = ix2 r q := ⟨y 0, y 1, eq_ix2 y⟩
  have hi : i = ix2 ⟨off + r.val, by have := r.isLt; omega⟩ q := funext fun a => Fin.ext (by
    match a with
    | ⟨0, _⟩ => exact hi0
    | ⟨1, _⟩ => exact hi1)
  rw [hi, pay0_ix]
  rfl

/-- The printed index maps, decided over the grid: the row-block windows sit at block `t` of the rows, the
    weight and bias windows at block zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem off0 (t : Fin cfg0.N) : t.val * 2000 + 2000 ≤ 50000 := by
  have hN : cfg0.N = 25 := N_0
  have := t.isLt
  omega

section Blocks
variable (V : (c : Dev nD) → (b : Ref sig .tc) → Buf (Elt Ideal) ((c : Thread nD τ).loc b)) (c : Dev nD)

/-- The block of aggregated features at point `t` is rows `2000 t …` of the array. -/
theorem iblk0_0 (t : Fin cfg0.N) :
    (iblk0 (F := Ideal) V c 0 t : Vec Ideal S2000x128 .f32)
      = rows (t.val * 2000) (off0 t) (V c (Pipeline.arrRef spec0 0) : Mat 50000 128) := by
  obtain ⟨e0, e1, -⟩ := idx0 t
  funext y
  unfold iblk0
  rw [View.read_apply]
  refine congrArg (V c (Pipeline.arrRef spec0 0) : Mat 50000 128) (funext fun a => Fin.ext ?_)
  match a with
  | ⟨0, _⟩ => show win0_0.index t (0 : Fin 2) * 2000 + 1 * (y 0).val = t.val * 2000 + (y 0).val; rw [e0]; omega
  | ⟨1, _⟩ => show win0_0.index t (1 : Fin 2) * 128 + 1 * (y 1).val = (y 1).val; rw [e1]; omega

/-- The block of features at point `t` is rows `2000 t …` of the array. -/
theorem iblk0_1 (t : Fin cfg0.N) :
    (iblk0 (F := Ideal) V c 1 t : Vec Ideal S2000x128 .f32)
      = rows (t.val * 2000) (off0 t) (V c (Pipeline.arrRef spec0 1) : Mat 50000 128) := by
  obtain ⟨-, -, e0, e1, -⟩ := idx0 t
  funext y
  unfold iblk0
  rw [View.read_apply]
  refine congrArg (V c (Pipeline.arrRef spec0 1) : Mat 50000 128) (funext fun a => Fin.ext ?_)
  match a with
  | ⟨0, _⟩ => show win0_1.index t (0 : Fin 2) * 2000 + 1 * (y 0).val = t.val * 2000 + (y 0).val; rw [e0]; omega
  | ⟨1, _⟩ => show win0_1.index t (1 : Fin 2) * 128 + 1 * (y 1).val = (y 1).val; rw [e1]; omega

/-- The block of reciprocal degrees at point `t` is rows `2000 t …` of the column. -/
theorem iblk0_2 (t : Fin cfg0.N) :
    (iblk0 (F := Ideal) V c 2 t : Vec Ideal S2000x1 .f32)
      = rows (t.val * 2000) (off0 t) (V c (Pipeline.arrRef spec0 2) : Mat 50000 1) := by
  obtain ⟨-, -, -, -, e0, e1, -⟩ := idx0 t
  funext y
  unfold iblk0
  rw [View.read_apply]
  refine congrArg (V c (Pipeline.arrRef spec0 2) : Mat 50000 1) (funext fun a => Fin.ext ?_)
  match a with
  | ⟨0, _⟩ => show win0_2.index t (0 : Fin 2) * 2000 + 1 * (y 0).val = t.val * 2000 + (y 0).val; rw [e0]; omega
  | ⟨1, _⟩ => show win0_2.index t (1 : Fin 2) * 1 + 1 * (y 1).val = (y 1).val; rw [e1]; omega

/-- The left weights' window is the whole array at every point. -/
theorem iblk0_3 (t : Fin cfg0.N) :
    (iblk0 (F := Ideal) V c 3 t : Vec Ideal S128x256 .bf16) = (V c (Pipeline.arrRef spec0 3) : Mat 128 256) := by
  obtain ⟨-, -, -, -, -, -, e0, e1, -⟩ := idx0 t
  funext y
  unfold iblk0
  rw [View.read_apply]
  refine congrArg (V c (Pipeline.arrRef spec0 3) : Mat 128 256) (funext fun a => Fin.ext ?_)
  match a with
  | ⟨0, _⟩ => show win0_3.index t (0 : Fin 2) * 128 + 1 * (y 0).val = (y 0).val; rw [e0]; omega
  | ⟨1, _⟩ => show win0_3.index t (1 : Fin 2) * 256 + 1 * (y 1).val = (y 1).val; rw [e1]; omega

/-- The right weights' window is the whole array at every point. -/
theorem iblk0_4 (t : Fin cfg0.N) :
    (iblk0 (F := Ideal) V c 4 t : Vec Ideal S128x256 .bf16) = (V c (Pipeline.arrRef spec0 4) : Mat 128 256) := by
  obtain ⟨-, -, -, -, -, -, -, -, e0, e1, -⟩ := idx0 t
  funext y
  unfold iblk0
  rw [View.read_apply]
  refine congrArg (V c (Pipeline.arrRef spec0 4) : Mat 128 256) (funext fun a => Fin.ext ?_)
  match a with
  | ⟨0, _⟩ => show win0_4.index t (0 : Fin 2) * 128 + 1 * (y 0).val = (y 0).val; rw [e0]; omega
  | ⟨1, _⟩ => show win0_4.index t (1 : Fin 2) * 256 + 1 * (y 1).val = (y 1).val; rw [e1]; omega

/-- The bias row's window is the whole row at every point. -/
theorem iblk0_5 (t : Fin cfg0.N) :
    (iblk0 (F := Ideal) V c 5 t : Vec Ideal S1x256 .f32) = (V c (Pipeline.arrRef spec0 5) : Mat 1 256) := by
  obtain ⟨-, -, -, -, -, -, -, -, -, -, e0, e1, -⟩ := idx0 t
  funext y
  unfold iblk0
  rw [View.read_apply]
  refine congrArg (V c (Pipeline.arrRef spec0 5) : Mat 1 256) (funext fun a => Fin.ext ?_)
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-- WHAT POINT `t` WRITES BACK is block `t` of the whole-array formula on the region's input arrays. -/
theorem flushed0 (t : Fin cfg0.N) :
    (dat0 (F := Ideal) V c).flushed 6 t
      = ((cfg0.win 6).blk t).view.read (Elt Ideal)
          (linAgg (V c (Pipeline.arrRef spec0 0)) (V c (Pipeline.arrRef spec0 1)) (V c (Pipeline.arrRef spec0 2))
            (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz0]
  simp only [View.ld_unit_zero (S := S2000x128) hz0, View.ld_unit_zero (S := S128x256) hz0,
    View.ld_unit_zero (S := S2000x1) hz0, View.ld_unit_zero (S := S1x256) hz0]
  obtain ⟨-, -, -, -, -, -, -, -, -, -, -, -, e0, e1⟩ := idx0 t
  funext y
  rw [View.read_apply]
  refine pay0_rows (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (iblk0 V c 0 t) (iblk0 V c 1 t) (iblk0 V c 3 t) (iblk0 V c 4 t) (iblk0 V c 2 t) (iblk0 V c 5 t)
    (t.val * 2000) (off0 t) (iblk0_0 V c t) (iblk0_1 V c t) (iblk0_2 V c t) (iblk0_3 V c t) (iblk0_4 V c t)
    (iblk0_5 V c t) y (((cfg0.win 6).blk t).view.emb y) ?_ ?_
  · show win0_6.index t (0 : Fin 2) * 2000 + 1 * (y 0).val = t.val * 2000 + (y 0).val; rw [e0]; omega
  · show win0_6.index t (1 : Fin 2) * 256 + 1 * (y 1).val = (y 1).val; rw [e1]; omega

/-- An index of the array is in point `t`'s block iff each coordinate is in the block's range on its axis. -/
theorem mem_blk0 (t : Fin cfg0.N) (i : S50000x256.Idx) :
    i ∈ ((cfg0.win 6).blk t).view.set
      ↔ ∀ a : Fin 2, win0_6.index t a * S2000x256.size a ≤ (i a).val
          ∧ (i a).val < win0_6.index t a * S2000x256.size a + S2000x256.size a := by
  show i ∈ ((View.whole main_v26).slice (win0_6.rect t)).set ↔ _
  rw [View.set_slice_whole, Rect.mem_set_unit]
  exact Iff.rfl

/-- Every row is in the block of the point `row / 2000`. -/
theorem cover0 (i : S50000x256.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 256 := (i 1).isLt
  let t : Fin cfg0.N := ⟨(i 0).val / 2000, by rw [hN]; omega⟩
  obtain ⟨-, -, -, -, -, -, -, -, -, -, -, -, e0, e1⟩ := idx0 t
  have ht : t.val = (i 0).val / 2000 := rfl
  refine ⟨t, flush0_6 t, ?_⟩
  rw [mem_blk0]
  intro a
  match a with
  | ⟨0, _⟩ =>
    show win0_6.index t (0 : Fin 2) * 2000 ≤ (i 0).val ∧ (i 0).val < win0_6.index t (0 : Fin 2) * 2000 + 2000
    rw [e0, ht]; omega
  | ⟨1, _⟩ =>
    show win0_6.index t (1 : Fin 2) * 256 ≤ (i 1).val ∧ (i 1).val < win0_6.index t (1 : Fin 2) * 256 + 256
    rw [e1]; omega

/-- THE ARRAY AFTER THE REGION: the scaled product of the aggregated features, plus the product of the
    features, plus the bias row, on all rows at once. -/
theorem region0_out :
    (dat0 (F := Ideal) V c).arrAt 6 cfg0.N
      = linAgg (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => flushed0 V c t) cover0

end Blocks

end Cert.KernelIdeal.Val

end
-- ==== Proof.KRegion1.lean ====
/-
  The value of the second kernel region (an affine map per column followed by the positive part), as one
  function of the region's three input arrays.

  The region walks the 50000 × 256 array in 25 blocks of 2000 rows; at each block it multiplies every entry by
  the scale of its column, adds the shift of its column and takes the maximum with zero.  Every operation is
  local to an entry, so block `t` of the result is block `t` of the whole-array function `GraphSage.affRelu`,
  and the 25 blocks tile the array.
-/
import proofs.«180069_j11596411699546_2_alg».proof.Proof.Gen.KernelIdeal.Frame
import proofs.«180069_j11596411699546_2_alg».proof.Proof.Spec
import Idealize.ShloMosaic.Lib.ValueLayout

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a constant function. -/
theorem zero_off1 : (![0, 0] : Fin 2 → Nat) = fun _ => 0 := funext fun a => by fin_cases a <;> rfl

/-- The block's arithmetic at an entry: the entry times its column's scale plus its column's shift, or zero
    if that is negative. -/
theorem affRelu_block1 (x0 : Vec Ideal S2000x256 .f32) (x1 x2 : Vec Ideal S1x256 .f32) (r : Fin 2000) (q : Fin 256) :
    Gen.k1_pay1 x0 x1 x2 (ix2 r q) = max (x0 (ix2 r q) * x1 (ix2 (0 : Fin 1) q) + x2 (ix2 (0 : Fin 1) q)) 0 := by
  unfold Gen.k1_pay1
  simp only [shapeCast_self]
  rw [maximumf_apply, addf_apply, mulf_apply, broadcastTo_1b_ab_apply, broadcastTo_1b_ab_apply, broadcast_apply,
    Ideal.ofBits_def, Ideal.ofBits_zero_f32]

/-- Where the blocks sit: at point `t` the row-blocked windows (the input and the output) are at block `t` of
    the rows, the scale and shift rows at their only block. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block's arithmetic at an entry is the whole-array function at the entry's place in the array, when the block's
    entry is the array's there and the block's scale and shift are the array's on that column. -/
theorem affRelu_point1 (A : GraphSage.Mat 50000 256) (S T : GraphSage.Mat 1 256) (x0 : Vec Ideal S2000x256 .f32)
    (x1 x2 : Vec Ideal S1x256 .f32) (j : S2000x256.Idx) (i : S50000x256.Idx) (h0 : x0 j = A i)
    (h1 : x1 (ix2 (0 : Fin 1) (j 1)) = S (ix2 (0 : Fin 1) (i 1))) (h2 : x2 (ix2 (0 : Fin 1) (j 1)) = T (ix2 (0 : Fin 1) (i 1))) :
    Gen.k1_pay1 x0 x1 x2 j = GraphSage.affRelu A S T i := by
  obtain ⟨r, q, rfl⟩ : ∃ (r : Fin 2000) (q : Fin 256), j = ix2 r q := ⟨j 0, j 1, eq_ix2 j⟩
  have h1' : x1 (ix2 (0 : Fin 1) q) = S (ix2 (0 : Fin 1) (i 1)) := h1
  have h2' : x2 (ix2 (0 : Fin 1) q) = T (ix2 (0 : Fin 1) (i 1)) := h2
  rw [affRelu_block1, h0, h1', h2']
  rfl

/-- Point `t`'s block of the input array, read where the output's block says. -/
theorem read1_0 (c : Dev nD) (t : Fin cfg1.N) (j : S2000x256.Idx) :
    (Gen.iblk1 V c 0 t : Vec Ideal S2000x256 .f32) j = V c (Pipeline.arrRef spec1 0) (((cfg1.win 3).blk t).view.emb j) := by
  obtain ⟨e0, e1, -, -, -, -, e6, e7⟩ := block_index1 t
  show V c (Pipeline.arrRef spec1 0) (((cfg1.win 0).blk t).view.emb j) = V c (Pipeline.arrRef spec1 0) (((cfg1.win 3).blk t).view.emb j)
  refine congrArg (V c (Pipeline.arrRef spec1 0)) (funext fun a => Fin.ext ?_)
  match a with
  | ⟨0, _⟩ => show win1_0.index t (0 : Fin 2) * 2000 + 1 * (j 0).val = win1_3.index t (0 : Fin 2) * 2000 + 1 * (j 0).val; rw [e0, e6]
  | ⟨1, _⟩ => show win1_0.index t (1 : Fin 2) * 256 + 1 * (j 1).val = win1_3.index t (1 : Fin 2) * 256 + 1 * (j 1).val; rw [e1, e7]

/-- The scale row, read on the column the output's block says. -/
theorem read1_1 (c : Dev nD) (t : Fin cfg1.N) (j : S2000x256.Idx) :
    (Gen.iblk1 V c 1 t : Vec Ideal S1x256 .f32) (ix2 (0 : Fin 1) (j 1))
      = V c (Pipeline.arrRef spec1 1) (ix2 (0 : Fin 1) ((((cfg1.win 3).blk t).view.emb j) 1)) := by
  obtain ⟨-, -, e2, e3, -, -, e6, e7⟩ := block_index1 t
  show V c (Pipeline.arrRef spec1 1) (((cfg1.win 1).blk t).view.emb (ix2 (0 : Fin 1) (j 1))) = _
  refine congrArg (V c (Pipeline.arrRef spec1 1)) (funext fun a => Fin.ext ?_)
  match a with
  | ⟨0, _⟩ => show win1_1.index t (0 : Fin 2) * 1 + 1 * 0 = 0; rw [e2]
  | ⟨1, _⟩ => show win1_1.index t (1 : Fin 2) * 256 + 1 * (j 1).val = win1_3.index t (1 : Fin 2) * 256 + 1 * (j 1).val; rw [e3, e7]

/-- The shift row, read on the column the output's block says. -/
theorem read1_2 (c : Dev nD) (t : Fin cfg1.N) (j : S2000x256.Idx) :
    (Gen.iblk1 V c 2 t : Vec Ideal S1x256 .f32) (ix2 (0 : Fin 1) (j 1))
      = V c (Pipeline.arrRef spec1 2) (ix2 (0 : Fin 1) ((((cfg1.win 3).blk t).view.emb j) 1)) := by
  obtain ⟨-, -, -, -, e4, e5, e6, e7⟩ := block_index1 t
  show V c (Pipeline.arrRef spec1 2) (((cfg1.win 2).blk t).view.emb (ix2 (0 : Fin 1) (j 1))) = _
  refine congrArg (V c (Pipeline.arrRef spec1 2)) (funext fun a => Fin.ext ?_)
  match a with
  | ⟨0, _⟩ => show win1_2.index t (0 : Fin 2) * 1 + 1 * 0 = 0; rw [e4]
  | ⟨1, _⟩ => show win1_2.index t (1 : Fin 2) * 256 + 1 * (j 1).val = win1_3.index t (1 : Fin 2) * 256 + 1 * (j 1).val; rw [e5, e7]

/-- WHAT POINT `t` WRITES BACK is block `t` of the affine map and positive part of the whole arrays. -/
theorem flushed1_eq (c : Dev nD) (t : Fin cfg1.N) :
    (Gen.dat1 (F := Ideal) V c).flushed 3 t = ((cfg1.win 3).blk t).view.read (Elt Ideal)
      (GraphSage.affRelu (V c (Pipeline.arrRef spec1 0)) (V c (Pipeline.arrRef spec1 1)) (V c (Pipeline.arrRef spec1 2))) := by
  show (cfg1.win 3).cut (grid1.coords t) ((Gen.dat1 V c).after 3 t) = _
  rw [Gen.after1_3]
  unfold Gen.out1_3
  rw [View.canon_unit_zero zero_off1]
  simp only [View.ld_unit_zero (S := S2000x256) zero_off1, View.ld_unit_zero (S := S1x256) zero_off1]
  funext j
  show Gen.k1_pay1 (Gen.iblk1 V c 0 t) (Gen.iblk1 V c 1 t) (Gen.iblk1 V c 2 t) j
    = GraphSage.affRelu _ _ _ (((cfg1.win 3).blk t).view.emb j)
  exact affRelu_point1 _ _ _ (Gen.iblk1 V c 0 t) (Gen.iblk1 V c 1 t) (Gen.iblk1 V c 2 t) j _
    (read1_0 V c t j) (read1_1 V c t j) (read1_2 V c t j)

/-- An index of the array is in point `t`'s block iff each coordinate is in the block's range on its axis. -/
theorem mem_block1 (t : Fin cfg1.N) (i : S50000x256.Idx) :
    i ∈ ((cfg1.win 3).blk t).view.set ↔ ∀ a : Fin 2, win1_3.index t a * S2000x256.size a ≤ (i a).val
      ∧ (i a).val < win1_3.index t a * S2000x256.size a + S2000x256.size a := by
  show i ∈ ((View.whole main_v44).slice (win1_3.rect t)).set ↔ _
  rw [View.set_slice_whole, Rect.mem_set_unit]
  exact Iff.rfl

/-- THE ARRAY after the region: the affine map and positive part of the region's input arrays.  Row `r` is
    written by point `r / 2000`. -/
theorem region1_out (c : Dev nD) :
    (Gen.dat1 (F := Ideal) V c).arrAt 3 cfg1.N
      = GraphSage.affRelu (V c (Pipeline.arrRef spec1 0)) (V c (Pipeline.arrRef spec1 1)) (V c (Pipeline.arrRef spec1 2)) :=
  (Gen.dat1 (F := Ideal) V c).arrAt_eq_of_cover 3 _ (fun t _ => flushed1_eq V c t) (fun i => by
    have hi0 : ((i : S50000x256.Idx) 0).val < 50000 := (i 0).isLt
    have hi1 : ((i : S50000x256.Idx) 1).val < 256 := (i 1).isLt
    have hN : cfg1.N = 25 := Gen.N_1
    have ht : ((i : S50000x256.Idx) 0).val / 2000 < cfg1.N := by rw [hN]; omega
    obtain ⟨-, -, -, -, -, -, e6, e7⟩ := block_index1 ⟨_, ht⟩
    refine ⟨⟨_, ht⟩, Gen.flush1_3 _, ?_⟩
    rw [mem_block1]
    intro a
    match a with
    | ⟨0, _⟩ =>
      show win1_3.index _ (0 : Fin 2) * 2000 ≤ (i 0).val ∧ (i 0).val < win1_3.index _ (0 : Fin 2) * 2000 + 2000
      rw [e6]; show (i 0).val / 2000 * 2000 ≤ (i 0).val ∧ (i 0).val < (i 0).val / 2000 * 2000 + 2000; omega
    | ⟨1, _⟩ =>
      show win1_3.index _ (1 : Fin 2) * 256 ≤ (i 1).val ∧ (i 1).val < win1_3.index _ (1 : Fin 2) * 256 + 256
      rw [e7]; omega)

end Cert.KernelIdeal.Val

end
-- ==== Proof.KRegion2.lean ====
/-
  The two projections of a layer's features, block by block and then as whole arrays.

  The region walks the 50000 nodes in 25 blocks of 2000 rows and multiplies each block of features by two
  weight matrices.  A matrix product against a fixed right factor is local to a row, so each of the two arrays
  the region leaves is the plain matrix product of the whole feature array by its weight matrix.
-/
import proofs.«180069_j11596411699546_2_alg».proof.Proof.Gen.KernelIdeal.Frame
import proofs.«180069_j11596411699546_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen RowBlocks GraphSage

/-- The contraction of the block's product is the plain matrix product. -/
theorem plain2 : PlainSum dot_S2000x256_S256x128_S2000x128_1_0_0_1_n_n :=
  plainSum_of _ rfl rfl (fun _ _ => rfl) (fun _ _ => rfl) (fun _ _ => rfl) (fun _ _ => rfl)

/-- The first projection's payload at row `r`, column `q`. -/
theorem pay2l_ix (x0 : Vec Ideal S2000x256 .f32) (w : Vec Ideal S256x128 .bf16) (r : Fin 2000) (q : Fin 128) :
    k2_pay2 (F := Ideal) x0 w (ix2 r q) = ∑ j : Fin 256, x0 (ix2 r j) * w (ix2 j q) := by
  unfold k2_pay2 k2_pay1
  simp only [shapeCast_self]
  rw [matmul_zero_ix2 _ plain2]
  rfl

/-- The second projection's payload at row `r`, column `q`. -/
theorem pay2r_ix (x0 : Vec Ideal S2000x256 .f32) (w : Vec Ideal S256x128 .bf16) (r : Fin 2000) (q : Fin 128) :
    k2_pay3 (F := Ideal) x0 w (ix2 r q) = ∑ j : Fin 256, x0 (ix2 r j) * w (ix2 j q) := by
  unfold k2_pay3 k2_pay1
  simp only [shapeCast_self]
  rw [matmul_zero_ix2 _ plain2]
  rfl

/-- The whole-buffer rectangle's offsets are zero. -/
theorem hz2 : (![0, 0] : Fin 2 → Nat) = fun _ => 0 := funext fun a => by fin_cases a <;> rfl

/-- The first projection's payload on a block of rows: when the row block is rows `off …` of a whole array and the
    weights are the whole matrix, the payload at a block index is the whole-array product at the array index
    `off` rows further down. -/
theorem pay2l_rows (A : Mat 50000 256) (W : Mat 256 128) (x0 : Vec Ideal S2000x256 .f32) (w : Vec Ideal S256x128 .bf16)
    (off : ℕ) (hoff : off + 2000 ≤ 50000) (h0 : x0 = rows off hoff A) (hw : w = W)
    (y : S2000x128.Idx) (i : S50000x128.Idx) (hi0 : (i 0).val = off + (y 0).val) (hi1 : (i 1).val = (y 1).val) :
    k2_pay2 (F := Ideal) x0 w y = mm A W i := by
  subst h0 hw
  obtain ⟨r, q, rfl⟩ : ∃ (r : Fin 2000) (q : Fin 128), y = ix2 r q := ⟨y 0, y 1, eq_ix2 y⟩
  have hi : i = ix2 ⟨off + r.val, by have := r.isLt; omega⟩ q := funext fun a => Fin.ext (by
    match a with
    | ⟨0, _⟩ => exact hi0
    | ⟨1, _⟩ => exact hi1)
  rw [hi, pay2l_ix]
  rfl

/-- The same for the second projection. -/
theorem pay2r_rows (A : Mat 50000 256) (W : Mat 256 128) (x0 : Vec Ideal S2000x256 .f32) (w : Vec Ideal S256x128 .bf16)
    (off : ℕ) (hoff : off + 2000 ≤ 50000) (h0 : x0 = rows off hoff A) (hw : w = W)
    (y : S2000x128.Idx) (i : S50000x128.Idx) (hi0 : (i 0).val = off + (y 0).val) (hi1 : (i 1).val = (y 1).val) :
    k2_pay3 (F := Ideal) x0 w y = mm A W i := by
  subst h0 hw
  obtain ⟨r, q, rfl⟩ : ∃ (r : Fin 2000) (q : Fin 128), y = ix2 r q := ⟨y 0, y 1, eq_ix2 y⟩
  have hi : i = ix2 ⟨off + r.val, by have := r.isLt; omega⟩ q := funext fun a => Fin.ext (by
    match a with
    | ⟨0, _⟩ => exact hi0
    | ⟨1, _⟩ => exact hi1)
  rw [hi, pay2r_ix]
  rfl

/-- The printed index maps, decided over the grid: the row-block windows sit at block `t` of the rows, the
    weight windows at block zero. -/
theorem idx2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

theorem off2 (t : Fin cfg2.N) : t.val * 2000 + 2000 ≤ 50000 := by
  have hN : cfg2.N = 25 := N_2
  have := t.isLt
  omega

section Blocks
variable (V : (c : Dev nD) → (b : Ref sig .tc) → Buf (Elt Ideal) ((c : Thread nD τ).loc b)) (c : Dev nD)

/-- The block of features at point `t` is rows `2000 t …` of the array. -/
theorem iblk2_0 (t : Fin cfg2.N) :
    (iblk2 (F := Ideal) V c 0 t : Vec Ideal S2000x256 .f32)
      = rows (t.val * 2000) (off2 t) (V c (Pipeline.arrRef spec2 0) : Mat 50000 256) := by
  obtain ⟨e0, e1, -⟩ := idx2 t
  funext y
  unfold iblk2
  rw [View.read_apply]
  refine congrArg (V c (Pipeline.arrRef spec2 0) : Mat 50000 256) (funext fun a => Fin.ext ?_)
  match a with
  | ⟨0, _⟩ => show win2_0.index t (0 : Fin 2) * 2000 + 1 * (y 0).val = t.val * 2000 + (y 0).val; rw [e0]; omega
  | ⟨1, _⟩ => show win2_0.index t (1 : Fin 2) * 256 + 1 * (y 1).val = (y 1).val; rw [e1]; omega

/-- The first weights' window is the whole matrix at every point. -/
theorem iblk2_1 (t : Fin cfg2.N) :
    (iblk2 (F := Ideal) V c 1 t : Vec Ideal S256x128 .bf16) = (V c (Pipeline.arrRef spec2 1) : Mat 256 128) := by
  obtain ⟨-, -, e0, e1, -⟩ := idx2 t
  funext y
  unfold iblk2
  rw [View.read_apply]
  refine congrArg (V c (Pipeline.arrRef spec2 1) : Mat 256 128) (funext fun a => Fin.ext ?_)
  match a with
  | ⟨0, _⟩ => show win2_1.index t (0 : Fin 2) * 256 + 1 * (y 0).val = (y 0).val; rw [e0]; omega
  | ⟨1, _⟩ => show win2_1.index t (1 : Fin 2) * 128 + 1 * (y 1).val = (y 1).val; rw [e1]; omega

/-- The second weights' window is the whole matrix at every point. -/
theorem iblk2_2 (t : Fin cfg2.N) :
    (iblk2 (F := Ideal) V c 2 t : Vec Ideal S256x128 .bf16) = (V c (Pipeline.arrRef spec2 2) : Mat 256 128) := by
  obtain ⟨-, -, -, -, e0, e1, -⟩ := idx2 t
  funext y
  unfold iblk2
  rw [View.read_apply]
  refine congrArg (V c (Pipeline.arrRef spec2 2) : Mat 256 128) (funext fun a => Fin.ext ?_)
  match a with
  | ⟨0, _⟩ => show win2_2.index t (0 : Fin 2) * 256 + 1 * (y 0).val = (y 0).val; rw [e0]; omega
  | ⟨1, _⟩ => show win2_2.index t (1 : Fin 2) * 128 + 1 * (y 1).val = (y 1).val; rw [e1]; omega

/-- WHAT POINT `t` WRITES BACK to the first output is block `t` of the product of the features by the first weights. -/
theorem flushed2l (t : Fin cfg2.N) :
    (dat2 (F := Ideal) V c).flushed 3 t
      = ((cfg2.win 3).blk t).view.read (Elt Ideal)
          (mm (V c (Pipeline.arrRef spec2 0) : Mat 50000 256) (V c (Pipeline.arrRef spec2 1) : Mat 256 128)) := by
  show (cfg2.win 3).cut (grid2.coords t) ((dat2 V c).after 3 t) = _
  rw [after2_3]
  unfold out2_3
  rw [View.canon_unit_zero hz2]
  simp only [View.ld_unit_zero (S := S2000x256) hz2, View.ld_unit_zero (S := S256x128) hz2]
  obtain ⟨-, -, -, -, -, -, e0, e1, -⟩ := idx2 t
  funext y
  rw [View.read_apply]
  refine pay2l_rows (V c (Pipeline.arrRef spec2 0)) (V c (Pipeline.arrRef spec2 1))
    (iblk2 V c 0 t) (iblk2 V c 1 t) (t.val * 2000) (off2 t) (iblk2_0 V c t) (iblk2_1 V c t)
    y (((cfg2.win 3).blk t).view.emb y) ?_ ?_
  · show win2_3.index t (0 : Fin 2) * 2000 + 1 * (y 0).val = t.val * 2000 + (y 0).val; rw [e0]; omega
  · show win2_3.index t (1 : Fin 2) * 128 + 1 * (y 1).val = (y 1).val; rw [e1]; omega

/-- WHAT POINT `t` WRITES BACK to the second output is block `t` of the product of the features by the second weights. -/
theorem flushed2r (t : Fin cfg2.N) :
    (dat2 (F := Ideal) V c).flushed 4 t
      = ((cfg2.win 4).blk t).view.read (Elt Ideal)
          (mm (V c (Pipeline.arrRef spec2 0) : Mat 50000 256) (V c (Pipeline.arrRef spec2 2) : Mat 256 128)) := by
  show (cfg2.win 4).cut (grid2.coords t) ((dat2 V c).after 4 t) = _
  rw [after2_4]
  unfold out2_4
  rw [View.canon_unit_zero hz2]
  simp only [View.ld_unit_zero (S := S2000x256) hz2, View.ld_unit_zero (S := S256x128) hz2]
  obtain ⟨-, -, -, -, -, -, -, -, e0, e1⟩ := idx2 t
  funext y
  rw [View.read_apply]
  refine pay2r_rows (V c (Pipeline.arrRef spec2 0)) (V c (Pipeline.arrRef spec2 2))
    (iblk2 V c 0 t) (iblk2 V c 2 t) (t.val * 2000) (off2 t) (iblk2_0 V c t) (iblk2_2 V c t)
    y (((cfg2.win 4).blk t).view.emb y) ?_ ?_
  · show win2_4.index t (0 : Fin 2) * 2000 + 1 * (y 0).val = t.val * 2000 + (y 0).val; rw [e0]; omega
  · show win2_4.index t (1 : Fin 2) * 128 + 1 * (y 1).val = (y 1).val; rw [e1]; omega

/-- An index of the first output is in point `t`'s block iff each coordinate is in the block's range on its axis. -/
theorem mem_blk2l (t : Fin cfg2.N) (i : S50000x128.Idx) :
    i ∈ ((cfg2.win 3).blk t).view.set
      ↔ ∀ a : Fin 2, win2_3.index t a * S2000x128.size a ≤ (i a).val
          ∧ (i a).val < win2_3.index t a * S2000x128.size a + S2000x128.size a := by
  show i ∈ ((View.whole main_v47_0).slice (win2_3.rect t)).set ↔ _
  rw [View.set_slice_whole, Rect.mem_set_unit]
  exact Iff.rfl

/-- The same for the second output. -/
theorem mem_blk2r (t : Fin cfg2.N) (i : S50000x128.Idx) :
    i ∈ ((cfg2.win 4).blk t).view.set
      ↔ ∀ a : Fin 2, win2_4.index t a * S2000x128.size a ≤ (i a).val
          ∧ (i a).val < win2_4.index t a * S2000x128.size a + S2000x128.size a := by
  show i ∈ ((View.whole main_v47_1).slice (win2_4.rect t)).set ↔ _
  rw [View.set_slice_whole, Rect.mem_set_unit]
  exact Iff.rfl

/-- Every row of the first output is in the block of the point `row / 2000`. -/
theorem cover2l (i : S50000x128.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  obtain ⟨-, -, -, -, -, -, e0, e1, -⟩ := idx2 t
  have ht : t.val = (i 0).val / 2000 := rfl
  refine ⟨t, flush2_3 t, ?_⟩
  rw [mem_blk2l]
  intro a
  match a with
  | ⟨0, _⟩ =>
    show win2_3.index t (0 : Fin 2) * 2000 ≤ (i 0).val ∧ (i 0).val < win2_3.index t (0 : Fin 2) * 2000 + 2000
    rw [e0, ht]; omega
  | ⟨1, _⟩ =>
    show win2_3.index t (1 : Fin 2) * 128 ≤ (i 1).val ∧ (i 1).val < win2_3.index t (1 : Fin 2) * 128 + 128
    rw [e1]; omega

/-- Every row of the second output is in the block of the point `row / 2000`. -/
theorem cover2r (i : S50000x128.Idx) :
    ∃ t : Fin cfg2.N, (cfg2.win 4).flush t = true ∧ i ∈ ((cfg2.win 4).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  obtain ⟨-, -, -, -, -, -, -, -, e0, e1⟩ := idx2 t
  have ht : t.val = (i 0).val / 2000 := rfl
  refine ⟨t, flush2_4 t, ?_⟩
  rw [mem_blk2r]
  intro a
  match a with
  | ⟨0, _⟩ =>
    show win2_4.index t (0 : Fin 2) * 2000 ≤ (i 0).val ∧ (i 0).val < win2_4.index t (0 : Fin 2) * 2000 + 2000
    rw [e0, ht]; omega
  | ⟨1, _⟩ =>
    show win2_4.index t (1 : Fin 2) * 128 ≤ (i 1).val ∧ (i 1).val < win2_4.index t (1 : Fin 2) * 128 + 128
    rw [e1]; omega

/-- THE FIRST OUTPUT AFTER THE REGION: the features times the first weights, on all rows at once. -/
theorem region2_outl :
    (dat2 (F := Ideal) V c).arrAt 3 cfg2.N
      = mm (V c (Pipeline.arrRef spec2 0) : Mat 50000 256) (V c (Pipeline.arrRef spec2 1) : Mat 256 128) :=
  (dat2 (F := Ideal) V c).arrAt_eq_of_cover 3 _ (fun t _ => flushed2l V c t) cover2l

/-- THE SECOND OUTPUT AFTER THE REGION: the features times the second weights, on all rows at once. -/
theorem region2_outr :
    (dat2 (F := Ideal) V c).arrAt 4 cfg2.N
      = mm (V c (Pipeline.arrRef spec2 0) : Mat 50000 256) (V c (Pipeline.arrRef spec2 2) : Mat 256 128) :=
  (dat2 (F := Ideal) V c).arrAt_eq_of_cover 4 _ (fun t _ => flushed2r V c t) cover2r

end Blocks

end Cert.KernelIdeal.Val

end
-- ==== Proof.KRegion3.lean ====
/-
  The value of the fourth kernel region (the combination of the aggregated projected features with the second
  projection), as one function of the region's four input arrays.

  The region walks the 50000 × 128 arrays in 25 blocks of 2000 rows; at each block it multiplies every entry of
  the aggregated features by the reciprocal degree of its row, adds the entry of the second projection and adds
  the bias of its column.  Every operation is local to an entry, so block `t` of the result is block `t` of the
  whole-array function `GraphSage.combine`, and the 25 blocks tile the array.
-/
import proofs.«180069_j11596411699546_2_alg».proof.Proof.Gen.KernelIdeal.Frame
import proofs.«180069_j11596411699546_2_alg».proof.Proof.Spec
import Idealize.ShloMosaic.Lib.ValueLayout

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a constant function. -/
theorem zero_off3 : (![0, 0] : Fin 2 → Nat) = fun _ => 0 := funext fun a => by fin_cases a <;> rfl

/-- A column of 2000 entries broadcast along 128 columns reads, at `(p, q)`, the column's entry `p`. -/
theorem column_bcast3 {α : Type} (v : S2000x1.Idx → α) (h : S2000x1.Broadcasts S2000x128) (p : Fin 2000) (q : Fin 128) :
    broadcastTo S2000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The block's arithmetic at an entry: the aggregated entry times its row's reciprocal degree, plus the second
    projection's entry, plus its column's bias. -/
theorem combine_block3 (x0 : Vec Ideal S2000x128 .f32) (x2 : Vec Ideal S2000x1 .f32) (x1 : Vec Ideal S2000x128 .f32)
    (x3 : Vec Ideal S1x128 .f32) (r : Fin 2000) (q : Fin 128) :
    Gen.k3_pay1 x0 x2 x1 x3 (ix2 r q)
      = x0 (ix2 r q) * x2 (ix2 r (0 : Fin 1)) + x1 (ix2 r q) + x3 (ix2 (0 : Fin 1) q) := by
  unfold Gen.k3_pay1
  simp only [shapeCast_self]
  rw [addf_apply, addf_apply, mulf_apply, column_bcast3, broadcastTo_1b_ab_apply]

/-- Where the blocks sit: at point `t` the row-blocked windows (the two feature arrays, the reciprocal degrees and
    the output) are at block `t` of the rows, the bias row at its only block. -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The block's arithmetic at an entry is the whole-array function at the entry's place in the array, when the block's
    entries are the arrays' there, the block's reciprocal degree is the array's on that row and the block's bias the
    array's on that column. -/
theorem combine_point3 (A B : GraphSage.Mat 50000 128) (Dg : GraphSage.Mat 50000 1) (Bi : GraphSage.Mat 1 128)
    (x0 : Vec Ideal S2000x128 .f32) (x2 : Vec Ideal S2000x1 .f32) (x1 : Vec Ideal S2000x128 .f32) (x3 : Vec Ideal S1x128 .f32)
    (j : S2000x128.Idx) (i : S50000x128.Idx) (h0 : x0 j = A i) (h1 : x1 j = B i)
    (h2 : x2 (ix2 (j 0) (0 : Fin 1)) = Dg (ix2 (i 0) (0 : Fin 1)))
    (h3 : x3 (ix2 (0 : Fin 1) (j 1)) = Bi (ix2 (0 : Fin 1) (i 1))) :
    Gen.k3_pay1 x0 x2 x1 x3 j = GraphSage.combine A B Dg Bi i := by
  obtain ⟨r, q, rfl⟩ : ∃ (r : Fin 2000) (q : Fin 128), j = ix2 r q := ⟨j 0, j 1, eq_ix2 j⟩
  have h2' : x2 (ix2 r (0 : Fin 1)) = Dg (ix2 (i 0) (0 : Fin 1)) := h2
  have h3' : x3 (ix2 (0 : Fin 1) q) = Bi (ix2 (0 : Fin 1) (i 1)) := h3
  rw [combine_block3, h0, h1, h2', h3']
  rfl

/-- Point `t`'s block of the aggregated features, read where the output's block says. -/
theorem read3_0 (c : Dev nD) (t : Fin cfg3.N) (j : S2000x128.Idx) :
    (Gen.iblk3 V c 0 t : Vec Ideal S2000x128 .f32) j = V c (Pipeline.arrRef spec3 0) (((cfg3.win 4).blk t).view.emb j) := by
  obtain ⟨e0, e1, -, -, -, -, -, -, e8, e9⟩ := block_index3 t
  show V c (Pipeline.arrRef spec3 0) (((cfg3.win 0).blk t).view.emb j) = V c (Pipeline.arrRef spec3 0) (((cfg3.win 4).blk t).view.emb j)
  refine congrArg (V c (Pipeline.arrRef spec3 0)) (funext fun a => Fin.ext ?_)
  match a with
  | ⟨0, _⟩ => show win3_0.index t (0 : Fin 2) * 2000 + 1 * (j 0).val = win3_4.index t (0 : Fin 2) * 2000 + 1 * (j 0).val; rw [e0, e8]
  | ⟨1, _⟩ => show win3_0.index t (1 : Fin 2) * 128 + 1 * (j 1).val = win3_4.index t (1 : Fin 2) * 128 + 1 * (j 1).val; rw [e1, e9]

/-- Point `t`'s block of the second projection, read where the output's block says. -/
theorem read3_1 (c : Dev nD) (t : Fin cfg3.N) (j : S2000x128.Idx) :
    (Gen.iblk3 V c 1 t : Vec Ideal S2000x128 .f32) j = V c (Pipeline.arrRef spec3 1) (((cfg3.win 4).blk t).view.emb j) := by
  obtain ⟨-, -, e2, e3, -, -, -, -, e8, e9⟩ := block_index3 t
  show V c (Pipeline.arrRef spec3 1) (((cfg3.win 1).blk t).view.emb j) = V c (Pipeline.arrRef spec3 1) (((cfg3.win 4).blk t).view.emb j)
  refine congrArg (V c (Pipeline.arrRef spec3 1)) (funext fun a => Fin.ext ?_)
  match a with
  | ⟨0, _⟩ => show win3_1.index t (0 : Fin 2) * 2000 + 1 * (j 0).val = win3_4.index t (0 : Fin 2) * 2000 + 1 * (j 0).val; rw [e2, e8]
  | ⟨1, _⟩ => show win3_1.index t (1 : Fin 2) * 128 + 1 * (j 1).val = win3_4.index t (1 : Fin 2) * 128 + 1 * (j 1).val; rw [e3, e9]

/-- Point `t`'s block of the reciprocal degrees, read on the row the output's block says. -/
theorem read3_2 (c : Dev nD) (t : Fin cfg3.N) (j : S2000x128.Idx) :
    (Gen.iblk3 V c 2 t : Vec Ideal S2000x1 .f32) (ix2 (j 0) (0 : Fin 1))
      = V c (Pipeline.arrRef spec3 2) (ix2 ((((cfg3.win 4).blk t).view.emb j) 0) (0 : Fin 1)) := by
  obtain ⟨-, -, -, -, e4, e5, -, -, e8, e9⟩ := block_index3 t
  show V c (Pipeline.arrRef spec3 2) (((cfg3.win 2).blk t).view.emb (ix2 (j 0) (0 : Fin 1))) = _
  refine congrArg (V c (Pipeline.arrRef spec3 2)) (funext fun a => Fin.ext ?_)
  match a with
  | ⟨0, _⟩ => show win3_2.index t (0 : Fin 2) * 2000 + 1 * (j 0).val = win3_4.index t (0 : Fin 2) * 2000 + 1 * (j 0).val; rw [e4, e8]
  | ⟨1, _⟩ => show win3_2.index t (1 : Fin 2) * 1 + 1 * 0 = 0; rw [e5]

/-- The bias row, read on the column the output's block says. -/
theorem read3_3 (c : Dev nD) (t : Fin cfg3.N) (j : S2000x128.Idx) :
    (Gen.iblk3 V c 3 t : Vec Ideal S1x128 .f32) (ix2 (0 : Fin 1) (j 1))
      = V c (Pipeline.arrRef spec3 3) (ix2 (0 : Fin 1) ((((cfg3.win 4).blk t).view.emb j) 1)) := by
  obtain ⟨-, -, -, -, -, -, e6, e7, e8, e9⟩ := block_index3 t
  show V c (Pipeline.arrRef spec3 3) (((cfg3.win 3).blk t).view.emb (ix2 (0 : Fin 1) (j 1))) = _
  refine congrArg (V c (Pipeline.arrRef spec3 3)) (funext fun a => Fin.ext ?_)
  match a with
  | ⟨0, _⟩ => show win3_3.index t (0 : Fin 2) * 1 + 1 * 0 = 0; rw [e6]
  | ⟨1, _⟩ => show win3_3.index t (1 : Fin 2) * 128 + 1 * (j 1).val = win3_4.index t (1 : Fin 2) * 128 + 1 * (j 1).val; rw [e7, e9]

/-- WHAT POINT `t` WRITES BACK is block `t` of the combination of the whole arrays. -/
theorem flushed3_eq (c : Dev nD) (t : Fin cfg3.N) :
    (Gen.dat3 (F := Ideal) V c).flushed 4 t = ((cfg3.win 4).blk t).view.read (Elt Ideal)
      (GraphSage.combine (V c (Pipeline.arrRef spec3 0)) (V c (Pipeline.arrRef spec3 1)) (V c (Pipeline.arrRef spec3 2))
        (V c (Pipeline.arrRef spec3 3))) := by
  show (cfg3.win 4).cut (grid3.coords t) ((Gen.dat3 V c).after 4 t) = _
  rw [Gen.after3_4]
  unfold Gen.out3_4
  rw [View.canon_unit_zero zero_off3]
  simp only [View.ld_unit_zero (S := S2000x128) zero_off3, View.ld_unit_zero (S := S2000x1) zero_off3,
    View.ld_unit_zero (S := S1x128) zero_off3]
  funext j
  show Gen.k3_pay1 (Gen.iblk3 V c 0 t) (Gen.iblk3 V c 2 t) (Gen.iblk3 V c 1 t) (Gen.iblk3 V c 3 t) j
    = GraphSage.combine _ _ _ _ (((cfg3.win 4).blk t).view.emb j)
  exact combine_point3 _ _ _ _ (Gen.iblk3 V c 0 t) (Gen.iblk3 V c 2 t) (Gen.iblk3 V c 1 t) (Gen.iblk3 V c 3 t) j _
    (read3_0 V c t j) (read3_1 V c t j) (read3_2 V c t j) (read3_3 V c t j)

/-- An index of the array is in point `t`'s block iff each coordinate is in the block's range on its axis. -/
theorem mem_block3 (t : Fin cfg3.N) (i : S50000x128.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v59).slice (win3_4.rect t)).set ↔ _
  rw [View.set_slice_whole, Rect.mem_set_unit]
  exact Iff.rfl

/-- THE ARRAY after the region: the combination of the region's input arrays.  Row `r` is written by point
    `r / 2000`. -/
theorem region3_out (c : Dev nD) :
    (Gen.dat3 (F := Ideal) V c).arrAt 4 cfg3.N
      = GraphSage.combine (V c (Pipeline.arrRef spec3 0)) (V c (Pipeline.arrRef spec3 1)) (V c (Pipeline.arrRef spec3 2))
          (V c (Pipeline.arrRef spec3 3)) :=
  (Gen.dat3 (F := Ideal) V c).arrAt_eq_of_cover 4 _ (fun t _ => flushed3_eq V c t) (fun i => by
    have hi0 : ((i : S50000x128.Idx) 0).val < 50000 := (i 0).isLt
    have hi1 : ((i : S50000x128.Idx) 1).val < 128 := (i 1).isLt
    have hN : cfg3.N = 25 := Gen.N_3
    have ht : ((i : S50000x128.Idx) 0).val / 2000 < cfg3.N := by rw [hN]; omega
    obtain ⟨-, -, -, -, -, -, -, -, e8, e9⟩ := block_index3 ⟨_, ht⟩
    refine ⟨⟨_, ht⟩, Gen.flush3_4 _, ?_⟩
    rw [mem_block3]
    intro a
    match a with
    | ⟨0, _⟩ =>
      show win3_4.index _ (0 : Fin 2) * 2000 ≤ (i 0).val ∧ (i 0).val < win3_4.index _ (0 : Fin 2) * 2000 + 2000
      rw [e8]; show (i 0).val / 2000 * 2000 ≤ (i 0).val ∧ (i 0).val < (i 0).val / 2000 * 2000 + 2000; omega
    | ⟨1, _⟩ =>
      show win3_4.index _ (1 : Fin 2) * 128 ≤ (i 1).val ∧ (i 1).val < win3_4.index _ (1 : Fin 2) * 128 + 128
      rw [e9]; omega)

end Cert.KernelIdeal.Val

end
-- ==== Proof.KRegion4.lean ====
/-
  The value of the second normalisation region (an affine map per column followed by the positive part), as one
  function of the region's three input arrays.

  The region walks the 50000 × 128 array in 25 blocks of 2000 rows; at each block it multiplies every entry by
  the scale of its column, adds the shift of its column and takes the maximum with zero.  Every operation is
  local to an entry, so block `t` of the result is block `t` of the whole-array function `GraphSage.affRelu`,
  and the 25 blocks tile the array.
-/
import proofs.«180069_j11596411699546_2_alg».proof.Proof.Gen.KernelIdeal.Frame
import proofs.«180069_j11596411699546_2_alg».proof.Proof.Spec
import Idealize.ShloMosaic.Lib.ValueLayout

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a constant function. -/
theorem zero_off4 : (![0, 0] : Fin 2 → Nat) = fun _ => 0 := funext fun a => by fin_cases a <;> rfl

/-- The block's arithmetic at an entry: the entry times its column's scale plus its column's shift, or zero
    if that is negative. -/
theorem affRelu_block4 (x0 : Vec Ideal S2000x128 .f32) (x1 x2 : Vec Ideal S1x128 .f32) (r : Fin 2000) (q : Fin 128) :
    Gen.k4_pay1 x0 x1 x2 (ix2 r q) = max (x0 (ix2 r q) * x1 (ix2 (0 : Fin 1) q) + x2 (ix2 (0 : Fin 1) q)) 0 := by
  unfold Gen.k4_pay1
  simp only [shapeCast_self]
  rw [maximumf_apply, addf_apply, mulf_apply, broadcastTo_1b_ab_apply, broadcastTo_1b_ab_apply, broadcast_apply,
    Ideal.ofBits_def, Ideal.ofBits_zero_f32]

/-- Where the blocks sit: at point `t` the row-blocked windows (the input and the output) are at block `t` of
    the rows, the scale and shift rows at their only block. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The block's arithmetic at an entry is the whole-array function at the entry's place in the array, when the block's
    entry is the array's there and the block's scale and shift are the array's on that column. -/
theorem affRelu_point4 (A : GraphSage.Mat 50000 128) (S T : GraphSage.Mat 1 128) (x0 : Vec Ideal S2000x128 .f32)
    (x1 x2 : Vec Ideal S1x128 .f32) (j : S2000x128.Idx) (i : S50000x128.Idx) (h0 : x0 j = A i)
    (h1 : x1 (ix2 (0 : Fin 1) (j 1)) = S (ix2 (0 : Fin 1) (i 1))) (h2 : x2 (ix2 (0 : Fin 1) (j 1)) = T (ix2 (0 : Fin 1) (i 1))) :
    Gen.k4_pay1 x0 x1 x2 j = GraphSage.affRelu A S T i := by
  obtain ⟨r, q, rfl⟩ : ∃ (r : Fin 2000) (q : Fin 128), j = ix2 r q := ⟨j 0, j 1, eq_ix2 j⟩
  have h1' : x1 (ix2 (0 : Fin 1) q) = S (ix2 (0 : Fin 1) (i 1)) := h1
  have h2' : x2 (ix2 (0 : Fin 1) q) = T (ix2 (0 : Fin 1) (i 1)) := h2
  rw [affRelu_block4, h0, h1', h2']
  rfl

/-- Point `t`'s block of the input array, read where the output's block says. -/
theorem read4_0 (c : Dev nD) (t : Fin cfg4.N) (j : S2000x128.Idx) :
    (Gen.iblk4 V c 0 t : Vec Ideal S2000x128 .f32) j = V c (Pipeline.arrRef spec4 0) (((cfg4.win 3).blk t).view.emb j) := by
  obtain ⟨e0, e1, -, -, -, -, e6, e7⟩ := block_index4 t
  show V c (Pipeline.arrRef spec4 0) (((cfg4.win 0).blk t).view.emb j) = V c (Pipeline.arrRef spec4 0) (((cfg4.win 3).blk t).view.emb j)
  refine congrArg (V c (Pipeline.arrRef spec4 0)) (funext fun a => Fin.ext ?_)
  match a with
  | ⟨0, _⟩ => show win4_0.index t (0 : Fin 2) * 2000 + 1 * (j 0).val = win4_3.index t (0 : Fin 2) * 2000 + 1 * (j 0).val; rw [e0, e6]
  | ⟨1, _⟩ => show win4_0.index t (1 : Fin 2) * 128 + 1 * (j 1).val = win4_3.index t (1 : Fin 2) * 128 + 1 * (j 1).val; rw [e1, e7]

/-- The scale row, read on the column the output's block says. -/
theorem read4_1 (c : Dev nD) (t : Fin cfg4.N) (j : S2000x128.Idx) :
    (Gen.iblk4 V c 1 t : Vec Ideal S1x128 .f32) (ix2 (0 : Fin 1) (j 1))
      = V c (Pipeline.arrRef spec4 1) (ix2 (0 : Fin 1) ((((cfg4.win 3).blk t).view.emb j) 1)) := by
  obtain ⟨-, -, e2, e3, -, -, e6, e7⟩ := block_index4 t
  show V c (Pipeline.arrRef spec4 1) (((cfg4.win 1).blk t).view.emb (ix2 (0 : Fin 1) (j 1))) = _
  refine congrArg (V c (Pipeline.arrRef spec4 1)) (funext fun a => Fin.ext ?_)
  match a with
  | ⟨0, _⟩ => show win4_1.index t (0 : Fin 2) * 1 + 1 * 0 = 0; rw [e2]
  | ⟨1, _⟩ => show win4_1.index t (1 : Fin 2) * 128 + 1 * (j 1).val = win4_3.index t (1 : Fin 2) * 128 + 1 * (j 1).val; rw [e3, e7]

/-- The shift row, read on the column the output's block says. -/
theorem read4_2 (c : Dev nD) (t : Fin cfg4.N) (j : S2000x128.Idx) :
    (Gen.iblk4 V c 2 t : Vec Ideal S1x128 .f32) (ix2 (0 : Fin 1) (j 1))
      = V c (Pipeline.arrRef spec4 2) (ix2 (0 : Fin 1) ((((cfg4.win 3).blk t).view.emb j) 1)) := by
  obtain ⟨-, -, -, -, e4, e5, e6, e7⟩ := block_index4 t
  show V c (Pipeline.arrRef spec4 2) (((cfg4.win 2).blk t).view.emb (ix2 (0 : Fin 1) (j 1))) = _
  refine congrArg (V c (Pipeline.arrRef spec4 2)) (funext fun a => Fin.ext ?_)
  match a with
  | ⟨0, _⟩ => show win4_2.index t (0 : Fin 2) * 1 + 1 * 0 = 0; rw [e4]
  | ⟨1, _⟩ => show win4_2.index t (1 : Fin 2) * 128 + 1 * (j 1).val = win4_3.index t (1 : Fin 2) * 128 + 1 * (j 1).val; rw [e5, e7]

/-- WHAT POINT `t` WRITES BACK is block `t` of the affine map and positive part of the whole arrays. -/
theorem flushed4_eq (c : Dev nD) (t : Fin cfg4.N) :
    (Gen.dat4 (F := Ideal) V c).flushed 3 t = ((cfg4.win 3).blk t).view.read (Elt Ideal)
      (GraphSage.affRelu (V c (Pipeline.arrRef spec4 0)) (V c (Pipeline.arrRef spec4 1)) (V c (Pipeline.arrRef spec4 2))) := by
  show (cfg4.win 3).cut (grid4.coords t) ((Gen.dat4 V c).after 3 t) = _
  rw [Gen.after4_3]
  unfold Gen.out4_3
  rw [View.canon_unit_zero zero_off4]
  simp only [View.ld_unit_zero (S := S2000x128) zero_off4, View.ld_unit_zero (S := S1x128) zero_off4]
  funext j
  show Gen.k4_pay1 (Gen.iblk4 V c 0 t) (Gen.iblk4 V c 1 t) (Gen.iblk4 V c 2 t) j
    = GraphSage.affRelu _ _ _ (((cfg4.win 3).blk t).view.emb j)
  exact affRelu_point4 _ _ _ (Gen.iblk4 V c 0 t) (Gen.iblk4 V c 1 t) (Gen.iblk4 V c 2 t) j _
    (read4_0 V c t j) (read4_1 V c t j) (read4_2 V c t j)

/-- An index of the array is in point `t`'s block iff each coordinate is in the block's range on its axis. -/
theorem mem_block4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v77).slice (win4_3.rect t)).set ↔ _
  rw [View.set_slice_whole, Rect.mem_set_unit]
  exact Iff.rfl

/-- THE ARRAY after the region: the affine map and positive part of the region's input arrays.  Row `r` is
    written by point `r / 2000`. -/
theorem region4_out (c : Dev nD) :
    (Gen.dat4 (F := Ideal) V c).arrAt 3 cfg4.N
      = GraphSage.affRelu (V c (Pipeline.arrRef spec4 0)) (V c (Pipeline.arrRef spec4 1)) (V c (Pipeline.arrRef spec4 2)) :=
  (Gen.dat4 (F := Ideal) V c).arrAt_eq_of_cover 3 _ (fun t _ => flushed4_eq V c t) (fun i => by
    have hi0 : ((i : S50000x128.Idx) 0).val < 50000 := (i 0).isLt
    have hi1 : ((i : S50000x128.Idx) 1).val < 128 := (i 1).isLt
    have hN : cfg4.N = 25 := Gen.N_4
    have ht : ((i : S50000x128.Idx) 0).val / 2000 < cfg4.N := by rw [hN]; omega
    obtain ⟨-, -, -, -, -, -, e6, e7⟩ := block_index4 ⟨_, ht⟩
    refine ⟨⟨_, ht⟩, Gen.flush4_3 _, ?_⟩
    rw [mem_block4]
    intro a
    match a with
    | ⟨0, _⟩ =>
      show win4_3.index _ (0 : Fin 2) * 2000 ≤ (i 0).val ∧ (i 0).val < win4_3.index _ (0 : Fin 2) * 2000 + 2000
      rw [e6]; show (i 0).val / 2000 * 2000 ≤ (i 0).val ∧ (i 0).val < (i 0).val / 2000 * 2000 + 2000; omega
    | ⟨1, _⟩ =>
      show win4_3.index _ (1 : Fin 2) * 128 ≤ (i 1).val ∧ (i 1).val < win4_3.index _ (1 : Fin 2) * 128 + 128
      rw [e7]; omega)

end Cert.KernelIdeal.Val

end
-- ==== Proof.KRegion5.lean ====
/-
  The two projections of a layer's features, block by block and then as whole arrays.

  The region walks the 50000 nodes in 25 blocks of 2000 rows and multiplies each block of features by two
  weight matrices.  A matrix product against a fixed right factor is local to a row, so each of the two arrays
  the region leaves is the plain matrix product of the whole feature array by its weight matrix.
-/
import proofs.«180069_j11596411699546_2_alg».proof.Proof.Gen.KernelIdeal.Frame
import proofs.«180069_j11596411699546_2_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen RowBlocks GraphSage

/-- The contraction of the block's product is the plain matrix product. -/
theorem plain5 : PlainSum dot_S2000x128_S128x64_S2000x64_1_0_0_1_n_n :=
  plainSum_of _ rfl rfl (fun _ _ => rfl) (fun _ _ => rfl) (fun _ _ => rfl) (fun _ _ => rfl)

/-- The first projection's payload at row `r`, column `q`. -/
theorem pay5l_ix (x0 : Vec Ideal S2000x128 .f32) (w : Vec Ideal S128x64 .bf16) (r : Fin 2000) (q : Fin 64) :
    k5_pay2 (F := Ideal) x0 w (ix2 r q) = ∑ j : Fin 128, x0 (ix2 r j) * w (ix2 j q) := by
  unfold k5_pay2 k5_pay1
  simp only [shapeCast_self]
  rw [matmul_zero_ix2 _ plain5]
  rfl

/-- The second projection's payload at row `r`, column `q`. -/
theorem pay5r_ix (x0 : Vec Ideal S2000x128 .f32) (w : Vec Ideal S128x64 .bf16) (r : Fin 2000) (q : Fin 64) :
    k5_pay3 (F := Ideal) x0 w (ix2 r q) = ∑ j : Fin 128, x0 (ix2 r j) * w (ix2 j q) := by
  unfold k5_pay3 k5_pay1
  simp only [shapeCast_self]
  rw [matmul_zero_ix2 _ plain5]
  rfl

/-- The whole-buffer rectangle's offsets are zero. -/
theorem hz5 : (![0, 0] : Fin 2 → Nat) = fun _ => 0 := funext fun a => by fin_cases a <;> rfl

/-- The first projection's payload on a block of rows: when the row block is rows `off …` of a whole array and the
    weights are the whole matrix, the payload at a block index is the whole-array product at the array index
    `off` rows further down. -/
theorem pay5l_rows (A : Mat 50000 128) (W : Mat 128 64) (x0 : Vec Ideal S2000x128 .f32) (w : Vec Ideal S128x64 .bf16)
    (off : ℕ) (hoff : off + 2000 ≤ 50000) (h0 : x0 = rows off hoff A) (hw : w = W)
    (y : S2000x64.Idx) (i : S50000x64.Idx) (hi0 : (i 0).val = off + (y 0).val) (hi1 : (i 1).val = (y 1).val) :
    k5_pay2 (F := Ideal) x0 w y = mm A W i := by
  subst h0 hw
  obtain ⟨r, q, rfl⟩ : ∃ (r : Fin 2000) (q : Fin 64), y = ix2 r q := ⟨y 0, y 1, eq_ix2 y⟩
  have hi : i = ix2 ⟨off + r.val, by have := r.isLt; omega⟩ q := funext fun a => Fin.ext (by
    match a with
    | ⟨0, _⟩ => exact hi0
    | ⟨1, _⟩ => exact hi1)
  rw [hi, pay5l_ix]
  rfl

/-- The same for the second projection. -/
theorem pay5r_rows (A : Mat 50000 128) (W : Mat 128 64) (x0 : Vec Ideal S2000x128 .f32) (w : Vec Ideal S128x64 .bf16)
    (off : ℕ) (hoff : off + 2000 ≤ 50000) (h0 : x0 = rows off hoff A) (hw : w = W)
    (y : S2000x64.Idx) (i : S50000x64.Idx) (hi0 : (i 0).val = off + (y 0).val) (hi1 : (i 1).val = (y 1).val) :
    k5_pay3 (F := Ideal) x0 w y = mm A W i := by
  subst h0 hw
  obtain ⟨r, q, rfl⟩ : ∃ (r : Fin 2000) (q : Fin 64), y = ix2 r q := ⟨y 0, y 1, eq_ix2 y⟩
  have hi : i = ix2 ⟨off + r.val, by have := r.isLt; omega⟩ q := funext fun a => Fin.ext (by
    match a with
    | ⟨0, _⟩ => exact hi0
    | ⟨1, _⟩ => exact hi1)
  rw [hi, pay5r_ix]
  rfl

/-- The printed index maps, decided over the grid: the row-block windows sit at block `t` of the rows, the
    weight windows at block zero. -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

theorem off5 (t : Fin cfg5.N) : t.val * 2000 + 2000 ≤ 50000 := by
  have hN : cfg5.N = 25 := N_5
  have := t.isLt
  omega

section Blocks
variable (V : (c : Dev nD) → (b : Ref sig .tc) → Buf (Elt Ideal) ((c : Thread nD τ).loc b)) (c : Dev nD)

/-- The block of features at point `t` is rows `2000 t …` of the array. -/
theorem iblk5_0 (t : Fin cfg5.N) :
    (iblk5 (F := Ideal) V c 0 t : Vec Ideal S2000x128 .f32)
      = rows (t.val * 2000) (off5 t) (V c (Pipeline.arrRef spec5 0) : Mat 50000 128) := by
  obtain ⟨e0, e1, -⟩ := idx5 t
  funext y
  unfold iblk5
  rw [View.read_apply]
  refine congrArg (V c (Pipeline.arrRef spec5 0) : Mat 50000 128) (funext fun a => Fin.ext ?_)
  match a with
  | ⟨0, _⟩ => show win5_0.index t (0 : Fin 2) * 2000 + 1 * (y 0).val = t.val * 2000 + (y 0).val; rw [e0]; omega
  | ⟨1, _⟩ => show win5_0.index t (1 : Fin 2) * 128 + 1 * (y 1).val = (y 1).val; rw [e1]; omega

/-- The first weights' window is the whole matrix at every point. -/
theorem iblk5_1 (t : Fin cfg5.N) :
    (iblk5 (F := Ideal) V c 1 t : Vec Ideal S128x64 .bf16) = (V c (Pipeline.arrRef spec5 1) : Mat 128 64) := by
  obtain ⟨-, -, e0, e1, -⟩ := idx5 t
  funext y
  unfold iblk5
  rw [View.read_apply]
  refine congrArg (V c (Pipeline.arrRef spec5 1) : Mat 128 64) (funext fun a => Fin.ext ?_)
  match a with
  | ⟨0, _⟩ => show win5_1.index t (0 : Fin 2) * 128 + 1 * (y 0).val = (y 0).val; rw [e0]; omega
  | ⟨1, _⟩ => show win5_1.index t (1 : Fin 2) * 64 + 1 * (y 1).val = (y 1).val; rw [e1]; omega

/-- The second weights' window is the whole matrix at every point. -/
theorem iblk5_2 (t : Fin cfg5.N) :
    (iblk5 (F := Ideal) V c 2 t : Vec Ideal S128x64 .bf16) = (V c (Pipeline.arrRef spec5 2) : Mat 128 64) := by
  obtain ⟨-, -, -, -, e0, e1, -⟩ := idx5 t
  funext y
  unfold iblk5
  rw [View.read_apply]
  refine congrArg (V c (Pipeline.arrRef spec5 2) : Mat 128 64) (funext fun a => Fin.ext ?_)
  match a with
  | ⟨0, _⟩ => show win5_2.index t (0 : Fin 2) * 128 + 1 * (y 0).val = (y 0).val; rw [e0]; omega
  | ⟨1, _⟩ => show win5_2.index t (1 : Fin 2) * 64 + 1 * (y 1).val = (y 1).val; rw [e1]; omega

/-- WHAT POINT `t` WRITES BACK to the first output is block `t` of the product of the features by the first weights. -/
theorem flushed5l (t : Fin cfg5.N) :
    (dat5 (F := Ideal) V c).flushed 3 t
      = ((cfg5.win 3).blk t).view.read (Elt Ideal)
          (mm (V c (Pipeline.arrRef spec5 0) : Mat 50000 128) (V c (Pipeline.arrRef spec5 1) : Mat 128 64)) := by
  show (cfg5.win 3).cut (grid5.coords t) ((dat5 V c).after 3 t) = _
  rw [after5_3]
  unfold out5_3
  rw [View.canon_unit_zero hz5]
  simp only [View.ld_unit_zero (S := S2000x128) hz5, View.ld_unit_zero (S := S128x64) hz5]
  obtain ⟨-, -, -, -, -, -, e0, e1, -⟩ := idx5 t
  funext y
  rw [View.read_apply]
  refine pay5l_rows (V c (Pipeline.arrRef spec5 0)) (V c (Pipeline.arrRef spec5 1))
    (iblk5 V c 0 t) (iblk5 V c 1 t) (t.val * 2000) (off5 t) (iblk5_0 V c t) (iblk5_1 V c t)
    y (((cfg5.win 3).blk t).view.emb y) ?_ ?_
  · show win5_3.index t (0 : Fin 2) * 2000 + 1 * (y 0).val = t.val * 2000 + (y 0).val; rw [e0]; omega
  · show win5_3.index t (1 : Fin 2) * 64 + 1 * (y 1).val = (y 1).val; rw [e1]; omega

/-- WHAT POINT `t` WRITES BACK to the second output is block `t` of the product of the features by the second weights. -/
theorem flushed5r (t : Fin cfg5.N) :
    (dat5 (F := Ideal) V c).flushed 4 t
      = ((cfg5.win 4).blk t).view.read (Elt Ideal)
          (mm (V c (Pipeline.arrRef spec5 0) : Mat 50000 128) (V c (Pipeline.arrRef spec5 2) : Mat 128 64)) := by
  show (cfg5.win 4).cut (grid5.coords t) ((dat5 V c).after 4 t) = _
  rw [after5_4]
  unfold out5_4
  rw [View.canon_unit_zero hz5]
  simp only [View.ld_unit_zero (S := S2000x128) hz5, View.ld_unit_zero (S := S128x64) hz5]
  obtain ⟨-, -, -, -, -, -, -, -, e0, e1⟩ := idx5 t
  funext y
  rw [View.read_apply]
  refine pay5r_rows (V c (Pipeline.arrRef spec5 0)) (V c (Pipeline.arrRef spec5 2))
    (iblk5 V c 0 t) (iblk5 V c 2 t) (t.val * 2000) (off5 t) (iblk5_0 V c t) (iblk5_2 V c t)
    y (((cfg5.win 4).blk t).view.emb y) ?_ ?_
  · show win5_4.index t (0 : Fin 2) * 2000 + 1 * (y 0).val = t.val * 2000 + (y 0).val; rw [e0]; omega
  · show win5_4.index t (1 : Fin 2) * 64 + 1 * (y 1).val = (y 1).val; rw [e1]; omega

/-- An index of the first output is in point `t`'s block iff each coordinate is in the block's range on its axis. -/
theorem mem_blk5l (t : Fin cfg5.N) (i : S50000x64.Idx) :
    i ∈ ((cfg5.win 3).blk t).view.set
      ↔ ∀ a : Fin 2, win5_3.index t a * S2000x64.size a ≤ (i a).val
          ∧ (i a).val < win5_3.index t a * S2000x64.size a + S2000x64.size a := by
  show i ∈ ((View.whole main_v80_0).slice (win5_3.rect t)).set ↔ _
  rw [View.set_slice_whole, Rect.mem_set_unit]
  exact Iff.rfl

/-- The same for the second output. -/
theorem mem_blk5r (t : Fin cfg5.N) (i : S50000x64.Idx) :
    i ∈ ((cfg5.win 4).blk t).view.set
      ↔ ∀ a : Fin 2, win5_4.index t a * S2000x64.size a ≤ (i a).val
          ∧ (i a).val < win5_4.index t a * S2000x64.size a + S2000x64.size a := by
  show i ∈ ((View.whole main_v80_1).slice (win5_4.rect t)).set ↔ _
  rw [View.set_slice_whole, Rect.mem_set_unit]
  exact Iff.rfl

/-- Every row of the first output is in the block of the point `row / 2000`. -/
theorem cover5l (i : S50000x64.Idx) :
    ∃ t : Fin cfg5.N, (cfg5.win 3).flush t = true ∧ i ∈ ((cfg5.win 3).blk t).view.set := by
  have hN : cfg5.N = 25 := N_5
  have hi0 : (i 0).val < 50000 := (i 0).isLt
  have hi1 : (i 1).val < 64 := (i 1).isLt
  let t : Fin cfg5.N := ⟨(i 0).val / 2000, by rw [hN]; omega⟩
  obtain ⟨-, -, -, -, -, -, e0, e1, -⟩ := idx5 t
  have ht : t.val = (i 0).val / 2000 := rfl
  refine ⟨t, flush5_3 t, ?_⟩
  rw [mem_blk5l]
  intro a
  match a with
  | ⟨0, _⟩ =>
    show win5_3.index t (0 : Fin 2) * 2000 ≤ (i 0).val ∧ (i 0).val < win5_3.index t (0 : Fin 2) * 2000 + 2000
    rw [e0, ht]; omega
  | ⟨1, _⟩ =>
    show win5_3.index t (1 : Fin 2) * 64 ≤ (i 1).val ∧ (i 1).val < win5_3.index t (1 : Fin 2) * 64 + 64
    rw [e1]; omega

/-- Every row of the second output is in the block of the point `row / 2000`. -/
theorem cover5r (i : S50000x64.Idx) :
    ∃ t : Fin cfg5.N, (cfg5.win 4).flush t = true ∧ i ∈ ((cfg5.win 4).blk t).view.set := by
  have hN : cfg5.N = 25 := N_5
  have hi0 : (i 0).val < 50000 := (i 0).isLt
  have hi1 : (i 1).val < 64 := (i 1).isLt
  let t : Fin cfg5.N := ⟨(i 0).val / 2000, by rw [hN]; omega⟩
  obtain ⟨-, -, -, -, -, -, -, -, e0, e1⟩ := idx5 t
  have ht : t.val = (i 0).val / 2000 := rfl
  refine ⟨t, flush5_4 t, ?_⟩
  rw [mem_blk5r]
  intro a
  match a with
  | ⟨0, _⟩ =>
    show win5_4.index t (0 : Fin 2) * 2000 ≤ (i 0).val ∧ (i 0).val < win5_4.index t (0 : Fin 2) * 2000 + 2000
    rw [e0, ht]; omega
  | ⟨1, _⟩ =>
    show win5_4.index t (1 : Fin 2) * 64 ≤ (i 1).val ∧ (i 1).val < win5_4.index t (1 : Fin 2) * 64 + 64
    rw [e1]; omega

/-- THE FIRST OUTPUT AFTER THE REGION: the features times the first weights, on all rows at once. -/
theorem region5_outl :
    (dat5 (F := Ideal) V c).arrAt 3 cfg5.N
      = mm (V c (Pipeline.arrRef spec5 0) : Mat 50000 128) (V c (Pipeline.arrRef spec5 1) : Mat 128 64) :=
  (dat5 (F := Ideal) V c).arrAt_eq_of_cover 3 _ (fun t _ => flushed5l V c t) cover5l

/-- THE SECOND OUTPUT AFTER THE REGION: the features times the second weights, on all rows at once. -/
theorem region5_outr :
    (dat5 (F := Ideal) V c).arrAt 4 cfg5.N
      = mm (V c (Pipeline.arrRef spec5 0) : Mat 50000 128) (V c (Pipeline.arrRef spec5 2) : Mat 128 64) :=
  (dat5 (F := Ideal) V c).arrAt_eq_of_cover 4 _ (fun t _ => flushed5r V c t) cover5r

end Blocks

end Cert.KernelIdeal.Val

end
-- ==== Proof.KRegion6.lean ====
/-
  The value of the seventh kernel region (the combination of the aggregated projected features with the second
  projection), as one function of the region's four input arrays.

  The region walks the 50000 × 64 arrays in 25 blocks of 2000 rows; at each block it multiplies every entry of
  the aggregated features by the reciprocal degree of its row, adds the entry of the second projection and adds
  the bias of its column.  Every operation is local to an entry, so block `t` of the result is block `t` of the
  whole-array function `GraphSage.combine`, and the 25 blocks tile the array.
-/
import proofs.«180069_j11596411699546_2_alg».proof.Proof.Gen.KernelIdeal.Frame
import proofs.«180069_j11596411699546_2_alg».proof.Proof.Spec
import Idealize.ShloMosaic.Lib.ValueLayout

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a constant function. -/
theorem zero_off6 : (![0, 0] : Fin 2 → Nat) = fun _ => 0 := funext fun a => by fin_cases a <;> rfl

/-- A column of 2000 entries broadcast along 64 columns reads, at `(p, q)`, the column's entry `p`. -/
theorem column_bcast6 {α : Type} (v : S2000x1.Idx → α) (h : S2000x1.Broadcasts S2000x64) (p : Fin 2000) (q : Fin 64) :
    broadcastTo S2000x64 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The block's arithmetic at an entry: the aggregated entry times its row's reciprocal degree, plus the second
    projection's entry, plus its column's bias. -/
theorem combine_block6 (x0 : Vec Ideal S2000x64 .f32) (x2 : Vec Ideal S2000x1 .f32) (x1 : Vec Ideal S2000x64 .f32)
    (x3 : Vec Ideal S1x64 .f32) (r : Fin 2000) (q : Fin 64) :
    Gen.k6_pay1 x0 x2 x1 x3 (ix2 r q)
      = x0 (ix2 r q) * x2 (ix2 r (0 : Fin 1)) + x1 (ix2 r q) + x3 (ix2 (0 : Fin 1) q) := by
  unfold Gen.k6_pay1
  simp only [shapeCast_self]
  rw [addf_apply, addf_apply, mulf_apply, column_bcast6, broadcastTo_1b_ab_apply]

/-- Where the blocks sit: at point `t` the row-blocked windows (the two feature arrays, the reciprocal degrees and
    the output) are at block `t` of the rows, the bias row at its only block. -/
theorem block_index6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- The block's arithmetic at an entry is the whole-array function at the entry's place in the array, when the block's
    entries are the arrays' there, the block's reciprocal degree is the array's on that row and the block's bias the
    array's on that column. -/
theorem combine_point6 (A B : GraphSage.Mat 50000 64) (Dg : GraphSage.Mat 50000 1) (Bi : GraphSage.Mat 1 64)
    (x0 : Vec Ideal S2000x64 .f32) (x2 : Vec Ideal S2000x1 .f32) (x1 : Vec Ideal S2000x64 .f32) (x3 : Vec Ideal S1x64 .f32)
    (j : S2000x64.Idx) (i : S50000x64.Idx) (h0 : x0 j = A i) (h1 : x1 j = B i)
    (h2 : x2 (ix2 (j 0) (0 : Fin 1)) = Dg (ix2 (i 0) (0 : Fin 1)))
    (h3 : x3 (ix2 (0 : Fin 1) (j 1)) = Bi (ix2 (0 : Fin 1) (i 1))) :
    Gen.k6_pay1 x0 x2 x1 x3 j = GraphSage.combine A B Dg Bi i := by
  obtain ⟨r, q, rfl⟩ : ∃ (r : Fin 2000) (q : Fin 64), j = ix2 r q := ⟨j 0, j 1, eq_ix2 j⟩
  have h2' : x2 (ix2 r (0 : Fin 1)) = Dg (ix2 (i 0) (0 : Fin 1)) := h2
  have h3' : x3 (ix2 (0 : Fin 1) q) = Bi (ix2 (0 : Fin 1) (i 1)) := h3
  rw [combine_block6, h0, h1, h2', h3']
  rfl

/-- Point `t`'s block of the aggregated features, read where the output's block says. -/
theorem read6_0 (c : Dev nD) (t : Fin cfg6.N) (j : S2000x64.Idx) :
    (Gen.iblk6 V c 0 t : Vec Ideal S2000x64 .f32) j = V c (Pipeline.arrRef spec6 0) (((cfg6.win 4).blk t).view.emb j) := by
  obtain ⟨e0, e1, -, -, -, -, -, -, e8, e9⟩ := block_index6 t
  show V c (Pipeline.arrRef spec6 0) (((cfg6.win 0).blk t).view.emb j) = V c (Pipeline.arrRef spec6 0) (((cfg6.win 4).blk t).view.emb j)
  refine congrArg (V c (Pipeline.arrRef spec6 0)) (funext fun a => Fin.ext ?_)
  match a with
  | ⟨0, _⟩ => show win6_0.index t (0 : Fin 2) * 2000 + 1 * (j 0).val = win6_4.index t (0 : Fin 2) * 2000 + 1 * (j 0).val; rw [e0, e8]
  | ⟨1, _⟩ => show win6_0.index t (1 : Fin 2) * 64 + 1 * (j 1).val = win6_4.index t (1 : Fin 2) * 64 + 1 * (j 1).val; rw [e1, e9]

/-- Point `t`'s block of the second projection, read where the output's block says. -/
theorem read6_1 (c : Dev nD) (t : Fin cfg6.N) (j : S2000x64.Idx) :
    (Gen.iblk6 V c 1 t : Vec Ideal S2000x64 .f32) j = V c (Pipeline.arrRef spec6 1) (((cfg6.win 4).blk t).view.emb j) := by
  obtain ⟨-, -, e2, e3, -, -, -, -, e8, e9⟩ := block_index6 t
  show V c (Pipeline.arrRef spec6 1) (((cfg6.win 1).blk t).view.emb j) = V c (Pipeline.arrRef spec6 1) (((cfg6.win 4).blk t).view.emb j)
  refine congrArg (V c (Pipeline.arrRef spec6 1)) (funext fun a => Fin.ext ?_)
  match a with
  | ⟨0, _⟩ => show win6_1.index t (0 : Fin 2) * 2000 + 1 * (j 0).val = win6_4.index t (0 : Fin 2) * 2000 + 1 * (j 0).val; rw [e2, e8]
  | ⟨1, _⟩ => show win6_1.index t (1 : Fin 2) * 64 + 1 * (j 1).val = win6_4.index t (1 : Fin 2) * 64 + 1 * (j 1).val; rw [e3, e9]

/-- Point `t`'s block of the reciprocal degrees, read on the row the output's block says. -/
theorem read6_2 (c : Dev nD) (t : Fin cfg6.N) (j : S2000x64.Idx) :
    (Gen.iblk6 V c 2 t : Vec Ideal S2000x1 .f32) (ix2 (j 0) (0 : Fin 1))
      = V c (Pipeline.arrRef spec6 2) (ix2 ((((cfg6.win 4).blk t).view.emb j) 0) (0 : Fin 1)) := by
  obtain ⟨-, -, -, -, e4, e5, -, -, e8, e9⟩ := block_index6 t
  show V c (Pipeline.arrRef spec6 2) (((cfg6.win 2).blk t).view.emb (ix2 (j 0) (0 : Fin 1))) = _
  refine congrArg (V c (Pipeline.arrRef spec6 2)) (funext fun a => Fin.ext ?_)
  match a with
  | ⟨0, _⟩ => show win6_2.index t (0 : Fin 2) * 2000 + 1 * (j 0).val = win6_4.index t (0 : Fin 2) * 2000 + 1 * (j 0).val; rw [e4, e8]
  | ⟨1, _⟩ => show win6_2.index t (1 : Fin 2) * 1 + 1 * 0 = 0; rw [e5]

/-- The bias row, read on the column the output's block says. -/
theorem read6_3 (c : Dev nD) (t : Fin cfg6.N) (j : S2000x64.Idx) :
    (Gen.iblk6 V c 3 t : Vec Ideal S1x64 .f32) (ix2 (0 : Fin 1) (j 1))
      = V c (Pipeline.arrRef spec6 3) (ix2 (0 : Fin 1) ((((cfg6.win 4).blk t).view.emb j) 1)) := by
  obtain ⟨-, -, -, -, -, -, e6, e7, e8, e9⟩ := block_index6 t
  show V c (Pipeline.arrRef spec6 3) (((cfg6.win 3).blk t).view.emb (ix2 (0 : Fin 1) (j 1))) = _
  refine congrArg (V c (Pipeline.arrRef spec6 3)) (funext fun a => Fin.ext ?_)
  match a with
  | ⟨0, _⟩ => show win6_3.index t (0 : Fin 2) * 1 + 1 * 0 = 0; rw [e6]
  | ⟨1, _⟩ => show win6_3.index t (1 : Fin 2) * 64 + 1 * (j 1).val = win6_4.index t (1 : Fin 2) * 64 + 1 * (j 1).val; rw [e7, e9]

/-- WHAT POINT `t` WRITES BACK is block `t` of the combination of the whole arrays. -/
theorem flushed6_eq (c : Dev nD) (t : Fin cfg6.N) :
    (Gen.dat6 (F := Ideal) V c).flushed 4 t = ((cfg6.win 4).blk t).view.read (Elt Ideal)
      (GraphSage.combine (V c (Pipeline.arrRef spec6 0)) (V c (Pipeline.arrRef spec6 1)) (V c (Pipeline.arrRef spec6 2))
        (V c (Pipeline.arrRef spec6 3))) := by
  show (cfg6.win 4).cut (grid6.coords t) ((Gen.dat6 V c).after 4 t) = _
  rw [Gen.after6_4]
  unfold Gen.out6_4
  rw [View.canon_unit_zero zero_off6]
  simp only [View.ld_unit_zero (S := S2000x64) zero_off6, View.ld_unit_zero (S := S2000x1) zero_off6,
    View.ld_unit_zero (S := S1x64) zero_off6]
  funext j
  show Gen.k6_pay1 (Gen.iblk6 V c 0 t) (Gen.iblk6 V c 2 t) (Gen.iblk6 V c 1 t) (Gen.iblk6 V c 3 t) j
    = GraphSage.combine _ _ _ _ (((cfg6.win 4).blk t).view.emb j)
  exact combine_point6 _ _ _ _ (Gen.iblk6 V c 0 t) (Gen.iblk6 V c 2 t) (Gen.iblk6 V c 1 t) (Gen.iblk6 V c 3 t) j _
    (read6_0 V c t j) (read6_1 V c t j) (read6_2 V c t j) (read6_3 V c t j)

/-- An index of the array is in point `t`'s block iff each coordinate is in the block's range on its axis. -/
theorem mem_block6 (t : Fin cfg6.N) (i : S50000x64.Idx) :
    i ∈ ((cfg6.win 4).blk t).view.set ↔ ∀ a : Fin 2, win6_4.index t a * S2000x64.size a ≤ (i a).val
      ∧ (i a).val < win6_4.index t a * S2000x64.size a + S2000x64.size a := by
  show i ∈ ((View.whole main_v92).slice (win6_4.rect t)).set ↔ _
  rw [View.set_slice_whole, Rect.mem_set_unit]
  exact Iff.rfl

/-- THE ARRAY after the region: the combination of the region's input arrays.  Row `r` is written by point
    `r / 2000`. -/
theorem region6_out (c : Dev nD) :
    (Gen.dat6 (F := Ideal) V c).arrAt 4 cfg6.N
      = GraphSage.combine (V c (Pipeline.arrRef spec6 0)) (V c (Pipeline.arrRef spec6 1)) (V c (Pipeline.arrRef spec6 2))
          (V c (Pipeline.arrRef spec6 3)) :=
  (Gen.dat6 (F := Ideal) V c).arrAt_eq_of_cover 4 _ (fun t _ => flushed6_eq V c t) (fun i => by
    have hi0 : ((i : S50000x64.Idx) 0).val < 50000 := (i 0).isLt
    have hi1 : ((i : S50000x64.Idx) 1).val < 64 := (i 1).isLt
    have hN : cfg6.N = 25 := Gen.N_6
    have ht : ((i : S50000x64.Idx) 0).val / 2000 < cfg6.N := by rw [hN]; omega
    obtain ⟨-, -, -, -, -, -, -, -, e8, e9⟩ := block_index6 ⟨_, ht⟩
    refine ⟨⟨_, ht⟩, Gen.flush6_4 _, ?_⟩
    rw [mem_block6]
    intro a
    match a with
    | ⟨0, _⟩ =>
      show win6_4.index _ (0 : Fin 2) * 2000 ≤ (i 0).val ∧ (i 0).val < win6_4.index _ (0 : Fin 2) * 2000 + 2000
      rw [e8]; show (i 0).val / 2000 * 2000 ≤ (i 0).val ∧ (i 0).val < (i 0).val / 2000 * 2000 + 2000; omega
    | ⟨1, _⟩ =>
      show win6_4.index _ (1 : Fin 2) * 64 ≤ (i 1).val ∧ (i 1).val < win6_4.index _ (1 : Fin 2) * 64 + 64
      rw [e9]; omega)

end Cert.KernelIdeal.Val

end
-- ==== Proof.KRegion7.lean ====
/-
  The value of the third normalisation region (an affine map per column followed by the positive part), as one
  function of the region's three input arrays.

  The region walks the 50000 × 64 array in 25 blocks of 2000 rows; at each block it multiplies every entry by
  the scale of its column, adds the shift of its column and takes the maximum with zero.  Every operation is
  local to an entry, so block `t` of the result is block `t` of the whole-array function `GraphSage.affRelu`,
  and the 25 blocks tile the array.
-/
import proofs.«180069_j11596411699546_2_alg».proof.Proof.Gen.KernelIdeal.Frame
import proofs.«180069_j11596411699546_2_alg».proof.Proof.Spec
import Idealize.ShloMosaic.Lib.ValueLayout

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- The zero offsets of a whole-buffer access, as a constant function. -/
theorem zero_off7 : (![0, 0] : Fin 2 → Nat) = fun _ => 0 := funext fun a => by fin_cases a <;> rfl

/-- The block's arithmetic at an entry: the entry times its column's scale plus its column's shift, or zero
    if that is negative. -/
theorem affRelu_block7 (x0 : Vec Ideal S2000x64 .f32) (x1 x2 : Vec Ideal S1x64 .f32) (r : Fin 2000) (q : Fin 64) :
    Gen.k7_pay1 x0 x1 x2 (ix2 r q) = max (x0 (ix2 r q) * x1 (ix2 (0 : Fin 1) q) + x2 (ix2 (0 : Fin 1) q)) 0 := by
  unfold Gen.k7_pay1
  simp only [shapeCast_self]
  rw [maximumf_apply, addf_apply, mulf_apply, broadcastTo_1b_ab_apply, broadcastTo_1b_ab_apply, broadcast_apply,
    Ideal.ofBits_def, Ideal.ofBits_zero_f32]

/-- Where the blocks sit: at point `t` the row-blocked windows (the input and the output) are at block `t` of
    the rows, the scale and shift rows at their only block. -/
theorem block_index7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The block's arithmetic at an entry is the whole-array function at the entry's place in the array, when the block's
    entry is the array's there and the block's scale and shift are the array's on that column. -/
theorem affRelu_point7 (A : GraphSage.Mat 50000 64) (S T : GraphSage.Mat 1 64) (x0 : Vec Ideal S2000x64 .f32)
    (x1 x2 : Vec Ideal S1x64 .f32) (j : S2000x64.Idx) (i : S50000x64.Idx) (h0 : x0 j = A i)
    (h1 : x1 (ix2 (0 : Fin 1) (j 1)) = S (ix2 (0 : Fin 1) (i 1))) (h2 : x2 (ix2 (0 : Fin 1) (j 1)) = T (ix2 (0 : Fin 1) (i 1))) :
    Gen.k7_pay1 x0 x1 x2 j = GraphSage.affRelu A S T i := by
  obtain ⟨r, q, rfl⟩ : ∃ (r : Fin 2000) (q : Fin 64), j = ix2 r q := ⟨j 0, j 1, eq_ix2 j⟩
  have h1' : x1 (ix2 (0 : Fin 1) q) = S (ix2 (0 : Fin 1) (i 1)) := h1
  have h2' : x2 (ix2 (0 : Fin 1) q) = T (ix2 (0 : Fin 1) (i 1)) := h2
  rw [affRelu_block7, h0, h1', h2']
  rfl

/-- Point `t`'s block of the input array, read where the output's block says. -/
theorem read7_0 (c : Dev nD) (t : Fin cfg7.N) (j : S2000x64.Idx) :
    (Gen.iblk7 V c 0 t : Vec Ideal S2000x64 .f32) j = V c (Pipeline.arrRef spec7 0) (((cfg7.win 3).blk t).view.emb j) := by
  obtain ⟨e0, e1, -, -, -, -, e6, e7⟩ := block_index7 t
  show V c (Pipeline.arrRef spec7 0) (((cfg7.win 0).blk t).view.emb j) = V c (Pipeline.arrRef spec7 0) (((cfg7.win 3).blk t).view.emb j)
  refine congrArg (V c (Pipeline.arrRef spec7 0)) (funext fun a => Fin.ext ?_)
  match a with
  | ⟨0, _⟩ => show win7_0.index t (0 : Fin 2) * 2000 + 1 * (j 0).val = win7_3.index t (0 : Fin 2) * 2000 + 1 * (j 0).val; rw [e0, e6]
  | ⟨1, _⟩ => show win7_0.index t (1 : Fin 2) * 64 + 1 * (j 1).val = win7_3.index t (1 : Fin 2) * 64 + 1 * (j 1).val; rw [e1, e7]

/-- The scale row, read on the column the output's block says. -/
theorem read7_1 (c : Dev nD) (t : Fin cfg7.N) (j : S2000x64.Idx) :
    (Gen.iblk7 V c 1 t : Vec Ideal S1x64 .f32) (ix2 (0 : Fin 1) (j 1))
      = V c (Pipeline.arrRef spec7 1) (ix2 (0 : Fin 1) ((((cfg7.win 3).blk t).view.emb j) 1)) := by
  obtain ⟨-, -, e2, e3, -, -, e6, e7⟩ := block_index7 t
  show V c (Pipeline.arrRef spec7 1) (((cfg7.win 1).blk t).view.emb (ix2 (0 : Fin 1) (j 1))) = _
  refine congrArg (V c (Pipeline.arrRef spec7 1)) (funext fun a => Fin.ext ?_)
  match a with
  | ⟨0, _⟩ => show win7_1.index t (0 : Fin 2) * 1 + 1 * 0 = 0; rw [e2]
  | ⟨1, _⟩ => show win7_1.index t (1 : Fin 2) * 64 + 1 * (j 1).val = win7_3.index t (1 : Fin 2) * 64 + 1 * (j 1).val; rw [e3, e7]

/-- The shift row, read on the column the output's block says. -/
theorem read7_2 (c : Dev nD) (t : Fin cfg7.N) (j : S2000x64.Idx) :
    (Gen.iblk7 V c 2 t : Vec Ideal S1x64 .f32) (ix2 (0 : Fin 1) (j 1))
      = V c (Pipeline.arrRef spec7 2) (ix2 (0 : Fin 1) ((((cfg7.win 3).blk t).view.emb j) 1)) := by
  obtain ⟨-, -, -, -, e4, e5, e6, e7⟩ := block_index7 t
  show V c (Pipeline.arrRef spec7 2) (((cfg7.win 2).blk t).view.emb (ix2 (0 : Fin 1) (j 1))) = _
  refine congrArg (V c (Pipeline.arrRef spec7 2)) (funext fun a => Fin.ext ?_)
  match a with
  | ⟨0, _⟩ => show win7_2.index t (0 : Fin 2) * 1 + 1 * 0 = 0; rw [e4]
  | ⟨1, _⟩ => show win7_2.index t (1 : Fin 2) * 64 + 1 * (j 1).val = win7_3.index t (1 : Fin 2) * 64 + 1 * (j 1).val; rw [e5, e7]

/-- WHAT POINT `t` WRITES BACK is block `t` of the affine map and positive part of the whole arrays. -/
theorem flushed7_eq (c : Dev nD) (t : Fin cfg7.N) :
    (Gen.dat7 (F := Ideal) V c).flushed 3 t = ((cfg7.win 3).blk t).view.read (Elt Ideal)
      (GraphSage.affRelu (V c (Pipeline.arrRef spec7 0)) (V c (Pipeline.arrRef spec7 1)) (V c (Pipeline.arrRef spec7 2))) := by
  show (cfg7.win 3).cut (grid7.coords t) ((Gen.dat7 V c).after 3 t) = _
  rw [Gen.after7_3]
  unfold Gen.out7_3
  rw [View.canon_unit_zero zero_off7]
  simp only [View.ld_unit_zero (S := S2000x64) zero_off7, View.ld_unit_zero (S := S1x64) zero_off7]
  funext j
  show Gen.k7_pay1 (Gen.iblk7 V c 0 t) (Gen.iblk7 V c 1 t) (Gen.iblk7 V c 2 t) j
    = GraphSage.affRelu _ _ _ (((cfg7.win 3).blk t).view.emb j)
  exact affRelu_point7 _ _ _ (Gen.iblk7 V c 0 t) (Gen.iblk7 V c 1 t) (Gen.iblk7 V c 2 t) j _
    (read7_0 V c t j) (read7_1 V c t j) (read7_2 V c t j)

/-- An index of the array is in point `t`'s block iff each coordinate is in the block's range on its axis. -/
theorem mem_block7 (t : Fin cfg7.N) (i : S50000x64.Idx) :
    i ∈ ((cfg7.win 3).blk t).view.set ↔ ∀ a : Fin 2, win7_3.index t a * S2000x64.size a ≤ (i a).val
      ∧ (i a).val < win7_3.index t a * S2000x64.size a + S2000x64.size a := by
  show i ∈ ((View.whole main_v110).slice (win7_3.rect t)).set ↔ _
  rw [View.set_slice_whole, Rect.mem_set_unit]
  exact Iff.rfl

/-- THE ARRAY after the region: the affine map and positive part of the region's input arrays.  Row `r` is
    written by point `r / 2000`. -/
theorem region7_out (c : Dev nD) :
    (Gen.dat7 (F := Ideal) V c).arrAt 3 cfg7.N
      = GraphSage.affRelu (V c (Pipeline.arrRef spec7 0)) (V c (Pipeline.arrRef spec7 1)) (V c (Pipeline.arrRef spec7 2)) :=
  (Gen.dat7 (F := Ideal) V c).arrAt_eq_of_cover 3 _ (fun t _ => flushed7_eq V c t) (fun i => by
    have hi0 : ((i : S50000x64.Idx) 0).val < 50000 := (i 0).isLt
    have hi1 : ((i : S50000x64.Idx) 1).val < 64 := (i 1).isLt
    have hN : cfg7.N = 25 := Gen.N_7
    have ht : ((i : S50000x64.Idx) 0).val / 2000 < cfg7.N := by rw [hN]; omega
    obtain ⟨-, -, -, -, -, -, e6, e7⟩ := block_index7 ⟨_, ht⟩
    refine ⟨⟨_, ht⟩, Gen.flush7_3 _, ?_⟩
    rw [mem_block7]
    intro a
    match a with
    | ⟨0, _⟩ =>
      show win7_3.index _ (0 : Fin 2) * 2000 ≤ (i 0).val ∧ (i 0).val < win7_3.index _ (0 : Fin 2) * 2000 + 2000
      rw [e6]; show (i 0).val / 2000 * 2000 ≤ (i 0).val ∧ (i 0).val < (i 0).val / 2000 * 2000 + 2000; omega
    | ⟨1, _⟩ =>
      show win7_3.index _ (1 : Fin 2) * 64 ≤ (i 1).val ∧ (i 1).val < win7_3.index _ (1 : Fin 2) * 64 + 64
      rw [e7]; omega)

end Cert.KernelIdeal.Val

end
-- ==== Proof.KRegion8.lean ====
/-
  The head of the network as the last region computes it.

  The region has a single grid point and every window is a whole array: the pooled features, three weight
  matrices and three bias rows.  Its body is three matrix products, each followed by the addition of a bias
  row, the first two also by a positive part; the changes of float format in between are the identity on the
  extended reals.  So the array it leaves is the three-layer head applied to the region's input arrays.
-/
import proofs.«180069_j11596411699546_2_alg».proof.Proof.Gen.KernelIdeal.Frame
import proofs.«180069_j11596411699546_2_alg».proof.Proof.SpecMlp

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen RowBlocks GraphSage

/-- The contractions of the three products are plain matrix products. -/
theorem plain8a : PlainSum dot_S64x64_S64x64_S64x64_1_0_0_1_n_n :=
  plainSum_of _ rfl rfl (fun _ _ => rfl) (fun _ _ => rfl) (fun _ _ => rfl) (fun _ _ => rfl)
theorem plain8b : PlainSum dot_S64x64_S64x32_S64x32_1_0_0_1_n_n :=
  plainSum_of _ rfl rfl (fun _ _ => rfl) (fun _ _ => rfl) (fun _ _ => rfl) (fun _ _ => rfl)
theorem plain8c : PlainSum dot_S64x32_S32x2_S64x2_1_0_0_1_n_n :=
  plainSum_of _ rfl rfl (fun _ _ => rfl) (fun _ _ => rfl) (fun _ _ => rfl) (fun _ _ => rfl)

/-- The first layer as the body spells it: product, bias row, positive part. -/
theorem layer8a (p w : Vec Ideal S64x64 .f32) (b : Vec Ideal S1x64 .f32) :
    maximumf (addf (matmul dot_S64x64_S64x64_S64x64_1_0_0_1_n_n none (truncf .bf16 p bitsLt_bf16_f32)
        (truncf .bf16 w bitsLt_bf16_f32) (constant (F := Ideal) S64x64 .f32 0x00000000#32))
        (broadcastTo S64x64 b broadcasts_S1x64_S64x64))
      (broadcast S64x64 (Scalar.ofBits (F := Ideal) .f32 0x00000000#32))
      = linRelu p w b := by
  funext i
  obtain ⟨r, q, rfl⟩ : ∃ (r : Fin 64) (q : Fin 64), i = ix2 r q := ⟨i 0, i 1, eq_ix2 i⟩
  rw [maximumf_apply, addf_apply, matmul_zero_ix2 _ plain8a, broadcast_apply]
  rw [broadcastTo_apply b _ _ (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])]
  show max (_ + _) (Ideal.ofBits .f32 0x00000000#32) = _
  rw [Ideal.ofBits_zero_f32]
  rfl

/-- The second layer as the body spells it. -/
theorem layer8b (p : Vec Ideal S64x64 .f32) (w : Vec Ideal S64x32 .f32) (b : Vec Ideal S1x32 .f32) :
    maximumf (addf (matmul dot_S64x64_S64x32_S64x32_1_0_0_1_n_n none (truncf .bf16 p bitsLt_bf16_f32)
        (truncf .bf16 w bitsLt_bf16_f32) (constant (F := Ideal) S64x32 .f32 0x00000000#32))
        (broadcastTo S64x32 b broadcasts_S1x32_S64x32))
      (broadcast S64x32 (Scalar.ofBits (F := Ideal) .f32 0x00000000#32))
      = linRelu p w b := by
  funext i
  obtain ⟨r, q, rfl⟩ : ∃ (r : Fin 64) (q : Fin 32), i = ix2 r q := ⟨i 0, i 1, eq_ix2 i⟩
  rw [maximumf_apply, addf_apply, matmul_zero_ix2 _ plain8b, broadcast_apply]
  rw [broadcastTo_apply b _ _ (ix2 0 q) (fun a => match a with
    | ⟨0, _⟩ => by show 0 = if (1 : Nat) = 1 then 0 else _; rw [if_pos rfl]
    | ⟨1, _⟩ => by show q.val = if (32 : Nat) = 1 then 0 else q.val; rw [if_neg (by decide)])]
  show max (_ + _) (Ideal.ofBits .f32 0x00000000#32) = _
  rw [Ideal.ofBits_zero_f32]
  rfl

/-- The last layer as the body spells it: product and bias row. -/
theorem layer8c (p : Vec Ideal S64x32 .f32) (w : Vec Ideal S32x2 .f32) (b : Vec Ideal S1x2 .f32) (i : S64x2.Idx) :
    addf (matmul dot_S64x32_S32x2_S64x2_1_0_0_1_n_n none (truncf .bf16 p bitsLt_bf16_f32)
        (truncf .bf16 w bitsLt_bf16_f32) (constant (F := Ideal) S64x2 .f32 0x00000000#32))
        (broadcastTo S64x2 b broadcasts_S1x2_S64x2) i
      = mm p w i + b (ix2 0 (i 1)) := by
  obtain ⟨r, q, rfl⟩ : ∃ (r : Fin 64) (q : Fin 2), i = ix2 r q := ⟨i 0, i 1, eq_ix2 i⟩
  rw [addf_apply, matmul_zero_ix2 _ plain8c]
  rw [broadcastTo_apply b _ _ (ix2 0 q) (fun a => match a with
    | ⟨0, _⟩ => by show 0 = if (1 : Nat) = 1 then 0 else _; rw [if_pos rfl]
    | ⟨1, _⟩ => by show q.val = if (2 : Nat) = 1 then 0 else q.val; rw [if_neg (by decide)])]
  rfl

/-- THE BODY'S PAYLOAD is the head applied to its loaded arrays. -/
theorem pay8_eq (p w1 : Vec Ideal S64x64 .f32) (b1 : Vec Ideal S1x64 .f32) (w2 : Vec Ideal S64x32 .f32)
    (b2 : Vec Ideal S1x32 .f32) (w3 : Vec Ideal S32x2 .f32) (b3 : Vec Ideal S1x2 .f32) :
    k8_pay1 (F := Ideal) p w1 b1 w2 b2 w3 b3 = mlp p w1 b1 w2 b2 w3 b3 := by
  unfold k8_pay1
  simp only [shapeCast_self]
  rw [layer8a, layer8b]
  funext i
  rw [layer8c]
  rfl

/-- The whole-buffer rectangle's offsets are zero. -/
theorem hz8 : (![0, 0] : Fin 2 → Nat) = fun _ => 0 := funext fun a => by fin_cases a <;> rfl

/-- The payload at a block index is the head at the same array index, when the loaded arrays are the whole arrays. -/
theorem pay8_at (P W1 : Mat 64 64) (B1 : Mat 1 64) (W2 : Mat 64 32) (B2 : Mat 1 32) (W3 : Mat 32 2) (B3 : Mat 1 2)
    (x0 x1 : Vec Ideal S64x64 .f32) (x2 : Vec Ideal S1x64 .f32) (x3 : Vec Ideal S64x32 .f32)
    (x4 : Vec Ideal S1x32 .f32) (x5 : Vec Ideal S32x2 .f32) (x6 : Vec Ideal S1x2 .f32)
    (h0 : x0 = P) (h1 : x1 = W1) (h2 : x2 = B1) (h3 : x3 = W2) (h4 : x4 = B2) (h5 : x5 = W3) (h6 : x6 = B3)
    (y i : S64x2.Idx) (hi0 : (i 0).val = (y 0).val) (hi1 : (i 1).val = (y 1).val) :
    k8_pay1 (F := Ideal) x0 x1 x2 x3 x4 x5 x6 y = mlp P W1 B1 W2 B2 W3 B3 i := by
  subst h0 h1 h2 h3 h4 h5 h6
  have hi : i = y := funext fun a => Fin.ext (by
    match a with
    | ⟨0, _⟩ => exact hi0
    | ⟨1, _⟩ => exact hi1)
  rw [hi, pay8_eq]

/-- The printed index maps at the single point: every window sits at block zero. -/
theorem idx8 : ∀ t : Fin cfg8.N,
    win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = 0 ∧ win8_7.index t (1 : Fin 2) = 0 :=
  (by decide +kernel : ∀ t : Fin grid8.N, _)

section Blocks
variable (V : (c : Dev nD) → (b : Ref sig .tc) → Buf (Elt Ideal) ((c : Thread nD τ).loc b)) (c : Dev nD)

/-- Window 0 is its whole array. -/
theorem iblk8_0 (t : Fin cfg8.N) :
    (iblk8 (F := Ideal) V c 0 t : Vec Ideal S64x64 .f32) = (V c (Pipeline.arrRef spec8 0) : Mat 64 64) := by
  obtain ⟨e0, e1, -⟩ := idx8 t
  funext y
  unfold iblk8
  rw [View.read_apply]
  refine congrArg (V c (Pipeline.arrRef spec8 0) : Mat 64 64) (funext fun a => Fin.ext ?_)
  match a with
  | ⟨0, _⟩ => show win8_0.index t (0 : Fin 2) * 64 + 1 * (y 0).val = (y 0).val; rw [e0]; omega
  | ⟨1, _⟩ => show win8_0.index t (1 : Fin 2) * 64 + 1 * (y 1).val = (y 1).val; rw [e1]; omega

/-- Window 1 is its whole array. -/
theorem iblk8_1 (t : Fin cfg8.N) :
    (iblk8 (F := Ideal) V c 1 t : Vec Ideal S64x64 .f32) = (V c (Pipeline.arrRef spec8 1) : Mat 64 64) := by
  obtain ⟨-, -, e0, e1, -⟩ := idx8 t
  funext y
  unfold iblk8
  rw [View.read_apply]
  refine congrArg (V c (Pipeline.arrRef spec8 1) : Mat 64 64) (funext fun a => Fin.ext ?_)
  match a with
  | ⟨0, _⟩ => show win8_1.index t (0 : Fin 2) * 64 + 1 * (y 0).val = (y 0).val; rw [e0]; omega
  | ⟨1, _⟩ => show win8_1.index t (1 : Fin 2) * 64 + 1 * (y 1).val = (y 1).val; rw [e1]; omega

/-- Window 2 is its whole array. -/
theorem iblk8_2 (t : Fin cfg8.N) :
    (iblk8 (F := Ideal) V c 2 t : Vec Ideal S1x64 .f32) = (V c (Pipeline.arrRef spec8 2) : Mat 1 64) := by
  obtain ⟨-, -, -, -, e0, e1, -⟩ := idx8 t
  funext y
  unfold iblk8
  rw [View.read_apply]
  refine congrArg (V c (Pipeline.arrRef spec8 2) : Mat 1 64) (funext fun a => Fin.ext ?_)
  match a with
  | ⟨0, _⟩ => show win8_2.index t (0 : Fin 2) * 1 + 1 * (y 0).val = (y 0).val; rw [e0]; omega
  | ⟨1, _⟩ => show win8_2.index t (1 : Fin 2) * 64 + 1 * (y 1).val = (y 1).val; rw [e1]; omega

/-- Window 3 is its whole array. -/
theorem iblk8_3 (t : Fin cfg8.N) :
    (iblk8 (F := Ideal) V c 3 t : Vec Ideal S64x32 .f32) = (V c (Pipeline.arrRef spec8 3) : Mat 64 32) := by
  obtain ⟨-, -, -, -, -, -, e0, e1, -⟩ := idx8 t
  funext y
  unfold iblk8
  rw [View.read_apply]
  refine congrArg (V c (Pipeline.arrRef spec8 3) : Mat 64 32) (funext fun a => Fin.ext ?_)
  match a with
  | ⟨0, _⟩ => show win8_3.index t (0 : Fin 2) * 64 + 1 * (y 0).val = (y 0).val; rw [e0]; omega
  | ⟨1, _⟩ => show win8_3.index t (1 : Fin 2) * 32 + 1 * (y 1).val = (y 1).val; rw [e1]; omega

/-- Window 4 is its whole array. -/
theorem iblk8_4 (t : Fin cfg8.N) :
    (iblk8 (F := Ideal) V c 4 t : Vec Ideal S1x32 .f32) = (V c (Pipeline.arrRef spec8 4) : Mat 1 32) := by
  obtain ⟨-, -, -, -, -, -, -, -, e0, e1, -⟩ := idx8 t
  funext y
  unfold iblk8
  rw [View.read_apply]
  refine congrArg (V c (Pipeline.arrRef spec8 4) : Mat 1 32) (funext fun a => Fin.ext ?_)
  match a with
  | ⟨0, _⟩ => show win8_4.index t (0 : Fin 2) * 1 + 1 * (y 0).val = (y 0).val; rw [e0]; omega
  | ⟨1, _⟩ => show win8_4.index t (1 : Fin 2) * 32 + 1 * (y 1).val = (y 1).val; rw [e1]; omega

/-- Window 5 is its whole array. -/
theorem iblk8_5 (t : Fin cfg8.N) :
    (iblk8 (F := Ideal) V c 5 t : Vec Ideal S32x2 .f32) = (V c (Pipeline.arrRef spec8 5) : Mat 32 2) := by
  obtain ⟨-, -, -, -, -, -, -, -, -, -, e0, e1, -⟩ := idx8 t
  funext y
  unfold iblk8
  rw [View.read_apply]
  refine congrArg (V c (Pipeline.arrRef spec8 5) : Mat 32 2) (funext fun a => Fin.ext ?_)
  match a with
  | ⟨0, _⟩ => show win8_5.index t (0 : Fin 2) * 32 + 1 * (y 0).val = (y 0).val; rw [e0]; omega
  | ⟨1, _⟩ => show win8_5.index t (1 : Fin 2) * 2 + 1 * (y 1).val = (y 1).val; rw [e1]; omega

/-- Window 6 is its whole array. -/
theorem iblk8_6 (t : Fin cfg8.N) :
    (iblk8 (F := Ideal) V c 6 t : Vec Ideal S1x2 .f32) = (V c (Pipeline.arrRef spec8 6) : Mat 1 2) := by
  obtain ⟨-, -, -, -, -, -, -, -, -, -, -, -, e0, e1, -⟩ := idx8 t
  funext y
  unfold iblk8
  rw [View.read_apply]
  refine congrArg (V c (Pipeline.arrRef spec8 6) : Mat 1 2) (funext fun a => Fin.ext ?_)
  match a with
  | ⟨0, _⟩ => show win8_6.index t (0 : Fin 2) * 1 + 1 * (y 0).val = (y 0).val; rw [e0]; omega
  | ⟨1, _⟩ => show win8_6.index t (1 : Fin 2) * 2 + 1 * (y 1).val = (y 1).val; rw [e1]; omega

/-- WHAT THE POINT WRITES BACK is the head of the region's input arrays, read through the whole-array block. -/
theorem flushed8 (t : Fin cfg8.N) :
    (dat8 (F := Ideal) V c).flushed 7 t
      = ((cfg8.win 7).blk t).view.read (Elt Ideal)
          (mlp (V c (Pipeline.arrRef spec8 0)) (V c (Pipeline.arrRef spec8 1)) (V c (Pipeline.arrRef spec8 2))
            (V c (Pipeline.arrRef spec8 3)) (V c (Pipeline.arrRef spec8 4)) (V c (Pipeline.arrRef spec8 5))
            (V c (Pipeline.arrRef spec8 6))) := by
  show (cfg8.win 7).cut (grid8.coords t) ((dat8 V c).after 7 t) = _
  rw [after8_7]
  unfold out8_7
  rw [View.canon_unit_zero hz8]
  simp only [View.ld_unit_zero (S := S64x64) hz8, View.ld_unit_zero (S := S1x64) hz8,
    View.ld_unit_zero (S := S64x32) hz8, View.ld_unit_zero (S := S1x32) hz8, View.ld_unit_zero (S := S32x2) hz8,
    View.ld_unit_zero (S := S1x2) hz8]
  obtain ⟨-, -, -, -, -, -, -, -, -, -, -, -, -, -, e0, e1⟩ := idx8 t
  funext y
  rw [View.read_apply]
  refine pay8_at (V c (Pipeline.arrRef spec8 0)) (V c (Pipeline.arrRef spec8 1)) (V c (Pipeline.arrRef spec8 2))
    (V c (Pipeline.arrRef spec8 3)) (V c (Pipeline.arrRef spec8 4)) (V c (Pipeline.arrRef spec8 5))
    (V c (Pipeline.arrRef spec8 6))
    (iblk8 V c 0 t) (iblk8 V c 1 t) (iblk8 V c 2 t) (iblk8 V c 3 t) (iblk8 V c 4 t) (iblk8 V c 5 t) (iblk8 V c 6 t)
    (iblk8_0 V c t) (iblk8_1 V c t) (iblk8_2 V c t) (iblk8_3 V c t) (iblk8_4 V c t) (iblk8_5 V c t) (iblk8_6 V c t)
    y (((cfg8.win 7).blk t).view.emb y) ?_ ?_
  · show win8_7.index t (0 : Fin 2) * 64 + 1 * (y 0).val = (y 0).val; rw [e0]; omega
  · show win8_7.index t (1 : Fin 2) * 2 + 1 * (y 1).val = (y 1).val; rw [e1]; omega

/-- An index of the output is in the point's block iff each coordinate is in the block's range on its axis. -/
theorem mem_blk8 (t : Fin cfg8.N) (i : S64x2.Idx) :
    i ∈ ((cfg8.win 7).blk t).view.set
      ↔ ∀ a : Fin 2, win8_7.index t a * S64x2.size a ≤ (i a).val
          ∧ (i a).val < win8_7.index t a * S64x2.size a + S64x2.size a := by
  show i ∈ ((View.whole main_v126).slice (win8_7.rect t)).set ↔ _
  rw [View.set_slice_whole, Rect.mem_set_unit]
  exact Iff.rfl

/-- The single point's block is the whole output. -/
theorem cover8 (i : S64x2.Idx) :
    ∃ t : Fin cfg8.N, (cfg8.win 7).flush t = true ∧ i ∈ ((cfg8.win 7).blk t).view.set := by
  have hN : cfg8.N = 1 := N_8
  have hi0 : (i 0).val < 64 := (i 0).isLt
  have hi1 : (i 1).val < 2 := (i 1).isLt
  let t : Fin cfg8.N := ⟨0, by rw [hN]; omega⟩
  obtain ⟨-, -, -, -, -, -, -, -, -, -, -, -, -, -, e0, e1⟩ := idx8 t
  refine ⟨t, flush8_7 t, ?_⟩
  rw [mem_blk8]
  intro a
  match a with
  | ⟨0, _⟩ =>
    show win8_7.index t (0 : Fin 2) * 64 ≤ (i 0).val ∧ (i 0).val < win8_7.index t (0 : Fin 2) * 64 + 64
    rw [e0]; omega
  | ⟨1, _⟩ =>
    show win8_7.index t (1 : Fin 2) * 2 ≤ (i 1).val ∧ (i 1).val < win8_7.index t (1 : Fin 2) * 2 + 2
    rw [e1]; omega

/-- THE ARRAY AFTER THE REGION: the three-layer head of the pooled features. -/
theorem region8_out :
    (dat8 (F := Ideal) V c).arrAt 7 cfg8.N
      = mlp (V c (Pipeline.arrRef spec8 0)) (V c (Pipeline.arrRef spec8 1)) (V c (Pipeline.arrRef spec8 2))
          (V c (Pipeline.arrRef spec8 3)) (V c (Pipeline.arrRef spec8 4)) (V c (Pipeline.arrRef spec8 5))
          (V c (Pipeline.arrRef spec8 6)) :=
  (dat8 (F := Ideal) V c).arrAt_eq_of_cover 7 _ (fun t _ => flushed8 V c t) cover8

end Blocks

end Cert.KernelIdeal.Val

end
-- ==== Proof.KChain.lean ====
/-
  The kernel program's value, boundary by boundary.  Each pipelined region leaves, in its output array, one
  whole-array function of its input arrays; each stretch of host operations computes the next region's inputs.
  Composed: after three layers the node features are the first pipeline of Net.lean applied to the arguments,
  and the result is the head applied to their per-graph mean.
-/
import proofs.«180069_j11596411699546_2_alg».proof.Proof.KCarryA
import proofs.«180069_j11596411699546_2_alg».proof.Proof.KCarryB
import proofs.«180069_j11596411699546_2_alg».proof.Proof.KCarryC
import proofs.«180069_j11596411699546_2_alg».proof.Proof.KStages
import proofs.«180069_j11596411699546_2_alg».proof.Proof.KHostNorm
import proofs.«180069_j11596411699546_2_alg».proof.Proof.KHostAggr
import proofs.«180069_j11596411699546_2_alg».proof.Proof.Net
import proofs.«180069_j11596411699546_2_alg».proof.Proof.SpecMlp
import proofs.«180069_j11596411699546_2_alg».proof.Proof.KRegion0
import proofs.«180069_j11596411699546_2_alg».proof.Proof.KRegion1
import proofs.«180069_j11596411699546_2_alg».proof.Proof.KRegion2
import proofs.«180069_j11596411699546_2_alg».proof.Proof.KRegion3
import proofs.«180069_j11596411699546_2_alg».proof.Proof.KRegion4
import proofs.«180069_j11596411699546_2_alg».proof.Proof.KRegion5
import proofs.«180069_j11596411699546_2_alg».proof.Proof.KRegion6
import proofs.«180069_j11596411699546_2_alg».proof.Proof.KRegion7
import proofs.«180069_j11596411699546_2_alg».proof.Proof.KRegion8

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Gen RowBlocks GraphSage

variable (m : (ℓ : Loc nD τ sig) → Buf (Elt Ideal) ℓ) (ρ : Dev nD → PrngReg) (c : Dev nD)

/-! ## Each region's output array at its exit boundary -/

theorem reg0 : Gen.W2 (F := Ideal) m ρ c (Proc.devRef .tc main_v26)
    = linAgg (Gen.W1 m ρ c (Proc.devRef .tc main_v22)) (Gen.W1 m ρ c (Proc.devRef .tc main_arg0)) (Gen.W1 m ρ c (Proc.devRef .tc main_v12)) (Gen.W1 m ρ c (Proc.devRef .tc main_v23)) (Gen.W1 m ρ c (Proc.devRef .tc main_v24)) (Gen.W1 m ρ c (Proc.devRef .tc main_v25)) :=
  (Gen.W2_arr m ρ c 6).trans (region0_out (Gen.V1 m ρ) c)

theorem reg1 : Gen.W4 (F := Ideal) m ρ c (Proc.devRef .tc main_v44)
    = affRelu (Gen.W3 m ρ c (Proc.devRef .tc main_v26)) (Gen.W3 m ρ c (Proc.devRef .tc main_v42)) (Gen.W3 m ρ c (Proc.devRef .tc main_v43)) :=
  (Gen.W4_arr m ρ c 3).trans (region1_out (Gen.V3 m ρ) c)

theorem reg2l : Gen.W6 (F := Ideal) m ρ c (Proc.devRef .tc main_v47_0)
    = mm (Gen.W5 m ρ c (Proc.devRef .tc main_v44) : Mat 50000 256) (Gen.W5 m ρ c (Proc.devRef .tc main_v45) : Mat 256 128) :=
  (Gen.W6_arr m ρ c 3).trans (region2_outl (Gen.V5 m ρ) c)

theorem reg2r : Gen.W6 (F := Ideal) m ρ c (Proc.devRef .tc main_v47_1)
    = mm (Gen.W5 m ρ c (Proc.devRef .tc main_v44) : Mat 50000 256) (Gen.W5 m ρ c (Proc.devRef .tc main_v46) : Mat 256 128) :=
  (Gen.W6_arr m ρ c 4).trans (region2_outr (Gen.V5 m ρ) c)

theorem reg3 : Gen.W8 (F := Ideal) m ρ c (Proc.devRef .tc main_v59)
    = combine (Gen.W7 m ρ c (Proc.devRef .tc main_v57)) (Gen.W7 m ρ c (Proc.devRef .tc main_v47_1)) (Gen.W7 m ρ c (Proc.devRef .tc main_v12)) (Gen.W7 m ρ c (Proc.devRef .tc main_v58)) :=
  (Gen.W8_arr m ρ c 4).trans (region3_out (Gen.V7 m ρ) c)

theorem reg4 : Gen.W10 (F := Ideal) m ρ c (Proc.devRef .tc main_v77)
    = affRelu (Gen.W9 m ρ c (Proc.devRef .tc main_v59)) (Gen.W9 m ρ c (Proc.devRef .tc main_v75)) (Gen.W9 m ρ c (Proc.devRef .tc main_v76)) :=
  (Gen.W10_arr m ρ c 3).trans (region4_out (Gen.V9 m ρ) c)

theorem reg5l : Gen.W12 (F := Ideal) m ρ c (Proc.devRef .tc main_v80_0)
    = mm (Gen.W11 m ρ c (Proc.devRef .tc main_v77) : Mat 50000 128) (Gen.W11 m ρ c (Proc.devRef .tc main_v78) : Mat 128 64) :=
  (Gen.W12_arr m ρ c 3).trans (region5_outl (Gen.V11 m ρ) c)

theorem reg5r : Gen.W12 (F := Ideal) m ρ c (Proc.devRef .tc main_v80_1)
    = mm (Gen.W11 m ρ c (Proc.devRef .tc main_v77) : Mat 50000 128) (Gen.W11 m ρ c (Proc.devRef .tc main_v79) : Mat 128 64) :=
  (Gen.W12_arr m ρ c 4).trans (region5_outr (Gen.V11 m ρ) c)

theorem reg6 : Gen.W14 (F := Ideal) m ρ c (Proc.devRef .tc main_v92)
    = combine (Gen.W13 m ρ c (Proc.devRef .tc main_v90)) (Gen.W13 m ρ c (Proc.devRef .tc main_v80_1)) (Gen.W13 m ρ c (Proc.devRef .tc main_v12)) (Gen.W13 m ρ c (Proc.devRef .tc main_v91)) :=
  (Gen.W14_arr m ρ c 4).trans (region6_out (Gen.V13 m ρ) c)

theorem reg7 : Gen.W16 (F := Ideal) m ρ c (Proc.devRef .tc main_v110)
    = affRelu (Gen.W15 m ρ c (Proc.devRef .tc main_v92)) (Gen.W15 m ρ c (Proc.devRef .tc main_v108)) (Gen.W15 m ρ c (Proc.devRef .tc main_v109)) :=
  (Gen.W16_arr m ρ c 3).trans (region7_out (Gen.V15 m ρ) c)

theorem reg8 : Gen.W18 (F := Ideal) m ρ c (Proc.devRef .tc main_v126)
    = mlp (Gen.W17 m ρ c (Proc.devRef .tc main_v122)) (Gen.W17 m ρ c (Proc.devRef .tc main_arg18)) (Gen.W17 m ρ c (Proc.devRef .tc main_v123)) (Gen.W17 m ρ c (Proc.devRef .tc main_arg20)) (Gen.W17 m ρ c (Proc.devRef .tc main_v124)) (Gen.W17 m ρ c (Proc.devRef .tc main_arg22)) (Gen.W17 m ρ c (Proc.devRef .tc main_v125)) :=
  (Gen.W18_arr m ρ c 7).trans (region8_out (Gen.V17 m ρ) c)

/-! ## The layers -/

theorem zero_add_aggr {n E c' : ℕ} (inc : Fin n → Finset (Fin E)) (src : Fin E → Fin n) (H : Mat n c') :
    (fun i => 0 + aggr inc src H i) = aggr inc src H := funext fun i => zero_add _

/-- The first layer's linear part. -/
theorem lin1 : Gen.W2 m ρ c (Proc.devRef .tc main_v26)
    = kLinFirst (incOf 50000 (dstIdx (Gen.W1 m ρ c (Proc.devRef .tc main_v3)))) (srcRow (by norm_num) (srcIdx (Gen.W1 m ρ c (Proc.devRef .tc main_v1)))) (Gen.W0 m ρ c (Proc.devRef .tc main_arg0)) (Gen.W0 m ρ c (Proc.devRef .tc main_arg3)) (Gen.W0 m ρ c (Proc.devRef .tc main_arg4)) (Gen.W0 m ρ c (Proc.devRef .tc main_arg5)) := by
  rw [reg0, stage1_aggr, carry_arg0_1_0, stage1_invdeg, st1_v23, st1_v24, st1_v25, zero_add_aggr]
  rfl

/-- The first layer's features. -/
theorem feat1 : Gen.W4 m ρ c (Proc.devRef .tc main_v44) = kNorm (Gen.W2 m ρ c (Proc.devRef .tc main_v26)) (Gen.W0 m ρ c (Proc.devRef .tc main_arg6)) (Gen.W0 m ρ c (Proc.devRef .tc main_arg7)) := by
  rw [reg1, carry_v26_3_2, norm1_scale, norm1_shift, carry_arg6_2_0, carry_arg7_2_0]
  rfl

/-- The second layer's linear part. -/
theorem lin2 : Gen.W8 m ρ c (Proc.devRef .tc main_v59)
    = kLinNext (incOf 50000 (dstIdx (Gen.W1 m ρ c (Proc.devRef .tc main_v3)))) (srcRow (by norm_num) (srcIdx (Gen.W1 m ρ c (Proc.devRef .tc main_v1)))) (Gen.W4 m ρ c (Proc.devRef .tc main_v44)) (Gen.W0 m ρ c (Proc.devRef .tc main_arg8)) (Gen.W0 m ρ c (Proc.devRef .tc main_arg9)) (Gen.W0 m ρ c (Proc.devRef .tc main_arg10)) := by
  rw [reg3, stage7_aggr, carry_v3_6_1, carry_v1_6_1, reg2l, carry_v47_1_7_6, reg2r, carry_v44_5_4, st5_v45, st5_v46,
    carry_arg8_4_0, carry_arg9_4_0, carry_v12_7_1, stage1_invdeg, st7_v58, carry_arg10_6_0, zero_add_aggr]
  rfl

/-- The second layer's features. -/
theorem feat2 : Gen.W10 m ρ c (Proc.devRef .tc main_v77) = kNorm (Gen.W8 m ρ c (Proc.devRef .tc main_v59)) (Gen.W0 m ρ c (Proc.devRef .tc main_arg11)) (Gen.W0 m ρ c (Proc.devRef .tc main_arg12)) := by
  rw [reg4, carry_v59_9_8, norm2_scale, norm2_shift, carry_arg11_8_0, carry_arg12_8_0]
  rfl

/-- The third layer's linear part. -/
theorem lin3 : Gen.W14 m ρ c (Proc.devRef .tc main_v92)
    = kLinNext (incOf 50000 (dstIdx (Gen.W1 m ρ c (Proc.devRef .tc main_v3)))) (srcRow (by norm_num) (srcIdx (Gen.W1 m ρ c (Proc.devRef .tc main_v1)))) (Gen.W10 m ρ c (Proc.devRef .tc main_v77)) (Gen.W0 m ρ c (Proc.devRef .tc main_arg13)) (Gen.W0 m ρ c (Proc.devRef .tc main_arg14)) (Gen.W0 m ρ c (Proc.devRef .tc main_arg15)) := by
  rw [reg6, stage13_aggr, carry_v3_12_6, carry_v1_12_6, carry_v3_6_1, carry_v1_6_1, reg5l, carry_v80_1_13_12, reg5r, carry_v77_11_10,
    st11_v78, st11_v79, carry_arg13_10_0, carry_arg14_10_0, carry_v12_13_7, carry_v12_7_1, stage1_invdeg, st13_v91, carry_arg15_12_0,
    zero_add_aggr]
  rfl

/-- The third layer's features. -/
theorem feat3 : Gen.W16 m ρ c (Proc.devRef .tc main_v110) = kNorm (Gen.W14 m ρ c (Proc.devRef .tc main_v92)) (Gen.W0 m ρ c (Proc.devRef .tc main_arg16)) (Gen.W0 m ρ c (Proc.devRef .tc main_arg17)) := by
  rw [reg7, carry_v92_15_14, norm3_scale, norm3_shift, carry_arg16_14_0, carry_arg17_14_0]
  rfl

/-- The node features after the three layers are the first pipeline applied to the arguments. -/
theorem features : Gen.W16 m ρ c (Proc.devRef .tc main_v110)
    = kFeatures (incOf 50000 (dstIdx (Gen.W1 m ρ c (Proc.devRef .tc main_v3)))) (srcRow (by norm_num) (srcIdx (Gen.W1 m ρ c (Proc.devRef .tc main_v1)))) (Gen.W0 m ρ c (Proc.devRef .tc main_arg0)) (Gen.W0 m ρ c (Proc.devRef .tc main_arg3)) (Gen.W0 m ρ c (Proc.devRef .tc main_arg4)) (Gen.W0 m ρ c (Proc.devRef .tc main_arg5)) (Gen.W0 m ρ c (Proc.devRef .tc main_arg6)) (Gen.W0 m ρ c (Proc.devRef .tc main_arg7))
        (Gen.W0 m ρ c (Proc.devRef .tc main_arg8)) (Gen.W0 m ρ c (Proc.devRef .tc main_arg9)) (Gen.W0 m ρ c (Proc.devRef .tc main_arg10)) (Gen.W0 m ρ c (Proc.devRef .tc main_arg11)) (Gen.W0 m ρ c (Proc.devRef .tc main_arg12)) (Gen.W0 m ρ c (Proc.devRef .tc main_arg13)) (Gen.W0 m ρ c (Proc.devRef .tc main_arg14)) (Gen.W0 m ρ c (Proc.devRef .tc main_arg15)) (Gen.W0 m ρ c (Proc.devRef .tc main_arg16)) (Gen.W0 m ρ c (Proc.devRef .tc main_arg17)) := by
  rw [feat3, lin3, feat2, lin2, feat1, lin1]
  rfl

/-- The program's result: the head applied to the per-graph mean of the node features. -/
theorem result : Gen.W18 m ρ c (Proc.devRef .tc main_v126)
    = mlp (kPool (Gen.W0 m ρ c (Proc.devRef .tc main_arg2)) (Gen.W16 m ρ c (Proc.devRef .tc main_v110))) (Gen.W0 m ρ c (Proc.devRef .tc main_arg18)) (fun j => (Gen.W0 m ρ c (Proc.devRef .tc main_arg19) : Vect 64) (ix1 (j 1)))
        (Gen.W0 m ρ c (Proc.devRef .tc main_arg20)) (fun j => (Gen.W0 m ρ c (Proc.devRef .tc main_arg21) : Vect 32) (ix1 (j 1))) (Gen.W0 m ρ c (Proc.devRef .tc main_arg22)) (fun j => (Gen.W0 m ρ c (Proc.devRef .tc main_arg23) : Vect 2) (ix1 (j 1))) := by
  rw [reg8, st17_v122, st17_v123, st17_v124, st17_v125, carry_arg2_16_0, carry_arg18_17_0, carry_arg19_16_0, carry_arg20_17_0,
    carry_arg21_16_0, carry_arg22_17_0, carry_arg23_16_0]

end Cert.KernelIdeal.Val

end
-- ==== Proof.LibTypedRef.lean ====
/-
  Typed references of a host program's called functions: a round trip through the buffer is the identity.

  A called function's operations read and write their buffers through typed references
  (`StableHlo.TRef`): a value of the tensor's type is sent into the buffer along the reference's type equation
  (`toBuf`) and read back along it (`ofBuf`). When a run of such operations is read back as a composed term,
  every intermediate value appears as `x.ofBuf (x.toBuf v)`. That is `v`: `simp only [TRef.ofBuf_toBuf]` removes
  every such pair, for any program, before the composed term is compared with a cast-free one.
-/
import Idealize.ShloMosaic.Lib.StableHlo

namespace Idealize.ShloMosaic.StableHlo.TRef

/-- A value sent into a typed reference's buffer and read back is the value. -/
theorem ofBuf_toBuf {sig : RefSig} {Val : EltTy → Type} {T : BufTy} (x : TRef sig T) (v : T.Contents Val) :
    x.ofBuf (x.toBuf v) = v := by
  obtain ⟨r, h, h2, h3⟩ := x
  subst h
  rfl

/-- The other way round: contents read out of the buffer at the value's type and sent back are the contents. -/
theorem toBuf_ofBuf {sig : RefSig} {Val : EltTy → Type} {T : BufTy} (x : TRef sig T) (v : x.ref.ty.Contents Val) :
    x.toBuf (x.ofBuf v) = v := by
  obtain ⟨r, h, h2, h3⟩ := x
  subst h
  rfl

end Idealize.ShloMosaic.StableHlo.TRef
-- ==== Proof.RefRun.lean ====
/-
  The run of the reference program, read back as a value.

  The reference is a straight line of whole-array operations: three graph layers (a gather of the source rows of
  every edge, a sum of them into the destination rows, a division by the in-degree, two matrix products and a bias;
  then a normalisation of every column over the nodes, an affine map and a positive part), a segment mean over the
  graphs of the batch, and three dense layers.  The functions it calls (the column variance with its guarded
  quotient, the positive part) are listed in place, at their call sites, over that call's own arrays.

  `ops` is that line, operation by operation; `refOut` is the composed value of the result array as a function
  of the twenty-four argument arrays, built from named stages (`lin1`, `h1`, `lin2`, `h2`, `lin3`, `h3`,
  `pooled`, `mlpOut`) so that each can be rewritten on its own; `run` says every execution of the program ends
  with the result array at `refOut` of the arguments and the arguments unchanged.
-/
import proofs.«180069_j11596411699546_2_alg».proof.ReferenceIdeal
import proofs.«180069_j11596411699546_2_alg».proof.Proof.Gen.ReferenceIdeal
import Idealize.ShloMosaic.Lib.StableHlo.Run
import Idealize.ShloMosaic.PureOps.Ideal
import proofs.«180069_j11596411699546_2_alg».proof.Proof.LibTypedRef

noncomputable section

namespace Cert.ReferenceIdeal.RefValue

open Cert.ReferenceIdeal Cert.ReferenceIdeal.Gen Idealize.ShloMosaic Idealize.ShloMosaic.TcCoe Idealize.SL.Sem Idealize.ShloMosaic.StableHlo

section Line

variable {F : FTy → Type} [FloatOps F]

/-- The program's 272 operations, in order; a called function's operations stand at its call, over that call's arrays. -/
abbrev ops : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg3 main_v23 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg5 main_v24 (broadcastInDim S1x256 ![1] bcast_S256_S1x256_1 : (⟨S256, .f32⟩ : BufTy).Contents (Elt F) → (⟨S1x256, .f32⟩ : BufTy).Contents (Elt F)),
    StableHlo.unary main_v24 main_v25 (broadcastInDim S50000x256 ![0, 1] bcast_S1x256_S50000x256_0_1 : (⟨S1x256, .f32⟩ : BufTy).Contents (Elt F) → (⟨S50000x256, .f32⟩ : BufTy).Contents (Elt F)),
    StableHlo.binary main_v23 main_v25 main_v26 (addf : (⟨S50000x256, .f32⟩ : BufTy).Contents (Elt F) → (⟨S50000x256, .f32⟩ : BufTy).Contents (Elt F) → (⟨S50000x256, .f32⟩ : BufTy).Contents (Elt F)),
    StableHlo.binary main_arg0 main_arg4 main_v27 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.binary main_v26 main_v27 main_v28 (addf : (⟨S50000x256, .f32⟩ : BufTy).Contents (Elt F) → (⟨S50000x256, .f32⟩ : BufTy).Contents (Elt F) → (⟨S50000x256, .f32⟩ : BufTy).Contents (Elt F)),
    StableHlo.nullary main_cst_4 (constant S_ .f32 0x00000000#32),
    StableHlo.binary main_v28 main_cst_4 main_v29 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_5 (constant S_ .f32 0x47435000#32),
    StableHlo.unary main_cst_5 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.nullary main_c_6 (constantI S_ 32 0#32),
    StableHlo.TRef.nullary main_call0.cst (constant S_ .f32 0x00000000#32),
    StableHlo.TRef.binary (.of main_v28) main_call0.cst main_call0.v0 (fun x v => Host.reduceAdd x v reducesTo_S50000x256_S256_d0 h_S_),
    StableHlo.TRef.unary main_call0.v0 main_call0.v1 (broadcastInDim S1x256 ![1] bcast_S256_S1x256_1),
    StableHlo.TRef.nullary main_call0.cst_0 (constant S_ .f32 0x47435000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S50000x256 ![0, 1] bcast_S1x256_S50000x256_0_1),
    StableHlo.TRef.binary (.of main_v28) main_call0.v4 main_call0.v5 subf,
    StableHlo.TRef.binary main_call0.v5 main_call0.v5 main_call0.v6 mulf,
    StableHlo.TRef.unary (.of main_c_6) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v31 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S50000x256 ![0, 1] bcast_S1x256_S50000x256_0_1 : (⟨S1x256, .f32⟩ : BufTy).Contents (Elt F) → (⟨S50000x256, .f32⟩ : BufTy).Contents (Elt F)),
    StableHlo.binary main_v28 main_v34 main_v35 (subf : (⟨S50000x256, .f32⟩ : BufTy).Contents (Elt F) → (⟨S50000x256, .f32⟩ : BufTy).Contents (Elt F) → (⟨S50000x256, .f32⟩ : BufTy).Contents (Elt F)),
    StableHlo.unary main_arg6 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S50000x256 ![0, 1] bcast_S1x256_S50000x256_0_1 : (⟨S1x256, .f32⟩ : BufTy).Contents (Elt F) → (⟨S50000x256, .f32⟩ : BufTy).Contents (Elt F)),
    StableHlo.binary main_v37 main_v35 main_v38 (mulf : (⟨S50000x256, .f32⟩ : BufTy).Contents (Elt F) → (⟨S50000x256, .f32⟩ : BufTy).Contents (Elt F) → (⟨S50000x256, .f32⟩ : BufTy).Contents (Elt F)),
    StableHlo.nullary main_cst_7 (constant S_ .f32 0x3727C5AC#32),
    StableHlo.unary main_cst_7 main_v39 (broadcastInDim S256 ![] bcast_S_S256 : (⟨S_, .f32⟩ : BufTy).Contents (Elt F) → (⟨S256, .f32⟩ : BufTy).Contents (Elt F)),
    StableHlo.binary main_v32 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S50000x256 ![0, 1] bcast_S1x256_S50000x256_0_1 : (⟨S1x256, .f32⟩ : BufTy).Contents (Elt F) → (⟨S50000x256, .f32⟩ : BufTy).Contents (Elt F)),
    StableHlo.binary main_v38 main_v43 main_v44 (mulf : (⟨S50000x256, .f32⟩ : BufTy).Contents (Elt F) → (⟨S50000x256, .f32⟩ : BufTy).Contents (Elt F) → (⟨S50000x256, .f32⟩ : BufTy).Contents (Elt F)),
    StableHlo.unary main_arg7 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S50000x256 ![0, 1] bcast_S1x256_S50000x256_0_1 : (⟨S1x256, .f32⟩ : BufTy).Contents (Elt F) → (⟨S50000x256, .f32⟩ : BufTy).Contents (Elt F)),
    StableHlo.binary main_v44 main_v46 main_v47 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v47) main_call1.v0 main_call1.v1 maximumf,
    StableHlo.nullary main_c_8 (constantI S_ 32 0#32),
    StableHlo.unary main_c_8 main_v49 (broadcastInDim S800000 ![] bcast_S_S800000 : (⟨S_, .i32⟩ : BufTy).Contents (Elt F) → (⟨S800000, .i32⟩ : BufTy).Contents (Elt F)),
    StableHlo.binary main_v1 main_v49 main_v50 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v51 (broadcastInDim S800000 ![] bcast_S_S800000 : (⟨S_, .i32⟩ : BufTy).Contents (Elt F) → (⟨S800000, .i32⟩ : BufTy).Contents (Elt F)),
    StableHlo.binary main_v1 main_v51 main_v52 (addi : (⟨S800000, .i32⟩ : BufTy).Contents (Elt F) → (⟨S800000, .i32⟩ : BufTy).Contents (Elt F) → (⟨S800000, .i32⟩ : BufTy).Contents (Elt F)),
    StableHlo.ternary main_v50 main_v52 main_v1 main_v53 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v53 main_v54 (broadcastInDim S800000x1 ![0] bcast_S800000_S800000x1_0 : (⟨S800000, .i32⟩ : BufTy).Contents (Elt F) → (⟨S800000x1, .i32⟩ : BufTy).Contents (Elt F)),
    StableHlo.binary main_v48 main_v54 main_v55 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_cst_10 (constant S_ .f32 0x00000000#32),
    StableHlo.unary main_cst_10 main_v56 (broadcastInDim S50000x256 ![] bcast_S_S50000x256 : (⟨S_, .f32⟩ : BufTy).Contents (Elt F) → (⟨S50000x256, .f32⟩ : BufTy).Contents (Elt F)),
    StableHlo.unary main_v3 main_v57 (broadcastInDim S800000x1 ![0] bcast_S800000_S800000x1_0 : (⟨S800000, .i32⟩ : BufTy).Contents (Elt F) → (⟨S800000x1, .i32⟩ : BufTy).Contents (Elt F)),
    StableHlo.ternary main_v56 main_v57 main_v55 main_v58 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.nullary main_cst_11 (constant S_ .f32 0x3F800000#32),
    StableHlo.unary main_cst_11 main_v59 (broadcastInDim S800000 ![] bcast_S_S800000 : (⟨S_, .f32⟩ : BufTy).Contents (Elt F) → (⟨S800000, .f32⟩ : BufTy).Contents (Elt F)),
    StableHlo.nullary main_cst_12 (constant S_ .f32 0x00000000#32),
    StableHlo.unary main_cst_12 main_v60 (broadcastInDim S50000 ![] bcast_S_S50000 : (⟨S_, .f32⟩ : BufTy).Contents (Elt F) → (⟨S50000, .f32⟩ : BufTy).Contents (Elt F)),
    StableHlo.unary main_v3 main_v61 (broadcastInDim S800000x1 ![0] bcast_S800000_S800000x1_0 : (⟨S800000, .i32⟩ : BufTy).Contents (Elt F) → (⟨S800000x1, .i32⟩ : BufTy).Contents (Elt F)),
    StableHlo.ternary main_v60 main_v61 main_v59 main_v62 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_13 (constant S_ .f32 0x3F800000#32),
    StableHlo.unary main_cst_13 main_v63 (broadcastInDim S50000 ![] bcast_S_S50000 : (⟨S_, .f32⟩ : BufTy).Contents (Elt F) → (⟨S50000, .f32⟩ : BufTy).Contents (Elt F)),
    StableHlo.binary main_v62 main_v63 main_v64 (maximumf : (⟨S50000, .f32⟩ : BufTy).Contents (Elt F) → (⟨S50000, .f32⟩ : BufTy).Contents (Elt F) → (⟨S50000, .f32⟩ : BufTy).Contents (Elt F)),
    StableHlo.unary main_v64 main_v65 (broadcastInDim S50000x1 ![0] bcast_S50000_S50000x1_0 : (⟨S50000, .f32⟩ : BufTy).Contents (Elt F) → (⟨S50000x1, .f32⟩ : BufTy).Contents (Elt F)),
    StableHlo.unary main_v65 main_v66 (broadcastInDim S50000x256 ![0, 1] bcast_S50000x1_S50000x256_0_1 : (⟨S50000x1, .f32⟩ : BufTy).Contents (Elt F) → (⟨S50000x256, .f32⟩ : BufTy).Contents (Elt F)),
    StableHlo.binary main_v58 main_v66 main_v67 (Host.divf : (⟨S50000x256, .f32⟩ : BufTy).Contents (Elt F) → (⟨S50000x256, .f32⟩ : BufTy).Contents (Elt F) → (⟨S50000x256, .f32⟩ : BufTy).Contents (Elt F)),
    StableHlo.binary main_v67 main_arg8 main_v68 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg10 main_v69 (broadcastInDim S1x128 ![1] bcast_S128_S1x128_1 : (⟨S128, .f32⟩ : BufTy).Contents (Elt F) → (⟨S1x128, .f32⟩ : BufTy).Contents (Elt F)),
    StableHlo.unary main_v69 main_v70 (broadcastInDim S50000x128 ![0, 1] bcast_S1x128_S50000x128_0_1 : (⟨S1x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.binary main_v48 main_arg9 main_v72 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.binary main_v71 main_v72 main_v73 (addf : (⟨S50000x128, .f32⟩ : BufTy).Contents (Elt F) → (⟨S50000x128, .f32⟩ : BufTy).Contents (Elt F) → (⟨S50000x128, .f32⟩ : BufTy).Contents (Elt F)),
    StableHlo.nullary main_cst_14 (constant S_ .f32 0x00000000#32),
    StableHlo.binary main_v73 main_cst_14 main_v74 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_15 (constant S_ .f32 0x47435000#32),
    StableHlo.unary main_cst_15 main_v75 (broadcastInDim S128 ![] bcast_S_S128 : (⟨S_, .f32⟩ : BufTy).Contents (Elt F) → (⟨S128, .f32⟩ : BufTy).Contents (Elt F)),
    StableHlo.binary main_v74 main_v75 main_v76 (Host.divf : (⟨S128, .f32⟩ : BufTy).Contents (Elt F) → (⟨S128, .f32⟩ : BufTy).Contents (Elt F) → (⟨S128, .f32⟩ : BufTy).Contents (Elt F)),
    StableHlo.nullary main_c_16 (constantI S_ 32 0#32),
    StableHlo.TRef.nullary main_call2.cst (constant S_ .f32 0x00000000#32),
    StableHlo.TRef.binary (.of main_v73) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v73) main_call2.v4 main_call2.v5 subf,
    StableHlo.TRef.binary main_call2.v5 main_call2.v5 main_call2.v6 mulf,
    StableHlo.TRef.unary (.of main_c_16) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v76 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S50000x128 ![0, 1] bcast_S1x128_S50000x128_0_1 : (⟨S1x128, .f32⟩ : BufTy).Contents (Elt F) → (⟨S50000x128, .f32⟩ : BufTy).Contents (Elt F)),
    StableHlo.binary main_v73 main_v79 main_v80 (subf : (⟨S50000x128, .f32⟩ : BufTy).Contents (Elt F) → (⟨S50000x128, .f32⟩ : BufTy).Contents (Elt F) → (⟨S50000x128, .f32⟩ : BufTy).Contents (Elt F)),
    StableHlo.unary main_arg11 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S50000x128 ![0, 1] bcast_S1x128_S50000x128_0_1 : (⟨S1x128, .f32⟩ : BufTy).Contents (Elt F) → (⟨S50000x128, .f32⟩ : BufTy).Contents (Elt F)),
    StableHlo.binary main_v82 main_v80 main_v83 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3727C5AC#32),
    StableHlo.unary main_cst_17 main_v84 (broadcastInDim S128 ![] bcast_S_S128 : (⟨S_, .f32⟩ : BufTy).Contents (Elt F) → (⟨S128, .f32⟩ : BufTy).Contents (Elt F)),
    StableHlo.binary main_v77 main_v84 main_v85 (addf : (⟨S128, .f32⟩ : BufTy).Contents (Elt F) → (⟨S128, .f32⟩ : BufTy).Contents (Elt F) → (⟨S128, .f32⟩ : BufTy).Contents (Elt F)),
    StableHlo.unary main_v85 main_v86 (Host.rsqrt : (⟨S128, .f32⟩ : BufTy).Contents (Elt F) → (⟨S128, .f32⟩ : BufTy).Contents (Elt F)),
    StableHlo.unary main_v86 main_v87 (broadcastInDim S1x128 ![1] bcast_S128_S1x128_1 : (⟨S128, .f32⟩ : BufTy).Contents (Elt F) → (⟨S1x128, .f32⟩ : BufTy).Contents (Elt F)),
    StableHlo.unary main_v87 main_v88 (broadcastInDim S50000x128 ![0, 1] bcast_S1x128_S50000x128_0_1 : (⟨S1x128, .f32⟩ : BufTy).Contents (Elt F) → (⟨S50000x128, .f32⟩ : BufTy).Contents (Elt F)),
    StableHlo.binary main_v83 main_v88 main_v89 (mulf : (⟨S50000x128, .f32⟩ : BufTy).Contents (Elt F) → (⟨S50000x128, .f32⟩ : BufTy).Contents (Elt F) → (⟨S50000x128, .f32⟩ : BufTy).Contents (Elt F)),
    StableHlo.unary main_arg12 main_v90 (broadcastInDim S1x128 ![1] bcast_S128_S1x128_1 : (⟨S128, .f32⟩ : BufTy).Contents (Elt F) → (⟨S1x128, .f32⟩ : BufTy).Contents (Elt F)),
    StableHlo.unary main_v90 main_v91 (broadcastInDim S50000x128 ![0, 1] bcast_S1x128_S50000x128_0_1 : (⟨S1x128, .f32⟩ : BufTy).Contents (Elt F) → (⟨S50000x128, .f32⟩ : BufTy).Contents (Elt F)),
    StableHlo.binary main_v89 main_v91 main_v92 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v92) main_call3.v0 main_call3.v1 maximumf,
    StableHlo.nullary main_c_18 (constantI S_ 32 0#32),
    StableHlo.unary main_c_18 main_v94 (broadcastInDim S800000 ![] bcast_S_S800000 : (⟨S_, .i32⟩ : BufTy).Contents (Elt F) → (⟨S800000, .i32⟩ : BufTy).Contents (Elt F)),
    StableHlo.binary main_v1 main_v94 main_v95 (cmpi .slt : (⟨S800000, .i32⟩ : BufTy).Contents (Elt F) → (⟨S800000, .i32⟩ : BufTy).Contents (Elt F) → (⟨S800000, .i1⟩ : BufTy).Contents (Elt F)),
    StableHlo.nullary main_c_19 (constantI S_ 32 50000#32),
    StableHlo.unary main_c_19 main_v96 (broadcastInDim S800000 ![] bcast_S_S800000 : (⟨S_, .i32⟩ : BufTy).Contents (Elt F) → (⟨S800000, .i32⟩ : BufTy).Contents (Elt F)),
    StableHlo.binary main_v1 main_v96 main_v97 (addi : (⟨S800000, .i32⟩ : BufTy).Contents (Elt F) → (⟨S800000, .i32⟩ : BufTy).Contents (Elt F) → (⟨S800000, .i32⟩ : BufTy).Contents (Elt F)),
    StableHlo.ternary main_v95 main_v97 main_v1 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v98 main_v99 (broadcastInDim S800000x1 ![0] bcast_S800000_S800000x1_0 : (⟨S800000, .i32⟩ : BufTy).Contents (Elt F) → (⟨S800000x1, .i32⟩ : BufTy).Contents (Elt F)),
    StableHlo.binary main_v93 main_v99 main_v100 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v101 (broadcastInDim S50000x128 ![] bcast_S_S50000x128 : (⟨S_, .f32⟩ : BufTy).Contents (Elt F) → (⟨S50000x128, .f32⟩ : BufTy).Contents (Elt F)),
    StableHlo.unary main_v3 main_v102 (broadcastInDim S800000x1 ![0] bcast_S800000_S800000x1_0 : (⟨S800000, .i32⟩ : BufTy).Contents (Elt F) → (⟨S800000x1, .i32⟩ : BufTy).Contents (Elt F)),
    StableHlo.ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_21 (constant S_ .f32 0x3F800000#32),
    StableHlo.unary main_cst_21 main_v104 (broadcastInDim S800000 ![] bcast_S_S800000 : (⟨S_, .f32⟩ : BufTy).Contents (Elt F) → (⟨S800000, .f32⟩ : BufTy).Contents (Elt F)),
    StableHlo.nullary main_cst_22 (constant S_ .f32 0x00000000#32),
    StableHlo.unary main_cst_22 main_v105 (broadcastInDim S50000 ![] bcast_S_S50000 : (⟨S_, .f32⟩ : BufTy).Contents (Elt F) → (⟨S50000, .f32⟩ : BufTy).Contents (Elt F)),
    StableHlo.unary main_v3 main_v106 (broadcastInDim S800000x1 ![0] bcast_S800000_S800000x1_0 : (⟨S800000, .i32⟩ : BufTy).Contents (Elt F) → (⟨S800000x1, .i32⟩ : BufTy).Contents (Elt F)),
    StableHlo.ternary main_v105 main_v106 main_v104 main_v107 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_23 (constant S_ .f32 0x3F800000#32),
    StableHlo.unary main_cst_23 main_v108 (broadcastInDim S50000 ![] bcast_S_S50000 : (⟨S_, .f32⟩ : BufTy).Contents (Elt F) → (⟨S50000, .f32⟩ : BufTy).Contents (Elt F)),
    StableHlo.binary main_v107 main_v108 main_v109 (maximumf : (⟨S50000, .f32⟩ : BufTy).Contents (Elt F) → (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v103 main_v111 main_v112 (Host.divf : (⟨S50000x128, .f32⟩ : BufTy).Contents (Elt F) → (⟨S50000x128, .f32⟩ : BufTy).Contents (Elt F) → (⟨S50000x128, .f32⟩ : BufTy).Contents (Elt F)),
    StableHlo.binary main_v112 main_arg13 main_v113 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg15 main_v114 (broadcastInDim S1x64 ![1] bcast_S64_S1x64_1 : (⟨S64, .f32⟩ : BufTy).Contents (Elt F) → (⟨S1x64, .f32⟩ : BufTy).Contents (Elt F)),
    StableHlo.unary main_v114 main_v115 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v115 main_v116 (addf : (⟨S50000x64, .f32⟩ : BufTy).Contents (Elt F) → (⟨S50000x64, .f32⟩ : BufTy).Contents (Elt F) → (⟨S50000x64, .f32⟩ : BufTy).Contents (Elt F)),
    StableHlo.binary main_v93 main_arg14 main_v117 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v116 main_v117 main_v118 (addf : (⟨S50000x64, .f32⟩ : BufTy).Contents (Elt F) → (⟨S50000x64, .f32⟩ : BufTy).Contents (Elt F) → (⟨S50000x64, .f32⟩ : BufTy).Contents (Elt F)),
    StableHlo.nullary main_cst_24 (constant S_ .f32 0x00000000#32),
    StableHlo.binary main_v118 main_cst_24 main_v119 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_25 (constant S_ .f32 0x47435000#32),
    StableHlo.unary main_cst_25 main_v120 (broadcastInDim S64 ![] bcast_S_S64 : (⟨S_, .f32⟩ : BufTy).Contents (Elt F) → (⟨S64, .f32⟩ : BufTy).Contents (Elt F)),
    StableHlo.binary main_v119 main_v120 main_v121 (Host.divf : (⟨S64, .f32⟩ : BufTy).Contents (Elt F) → (⟨S64, .f32⟩ : BufTy).Contents (Elt F) → (⟨S64, .f32⟩ : BufTy).Contents (Elt F)),
    StableHlo.nullary main_c_26 (constantI S_ 32 0#32),
    StableHlo.TRef.nullary main_call4.cst (constant S_ .f32 0x00000000#32),
    StableHlo.TRef.binary (.of main_v118) main_call4.cst main_call4.v0 (fun x v => Host.reduceAdd x v reducesTo_S50000x64_S64_d0 h_S_),
    StableHlo.TRef.unary main_call4.v0 main_call4.v1 (broadcastInDim S1x64 ![1] bcast_S64_S1x64_1),
    StableHlo.TRef.nullary main_call4.cst_0 (constant S_ .f32 0x47435000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S50000x64 ![0, 1] bcast_S1x64_S50000x64_0_1),
    StableHlo.TRef.binary (.of main_v118) main_call4.v4 main_call4.v5 subf,
    StableHlo.TRef.binary main_call4.v5 main_call4.v5 main_call4.v6 mulf,
    StableHlo.TRef.unary (.of main_c_26) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v121 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v118 main_v124 main_v125 (subf : (⟨S50000x64, .f32⟩ : BufTy).Contents (Elt F) → (⟨S50000x64, .f32⟩ : BufTy).Contents (Elt F) → (⟨S50000x64, .f32⟩ : BufTy).Contents (Elt F)),
    StableHlo.unary main_arg16 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v127 main_v125 main_v128 (mulf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x3727C5AC#32),
    StableHlo.unary main_cst_27 main_v129 (broadcastInDim S64 ![] bcast_S_S64 : (⟨S_, .f32⟩ : BufTy).Contents (Elt F) → (⟨S64, .f32⟩ : BufTy).Contents (Elt F)),
    StableHlo.binary main_v122 main_v129 main_v130 (addf : (⟨S64, .f32⟩ : BufTy).Contents (Elt F) → (⟨S64, .f32⟩ : BufTy).Contents (Elt F) → (⟨S64, .f32⟩ : BufTy).Contents (Elt F)),
    StableHlo.unary main_v130 main_v131 (Host.rsqrt : (⟨S64, .f32⟩ : BufTy).Contents (Elt F) → (⟨S64, .f32⟩ : BufTy).Contents (Elt F)),
    StableHlo.unary main_v131 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v133 main_v134 (mulf : (⟨S50000x64, .f32⟩ : BufTy).Contents (Elt F) → (⟨S50000x64, .f32⟩ : BufTy).Contents (Elt F) → (⟨S50000x64, .f32⟩ : BufTy).Contents (Elt F)),
    StableHlo.unary main_arg17 main_v135 (broadcastInDim S1x64 ![1] bcast_S64_S1x64_1 : (⟨S64, .f32⟩ : BufTy).Contents (Elt F) → (⟨S1x64, .f32⟩ : BufTy).Contents (Elt F)),
    StableHlo.unary main_v135 main_v136 (broadcastInDim S50000x64 ![0, 1] bcast_S1x64_S50000x64_0_1 : (⟨S1x64, .f32⟩ : BufTy).Contents (Elt F) → (⟨S50000x64, .f32⟩ : BufTy).Contents (Elt F)),
    StableHlo.binary main_v134 main_v136 main_v137 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v137) main_call5.v0 main_call5.v1 maximumf,
    StableHlo.nullary main_cst_28 (constant S_ .f32 0x00000000#32),
    StableHlo.unary main_cst_28 main_v139 (broadcastInDim S64x64 ![] bcast_S_S64x64 : (⟨S_, .f32⟩ : BufTy).Contents (Elt F) → (⟨S64x64, .f32⟩ : BufTy).Contents (Elt F)),
    StableHlo.unary main_arg2 main_v140 (broadcastInDim S50000x1 ![0] bcast_S50000_S50000x1_0 : (⟨S50000, .i32⟩ : BufTy).Contents (Elt F) → (⟨S50000x1, .i32⟩ : BufTy).Contents (Elt F)),
    StableHlo.ternary main_v139 main_v140 main_v138 main_v141 ((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)),
    StableHlo.nullary main_cst_29 (constant S_ .f32 0x3F800000#32),
    StableHlo.unary main_cst_29 main_v142 (broadcastInDim S50000 ![] bcast_S_S50000 : (⟨S_, .f32⟩ : BufTy).Contents (Elt F) → (⟨S50000, .f32⟩ : BufTy).Contents (Elt F)),
    StableHlo.nullary main_cst_30 (constant S_ .f32 0x00000000#32),
    StableHlo.unary main_cst_30 main_v143 (broadcastInDim S64 ![] bcast_S_S64 : (⟨S_, .f32⟩ : BufTy).Contents (Elt F) → (⟨S64, .f32⟩ : BufTy).Contents (Elt F)),
    StableHlo.unary main_arg2 main_v144 (broadcastInDim S50000x1 ![0] bcast_S50000_S50000x1_0 : (⟨S50000, .i32⟩ : BufTy).Contents (Elt F) → (⟨S50000x1, .i32⟩ : BufTy).Contents (Elt F)),
    StableHlo.ternary main_v143 main_v144 main_v142 main_v145 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_31 (constant S_ .f32 0x3F800000#32),
    StableHlo.unary main_cst_31 main_v146 (broadcastInDim S64 ![] bcast_S_S64 : (⟨S_, .f32⟩ : BufTy).Contents (Elt F) → (⟨S64, .f32⟩ : BufTy).Contents (Elt F)),
    StableHlo.binary main_v145 main_v146 main_v147 (maximumf : (⟨S64, .f32⟩ : BufTy).Contents (Elt F) → (⟨S64, .f32⟩ : BufTy).Contents (Elt F) → (⟨S64, .f32⟩ : BufTy).Contents (Elt F)),
    StableHlo.unary main_v147 main_v148 (broadcastInDim S64x1 ![0] bcast_S64_S64x1_0 : (⟨S64, .f32⟩ : BufTy).Contents (Elt F) → (⟨S64x1, .f32⟩ : BufTy).Contents (Elt F)),
    StableHlo.unary main_v148 main_v149 (broadcastInDim S64x64 ![0, 1] bcast_S64x1_S64x64_0_1 : (⟨S64x1, .f32⟩ : BufTy).Contents (Elt F) → (⟨S64x64, .f32⟩ : BufTy).Contents (Elt F)),
    StableHlo.binary main_v141 main_v149 main_v150 (Host.divf : (⟨S64x64, .f32⟩ : BufTy).Contents (Elt F) → (⟨S64x64, .f32⟩ : BufTy).Contents (Elt F) → (⟨S64x64, .f32⟩ : BufTy).Contents (Elt F)),
    StableHlo.binary main_v150 main_arg18 main_v151 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    StableHlo.unary main_arg19 main_v152 (broadcastInDim S1x64 ![1] bcast_S64_S1x64_1 : (⟨S64, .f32⟩ : BufTy).Contents (Elt F) → (⟨S1x64, .f32⟩ : BufTy).Contents (Elt F)),
    StableHlo.unary main_v152 main_v153 (broadcastInDim S64x64 ![0, 1] bcast_S1x64_S64x64_0_1 : (⟨S1x64, .f32⟩ : BufTy).Contents (Elt F) → (⟨S64x64, .f32⟩ : BufTy).Contents (Elt F)),
    StableHlo.binary main_v151 main_v153 main_v154 (addf : (⟨S64x64, .f32⟩ : BufTy).Contents (Elt F) → (⟨S64x64, .f32⟩ : BufTy).Contents (Elt F) → (⟨S64x64, .f32⟩ : BufTy).Contents (Elt F)),
    StableHlo.TRef.nullary main_call6.cst (constant S_ .f32 0x00000000#32),
    StableHlo.TRef.unary main_call6.cst main_call6.v0 (broadcastInDim S64x64 ![] bcast_S_S64x64),
    StableHlo.TRef.binary (.of main_v154) main_call6.v0 main_call6.v1 maximumf,
    StableHlo.binary main_v155 main_arg20 main_v156 ((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)),
    StableHlo.unary main_arg21 main_v157 (broadcastInDim S1x32 ![1] bcast_S32_S1x32_1 : (⟨S32, .f32⟩ : BufTy).Contents (Elt F) → (⟨S1x32, .f32⟩ : BufTy).Contents (Elt F)),
    StableHlo.unary main_v157 main_v158 (broadcastInDim S64x32 ![0, 1] bcast_S1x32_S64x32_0_1 : (⟨S1x32, .f32⟩ : BufTy).Contents (Elt F) → (⟨S64x32, .f32⟩ : BufTy).Contents (Elt F)),
    StableHlo.binary main_v156 main_v158 main_v159 (addf : (⟨S64x32, .f32⟩ : BufTy).Contents (Elt F) → (⟨S64x32, .f32⟩ : BufTy).Contents (Elt F) → (⟨S64x32, .f32⟩ : BufTy).Contents (Elt F)),
    StableHlo.TRef.nullary main_call7.cst (constant S_ .f32 0x00000000#32),
    StableHlo.TRef.unary main_call7.cst main_call7.v0 (broadcastInDim S64x32 ![] bcast_S_S64x32),
    StableHlo.TRef.binary (.of main_v159) main_call7.v0 main_call7.v1 maximumf,
    StableHlo.binary main_v160 main_arg22 main_v161 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    StableHlo.unary main_arg23 main_v162 (broadcastInDim S1x2 ![1] bcast_S2_S1x2_1 : (⟨S2, .f32⟩ : BufTy).Contents (Elt F) → (⟨S1x2, .f32⟩ : BufTy).Contents (Elt F)),
    StableHlo.unary main_v162 main_v163 (broadcastInDim S64x2 ![0, 1] bcast_S1x2_S64x2_0_1 : (⟨S1x2, .f32⟩ : BufTy).Contents (Elt F) → (⟨S64x2, .f32⟩ : BufTy).Contents (Elt F)),
    StableHlo.binary main_v161 main_v163 main_v164 (addf : (⟨S64x2, .f32⟩ : BufTy).Contents (Elt F) → (⟨S64x2, .f32⟩ : BufTy).Contents (Elt F) → (⟨S64x2, .f32⟩ : BufTy).Contents (Elt F)) ]

-- one bind per operation is re-associated: the rewriting recurses once per statement
set_option maxRecDepth 16384 in
set_option maxHeartbeats 4000000 in
/-- The program is that straight line: the called functions unfolded at their calls, sequencing re-associated. -/
theorem main_eq (c : Dev nD) : main (F := F) c = seq ops := by
  simp only [main, main_part0, main_part1, main_part2, main_part3, fn_where.body, fn_var.body, fn_relu.body, fn_where_1.body, fn_var_0.body, fn_relu_2.body, fn_where_4.body, fn_var_3.body, fn_relu_5.body, fn_relu_6.body, fn_relu_7.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

end Line

section Value

variable {F : FTy → Type} [FloatOps F]

noncomputable def srcRow (ei : (⟨S2x800000, .i32⟩ : BufTy).Contents (Elt F)) :
    (⟨S800000, .i32⟩ : BufTy).Contents (Elt F) :=
  (shapeCast S800000 (((extractStridedSlice S1x800000 ![0, 0] · slices_S2x800000_S1x800000_0_0) : (⟨S2x800000, .i32⟩ : BufTy).Contents (Elt F) → (⟨S1x800000, .i32⟩ : BufTy).Contents (Elt F)) ei : (⟨S1x800000, .i32⟩ : BufTy).Contents (Elt F)) shapeCasts_S1x800000_S800000 : (⟨S800000, .i32⟩ : BufTy).Contents (Elt F))

noncomputable def dstRow (ei : (⟨S2x800000, .i32⟩ : BufTy).Contents (Elt F)) :
    (⟨S800000, .i32⟩ : BufTy).Contents (Elt F) :=
  (shapeCast S800000 (((extractStridedSlice S1x800000 ![1, 0] · slices_S2x800000_S1x800000_1_0) : (⟨S2x800000, .i32⟩ : BufTy).Contents (Elt F) → (⟨S1x800000, .i32⟩ : BufTy).Contents (Elt F)) ei : (⟨S1x800000, .i32⟩ : BufTy).Contents (Elt F)) shapeCasts_S1x800000_S800000 : (⟨S800000, .i32⟩ : BufTy).Contents (Elt F))

noncomputable def srcIx (ei : (⟨S2x800000, .i32⟩ : BufTy).Contents (Elt F)) :
    (⟨S800000x1, .i32⟩ : BufTy).Contents (Elt F) :=
  ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) (srcRow ei) ((broadcastInDim S800000 ![] bcast_S_S800000 : (⟨S_, .i32⟩ : BufTy).Contents (Elt F) → (⟨S800000, .i32⟩ : BufTy).Contents (Elt F)) ((constantI S_ 32 0#32) : (⟨S_, .i32⟩ : BufTy).Contents (Elt F)) : (⟨S800000, .i32⟩ : BufTy).Contents (Elt F)) : (⟨S800000, .i1⟩ : BufTy).Contents (Elt F)) ((addi : (⟨S800000, .i32⟩ : BufTy).Contents (Elt F) → (⟨S800000, .i32⟩ : BufTy).Contents (Elt F) → (⟨S800000, .i32⟩ : BufTy).Contents (Elt F)) (srcRow ei) ((broadcastInDim S800000 ![] bcast_S_S800000 : (⟨S_, .i32⟩ : BufTy).Contents (Elt F) → (⟨S800000, .i32⟩ : BufTy).Contents (Elt F)) ((constantI S_ 32 50000#32) : (⟨S_, .i32⟩ : BufTy).Contents (Elt F)) : (⟨S800000, .i32⟩ : BufTy).Contents (Elt F)) : (⟨S800000, .i32⟩ : BufTy).Contents (Elt F)) (srcRow ei) : (⟨S800000, .i32⟩ : BufTy).Contents (Elt F)) : (⟨S800000x1, .i32⟩ : BufTy).Contents (Elt F))

noncomputable def dstIx (ei : (⟨S2x800000, .i32⟩ : BufTy).Contents (Elt F)) :
    (⟨S800000x1, .i32⟩ : BufTy).Contents (Elt F) :=
  ((broadcastInDim S800000x1 ![0] bcast_S800000_S800000x1_0 : (⟨S800000, .i32⟩ : BufTy).Contents (Elt F) → (⟨S800000x1, .i32⟩ : BufTy).Contents (Elt F)) (dstRow ei) : (⟨S800000x1, .i32⟩ : BufTy).Contents (Elt F))

noncomputable def dmax (ei : (⟨S2x800000, .i32⟩ : BufTy).Contents (Elt F)) :
    (⟨S50000, .f32⟩ : BufTy).Contents (Elt F) :=
  ((maximumf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x00000000#32) : (⟨S_, .f32⟩ : BufTy).Contents (Elt F)) : (⟨S50000, .f32⟩ : BufTy).Contents (Elt F)) (dstIx ei) ((broadcastInDim S800000 ![] bcast_S_S800000 : (⟨S_, .f32⟩ : BufTy).Contents (Elt F) → (⟨S800000, .f32⟩ : BufTy).Contents (Elt F)) ((constant S_ .f32 0x3F800000#32) : (⟨S_, .f32⟩ : BufTy).Contents (Elt F)) : (⟨S800000, .f32⟩ : BufTy).Contents (Elt F)) : (⟨S50000, .f32⟩ : BufTy).Contents (Elt F)) ((broadcastInDim S50000 ![] bcast_S_S50000 : (⟨S_, .f32⟩ : BufTy).Contents (Elt F) → (⟨S50000, .f32⟩ : BufTy).Contents (Elt F)) ((constant S_ .f32 0x3F800000#32) : (⟨S_, .f32⟩ : BufTy).Contents (Elt F)) : (⟨S50000, .f32⟩ : BufTy).Contents (Elt F)) : (⟨S50000, .f32⟩ : BufTy).Contents (Elt F))

noncomputable def agg128 (H : (⟨S50000x128, .f32⟩ : BufTy).Contents (Elt F)) (ei : (⟨S2x800000, .i32⟩ : BufTy).Contents (Elt F)) :
    (⟨S50000x128, .f32⟩ : BufTy).Contents (Elt F) :=
  (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) ((constant S_ .f32 0x00000000#32) : (⟨S_, .f32⟩ : BufTy).Contents (Elt F)) : (⟨S50000x128, .f32⟩ : BufTy).Contents (Elt F)) (dstIx ei) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) H (srcIx ei) : (⟨S800000x128, .f32⟩ : BufTy).Contents (Elt F)) : (⟨S50000x128, .f32⟩ : BufTy).Contents (Elt F))

noncomputable def agg256 (H : (⟨S50000x256, .f32⟩ : BufTy).Contents (Elt F)) (ei : (⟨S2x800000, .i32⟩ : BufTy).Contents (Elt F)) :
    (⟨S50000x256, .f32⟩ : BufTy).Contents (Elt F) :=
  (((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ((broadcastInDim S50000x256 ![] bcast_S_S50000x256 : (⟨S_, .f32⟩ : BufTy).Contents (Elt F) → (⟨S50000x256, .f32⟩ : BufTy).Contents (Elt F)) ((constant S_ .f32 0x00000000#32) : (⟨S_, .f32⟩ : BufTy).Contents (Elt F)) : (⟨S50000x256, .f32⟩ : BufTy).Contents (Elt F)) (dstIx ei) (((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) H (srcIx ei) : (⟨S800000x256, .f32⟩ : BufTy).Contents (Elt F)) : (⟨S50000x256, .f32⟩ : BufTy).Contents (Elt F))

noncomputable def lin1 (x : (⟨S50000x128, .f32⟩ : BufTy).Contents (Elt F)) (ei : (⟨S2x800000, .i32⟩ : BufTy).Contents (Elt F)) (wl : (⟨S128x256, .f32⟩ : BufTy).Contents (Elt F)) (wr : (⟨S128x256, .f32⟩ : BufTy).Contents (Elt F)) (b : (⟨S256, .f32⟩ : BufTy).Contents (Elt F)) :
    (⟨S50000x256, .f32⟩ : BufTy).Contents (Elt F) :=
  ((addf : (⟨S50000x256, .f32⟩ : BufTy).Contents (Elt F) → (⟨S50000x256, .f32⟩ : BufTy).Contents (Elt F) → (⟨S50000x256, .f32⟩ : BufTy).Contents (Elt F)) ((addf : (⟨S50000x256, .f32⟩ : BufTy).Contents (Elt F) → (⟨S50000x256, .f32⟩ : BufTy).Contents (Elt F) → (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) (agg128 x ei) ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (dmax ei) : (⟨S50000x1, .f32⟩ : BufTy).Contents (Elt F)) : (⟨S50000x128, .f32⟩ : BufTy).Contents (Elt F)) : (⟨S50000x128, .f32⟩ : BufTy).Contents (Elt F)) wl : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) b : (⟨S1x256, .f32⟩ : BufTy).Contents (Elt F)) : (⟨S50000x256, .f32⟩ : BufTy).Contents (Elt F)) : (⟨S50000x256, .f32⟩ : BufTy).Contents (Elt F)) (((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) x wr : (⟨S50000x256, .f32⟩ : BufTy).Contents (Elt F)) : (⟨S50000x256, .f32⟩ : BufTy).Contents (Elt F))

noncomputable def mean256 (L : (⟨S50000x256, .f32⟩ : BufTy).Contents (Elt F)) :
    (⟨S256, .f32⟩ : BufTy).Contents (Elt F) :=
  ((Host.divf : (⟨S256, .f32⟩ : BufTy).Contents (Elt F) → (⟨S256, .f32⟩ : BufTy).Contents (Elt F) → (⟨S256, .f32⟩ : BufTy).Contents (Elt F)) (((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) L ((constant S_ .f32 0x00000000#32) : (⟨S_, .f32⟩ : BufTy).Contents (Elt F)) : (⟨S256, .f32⟩ : BufTy).Contents (Elt F)) ((broadcastInDim S256 ![] bcast_S_S256 : (⟨S_, .f32⟩ : BufTy).Contents (Elt F) → (⟨S256, .f32⟩ : BufTy).Contents (Elt F)) ((constant S_ .f32 0x47435000#32) : (⟨S_, .f32⟩ : BufTy).Contents (Elt F)) : (⟨S256, .f32⟩ : BufTy).Contents (Elt F)) : (⟨S256, .f32⟩ : BufTy).Contents (Elt F))

noncomputable def var256 (L : (⟨S50000x256, .f32⟩ : BufTy).Contents (Elt F)) :
    (⟨S256, .f32⟩ : BufTy).Contents (Elt F) :=
  ((fun p a b => select (broadcastInDim S256 ![] bcast_S_S256 p) a b) ((cmpf .ogt) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) (Host.divf ((fun x v => Host.reduceAdd x v reducesTo_S50000x256_S256_d0 h_S_) (mulf (subf L ((broadcastInDim S50000x256 ![0, 1] bcast_S1x256_S50000x256_0_1) (Host.divf ((broadcastInDim S1x256 ![1] bcast_S256_S1x256_1) ((fun x v => Host.reduceAdd x v reducesTo_S50000x256_S256_d0 h_S_) L ((constant S_ .f32 0x00000000#32) : (⟨S_, .f32⟩ : BufTy).Contents (Elt F)) : (⟨S256, .f32⟩ : BufTy).Contents (Elt F)) : (⟨S1x256, .f32⟩ : BufTy).Contents (Elt F)) ((broadcastInDim S1x256 ![] bcast_S_S1x256) ((constant S_ .f32 0x47435000#32) : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) (subf L ((broadcastInDim S50000x256 ![0, 1] bcast_S1x256_S50000x256_0_1) (Host.divf ((broadcastInDim S1x256 ![1] bcast_S256_S1x256_1) ((fun x v => Host.reduceAdd x v reducesTo_S50000x256_S256_d0 h_S_) L ((constant S_ .f32 0x00000000#32) : (⟨S_, .f32⟩ : BufTy).Contents (Elt F)) : (⟨S256, .f32⟩ : BufTy).Contents (Elt F)) : (⟨S1x256, .f32⟩ : BufTy).Contents (Elt F)) ((broadcastInDim S1x256 ![] bcast_S_S1x256) ((constant S_ .f32 0x47435000#32) : (⟨S_, .f32⟩ : BufTy).Contents (Elt F)) : (⟨S1x256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) ((constant S_ .f32 0x00000000#32) : (⟨S_, .f32⟩ : BufTy).Contents (Elt F)) : (⟨S256, .f32⟩ : BufTy).Contents (Elt F)) ((broadcastInDim S256 ![] bcast_S_S256) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S256, .f32⟩ : BufTy).Contents (Elt F)) : (⟨S256, .f32⟩ : BufTy).Contents (Elt F)) ((broadcastInDim S256 ![] bcast_S_S256) (id ((constant S_ .f32 0x7FC00000#32) : (⟨S_, .f32⟩ : BufTy).Contents (Elt F)) : (⟨S_, .f32⟩ : BufTy).Contents (Elt F)) : (⟨S256, .f32⟩ : BufTy).Contents (Elt F)) : (⟨S256, .f32⟩ : BufTy).Contents (Elt F))

noncomputable def h1 (L : (⟨S50000x256, .f32⟩ : BufTy).Contents (Elt F)) (g : (⟨S256, .f32⟩ : BufTy).Contents (Elt F)) (be : (⟨S256, .f32⟩ : BufTy).Contents (Elt F)) :
    (⟨S50000x256, .f32⟩ : BufTy).Contents (Elt F) :=
  (maximumf ((addf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((mulf : (⟨S50000x256, .f32⟩ : BufTy).Contents (Elt F) → (⟨S50000x256, .f32⟩ : BufTy).Contents (Elt F) → (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) g : (⟨S1x256, .f32⟩ : BufTy).Contents (Elt F)) : (⟨S50000x256, .f32⟩ : BufTy).Contents (Elt F)) ((subf : (⟨S50000x256, .f32⟩ : BufTy).Contents (Elt F) → (⟨S50000x256, .f32⟩ : BufTy).Contents (Elt F) → (⟨S50000x256, .f32⟩ : BufTy).Contents (Elt F)) L ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) (mean256 L) : (⟨S1x256, .f32⟩ : BufTy).Contents (Elt F)) : (⟨S50000x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) ((Host.rsqrt : (⟨S256, .f32⟩ : BufTy).Contents (Elt F) → (⟨S256, .f32⟩ : BufTy).Contents (Elt F)) ((addf : (⟨S256, .f32⟩ : BufTy).Contents (Elt F) → (⟨S256, .f32⟩ : BufTy).Contents (Elt F) → (⟨S256, .f32⟩ : BufTy).Contents (Elt F)) (var256 L) ((broadcastInDim S256 ![] bcast_S_S256 : (⟨S_, .f32⟩ : BufTy).Contents (Elt F) → (⟨S256, .f32⟩ : BufTy).Contents (Elt F)) ((constant S_ .f32 0x3727C5AC#32) : (⟨S_, .f32⟩ : BufTy).Contents (Elt F)) : (⟨S256, .f32⟩ : BufTy).Contents (Elt F)) : (⟨S256, .f32⟩ : BufTy).Contents (Elt F)) : (⟨S256, .f32⟩ : BufTy).Contents (Elt F)) : (⟨S1x256, .f32⟩ : BufTy).Contents (Elt F)) : (⟨S50000x256, .f32⟩ : BufTy).Contents (Elt F)) : (⟨S50000x256, .f32⟩ : BufTy).Contents (Elt F)) ((broadcastInDim S50000x256 ![0, 1] bcast_S1x256_S50000x256_0_1 : (⟨S1x256, .f32⟩ : BufTy).Contents (Elt F) → (⟨S50000x256, .f32⟩ : BufTy).Contents (Elt F)) ((broadcastInDim S1x256 ![1] bcast_S256_S1x256_1 : (⟨S256, .f32⟩ : BufTy).Contents (Elt F) → (⟨S1x256, .f32⟩ : BufTy).Contents (Elt F)) be : (⟨S1x256, .f32⟩ : BufTy).Contents (Elt F)) : (⟨S50000x256, .f32⟩ : BufTy).Contents (Elt F)) : (⟨S50000x256, .f32⟩ : BufTy).Contents (Elt F)) ((broadcastInDim S50000x256 ![] bcast_S_S50000x256) ((constant S_ .f32 0x00000000#32) : (⟨S_, .f32⟩ : BufTy).Contents (Elt F)) : (⟨S50000x256, .f32⟩ : BufTy).Contents (Elt F)) : (⟨S50000x256, .f32⟩ : BufTy).Contents (Elt F))

noncomputable def lin2 (H : (⟨S50000x256, .f32⟩ : BufTy).Contents (Elt F)) (ei : (⟨S2x800000, .i32⟩ : BufTy).Contents (Elt F)) (wl : (⟨S256x128, .f32⟩ : BufTy).Contents (Elt F)) (wr : (⟨S256x128, .f32⟩ : BufTy).Contents (Elt F)) (b : (⟨S128, .f32⟩ : BufTy).Contents (Elt F)) :
    (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ((Host.divf : (⟨S50000x256, .f32⟩ : BufTy).Contents (Elt F) → (⟨S50000x256, .f32⟩ : BufTy).Contents (Elt F) → (⟨S50000x256, .f32⟩ : BufTy).Contents (Elt F)) (agg256 H ei) ((broadcastInDim S50000x256 ![0, 1] bcast_S50000x1_S50000x256_0_1 : (⟨S50000x1, .f32⟩ : BufTy).Contents (Elt F) → (⟨S50000x256, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (dmax ei) : (⟨S50000x1, .f32⟩ : BufTy).Contents (Elt F)) : (⟨S50000x256, .f32⟩ : BufTy).Contents (Elt F)) : (⟨S50000x256, .f32⟩ : BufTy).Contents (Elt F)) wl : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) b : (⟨S1x128, .f32⟩ : BufTy).Contents (Elt F)) : (⟨S50000x128, .f32⟩ : BufTy).Contents (Elt F)) : (⟨S50000x128, .f32⟩ : BufTy).Contents (Elt F)) (((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) H wr : (⟨S50000x128, .f32⟩ : BufTy).Contents (Elt F)) : (⟨S50000x128, .f32⟩ : BufTy).Contents (Elt F))

noncomputable def mean128 (L : (⟨S50000x128, .f32⟩ : BufTy).Contents (Elt F)) :
    (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) L ((constant S_ .f32 0x00000000#32) : (⟨S_, .f32⟩ : BufTy).Contents (Elt F)) : (⟨S128, .f32⟩ : BufTy).Contents (Elt F)) ((broadcastInDim S128 ![] bcast_S_S128 : (⟨S_, .f32⟩ : BufTy).Contents (Elt F) → (⟨S128, .f32⟩ : BufTy).Contents (Elt F)) ((constant S_ .f32 0x47435000#32) : (⟨S_, .f32⟩ : BufTy).Contents (Elt F)) : (⟨S128, .f32⟩ : BufTy).Contents (Elt F)) : (⟨S128, .f32⟩ : BufTy).Contents (Elt F))

noncomputable def var128 (L : (⟨S50000x128, .f32⟩ : BufTy).Contents (Elt F)) :
    (⟨S128, .f32⟩ : BufTy).Contents (Elt F) :=
  ((fun p a b => select (broadcastInDim S128 ![] bcast_S_S128 p) a b) ((cmpf .ogt) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) (Host.divf ((fun x v => Host.reduceAdd x v reducesTo_S50000x128_S128_d0 h_S_) (mulf (subf L ((broadcastInDim S50000x128 ![0, 1] bcast_S1x128_S50000x128_0_1) (Host.divf ((broadcastInDim S1x128 ![1] bcast_S128_S1x128_1) ((fun x v => Host.reduceAdd x v reducesTo_S50000x128_S128_d0 h_S_) L ((constant S_ .f32 0x00000000#32) : (⟨S_, .f32⟩ : BufTy).Contents (Elt F)) : (⟨S128, .f32⟩ : BufTy).Contents (Elt F)) : (⟨S1x128, .f32⟩ : BufTy).Contents (Elt F)) ((broadcastInDim S1x128 ![] bcast_S_S1x128) ((constant S_ .f32 0x47435000#32) : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) (subf L ((broadcastInDim S50000x128 ![0, 1] bcast_S1x128_S50000x128_0_1) (Host.divf ((broadcastInDim S1x128 ![1] bcast_S128_S1x128_1) ((fun x v => Host.reduceAdd x v reducesTo_S50000x128_S128_d0 h_S_) L ((constant S_ .f32 0x00000000#32) : (⟨S_, .f32⟩ : BufTy).Contents (Elt F)) : (⟨S128, .f32⟩ : BufTy).Contents (Elt F)) : (⟨S1x128, .f32⟩ : BufTy).Contents (Elt F)) ((broadcastInDim S1x128 ![] bcast_S_S1x128) ((constant S_ .f32 0x47435000#32) : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) : (⟨S50000x128, .f32⟩ : BufTy).Contents (Elt F)) ((constant S_ .f32 0x00000000#32) : (⟨S_, .f32⟩ : BufTy).Contents (Elt F)) : (⟨S128, .f32⟩ : BufTy).Contents (Elt F)) ((broadcastInDim S128 ![] bcast_S_S128) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) ((broadcastInDim S128 ![] bcast_S_S128) (id ((constant S_ .f32 0x7FC00000#32) : (⟨S_, .f32⟩ : BufTy).Contents (Elt F)) : (⟨S_, .f32⟩ : BufTy).Contents (Elt F)) : (⟨S128, .f32⟩ : BufTy).Contents (Elt F)) : (⟨S128, .f32⟩ : BufTy).Contents (Elt F))

noncomputable def h2 (L : (⟨S50000x128, .f32⟩ : BufTy).Contents (Elt F)) (g : (⟨S128, .f32⟩ : BufTy).Contents (Elt F)) (be : (⟨S128, .f32⟩ : BufTy).Contents (Elt F)) :
    (⟨S50000x128, .f32⟩ : BufTy).Contents (Elt F) :=
  (maximumf ((addf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) g : (⟨S1x128, .f32⟩ : BufTy).Contents (Elt F)) : (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) L ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) (mean128 L) : (⟨S1x128, .f32⟩ : BufTy).Contents (Elt F)) : (⟨S50000x128, .f32⟩ : BufTy).Contents (Elt F)) : (⟨S50000x128, .f32⟩ : BufTy).Contents (Elt F)) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) (var128 L) ((broadcastInDim S128 ![] bcast_S_S128 : (⟨S_, .f32⟩ : BufTy).Contents (Elt F) → (⟨S128, .f32⟩ : BufTy).Contents (Elt F)) ((constant S_ .f32 0x3727C5AC#32) : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) be : (⟨S1x128, .f32⟩ : BufTy).Contents (Elt F)) : (⟨S50000x128, .f32⟩ : BufTy).Contents (Elt F)) : (⟨S50000x128, .f32⟩ : BufTy).Contents (Elt F)) ((broadcastInDim S50000x128 ![] bcast_S_S50000x128) ((constant S_ .f32 0x00000000#32) : (⟨S_, .f32⟩ : BufTy).Contents (Elt F)) : (⟨S50000x128, .f32⟩ : BufTy).Contents (Elt F)) : (⟨S50000x128, .f32⟩ : BufTy).Contents (Elt F))

noncomputable def lin3 (H : (⟨S50000x128, .f32⟩ : BufTy).Contents (Elt F)) (ei : (⟨S2x800000, .i32⟩ : BufTy).Contents (Elt F)) (wl : (⟨S128x64, .f32⟩ : BufTy).Contents (Elt F)) (wr : (⟨S128x64, .f32⟩ : BufTy).Contents (Elt F)) (b : (⟨S64, .f32⟩ : BufTy).Contents (Elt F)) :
    (⟨S50000x64, .f32⟩ : BufTy).Contents (Elt F) :=
  ((addf : (⟨S50000x64, .f32⟩ : BufTy).Contents (Elt F) → (⟨S50000x64, .f32⟩ : BufTy).Contents (Elt F) → (⟨S50000x64, .f32⟩ : BufTy).Contents (Elt F)) ((addf : (⟨S50000x64, .f32⟩ : BufTy).Contents (Elt F) → (⟨S50000x64, .f32⟩ : BufTy).Contents (Elt F) → (⟨S50000x64, .f32⟩ : BufTy).Contents (Elt F)) (((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ((Host.divf : (⟨S50000x128, .f32⟩ : BufTy).Contents (Elt F) → (⟨S50000x128, .f32⟩ : BufTy).Contents (Elt F) → (⟨S50000x128, .f32⟩ : BufTy).Contents (Elt F)) (agg128 H ei) ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) (dmax ei) : (⟨S50000x1, .f32⟩ : BufTy).Contents (Elt F)) : (⟨S50000x128, .f32⟩ : BufTy).Contents (Elt F)) : (⟨S50000x128, .f32⟩ : BufTy).Contents (Elt F)) wl : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) b : (⟨S1x64, .f32⟩ : BufTy).Contents (Elt F)) : (⟨S50000x64, .f32⟩ : BufTy).Contents (Elt F)) : (⟨S50000x64, .f32⟩ : BufTy).Contents (Elt F)) (((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) H wr : (⟨S50000x64, .f32⟩ : BufTy).Contents (Elt F)) : (⟨S50000x64, .f32⟩ : BufTy).Contents (Elt F))

noncomputable def mean64 (L : (⟨S50000x64, .f32⟩ : BufTy).Contents (Elt F)) :
    (⟨S64, .f32⟩ : BufTy).Contents (Elt F) :=
  ((Host.divf : (⟨S64, .f32⟩ : BufTy).Contents (Elt F) → (⟨S64, .f32⟩ : BufTy).Contents (Elt F) → (⟨S64, .f32⟩ : BufTy).Contents (Elt F)) (((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) L ((constant S_ .f32 0x00000000#32) : (⟨S_, .f32⟩ : BufTy).Contents (Elt F)) : (⟨S64, .f32⟩ : BufTy).Contents (Elt F)) ((broadcastInDim S64 ![] bcast_S_S64 : (⟨S_, .f32⟩ : BufTy).Contents (Elt F) → (⟨S64, .f32⟩ : BufTy).Contents (Elt F)) ((constant S_ .f32 0x47435000#32) : (⟨S_, .f32⟩ : BufTy).Contents (Elt F)) : (⟨S64, .f32⟩ : BufTy).Contents (Elt F)) : (⟨S64, .f32⟩ : BufTy).Contents (Elt F))

noncomputable def var64 (L : (⟨S50000x64, .f32⟩ : BufTy).Contents (Elt F)) :
    (⟨S64, .f32⟩ : BufTy).Contents (Elt F) :=
  ((fun p a b => select (broadcastInDim S64 ![] bcast_S_S64 p) a b) ((cmpf .ogt) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) ((constant S_ .f32 0x00000000#32) : (⟨S_, .f32⟩ : BufTy).Contents (Elt F)) : (⟨S_, .i1⟩ : BufTy).Contents (Elt F)) (Host.divf ((fun x v => Host.reduceAdd x v reducesTo_S50000x64_S64_d0 h_S_) (mulf (subf L ((broadcastInDim S50000x64 ![0, 1] bcast_S1x64_S50000x64_0_1) (Host.divf ((broadcastInDim S1x64 ![1] bcast_S64_S1x64_1) ((fun x v => Host.reduceAdd x v reducesTo_S50000x64_S64_d0 h_S_) L ((constant S_ .f32 0x00000000#32) : (⟨S_, .f32⟩ : BufTy).Contents (Elt F)) : (⟨S64, .f32⟩ : BufTy).Contents (Elt F)) : (⟨S1x64, .f32⟩ : BufTy).Contents (Elt F)) ((broadcastInDim S1x64 ![] bcast_S_S1x64) ((constant S_ .f32 0x47435000#32) : (⟨S_, .f32⟩ : BufTy).Contents (Elt F)) : (⟨S1x64, .f32⟩ : BufTy).Contents (Elt F)) : (⟨S1x64, .f32⟩ : BufTy).Contents (Elt F)) : (⟨S50000x64, .f32⟩ : BufTy).Contents (Elt F)) : (⟨S50000x64, .f32⟩ : BufTy).Contents (Elt F)) (subf L ((broadcastInDim S50000x64 ![0, 1] bcast_S1x64_S50000x64_0_1) (Host.divf ((broadcastInDim S1x64 ![1] bcast_S64_S1x64_1) ((fun x v => Host.reduceAdd x v reducesTo_S50000x64_S64_d0 h_S_) L ((constant S_ .f32 0x00000000#32) : (⟨S_, .f32⟩ : BufTy).Contents (Elt F)) : (⟨S64, .f32⟩ : BufTy).Contents (Elt F)) : (⟨S1x64, .f32⟩ : BufTy).Contents (Elt F)) ((broadcastInDim S1x64 ![] bcast_S_S1x64) ((constant S_ .f32 0x47435000#32) : (⟨S_, .f32⟩ : BufTy).Contents (Elt F)) : (⟨S1x64, .f32⟩ : BufTy).Contents (Elt F)) : (⟨S1x64, .f32⟩ : BufTy).Contents (Elt F)) : (⟨S50000x64, .f32⟩ : BufTy).Contents (Elt F)) : (⟨S50000x64, .f32⟩ : BufTy).Contents (Elt F)) : (⟨S50000x64, .f32⟩ : BufTy).Contents (Elt F)) ((constant S_ .f32 0x00000000#32) : (⟨S_, .f32⟩ : BufTy).Contents (Elt F)) : (⟨S64, .f32⟩ : BufTy).Contents (Elt F)) ((broadcastInDim S64 ![] bcast_S_S64) (subf ((constant S_ .f32 0x47435000#32) : (⟨S_, .f32⟩ : BufTy).Contents (Elt F)) ((sitofp .f32) ((constantI S_ 32 0#32) : (⟨S_, .i32⟩ : BufTy).Contents (Elt F)) : (⟨S_, .f32⟩ : BufTy).Contents (Elt F)) : (⟨S_, .f32⟩ : BufTy).Contents (Elt F)) : (⟨S64, .f32⟩ : BufTy).Contents (Elt F)) : (⟨S64, .f32⟩ : BufTy).Contents (Elt F)) ((broadcastInDim S64 ![] bcast_S_S64) (id ((constant S_ .f32 0x7FC00000#32) : (⟨S_, .f32⟩ : BufTy).Contents (Elt F)) : (⟨S_, .f32⟩ : BufTy).Contents (Elt F)) : (⟨S64, .f32⟩ : BufTy).Contents (Elt F)) : (⟨S64, .f32⟩ : BufTy).Contents (Elt F))

noncomputable def h3 (L : (⟨S50000x64, .f32⟩ : BufTy).Contents (Elt F)) (g : (⟨S64, .f32⟩ : BufTy).Contents (Elt F)) (be : (⟨S64, .f32⟩ : BufTy).Contents (Elt F)) :
    (⟨S50000x64, .f32⟩ : BufTy).Contents (Elt F) :=
  (maximumf ((addf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((mulf : (⟨S50000x64, .f32⟩ : BufTy).Contents (Elt F) → (⟨S50000x64, .f32⟩ : BufTy).Contents (Elt F) → (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) g : (⟨S1x64, .f32⟩ : BufTy).Contents (Elt F)) : (⟨S50000x64, .f32⟩ : BufTy).Contents (Elt F)) ((subf : (⟨S50000x64, .f32⟩ : BufTy).Contents (Elt F) → (⟨S50000x64, .f32⟩ : BufTy).Contents (Elt F) → (⟨S50000x64, .f32⟩ : BufTy).Contents (Elt F)) L ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) (mean64 L) : (⟨S1x64, .f32⟩ : BufTy).Contents (Elt F)) : (⟨S50000x64, .f32⟩ : BufTy).Contents (Elt F)) : (⟨S50000x64, .f32⟩ : BufTy).Contents (Elt F)) : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) ((Host.rsqrt : (⟨S64, .f32⟩ : BufTy).Contents (Elt F) → (⟨S64, .f32⟩ : BufTy).Contents (Elt F)) ((addf : (⟨S64, .f32⟩ : BufTy).Contents (Elt F) → (⟨S64, .f32⟩ : BufTy).Contents (Elt F) → (⟨S64, .f32⟩ : BufTy).Contents (Elt F)) (var64 L) ((broadcastInDim S64 ![] bcast_S_S64 : (⟨S_, .f32⟩ : BufTy).Contents (Elt F) → (⟨S64, .f32⟩ : BufTy).Contents (Elt F)) ((constant S_ .f32 0x3727C5AC#32) : (⟨S_, .f32⟩ : BufTy).Contents (Elt F)) : (⟨S64, .f32⟩ : BufTy).Contents (Elt F)) : (⟨S64, .f32⟩ : BufTy).Contents (Elt F)) : (⟨S64, .f32⟩ : BufTy).Contents (Elt F)) : (⟨S1x64, .f32⟩ : BufTy).Contents (Elt F)) : (⟨S50000x64, .f32⟩ : BufTy).Contents (Elt F)) : (⟨S50000x64, .f32⟩ : BufTy).Contents (Elt F)) ((broadcastInDim S50000x64 ![0, 1] bcast_S1x64_S50000x64_0_1 : (⟨S1x64, .f32⟩ : BufTy).Contents (Elt F) → (⟨S50000x64, .f32⟩ : BufTy).Contents (Elt F)) ((broadcastInDim S1x64 ![1] bcast_S64_S1x64_1 : (⟨S64, .f32⟩ : BufTy).Contents (Elt F) → (⟨S1x64, .f32⟩ : BufTy).Contents (Elt F)) be : (⟨S1x64, .f32⟩ : BufTy).Contents (Elt F)) : (⟨S50000x64, .f32⟩ : BufTy).Contents (Elt F)) : (⟨S50000x64, .f32⟩ : BufTy).Contents (Elt F)) ((broadcastInDim S50000x64 ![] bcast_S_S50000x64) ((constant S_ .f32 0x00000000#32) : (⟨S_, .f32⟩ : BufTy).Contents (Elt F)) : (⟨S50000x64, .f32⟩ : BufTy).Contents (Elt F)) : (⟨S50000x64, .f32⟩ : BufTy).Contents (Elt F))

noncomputable def pooled (H : (⟨S50000x64, .f32⟩ : BufTy).Contents (Elt F)) (batch : (⟨S50000, .i32⟩ : BufTy).Contents (Elt F)) :
    (⟨S64x64, .f32⟩ : BufTy).Contents (Elt F) :=
  ((Host.divf : (⟨S64x64, .f32⟩ : BufTy).Contents (Elt F) → (⟨S64x64, .f32⟩ : BufTy).Contents (Elt F) → (⟨S64x64, .f32⟩ : BufTy).Contents (Elt F)) (((fun x i u => Host.scatterAdd scatter_S64x64_S50000x1_S50000x64_1_0_0_1 x i u) : (⟨S64x64, .f32⟩ : BufTy).Contents (Elt F) → (⟨S50000x1, .i32⟩ : BufTy).Contents (Elt F) → (⟨S50000x64, .f32⟩ : BufTy).Contents (Elt F) → (⟨S64x64, .f32⟩ : BufTy).Contents (Elt F)) ((broadcastInDim S64x64 ![] bcast_S_S64x64 : (⟨S_, .f32⟩ : BufTy).Contents (Elt F) → (⟨S64x64, .f32⟩ : BufTy).Contents (Elt F)) ((constant S_ .f32 0x00000000#32) : (⟨S_, .f32⟩ : BufTy).Contents (Elt F)) : (⟨S64x64, .f32⟩ : BufTy).Contents (Elt F)) ((broadcastInDim S50000x1 ![0] bcast_S50000_S50000x1_0 : (⟨S50000, .i32⟩ : BufTy).Contents (Elt F) → (⟨S50000x1, .i32⟩ : BufTy).Contents (Elt F)) batch : (⟨S50000x1, .i32⟩ : BufTy).Contents (Elt F)) H : (⟨S64x64, .f32⟩ : BufTy).Contents (Elt F)) ((broadcastInDim S64x64 ![0, 1] bcast_S64x1_S64x64_0_1 : (⟨S64x1, .f32⟩ : BufTy).Contents (Elt F) → (⟨S64x64, .f32⟩ : BufTy).Contents (Elt F)) ((broadcastInDim S64x1 ![0] bcast_S64_S64x1_0 : (⟨S64, .f32⟩ : BufTy).Contents (Elt F) → (⟨S64x1, .f32⟩ : BufTy).Contents (Elt F)) ((maximumf : (⟨S64, .f32⟩ : BufTy).Contents (Elt F) → (⟨S64, .f32⟩ : BufTy).Contents (Elt F) → (⟨S64, .f32⟩ : BufTy).Contents (Elt F)) (((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)) ((broadcastInDim S64 ![] bcast_S_S64 : (⟨S_, .f32⟩ : BufTy).Contents (Elt F) → (⟨S64, .f32⟩ : BufTy).Contents (Elt F)) ((constant S_ .f32 0x00000000#32) : (⟨S_, .f32⟩ : BufTy).Contents (Elt F)) : (⟨S64, .f32⟩ : BufTy).Contents (Elt F)) ((broadcastInDim S50000x1 ![0] bcast_S50000_S50000x1_0 : (⟨S50000, .i32⟩ : BufTy).Contents (Elt F) → (⟨S50000x1, .i32⟩ : BufTy).Contents (Elt F)) batch : (⟨S50000x1, .i32⟩ : BufTy).Contents (Elt F)) ((broadcastInDim S50000 ![] bcast_S_S50000 : (⟨S_, .f32⟩ : BufTy).Contents (Elt F) → (⟨S50000, .f32⟩ : BufTy).Contents (Elt F)) ((constant S_ .f32 0x3F800000#32) : (⟨S_, .f32⟩ : BufTy).Contents (Elt F)) : (⟨S50000, .f32⟩ : BufTy).Contents (Elt F)) : (⟨S64, .f32⟩ : BufTy).Contents (Elt F)) ((broadcastInDim S64 ![] bcast_S_S64 : (⟨S_, .f32⟩ : BufTy).Contents (Elt F) → (⟨S64, .f32⟩ : BufTy).Contents (Elt F)) ((constant S_ .f32 0x3F800000#32) : (⟨S_, .f32⟩ : BufTy).Contents (Elt F)) : (⟨S64, .f32⟩ : BufTy).Contents (Elt F)) : (⟨S64, .f32⟩ : BufTy).Contents (Elt F)) : (⟨S64x1, .f32⟩ : BufTy).Contents (Elt F)) : (⟨S64x64, .f32⟩ : BufTy).Contents (Elt F)) : (⟨S64x64, .f32⟩ : BufTy).Contents (Elt F))

noncomputable def mlpOut (P : (⟨S64x64, .f32⟩ : BufTy).Contents (Elt F)) (w1 : (⟨S64x64, .f32⟩ : BufTy).Contents (Elt F)) (b1 : (⟨S64, .f32⟩ : BufTy).Contents (Elt F)) (w2 : (⟨S64x32, .f32⟩ : BufTy).Contents (Elt F)) (b2 : (⟨S32, .f32⟩ : BufTy).Contents (Elt F)) (w3 : (⟨S32x2, .f32⟩ : BufTy).Contents (Elt F)) (b3 : (⟨S2, .f32⟩ : BufTy).Contents (Elt F)) :
    (⟨S64x2, .f32⟩ : BufTy).Contents (Elt F) :=
  ((addf : (⟨S64x2, .f32⟩ : BufTy).Contents (Elt F) → (⟨S64x2, .f32⟩ : BufTy).Contents (Elt F) → (⟨S64x2, .f32⟩ : BufTy).Contents (Elt F)) (((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)) (maximumf ((addf : (⟨S64x32, .f32⟩ : BufTy).Contents (Elt F) → (⟨S64x32, .f32⟩ : BufTy).Contents (Elt F) → (⟨S64x32, .f32⟩ : BufTy).Contents (Elt F)) (((fun l r => Host.dotGeneral dot_S64x64_S64x32_S64x32_1_0_0_1_n_n none l r) : (⟨S64x64, .f32⟩ : BufTy).Contents (Elt F) → (⟨S64x32, .f32⟩ : BufTy).Contents (Elt F) → (⟨S64x32, .f32⟩ : BufTy).Contents (Elt F)) (maximumf ((addf : (⟨S64x64, .f32⟩ : BufTy).Contents (Elt F) → (⟨S64x64, .f32⟩ : BufTy).Contents (Elt F) → (⟨S64x64, .f32⟩ : BufTy).Contents (Elt F)) (((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) P w1 : (⟨S64x64, .f32⟩ : BufTy).Contents (Elt F)) ((broadcastInDim S64x64 ![0, 1] bcast_S1x64_S64x64_0_1 : (⟨S1x64, .f32⟩ : BufTy).Contents (Elt F) → (⟨S64x64, .f32⟩ : BufTy).Contents (Elt F)) ((broadcastInDim S1x64 ![1] bcast_S64_S1x64_1 : (⟨S64, .f32⟩ : BufTy).Contents (Elt F) → (⟨S1x64, .f32⟩ : BufTy).Contents (Elt F)) b1 : (⟨S1x64, .f32⟩ : BufTy).Contents (Elt F)) : (⟨S64x64, .f32⟩ : BufTy).Contents (Elt F)) : (⟨S64x64, .f32⟩ : BufTy).Contents (Elt F)) ((broadcastInDim S64x64 ![] bcast_S_S64x64) ((constant S_ .f32 0x00000000#32) : (⟨S_, .f32⟩ : BufTy).Contents (Elt F)) : (⟨S64x64, .f32⟩ : BufTy).Contents (Elt F)) : (⟨S64x64, .f32⟩ : BufTy).Contents (Elt F)) w2 : (⟨S64x32, .f32⟩ : BufTy).Contents (Elt F)) ((broadcastInDim S64x32 ![0, 1] bcast_S1x32_S64x32_0_1 : (⟨S1x32, .f32⟩ : BufTy).Contents (Elt F) → (⟨S64x32, .f32⟩ : BufTy).Contents (Elt F)) ((broadcastInDim S1x32 ![1] bcast_S32_S1x32_1 : (⟨S32, .f32⟩ : BufTy).Contents (Elt F) → (⟨S1x32, .f32⟩ : BufTy).Contents (Elt F)) b2 : (⟨S1x32, .f32⟩ : BufTy).Contents (Elt F)) : (⟨S64x32, .f32⟩ : BufTy).Contents (Elt F)) : (⟨S64x32, .f32⟩ : BufTy).Contents (Elt F)) ((broadcastInDim S64x32 ![] bcast_S_S64x32) ((constant S_ .f32 0x00000000#32) : (⟨S_, .f32⟩ : BufTy).Contents (Elt F)) : (⟨S64x32, .f32⟩ : BufTy).Contents (Elt F)) : (⟨S64x32, .f32⟩ : BufTy).Contents (Elt F)) w3 : (⟨S64x2, .f32⟩ : BufTy).Contents (Elt F)) ((broadcastInDim S64x2 ![0, 1] bcast_S1x2_S64x2_0_1 : (⟨S1x2, .f32⟩ : BufTy).Contents (Elt F) → (⟨S64x2, .f32⟩ : BufTy).Contents (Elt F)) ((broadcastInDim S1x2 ![1] bcast_S2_S1x2_1 : (⟨S2, .f32⟩ : BufTy).Contents (Elt F) → (⟨S1x2, .f32⟩ : BufTy).Contents (Elt F)) b3 : (⟨S1x2, .f32⟩ : BufTy).Contents (Elt F)) : (⟨S64x2, .f32⟩ : BufTy).Contents (Elt F)) : (⟨S64x2, .f32⟩ : BufTy).Contents (Elt F))

/-- The result array as a function of the twenty-four argument arrays: the stages composed. -/
noncomputable def refOut (a0 : (⟨S50000x128, .f32⟩ : BufTy).Contents (Elt F)) (a1 : (⟨S2x800000, .i32⟩ : BufTy).Contents (Elt F)) (a2 : (⟨S50000, .i32⟩ : BufTy).Contents (Elt F)) (a3 : (⟨S128x256, .f32⟩ : BufTy).Contents (Elt F)) (a4 : (⟨S128x256, .f32⟩ : BufTy).Contents (Elt F)) (a5 : (⟨S256, .f32⟩ : BufTy).Contents (Elt F)) (a6 : (⟨S256, .f32⟩ : BufTy).Contents (Elt F)) (a7 : (⟨S256, .f32⟩ : BufTy).Contents (Elt F)) (a8 : (⟨S256x128, .f32⟩ : BufTy).Contents (Elt F)) (a9 : (⟨S256x128, .f32⟩ : BufTy).Contents (Elt F)) (a10 : (⟨S128, .f32⟩ : BufTy).Contents (Elt F)) (a11 : (⟨S128, .f32⟩ : BufTy).Contents (Elt F)) (a12 : (⟨S128, .f32⟩ : BufTy).Contents (Elt F)) (a13 : (⟨S128x64, .f32⟩ : BufTy).Contents (Elt F)) (a14 : (⟨S128x64, .f32⟩ : BufTy).Contents (Elt F)) (a15 : (⟨S64, .f32⟩ : BufTy).Contents (Elt F)) (a16 : (⟨S64, .f32⟩ : BufTy).Contents (Elt F)) (a17 : (⟨S64, .f32⟩ : BufTy).Contents (Elt F)) (a18 : (⟨S64x64, .f32⟩ : BufTy).Contents (Elt F)) (a19 : (⟨S64, .f32⟩ : BufTy).Contents (Elt F)) (a20 : (⟨S64x32, .f32⟩ : BufTy).Contents (Elt F)) (a21 : (⟨S32, .f32⟩ : BufTy).Contents (Elt F)) (a22 : (⟨S32x2, .f32⟩ : BufTy).Contents (Elt F)) (a23 : (⟨S2, .f32⟩ : BufTy).Contents (Elt F)) :
    (⟨S64x2, .f32⟩ : BufTy).Contents (Elt F) :=
  mlpOut (pooled (h3 (lin3 (h2 (lin2 (h1 (lin1 a0 a1 a3 a4 a5) a6 a7) a1 a8 a9 a10) a11 a12) a1 a13 a14 a15) a16 a17) a2) a18 a19 a20 a21 a22 a23

set_option maxRecDepth 65536 in
set_option maxHeartbeats 8000000 in
/-- After the line the result array holds `refOut` of what the argument arrays held: each operation's result read at
    its own array and the stages' definitions unfolded; a value passed through a called function's typed array is the value. -/
theorem out_eq (V : Valuation τ sig (Elt F)) :
    after ops V (main_v164 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) := by
  after_results_simp
  rfl

end Value

section Frame

variable {F : FTy → Type} [FloatOps F]

/-- The arrays the line writes: one per operation. -/
abbrev written : List (Ref sig .tc) :=
  [main_v0, main_v1, main_v2, main_v3, main_c, main_v4, main_v5, main_c_0, main_v6, main_v7, main_v8, main_v9, main_v10, main_cst, main_v11, main_v12, main_v13, main_cst_1, main_v14, main_cst_2, main_v15, main_v16, main_v17, main_cst_3, main_v18, main_v19, main_v20, main_v21, main_v22, main_v23, main_v24, main_v25, main_v26, main_v27, main_v28, main_cst_4, main_v29, main_cst_5, main_v30, main_v31, main_c_6, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v32, main_v33, main_v34, main_v35, main_v36, main_v37, main_v38, main_cst_7, main_v39, main_v40, main_v41, main_v42, main_v43, main_v44, main_v45, main_v46, main_v47, main_call1_cst, main_call1_v0, main_v48, main_c_8, main_v49, main_v50, main_c_9, main_v51, main_v52, main_v53, main_v54, main_v55, main_cst_10, main_v56, main_v57, main_v58, main_cst_11, main_v59, main_cst_12, main_v60, main_v61, main_v62, main_cst_13, main_v63, main_v64, main_v65, main_v66, main_v67, main_v68, main_v69, main_v70, main_v71, main_v72, main_v73, main_cst_14, main_v74, main_cst_15, main_v75, main_v76, main_c_16, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v77, main_v78, main_v79, main_v80, main_v81, main_v82, main_v83, main_cst_17, main_v84, main_v85, main_v86, main_v87, main_v88, main_v89, main_v90, main_v91, main_v92, main_call3_cst, main_call3_v0, main_v93, main_c_18, main_v94, main_v95, main_c_19, main_v96, main_v97, main_v98, main_v99, main_v100, main_cst_20, main_v101, main_v102, main_v103, main_cst_21, main_v104, main_cst_22, main_v105, main_v106, main_v107, main_cst_23, main_v108, main_v109, main_v110, main_v111, main_v112, main_v113, main_v114, main_v115, main_v116, main_v117, main_v118, main_cst_24, main_v119, main_cst_25, main_v120, main_v121, main_c_26, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v122, main_v123, main_v124, main_v125, main_v126, main_v127, main_v128, main_cst_27, main_v129, main_v130, main_v131, main_v132, main_v133, main_v134, main_v135, main_v136, main_v137, main_call5_cst, main_call5_v0, main_v138, main_cst_28, main_v139, main_v140, main_v141, main_cst_29, main_v142, main_cst_30, main_v143, main_v144, main_v145, main_cst_31, main_v146, main_v147, main_v148, main_v149, main_v150, main_v151, main_v152, main_v153, main_v154, main_call6_cst, main_call6_v0, main_v155, main_v156, main_v157, main_v158, main_v159, main_call7_cst, main_call7_v0, main_v160, main_v161, main_v162, main_v163, main_v164]

/-- A lone array among a list's arrays. -/
theorem single_sub_written {W : List (Ref sig .tc)} (y : Ref sig .tc) (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- Every operation of the line writes one of the listed arrays. -/
theorem writes_sub : (ops : List (HloOp τ sig (Elt F))).Forall fun op => op.writes ⊆ (written.map (Proc.devRef (τ := τ) .tc)).toFinset :=
  ⟨single_sub_written main_v0 (by decide),
    single_sub_written main_v1 (by decide),
    single_sub_written main_v2 (by decide),
    single_sub_written main_v3 (by decide),
    single_sub_written main_c (by decide),
    single_sub_written main_v4 (by decide),
    single_sub_written main_v5 (by decide),
    single_sub_written main_c_0 (by decide),
    single_sub_written main_v6 (by decide),
    single_sub_written main_v7 (by decide),
    single_sub_written main_v8 (by decide),
    single_sub_written main_v9 (by decide),
    single_sub_written main_v10 (by decide),
    single_sub_written main_cst (by decide),
    single_sub_written main_v11 (by decide),
    single_sub_written main_v12 (by decide),
    single_sub_written main_v13 (by decide),
    single_sub_written main_cst_1 (by decide),
    single_sub_written main_v14 (by decide),
    single_sub_written main_cst_2 (by decide),
    single_sub_written main_v15 (by decide),
    single_sub_written main_v16 (by decide),
    single_sub_written main_v17 (by decide),
    single_sub_written main_cst_3 (by decide),
    single_sub_written main_v18 (by decide),
    single_sub_written main_v19 (by decide),
    single_sub_written main_v20 (by decide),
    single_sub_written main_v21 (by decide),
    single_sub_written main_v22 (by decide),
    single_sub_written main_v23 (by decide),
    single_sub_written main_v24 (by decide),
    single_sub_written main_v25 (by decide),
    single_sub_written main_v26 (by decide),
    single_sub_written main_v27 (by decide),
    single_sub_written main_v28 (by decide),
    single_sub_written main_cst_4 (by decide),
    single_sub_written main_v29 (by decide),
    single_sub_written main_cst_5 (by decide),
    single_sub_written main_v30 (by decide),
    single_sub_written main_v31 (by decide),
    single_sub_written main_c_6 (by decide),
    single_sub_written main_call0_cst (by decide),
    single_sub_written main_call0_v0 (by decide),
    single_sub_written main_call0_v1 (by decide),
    single_sub_written main_call0_cst_0 (by decide),
    single_sub_written main_call0_v2 (by decide),
    single_sub_written main_call0_v3 (by decide),
    single_sub_written main_call0_v4 (by decide),
    single_sub_written main_call0_v5 (by decide),
    single_sub_written main_call0_v6 (by decide),
    single_sub_written main_call0_v7 (by decide),
    single_sub_written main_call0_cst_1 (by decide),
    single_sub_written main_call0_v8 (by decide),
    single_sub_written main_call0_cst_2 (by decide),
    single_sub_written main_call0_v9 (by decide),
    single_sub_written main_call0_v10 (by decide),
    single_sub_written main_call0_v11 (by decide),
    single_sub_written main_call0_cst_3 (by decide),
    single_sub_written main_call0_v12 (by decide),
    single_sub_written main_call0_cst_4 (by decide),
    single_sub_written main_call0_call0_v0 (by decide),
    single_sub_written main_call0_call0_v1 (by decide),
    single_sub_written main_v32 (by decide),
    single_sub_written main_v33 (by decide),
    single_sub_written main_v34 (by decide),
    single_sub_written main_v35 (by decide),
    single_sub_written main_v36 (by decide),
    single_sub_written main_v37 (by decide),
    single_sub_written main_v38 (by decide),
    single_sub_written main_cst_7 (by decide),
    single_sub_written main_v39 (by decide),
    single_sub_written main_v40 (by decide),
    single_sub_written main_v41 (by decide),
    single_sub_written main_v42 (by decide),
    single_sub_written main_v43 (by decide),
    single_sub_written main_v44 (by decide),
    single_sub_written main_v45 (by decide),
    single_sub_written main_v46 (by decide),
    single_sub_written main_v47 (by decide),
    single_sub_written main_call1_cst (by decide),
    single_sub_written main_call1_v0 (by decide),
    single_sub_written main_v48 (by decide),
    single_sub_written main_c_8 (by decide),
    single_sub_written main_v49 (by decide),
    single_sub_written main_v50 (by decide),
    single_sub_written main_c_9 (by decide),
    single_sub_written main_v51 (by decide),
    single_sub_written main_v52 (by decide),
    single_sub_written main_v53 (by decide),
    single_sub_written main_v54 (by decide),
    single_sub_written main_v55 (by decide),
    single_sub_written main_cst_10 (by decide),
    single_sub_written main_v56 (by decide),
    single_sub_written main_v57 (by decide),
    single_sub_written main_v58 (by decide),
    single_sub_written main_cst_11 (by decide),
    single_sub_written main_v59 (by decide),
    single_sub_written main_cst_12 (by decide),
    single_sub_written main_v60 (by decide),
    single_sub_written main_v61 (by decide),
    single_sub_written main_v62 (by decide),
    single_sub_written main_cst_13 (by decide),
    single_sub_written main_v63 (by decide),
    single_sub_written main_v64 (by decide),
    single_sub_written main_v65 (by decide),
    single_sub_written main_v66 (by decide),
    single_sub_written main_v67 (by decide),
    single_sub_written main_v68 (by decide),
    single_sub_written main_v69 (by decide),
    single_sub_written main_v70 (by decide),
    single_sub_written main_v71 (by decide),
    single_sub_written main_v72 (by decide),
    single_sub_written main_v73 (by decide),
    single_sub_written main_cst_14 (by decide),
    single_sub_written main_v74 (by decide),
    single_sub_written main_cst_15 (by decide),
    single_sub_written main_v75 (by decide),
    single_sub_written main_v76 (by decide),
    single_sub_written main_c_16 (by decide),
    single_sub_written main_call2_cst (by decide),
    single_sub_written main_call2_v0 (by decide),
    single_sub_written main_call2_v1 (by decide),
    single_sub_written main_call2_cst_0 (by decide),
    single_sub_written main_call2_v2 (by decide),
    single_sub_written main_call2_v3 (by decide),
    single_sub_written main_call2_v4 (by decide),
    single_sub_written main_call2_v5 (by decide),
    single_sub_written main_call2_v6 (by decide),
    single_sub_written main_call2_v7 (by decide),
    single_sub_written main_call2_cst_1 (by decide),
    single_sub_written main_call2_v8 (by decide),
    single_sub_written main_call2_cst_2 (by decide),
    single_sub_written main_call2_v9 (by decide),
    single_sub_written main_call2_v10 (by decide),
    single_sub_written main_call2_v11 (by decide),
    single_sub_written main_call2_cst_3 (by decide),
    single_sub_written main_call2_v12 (by decide),
    single_sub_written main_call2_cst_4 (by decide),
    single_sub_written main_call2_call0_v0 (by decide),
    single_sub_written main_call2_call0_v1 (by decide),
    single_sub_written main_v77 (by decide),
    single_sub_written main_v78 (by decide),
    single_sub_written main_v79 (by decide),
    single_sub_written main_v80 (by decide),
    single_sub_written main_v81 (by decide),
    single_sub_written main_v82 (by decide),
    single_sub_written main_v83 (by decide),
    single_sub_written main_cst_17 (by decide),
    single_sub_written main_v84 (by decide),
    single_sub_written main_v85 (by decide),
    single_sub_written main_v86 (by decide),
    single_sub_written main_v87 (by decide),
    single_sub_written main_v88 (by decide),
    single_sub_written main_v89 (by decide),
    single_sub_written main_v90 (by decide),
    single_sub_written main_v91 (by decide),
    single_sub_written main_v92 (by decide),
    single_sub_written main_call3_cst (by decide),
    single_sub_written main_call3_v0 (by decide),
    single_sub_written main_v93 (by decide),
    single_sub_written main_c_18 (by decide),
    single_sub_written main_v94 (by decide),
    single_sub_written main_v95 (by decide),
    single_sub_written main_c_19 (by decide),
    single_sub_written main_v96 (by decide),
    single_sub_written main_v97 (by decide),
    single_sub_written main_v98 (by decide),
    single_sub_written main_v99 (by decide),
    single_sub_written main_v100 (by decide),
    single_sub_written main_cst_20 (by decide),
    single_sub_written main_v101 (by decide),
    single_sub_written main_v102 (by decide),
    single_sub_written main_v103 (by decide),
    single_sub_written main_cst_21 (by decide),
    single_sub_written main_v104 (by decide),
    single_sub_written main_cst_22 (by decide),
    single_sub_written main_v105 (by decide),
    single_sub_written main_v106 (by decide),
    single_sub_written main_v107 (by decide),
    single_sub_written main_cst_23 (by decide),
    single_sub_written main_v108 (by decide),
    single_sub_written main_v109 (by decide),
    single_sub_written main_v110 (by decide),
    single_sub_written main_v111 (by decide),
    single_sub_written main_v112 (by decide),
    single_sub_written main_v113 (by decide),
    single_sub_written main_v114 (by decide),
    single_sub_written main_v115 (by decide),
    single_sub_written main_v116 (by decide),
    single_sub_written main_v117 (by decide),
    single_sub_written main_v118 (by decide),
    single_sub_written main_cst_24 (by decide),
    single_sub_written main_v119 (by decide),
    single_sub_written main_cst_25 (by decide),
    single_sub_written main_v120 (by decide),
    single_sub_written main_v121 (by decide),
    single_sub_written main_c_26 (by decide),
    single_sub_written main_call4_cst (by decide),
    single_sub_written main_call4_v0 (by decide),
    single_sub_written main_call4_v1 (by decide),
    single_sub_written main_call4_cst_0 (by decide),
    single_sub_written main_call4_v2 (by decide),
    single_sub_written main_call4_v3 (by decide),
    single_sub_written main_call4_v4 (by decide),
    single_sub_written main_call4_v5 (by decide),
    single_sub_written main_call4_v6 (by decide),
    single_sub_written main_call4_v7 (by decide),
    single_sub_written main_call4_cst_1 (by decide),
    single_sub_written main_call4_v8 (by decide),
    single_sub_written main_call4_cst_2 (by decide),
    single_sub_written main_call4_v9 (by decide),
    single_sub_written main_call4_v10 (by decide),
    single_sub_written main_call4_v11 (by decide),
    single_sub_written main_call4_cst_3 (by decide),
    single_sub_written main_call4_v12 (by decide),
    single_sub_written main_call4_cst_4 (by decide),
    single_sub_written main_call4_call0_v0 (by decide),
    single_sub_written main_call4_call0_v1 (by decide),
    single_sub_written main_v122 (by decide),
    single_sub_written main_v123 (by decide),
    single_sub_written main_v124 (by decide),
    single_sub_written main_v125 (by decide),
    single_sub_written main_v126 (by decide),
    single_sub_written main_v127 (by decide),
    single_sub_written main_v128 (by decide),
    single_sub_written main_cst_27 (by decide),
    single_sub_written main_v129 (by decide),
    single_sub_written main_v130 (by decide),
    single_sub_written main_v131 (by decide),
    single_sub_written main_v132 (by decide),
    single_sub_written main_v133 (by decide),
    single_sub_written main_v134 (by decide),
    single_sub_written main_v135 (by decide),
    single_sub_written main_v136 (by decide),
    single_sub_written main_v137 (by decide),
    single_sub_written main_call5_cst (by decide),
    single_sub_written main_call5_v0 (by decide),
    single_sub_written main_v138 (by decide),
    single_sub_written main_cst_28 (by decide),
    single_sub_written main_v139 (by decide),
    single_sub_written main_v140 (by decide),
    single_sub_written main_v141 (by decide),
    single_sub_written main_cst_29 (by decide),
    single_sub_written main_v142 (by decide),
    single_sub_written main_cst_30 (by decide),
    single_sub_written main_v143 (by decide),
    single_sub_written main_v144 (by decide),
    single_sub_written main_v145 (by decide),
    single_sub_written main_cst_31 (by decide),
    single_sub_written main_v146 (by decide),
    single_sub_written main_v147 (by decide),
    single_sub_written main_v148 (by decide),
    single_sub_written main_v149 (by decide),
    single_sub_written main_v150 (by decide),
    single_sub_written main_v151 (by decide),
    single_sub_written main_v152 (by decide),
    single_sub_written main_v153 (by decide),
    single_sub_written main_v154 (by decide),
    single_sub_written main_call6_cst (by decide),
    single_sub_written main_call6_v0 (by decide),
    single_sub_written main_v155 (by decide),
    single_sub_written main_v156 (by decide),
    single_sub_written main_v157 (by decide),
    single_sub_written main_v158 (by decide),
    single_sub_written main_v159 (by decide),
    single_sub_written main_call7_cst (by decide),
    single_sub_written main_call7_v0 (by decide),
    single_sub_written main_v160 (by decide),
    single_sub_written main_v161 (by decide),
    single_sub_written main_v162 (by decide),
    single_sub_written main_v163 (by decide),
    single_sub_written main_v164 (by decide)⟩

/-- An array the line does not write keeps its contents: in particular every argument array. -/
theorem frame_eq (V : Valuation τ sig (Elt F)) (r : Ref sig .tc) (hr : r ∉ written) :
    after ops V (Proc.devRef .tc r) = V (Proc.devRef .tc r) :=
  after_of_writes_sub ops V writes_sub hr

end Frame

set_option maxRecDepth 65536 in
set_option maxHeartbeats 4000000 in
/-- On every device, from any memory with zero counters: every weakly fair execution of the program terminates with
    the result array at `refOut` of the argument arrays' launch contents, and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v164) = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨(h c main_v164).trans (out_eq _),
      (h c main_arg0).trans (frame_eq _ main_arg0 (by decide)),
      (h c main_arg1).trans (frame_eq _ main_arg1 (by decide)),
      (h c main_arg2).trans (frame_eq _ main_arg2 (by decide)),
      (h c main_arg3).trans (frame_eq _ main_arg3 (by decide)),
      (h c main_arg4).trans (frame_eq _ main_arg4 (by decide)),
      (h c main_arg5).trans (frame_eq _ main_arg5 (by decide)),
      (h c main_arg6).trans (frame_eq _ main_arg6 (by decide)),
      (h c main_arg7).trans (frame_eq _ main_arg7 (by decide)),
      (h c main_arg8).trans (frame_eq _ main_arg8 (by decide)),
      (h c main_arg9).trans (frame_eq _ main_arg9 (by decide)),
      (h c main_arg10).trans (frame_eq _ main_arg10 (by decide)),
      (h c main_arg11).trans (frame_eq _ main_arg11 (by decide)),
      (h c main_arg12).trans (frame_eq _ main_arg12 (by decide)),
      (h c main_arg13).trans (frame_eq _ main_arg13 (by decide)),
      (h c main_arg14).trans (frame_eq _ main_arg14 (by decide)),
      (h c main_arg15).trans (frame_eq _ main_arg15 (by decide)),
      (h c main_arg16).trans (frame_eq _ main_arg16 (by decide)),
      (h c main_arg17).trans (frame_eq _ main_arg17 (by decide)),
      (h c main_arg18).trans (frame_eq _ main_arg18 (by decide)),
      (h c main_arg19).trans (frame_eq _ main_arg19 (by decide)),
      (h c main_arg20).trans (frame_eq _ main_arg20 (by decide)),
      (h c main_arg21).trans (frame_eq _ main_arg21 (by decide)),
      (h c main_arg22).trans (frame_eq _ main_arg22 (by decide)),
      (h c main_arg23).trans (frame_eq _ main_arg23 (by decide))⟩)
    (run_seq scopedRefs_eq scopedSems_eq defs main (fun _ => ops) main_eq (fun _ => ops_sub) m ρ)

end Cert.ReferenceIdeal.RefValue

end
-- ==== Proof.RefRead.lean ====
/-
  The reference program's layers read in the vocabulary of the specification.

  Each statement takes the arrays a layer starts from as variables, spells the layer with exactly the operations
  the reference program applies to them, and says which array of the specification that is.  A product with one
  contracted axis is the plain matrix product; a vector made a column (or a row) and then spread over the columns
  (or the rows) reads, at `(i, q)`, its entry `i` (or `q`); a scalar constant spread over an array reads that
  constant at every entry; a sum over the rows from a zero initial value is the column sum; every other operation
  is entrywise.
-/
import proofs.«180069_j11596411699546_2_alg».proof.Proof.Gen.ReferenceIdeal
import Idealize.ShloMosaic.PureOps.Ideal
import Idealize.ShloMosaic.PureOps.Ideal.Laws
import Idealize.ShloMosaic.Lib.IdealHost
import Idealize.ShloMosaic.Lib.ValueLayout
import proofs.«180069_j11596411699546_2_alg».proof.Proof.Spec
import proofs.«180069_j11596411699546_2_alg».proof.Proof.SpecMlp
import proofs.«180069_j11596411699546_2_alg».proof.Proof.LibRows
import proofs.«180069_j11596411699546_2_alg».proof.Proof.Consts

set_option maxRecDepth 16384

noncomputable section

namespace Cert.ReferenceIdeal.RefValue

open Idealize.ShloMosaic Idealize.ShloMosaic.ValueIdx RowBlocks
open Cert.ReferenceIdeal Cert.ReferenceIdeal.Facts₀

/-! ## Reading the layout operations -/

/-- A vector of `N` entries made a column and then spread over `K` columns reads, at `(i, q)`, its entry `i`. -/
theorem bcast_col_apply {α : Type} {N K : ℕ} (v : (⟨1, ![N]⟩ : Shape).Idx → α)
    (h1 : (⟨1, ![N]⟩ : Shape).BroadcastsInDim ⟨2, ![N, 1]⟩ ![0])
    (h2 : (⟨2, ![N, 1]⟩ : Shape).BroadcastsInDim ⟨2, ![N, K]⟩ ![0, 1]) (i : Fin N) (q : Fin K) :
    broadcastInDim ⟨2, ![N, K]⟩ ![0, 1] h2 (broadcastInDim ⟨2, ![N, 1]⟩ ![0] h1 v) (ix2 i q) = v (ix1 i) := by
  rw [broadcastInDim_apply _ h2 _ _ (ix2 i (⟨0, Nat.one_pos⟩ : Fin 1)) (fun a => match a with
    | ⟨0, _⟩ => by
        show i.val = if N = 1 then 0 else i.val
        split
        · have := i.isLt; omega
        · rfl
    | ⟨1, _⟩ => by show 0 = if (1 : Nat) = 1 then 0 else _; rw [if_pos rfl])]
  rw [broadcastInDim_apply _ h1 _ _ (ix1 i) (fun a => match a with
    | ⟨0, _⟩ => by
        show i.val = if N = 1 then 0 else i.val
        split
        · have := i.isLt; omega
        · rfl)]

/-- A vector of `C` entries made a row and then spread over `N` rows reads, at `(i, q)`, its entry `q`. -/
theorem bcast_row_apply {α : Type} {N C : ℕ} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![N, C]⟩ ![0, 1]) (i : Fin N) (q : Fin C) :
    broadcastInDim ⟨2, ![N, C]⟩ ![0, 1] h2 (broadcastInDim ⟨2, ![1, C]⟩ ![1] h1 b) (ix2 i q) = b (ix1 q) := by
  rw [broadcastInDim_apply _ h2 _ _ (ix2 (⟨0, Nat.one_pos⟩ : Fin 1) q) (fun a => match a with
    | ⟨0, _⟩ => by show 0 = if (1 : Nat) = 1 then 0 else _; rw [if_pos rfl]
    | ⟨1, _⟩ => by
        show q.val = if C = 1 then 0 else q.val
        split
        · have := q.isLt; omega
        · rfl)]
  rw [broadcastInDim_apply _ h1 _ _ (ix1 q) (fun a => match a with
    | ⟨0, _⟩ => by
        show q.val = if C = 1 then 0 else q.val
        split
        · have := q.isLt; omega
        · rfl)]

/-! ## The linear part of a layer -/

/-- The aggregated features divided row by row by `max (deg, 1)`, times `wl`, plus the bias row, plus the
    features times `wr`: the specification's `linRef`. -/
theorem lin_term {N K C : ℕ} (d : DotDims ⟨2, ![N, K]⟩ ⟨2, ![K, C]⟩ ⟨2, ![N, C]⟩) (hd : PlainSum d)
    (ag x : FVec Ideal ⟨2, ![N, K]⟩ .f32) (dmax : FVec Ideal ⟨1, ![N]⟩ .f32)
    (wl wr : FVec Ideal ⟨2, ![K, C]⟩ .f32) (b : FVec Ideal ⟨1, ![C]⟩ .f32)
    (h1 : (⟨1, ![N]⟩ : Shape).BroadcastsInDim ⟨2, ![N, 1]⟩ ![0])
    (h2 : (⟨2, ![N, 1]⟩ : Shape).BroadcastsInDim ⟨2, ![N, K]⟩ ![0, 1])
    (h3 : (⟨1, ![C]⟩ : Shape).BroadcastsInDim ⟨2, ![1, C]⟩ ![1])
    (h4 : (⟨2, ![1, C]⟩ : Shape).BroadcastsInDim ⟨2, ![N, C]⟩ ![0, 1]) :
    addf
        (addf
          (Host.dotGeneral d none
            (Host.divf ag (broadcastInDim ⟨2, ![N, K]⟩ ![0, 1] h2 (broadcastInDim ⟨2, ![N, 1]⟩ ![0] h1 dmax))) wl)
          (broadcastInDim ⟨2, ![N, C]⟩ ![0, 1] h4 (broadcastInDim ⟨2, ![1, C]⟩ ![1] h3 b)))
        (Host.dotGeneral d none x wr)
      = GraphSage.linRef (fun j => Ideal.div (ag j) (dmax (ix1 (j 0)))) x wl wr b := by
  have hdiv : Host.divf ag (broadcastInDim ⟨2, ![N, K]⟩ ![0, 1] h2 (broadcastInDim ⟨2, ![N, 1]⟩ ![0] h1 dmax))
      = fun j => Ideal.div (ag j) (dmax (ix1 (j 0))) := by
    funext j
    obtain ⟨r, q, rfl⟩ : ∃ (r : Fin N) (q : Fin K), j = ix2 r q := ⟨j 0, j 1, eq_ix2 j⟩
    rw [hostDivf_apply, bcast_col_apply]
    rfl
  rw [dot_eq_mm d hd, dot_eq_mm d hd, hdiv]
  funext i
  obtain ⟨r, q, rfl⟩ : ∃ (r : Fin N) (q : Fin C), i = ix2 r q := ⟨i 0, i 1, eq_ix2 i⟩
  show mm (fun j => Ideal.div (ag j) (dmax (ix1 (j 0)))) wl (ix2 r q)
      + broadcastInDim ⟨2, ![N, C]⟩ ![0, 1] h4 (broadcastInDim ⟨2, ![1, C]⟩ ![1] h3 b) (ix2 r q)
      + mm x wr (ix2 r q) = _
  rw [bcast_row_apply]
  rfl

/-! The reference's products contract the left factor's second axis against the right factor's first. -/

theorem plain_128_256 : PlainSum dot_S50000x128_S128x256_S50000x256_1_0_0_1_n_n :=
  plainSum_of _ rfl rfl (fun _ _ => rfl) (fun _ _ => rfl) (fun _ _ => rfl) (fun _ _ => rfl)

/-- The first layer's linear part. -/
theorem ref_lin1 (ag x : FVec Ideal S50000x128 .f32) (dmax : FVec Ideal S50000 .f32)
    (wl wr : FVec Ideal S128x256 .f32) (b : FVec Ideal S256 .f32) :
    addf
        (addf
          (Host.dotGeneral dot_S50000x128_S128x256_S50000x256_1_0_0_1_n_n none
            (Host.divf ag (broadcastInDim S50000x128 ![0, 1] bcast_S50000x1_S50000x128_0_1
              (broadcastInDim S50000x1 ![0] bcast_S50000_S50000x1_0 dmax))) wl)
          (broadcastInDim S50000x256 ![0, 1] bcast_S1x256_S50000x256_0_1
            (broadcastInDim S1x256 ![1] bcast_S256_S1x256_1 b)))
        (Host.dotGeneral dot_S50000x128_S128x256_S50000x256_1_0_0_1_n_n none x wr)
      = GraphSage.linRef (fun j => Ideal.div (ag j) (dmax (ix1 (j 0)))) x wl wr b :=
  lin_term _ plain_128_256 ag x dmax wl wr b _ _ _ _

theorem plain_256_128 : PlainSum dot_S50000x256_S256x128_S50000x128_1_0_0_1_n_n :=
  plainSum_of _ rfl rfl (fun _ _ => rfl) (fun _ _ => rfl) (fun _ _ => rfl) (fun _ _ => rfl)

/-- The second layer's linear part. -/
theorem ref_lin2 (ag x : FVec Ideal S50000x256 .f32) (dmax : FVec Ideal S50000 .f32)
    (wl wr : FVec Ideal S256x128 .f32) (b : FVec Ideal S128 .f32) :
    addf
        (addf
          (Host.dotGeneral dot_S50000x256_S256x128_S50000x128_1_0_0_1_n_n none
            (Host.divf ag (broadcastInDim S50000x256 ![0, 1] bcast_S50000x1_S50000x256_0_1
              (broadcastInDim S50000x1 ![0] bcast_S50000_S50000x1_0 dmax))) wl)
          (broadcastInDim S50000x128 ![0, 1] bcast_S1x128_S50000x128_0_1
            (broadcastInDim S1x128 ![1] bcast_S128_S1x128_1 b)))
        (Host.dotGeneral dot_S50000x256_S256x128_S50000x128_1_0_0_1_n_n none x wr)
      = GraphSage.linRef (fun j => Ideal.div (ag j) (dmax (ix1 (j 0)))) x wl wr b :=
  lin_term _ plain_256_128 ag x dmax wl wr b _ _ _ _

theorem plain_128_64 : PlainSum dot_S50000x128_S128x64_S50000x64_1_0_0_1_n_n :=
  plainSum_of _ rfl rfl (fun _ _ => rfl) (fun _ _ => rfl) (fun _ _ => rfl) (fun _ _ => rfl)

/-- The third layer's linear part. -/
theorem ref_lin3 (ag x : FVec Ideal S50000x128 .f32) (dmax : FVec Ideal S50000 .f32)
    (wl wr : FVec Ideal S128x64 .f32) (b : FVec Ideal S64 .f32) :
    addf
        (addf
          (Host.dotGeneral dot_S50000x128_S128x64_S50000x64_1_0_0_1_n_n none
            (Host.divf ag (broadcastInDim S50000x128 ![0, 1] bcast_S50000x1_S50000x128_0_1
              (broadcastInDim S50000x1 ![0] bcast_S50000_S50000x1_0 dmax))) wl)
          (broadcastInDim S50000x64 ![0, 1] bcast_S1x64_S50000x64_0_1
            (broadcastInDim S1x64 ![1] bcast_S64_S1x64_1 b)))
        (Host.dotGeneral dot_S50000x128_S128x64_S50000x64_1_0_0_1_n_n none x wr)
      = GraphSage.linRef (fun j => Ideal.div (ag j) (dmax (ix1 (j 0)))) x wl wr b :=
  lin_term _ plain_128_64 ag x dmax wl wr b _ _ _ _

/-! ## Sums over the rows and scalar constants -/

/-- An `N × C` array summed over its rows is a vector of `C` entries. -/
theorem reduces_rows (N C : ℕ) : (⟨2, ![N, C]⟩ : Shape).Reduces [0] ⟨1, ![C]⟩ :=
  ⟨rfl, Nat.one_pos, fun b => match b with | ⟨0, _⟩ => rfl⟩

/-- The host's sum over the rows from a zero initial value is the column sum. -/
theorem reduceAdd_rows {N C : ℕ} (L : FVec Ideal ⟨2, ![N, C]⟩ .f32)
    (hred : (⟨2, ![N, C]⟩ : Shape).ReducesTo [0] ⟨1, ![C]⟩) (hS : 0 < (⟨0, ![]⟩ : Shape).numel) :
    Host.reduceAdd L (constant ⟨0, ![]⟩ .f32 0x00000000#32) hred hS = GraphSage.colSum L := by
  funext j
  rw [hostReduceAdd_apply, Ideal.hostReduceAdd_single hred (reduces_rows N C), constant_apply, Ideal.ofBits_zero_f32]
  show (0 : EReal) + ∑ k : Fin N, L ((reduces_rows N C).lift j k) = 0 + ∑ i : Fin N, L (ix2 i (j 0))
  refine congrArg _ (Finset.sum_congr rfl fun k _ => congrArg L (funext fun a => Fin.ext ?_))
  match a with
  | ⟨0, _⟩ => rfl
  | ⟨1, _⟩ => rfl

/-- A scalar constant spread over an array reads the constant's value at every entry. -/
theorem splat_apply {T : Shape} (hb : (⟨0, ![]⟩ : Shape).BroadcastsInDim T ![]) (b : BitVec 32) (j : T.Idx) :
    broadcastInDim T ![] hb (constant (F := Ideal) ⟨0, ![]⟩ .f32 b) j = Ideal.ofBits .f32 b :=
  broadcastInDim_scalar_apply hb _ j

/-- A row spread over `N` rows reads, at `(i, q)`, its entry `q`. -/
theorem bcast_rows_apply {α : Type} {N C : ℕ} (z : (⟨2, ![1, C]⟩ : Shape).Idx → α)
    (h2 : (⟨2, ![1, C]⟩ : Shape).BroadcastsInDim ⟨2, ![N, C]⟩ ![0, 1]) (i : Fin N) (q : Fin C) :
    broadcastInDim ⟨2, ![N, C]⟩ ![0, 1] h2 z (ix2 i q) = z (ix2 (⟨0, Nat.one_pos⟩ : Fin 1) q) :=
  broadcastInDim_apply _ h2 _ _ (ix2 (⟨0, Nat.one_pos⟩ : Fin 1) q) (fun a => match a with
    | ⟨0, _⟩ => by show 0 = if (1 : Nat) = 1 then 0 else _; rw [if_pos rfl]
    | ⟨1, _⟩ => by
        show q.val = if C = 1 then 0 else q.val
        split
        · have := q.isLt; omega
        · rfl)

/-- A vector made a row reads, at `(0, q)`, its entry `q`. -/
theorem bcast_unit_apply {α : Type} {C : ℕ} (b : (⟨1, ![C]⟩ : Shape).Idx → α)
    (h1 : (⟨1, ![C]⟩ : Shape).BroadcastsInDim ⟨2, ![1, C]⟩ ![1]) (u : Fin 1) (q : Fin C) :
    broadcastInDim ⟨2, ![1, C]⟩ ![1] h1 b (ix2 u q) = b (ix1 q) :=
  broadcastInDim_apply _ h1 _ _ (ix1 q) (fun a => match a with
    | ⟨0, _⟩ => by
        show q.val = if C = 1 then 0 else q.val
        split
        · have := q.isLt; omega
        · rfl)

/-! ## The normalisation of a layer -/

/-- The count less the integer zero converted to a float is the count. -/
theorem count_sub_zero (cnt : BitVec 32) :
    subf (constant (F := Ideal) ⟨0, ![]⟩ .f32 cnt) (sitofp .f32 (constantI ⟨0, ![]⟩ 32 0#32))
      = constant ⟨0, ![]⟩ .f32 cnt := by
  funext i
  show Ideal.ofBits .f32 cnt - ((((0#32 : BitVec 32).toInt : ℤ) : ℝ) : EReal) = Ideal.ofBits .f32 cnt
  rw [show (0#32 : BitVec 32).toInt = 0 by decide, Int.cast_zero, EReal.coe_zero, sub_zero]

/-- The guarded quotient: when the count is positive the guard holds and the selection returns the quotient. -/
theorem guarded_quotient {C : ℕ} (cnt nan : BitVec 32) (hpos : 0 < Ideal.ofBits .f32 cnt)
    (s : FVec Ideal ⟨1, ![C]⟩ .f32) (hb : (⟨0, ![]⟩ : Shape).BroadcastsInDim ⟨1, ![C]⟩ ![]) :
    select (broadcastInDim ⟨1, ![C]⟩ ![] hb
          (cmpf .ogt (subf (constant (F := Ideal) ⟨0, ![]⟩ .f32 cnt) (sitofp .f32 (constantI ⟨0, ![]⟩ 32 0#32)))
            (constant ⟨0, ![]⟩ .f32 0x00000000#32)))
        (Host.divf s (broadcastInDim ⟨1, ![C]⟩ ![] hb
          (subf (constant (F := Ideal) ⟨0, ![]⟩ .f32 cnt) (sitofp .f32 (constantI ⟨0, ![]⟩ 32 0#32)))))
        (broadcastInDim ⟨1, ![C]⟩ ![] hb (id (constant ⟨0, ![]⟩ .f32 nan)))
      = fun j => Ideal.div (s j) (Ideal.ofBits .f32 cnt) := by
  rw [count_sub_zero]
  funext j
  rw [select_apply, broadcastInDim_scalar_apply, cmpf_apply, constant_apply, constant_apply, Ideal.cmpf_def,
    Ideal.ofBits_zero_f32]
  have hg : Ideal.cmp .ogt (Ideal.ofBits .f32 cnt) 0 = 1#1 := by
    show BitVec.ofBool (decide ((0 : EReal) < Ideal.ofBits .f32 cnt)) = 1#1
    rw [decide_eq_true hpos]; rfl
  rw [hg, select_one, hostDivf_apply, splat_apply]

/-- The normalisation and the positive part of a layer, as the reference spells them: the column means, the
    guarded column variances of the centred entries, then `g · (x − μ) · rsqrt (v + ε) + β` and the maximum
    with zero. -/
theorem norm_term {N C : ℕ} (L : FVec Ideal ⟨2, ![N, C]⟩ .f32) (g be : FVec Ideal ⟨1, ![C]⟩ .f32)
    (cnt eps nan : BitVec 32) (hpos : 0 < Ideal.ofBits .f32 cnt)
    (hred : (⟨2, ![N, C]⟩ : Shape).ReducesTo [0] ⟨1, ![C]⟩) (hS : 0 < (⟨0, ![]⟩ : Shape).numel)
    (hb : (⟨0, ![]⟩ : Shape).BroadcastsInDim ⟨1, ![C]⟩ ![])
    (hb1 : (⟨0, ![]⟩ : Shape).BroadcastsInDim ⟨2, ![1, C]⟩ ![])
    (hbN : (⟨0, ![]⟩ : Shape).BroadcastsInDim ⟨2, ![N, C]⟩ ![])
    (h3 : (⟨1, ![C]⟩ : Shape).BroadcastsInDim ⟨2, ![1, C]⟩ ![1])
    (h4 : (⟨2, ![1, C]⟩ : Shape).BroadcastsInDim ⟨2, ![N, C]⟩ ![0, 1]) :
    maximumf
        (addf
          (mulf
            (mulf
              (broadcastInDim ⟨2, ![N, C]⟩ ![0, 1] h4 (broadcastInDim ⟨2, ![1, C]⟩ ![1] h3 g))
              (subf L
                (broadcastInDim ⟨2, ![N, C]⟩ ![0, 1] h4 (broadcastInDim ⟨2, ![1, C]⟩ ![1] h3
                  (Host.divf (Host.reduceAdd L (constant (F := Ideal) ⟨0, ![]⟩ .f32 0x00000000#32) hred hS)
                    (broadcastInDim ⟨1, ![C]⟩ ![] hb (constant (F := Ideal) ⟨0, ![]⟩ .f32 cnt)))))))
            (broadcastInDim ⟨2, ![N, C]⟩ ![0, 1] h4 (broadcastInDim ⟨2, ![1, C]⟩ ![1] h3
              (Host.rsqrt
                (addf
                  (select
                    (broadcastInDim ⟨1, ![C]⟩ ![] hb
                      (cmpf .ogt
                        (subf (constant (F := Ideal) ⟨0, ![]⟩ .f32 cnt) (sitofp .f32 (constantI ⟨0, ![]⟩ 32 0#32)))
                        (constant (F := Ideal) ⟨0, ![]⟩ .f32 0x00000000#32)))
                    (Host.divf
                      (Host.reduceAdd
                        (mulf
                          (subf L
                            (broadcastInDim ⟨2, ![N, C]⟩ ![0, 1] h4
                              (Host.divf
                                (broadcastInDim ⟨2, ![1, C]⟩ ![1] h3
                                  (Host.reduceAdd L (constant (F := Ideal) ⟨0, ![]⟩ .f32 0x00000000#32) hred hS))
                                (broadcastInDim ⟨2, ![1, C]⟩ ![] hb1 (constant (F := Ideal) ⟨0, ![]⟩ .f32 cnt)))))
                          (subf L
                            (broadcastInDim ⟨2, ![N, C]⟩ ![0, 1] h4
                              (Host.divf
                                (broadcastInDim ⟨2, ![1, C]⟩ ![1] h3
                                  (Host.reduceAdd L (constant (F := Ideal) ⟨0, ![]⟩ .f32 0x00000000#32) hred hS))
                                (broadcastInDim ⟨2, ![1, C]⟩ ![] hb1 (constant (F := Ideal) ⟨0, ![]⟩ .f32 cnt))))))
                        (constant (F := Ideal) ⟨0, ![]⟩ .f32 0x00000000#32) hred hS)
                      (broadcastInDim ⟨1, ![C]⟩ ![] hb
                        (subf (constant (F := Ideal) ⟨0, ![]⟩ .f32 cnt) (sitofp .f32 (constantI ⟨0, ![]⟩ 32 0#32)))))
                    (broadcastInDim ⟨1, ![C]⟩ ![] hb (id (constant (F := Ideal) ⟨0, ![]⟩ .f32 nan))))
                  (broadcastInDim ⟨1, ![C]⟩ ![] hb (constant (F := Ideal) ⟨0, ![]⟩ .f32 eps)))))))
          (broadcastInDim ⟨2, ![N, C]⟩ ![0, 1] h4 (broadcastInDim ⟨2, ![1, C]⟩ ![1] h3 be)))
        (broadcastInDim ⟨2, ![N, C]⟩ ![] hbN (constant (F := Ideal) ⟨0, ![]⟩ .f32 0x00000000#32))
      = GraphSage.normRelu (Ideal.ofBits .f32 cnt) (Ideal.ofBits .f32 cnt) (Ideal.ofBits .f32 eps) L g be := by
  -- the centred entries
  have hcen : subf L
        (broadcastInDim ⟨2, ![N, C]⟩ ![0, 1] h4
          (Host.divf
            (broadcastInDim ⟨2, ![1, C]⟩ ![1] h3
              (Host.reduceAdd L (constant (F := Ideal) ⟨0, ![]⟩ .f32 0x00000000#32) hred hS))
            (broadcastInDim ⟨2, ![1, C]⟩ ![] hb1 (constant (F := Ideal) ⟨0, ![]⟩ .f32 cnt))))
      = fun a => L a - Ideal.div (GraphSage.colSum L (ix1 (a 1))) (Ideal.ofBits .f32 cnt) := by
    rw [reduceAdd_rows L hred hS]
    funext a
    obtain ⟨r, q, rfl⟩ : ∃ (r : Fin N) (q : Fin C), a = ix2 r q := ⟨a 0, a 1, eq_ix2 a⟩
    rw [subf_apply, bcast_rows_apply, hostDivf_apply, bcast_unit_apply, splat_apply]
    rfl
  rw [hcen, guarded_quotient cnt nan hpos _ hb, reduceAdd_rows L hred hS, reduceAdd_rows (mulf _ _) hred hS]
  funext i
  obtain ⟨r, q, rfl⟩ : ∃ (r : Fin N) (q : Fin C), i = ix2 r q := ⟨i 0, i 1, eq_ix2 i⟩
  rw [maximumf_apply, addf_apply, mulf_apply, mulf_apply, subf_apply, bcast_row_apply, bcast_row_apply,
    bcast_row_apply, bcast_row_apply, splat_apply, Ideal.ofBits_zero_f32, hostDivf_apply, splat_apply]
  show max (g (ix1 q) * (L (ix2 r q) - Ideal.div (GraphSage.colSum L (ix1 q)) (Ideal.ofBits .f32 cnt))
        * Ideal.rsqrt (Ideal.div (GraphSage.colSum (fun a => (L a - Ideal.div (GraphSage.colSum L (ix1 (a 1))) (Ideal.ofBits .f32 cnt))
              * (L a - Ideal.div (GraphSage.colSum L (ix1 (a 1))) (Ideal.ofBits .f32 cnt))) (ix1 q)) (Ideal.ofBits .f32 cnt)
            + broadcastInDim ⟨1, ![C]⟩ ![] hb (constant (F := Ideal) ⟨0, ![]⟩ .f32 eps) (ix1 q))
        + be (ix1 q)) 0 = _
  rw [splat_apply]
  rfl

/-- The node count is positive. -/
theorem count_pos : 0 < Ideal.ofBits .f32 0x47435000#32 := by
  rw [GraphSage.Consts.ofBits_count]
  exact EReal.coe_pos.mpr (by norm_num)

/-- The first layer's normalisation and positive part. -/
theorem ref_norm1 (L : FVec Ideal S50000x256 .f32) (g be : FVec Ideal S256 .f32) :
    maximumf
        (addf
          (mulf
            (mulf (broadcastInDim S50000x256 ![0, 1] bcast_S1x256_S50000x256_0_1 (broadcastInDim S1x256 ![1] bcast_S256_S1x256_1 g))
              (subf L (broadcastInDim S50000x256 ![0, 1] bcast_S1x256_S50000x256_0_1 (broadcastInDim S1x256 ![1] bcast_S256_S1x256_1 (Host.divf (Host.reduceAdd L (constant (F := Ideal) S_ .f32 0x00000000#32) reducesTo_S50000x256_S256_d0 h_S_) (broadcastInDim S256 ![] bcast_S_S256 (constant (F := Ideal) S_ .f32 0x47435000#32)))))))
            (broadcastInDim S50000x256 ![0, 1] bcast_S1x256_S50000x256_0_1 (broadcastInDim S1x256 ![1] bcast_S256_S1x256_1 (Host.rsqrt
                (addf
                  (select
                    (broadcastInDim S256 ![] bcast_S_S256 (cmpf .ogt (subf (constant (F := Ideal) S_ .f32 0x47435000#32) (sitofp .f32 (constantI S_ 32 0#32))) (constant (F := Ideal) S_ .f32 0x00000000#32)))
                    (Host.divf
                      (Host.reduceAdd
                        (mulf
                          (subf L
                            (broadcastInDim S50000x256 ![0, 1] bcast_S1x256_S50000x256_0_1
                              (Host.divf
                                (broadcastInDim S1x256 ![1] bcast_S256_S1x256_1 (Host.reduceAdd L (constant (F := Ideal) S_ .f32 0x00000000#32) reducesTo_S50000x256_S256_d0 h_S_))
                                (broadcastInDim S1x256 ![] bcast_S_S1x256 (constant (F := Ideal) S_ .f32 0x47435000#32)))))
                          (subf L
                            (broadcastInDim S50000x256 ![0, 1] bcast_S1x256_S50000x256_0_1
                              (Host.divf
                                (broadcastInDim S1x256 ![1] bcast_S256_S1x256_1 (Host.reduceAdd L (constant (F := Ideal) S_ .f32 0x00000000#32) reducesTo_S50000x256_S256_d0 h_S_))
                                (broadcastInDim S1x256 ![] bcast_S_S1x256 (constant (F := Ideal) S_ .f32 0x47435000#32))))))
                        (constant (F := Ideal) S_ .f32 0x00000000#32) reducesTo_S50000x256_S256_d0 h_S_)
                      (broadcastInDim S256 ![] bcast_S_S256 (subf (constant (F := Ideal) S_ .f32 0x47435000#32) (sitofp .f32 (constantI S_ 32 0#32)))))
                    (broadcastInDim S256 ![] bcast_S_S256 (id (constant (F := Ideal) S_ .f32 0x7FC00000#32))))
                  (broadcastInDim S256 ![] bcast_S_S256 (constant (F := Ideal) S_ .f32 0x3727C5AC#32)))))))
          (broadcastInDim S50000x256 ![0, 1] bcast_S1x256_S50000x256_0_1 (broadcastInDim S1x256 ![1] bcast_S256_S1x256_1 be)))
        (broadcastInDim S50000x256 ![] bcast_S_S50000x256 (constant (F := Ideal) S_ .f32 0x00000000#32))
      = GraphSage.normRelu (Ideal.ofBits .f32 0x47435000#32) (Ideal.ofBits .f32 0x47435000#32)
          (Ideal.ofBits .f32 0x3727C5AC#32) L g be :=
  norm_term L g be _ _ _ count_pos _ _ _ _ _ _ _

/-- The second layer's normalisation and positive part. -/
theorem ref_norm2 (L : FVec Ideal S50000x128 .f32) (g be : FVec Ideal S128 .f32) :
    maximumf
        (addf
          (mulf
            (mulf (broadcastInDim S50000x128 ![0, 1] bcast_S1x128_S50000x128_0_1 (broadcastInDim S1x128 ![1] bcast_S128_S1x128_1 g))
              (subf L (broadcastInDim S50000x128 ![0, 1] bcast_S1x128_S50000x128_0_1 (broadcastInDim S1x128 ![1] bcast_S128_S1x128_1 (Host.divf (Host.reduceAdd L (constant (F := Ideal) S_ .f32 0x00000000#32) reducesTo_S50000x128_S128_d0 h_S_) (broadcastInDim S128 ![] bcast_S_S128 (constant (F := Ideal) S_ .f32 0x47435000#32)))))))
            (broadcastInDim S50000x128 ![0, 1] bcast_S1x128_S50000x128_0_1 (broadcastInDim S1x128 ![1] bcast_S128_S1x128_1 (Host.rsqrt
                (addf
                  (select
                    (broadcastInDim S128 ![] bcast_S_S128 (cmpf .ogt (subf (constant (F := Ideal) S_ .f32 0x47435000#32) (sitofp .f32 (constantI S_ 32 0#32))) (constant (F := Ideal) S_ .f32 0x00000000#32)))
                    (Host.divf
                      (Host.reduceAdd
                        (mulf
                          (subf L
                            (broadcastInDim S50000x128 ![0, 1] bcast_S1x128_S50000x128_0_1
                              (Host.divf
                                (broadcastInDim S1x128 ![1] bcast_S128_S1x128_1 (Host.reduceAdd L (constant (F := Ideal) S_ .f32 0x00000000#32) reducesTo_S50000x128_S128_d0 h_S_))
                                (broadcastInDim S1x128 ![] bcast_S_S1x128 (constant (F := Ideal) S_ .f32 0x47435000#32)))))
                          (subf L
                            (broadcastInDim S50000x128 ![0, 1] bcast_S1x128_S50000x128_0_1
                              (Host.divf
                                (broadcastInDim S1x128 ![1] bcast_S128_S1x128_1 (Host.reduceAdd L (constant (F := Ideal) S_ .f32 0x00000000#32) reducesTo_S50000x128_S128_d0 h_S_))
                                (broadcastInDim S1x128 ![] bcast_S_S1x128 (constant (F := Ideal) S_ .f32 0x47435000#32))))))
                        (constant (F := Ideal) S_ .f32 0x00000000#32) reducesTo_S50000x128_S128_d0 h_S_)
                      (broadcastInDim S128 ![] bcast_S_S128 (subf (constant (F := Ideal) S_ .f32 0x47435000#32) (sitofp .f32 (constantI S_ 32 0#32)))))
                    (broadcastInDim S128 ![] bcast_S_S128 (id (constant (F := Ideal) S_ .f32 0x7FC00000#32))))
                  (broadcastInDim S128 ![] bcast_S_S128 (constant (F := Ideal) S_ .f32 0x3727C5AC#32)))))))
          (broadcastInDim S50000x128 ![0, 1] bcast_S1x128_S50000x128_0_1 (broadcastInDim S1x128 ![1] bcast_S128_S1x128_1 be)))
        (broadcastInDim S50000x128 ![] bcast_S_S50000x128 (constant (F := Ideal) S_ .f32 0x00000000#32))
      = GraphSage.normRelu (Ideal.ofBits .f32 0x47435000#32) (Ideal.ofBits .f32 0x47435000#32)
          (Ideal.ofBits .f32 0x3727C5AC#32) L g be :=
  norm_term L g be _ _ _ count_pos _ _ _ _ _ _ _

/-- The third layer's normalisation and positive part. -/
theorem ref_norm3 (L : FVec Ideal S50000x64 .f32) (g be : FVec Ideal S64 .f32) :
    maximumf
        (addf
          (mulf
            (mulf (broadcastInDim S50000x64 ![0, 1] bcast_S1x64_S50000x64_0_1 (broadcastInDim S1x64 ![1] bcast_S64_S1x64_1 g))
              (subf L (broadcastInDim S50000x64 ![0, 1] bcast_S1x64_S50000x64_0_1 (broadcastInDim S1x64 ![1] bcast_S64_S1x64_1 (Host.divf (Host.reduceAdd L (constant (F := Ideal) S_ .f32 0x00000000#32) reducesTo_S50000x64_S64_d0 h_S_) (broadcastInDim S64 ![] bcast_S_S64 (constant (F := Ideal) S_ .f32 0x47435000#32)))))))
            (broadcastInDim S50000x64 ![0, 1] bcast_S1x64_S50000x64_0_1 (broadcastInDim S1x64 ![1] bcast_S64_S1x64_1 (Host.rsqrt
                (addf
                  (select
                    (broadcastInDim S64 ![] bcast_S_S64 (cmpf .ogt (subf (constant (F := Ideal) S_ .f32 0x47435000#32) (sitofp .f32 (constantI S_ 32 0#32))) (constant (F := Ideal) S_ .f32 0x00000000#32)))
                    (Host.divf
                      (Host.reduceAdd
                        (mulf
                          (subf L
                            (broadcastInDim S50000x64 ![0, 1] bcast_S1x64_S50000x64_0_1
                              (Host.divf
                                (broadcastInDim S1x64 ![1] bcast_S64_S1x64_1 (Host.reduceAdd L (constant (F := Ideal) S_ .f32 0x00000000#32) reducesTo_S50000x64_S64_d0 h_S_))
                                (broadcastInDim S1x64 ![] bcast_S_S1x64 (constant (F := Ideal) S_ .f32 0x47435000#32)))))
                          (subf L
                            (broadcastInDim S50000x64 ![0, 1] bcast_S1x64_S50000x64_0_1
                              (Host.divf
                                (broadcastInDim S1x64 ![1] bcast_S64_S1x64_1 (Host.reduceAdd L (constant (F := Ideal) S_ .f32 0x00000000#32) reducesTo_S50000x64_S64_d0 h_S_))
                                (broadcastInDim S1x64 ![] bcast_S_S1x64 (constant (F := Ideal) S_ .f32 0x47435000#32))))))
                        (constant (F := Ideal) S_ .f32 0x00000000#32) reducesTo_S50000x64_S64_d0 h_S_)
                      (broadcastInDim S64 ![] bcast_S_S64 (subf (constant (F := Ideal) S_ .f32 0x47435000#32) (sitofp .f32 (constantI S_ 32 0#32)))))
                    (broadcastInDim S64 ![] bcast_S_S64 (id (constant (F := Ideal) S_ .f32 0x7FC00000#32))))
                  (broadcastInDim S64 ![] bcast_S_S64 (constant (F := Ideal) S_ .f32 0x3727C5AC#32)))))))
          (broadcastInDim S50000x64 ![0, 1] bcast_S1x64_S50000x64_0_1 (broadcastInDim S1x64 ![1] bcast_S64_S1x64_1 be)))
        (broadcastInDim S50000x64 ![] bcast_S_S50000x64 (constant (F := Ideal) S_ .f32 0x00000000#32))
      = GraphSage.normRelu (Ideal.ofBits .f32 0x47435000#32) (Ideal.ofBits .f32 0x47435000#32)
          (Ideal.ofBits .f32 0x3727C5AC#32) L g be :=
  norm_term L g be _ _ _ count_pos _ _ _ _ _ _ _

/-! ## The head of the network -/

/-- A product, a bias row spread over the rows, and the maximum with a zero array: one dense layer with its
    positive part. -/
theorem linRelu_term {n k c : ℕ} (d : DotDims ⟨2, ![n, k]⟩ ⟨2, ![k, c]⟩ ⟨2, ![n, c]⟩) (hd : PlainSum d)
    (p : FVec Ideal ⟨2, ![n, k]⟩ .f32) (w : FVec Ideal ⟨2, ![k, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1])
    (hbN : (⟨0, ![]⟩ : Shape).BroadcastsInDim ⟨2, ![n, c]⟩ ![]) :
    maximumf
        (addf (Host.dotGeneral d none p w)
          (broadcastInDim ⟨2, ![n, c]⟩ ![0, 1] h4 (broadcastInDim ⟨2, ![1, c]⟩ ![1] h3 b)))
        (broadcastInDim ⟨2, ![n, c]⟩ ![] hbN (constant (F := Ideal) ⟨0, ![]⟩ .f32 0x00000000#32))
      = GraphSage.linRelu p w (fun j => b (ix1 (j 1))) := by
  rw [dot_eq_mm d hd]
  funext i
  obtain ⟨r, q, rfl⟩ : ∃ (r : Fin n) (q : Fin c), i = ix2 r q := ⟨i 0, i 1, eq_ix2 i⟩
  rw [maximumf_apply, addf_apply, bcast_row_apply, splat_apply, Ideal.ofBits_zero_f32]
  rfl

/-- A product and a bias row spread over the rows: the last dense layer. -/
theorem linBias_term {n k c : ℕ} (d : DotDims ⟨2, ![n, k]⟩ ⟨2, ![k, c]⟩ ⟨2, ![n, c]⟩) (hd : PlainSum d)
    (p : FVec Ideal ⟨2, ![n, k]⟩ .f32) (w : FVec Ideal ⟨2, ![k, c]⟩ .f32) (b : FVec Ideal ⟨1, ![c]⟩ .f32)
    (h3 : (⟨1, ![c]⟩ : Shape).BroadcastsInDim ⟨2, ![1, c]⟩ ![1])
    (h4 : (⟨2, ![1, c]⟩ : Shape).BroadcastsInDim ⟨2, ![n, c]⟩ ![0, 1]) :
    addf (Host.dotGeneral d none p w)
        (broadcastInDim ⟨2, ![n, c]⟩ ![0, 1] h4 (broadcastInDim ⟨2, ![1, c]⟩ ![1] h3 b))
      = fun i => mm p w i + b (ix1 (i 1)) := by
  rw [dot_eq_mm d hd]
  funext i
  obtain ⟨r, q, rfl⟩ : ∃ (r : Fin n) (q : Fin c), i = ix2 r q := ⟨i 0, i 1, eq_ix2 i⟩
  rw [addf_apply, bcast_row_apply]
  rfl

theorem plain_64_64 : PlainSum dot_S64x64_S64x64_S64x64_1_0_0_1_n_n :=
  plainSum_of _ rfl rfl (fun _ _ => rfl) (fun _ _ => rfl) (fun _ _ => rfl) (fun _ _ => rfl)
theorem plain_64_32 : PlainSum dot_S64x64_S64x32_S64x32_1_0_0_1_n_n :=
  plainSum_of _ rfl rfl (fun _ _ => rfl) (fun _ _ => rfl) (fun _ _ => rfl) (fun _ _ => rfl)
theorem plain_32_2 : PlainSum dot_S64x32_S32x2_S64x2_1_0_0_1_n_n :=
  plainSum_of _ rfl rfl (fun _ _ => rfl) (fun _ _ => rfl) (fun _ _ => rfl) (fun _ _ => rfl)

/-- The three dense layers applied to the pooled array. -/
theorem ref_mlp (p : FVec Ideal S64x64 .f32) (w1 : FVec Ideal S64x64 .f32) (b1 : FVec Ideal S64 .f32)
    (w2 : FVec Ideal S64x32 .f32) (b2 : FVec Ideal S32 .f32) (w3 : FVec Ideal S32x2 .f32) (b3 : FVec Ideal S2 .f32) :
    addf
        (Host.dotGeneral dot_S64x32_S32x2_S64x2_1_0_0_1_n_n none
          (maximumf
            (addf
              (Host.dotGeneral dot_S64x64_S64x32_S64x32_1_0_0_1_n_n none
                (maximumf
                  (addf (Host.dotGeneral dot_S64x64_S64x64_S64x64_1_0_0_1_n_n none p w1)
                    (broadcastInDim S64x64 ![0, 1] bcast_S1x64_S64x64_0_1 (broadcastInDim S1x64 ![1] bcast_S64_S1x64_1 b1)))
                  (broadcastInDim S64x64 ![] bcast_S_S64x64 (constant (F := Ideal) S_ .f32 0x00000000#32)))
                w2)
              (broadcastInDim S64x32 ![0, 1] bcast_S1x32_S64x32_0_1 (broadcastInDim S1x32 ![1] bcast_S32_S1x32_1 b2)))
            (broadcastInDim S64x32 ![] bcast_S_S64x32 (constant (F := Ideal) S_ .f32 0x00000000#32)))
          w3)
        (broadcastInDim S64x2 ![0, 1] bcast_S1x2_S64x2_0_1 (broadcastInDim S1x2 ![1] bcast_S2_S1x2_1 b3))
      = GraphSage.mlp p w1 (fun j => b1 (ix1 (j 1))) w2 (fun j => b2 (ix1 (j 1))) w3 (fun j => b3 (ix1 (j 1))) := by
  rw [linRelu_term _ plain_64_64 p w1 b1, linRelu_term _ plain_64_32 _ w2 b2, linBias_term _ plain_32_2 _ w3 b3]
  rfl

end Cert.ReferenceIdeal.RefValue

end
-- ==== Proof.RefValue.lean ====
/-
  The reference program's result as the specification's network.

  The reference gathers, for every edge, the feature row named by the edge's source index and adds it into the row
  named by the edge's destination index: over the edges arriving at a node this is the aggregation of the
  specification.  It counts the edges arriving at every node by adding ones at the destination indices and takes
  the maximum with one: the specification's `max (deg, 1)`.  With these two readings each layer's linear part,
  normalisation and positive part are the specification's, the three layers compose to its node features, and the
  dense layers applied to the per-graph mean of those features are its head.
-/
import proofs.«180069_j11596411699546_2_alg».proof.Proof.RefRun
import proofs.«180069_j11596411699546_2_alg».proof.Proof.RefRead
import proofs.«180069_j11596411699546_2_alg».proof.Proof.Net
import proofs.«180069_j11596411699546_2_alg».proof.Proof.SpecMlp
import proofs.«180069_j11596411699546_2_alg».proof.Proof.LibRowGather
import proofs.«180069_j11596411699546_2_alg».proof.Proof.Consts

set_option maxRecDepth 16384

noncomputable section

namespace Cert.ReferenceIdeal.RefValue

open Idealize.ShloMosaic Idealize.ShloMosaic.ValueIdx RowBlocks
open Cert.ReferenceIdeal Cert.ReferenceIdeal.Facts₀

/-- The edge array of the reference, two rows of edge indices. -/
abbrev EdgeIx := (⟨S2x800000, .i32⟩ : BufTy).Contents (Elt Ideal)

/-- Gathering the source rows and adding them at the destination rows is the aggregation, at width 128. -/
theorem agg128_eq (H : FVec Ideal S50000x128 .f32) (ei : EdgeIx) :
    agg128 (F := Ideal) H ei
      = GraphSage.aggr (GraphSage.incOf 50000 (dstIx (F := Ideal) ei))
          (GraphSage.srcRow (by norm_num) (srcIx (F := Ideal) ei)) H := by
  unfold agg128
  refine (GraphSage.aggregate_eq (by norm_num) _ rfl rfl rfl rfl _ rfl rfl rfl rfl rfl _
    (fun j => GraphSage.Consts.ofBits_zero) _ _ _).trans ?_
  funext i
  exact zero_add _

/-- Gathering the source rows and adding them at the destination rows is the aggregation, at width 256. -/
theorem agg256_eq (H : FVec Ideal S50000x256 .f32) (ei : EdgeIx) :
    agg256 (F := Ideal) H ei
      = GraphSage.aggr (GraphSage.incOf 50000 (dstIx (F := Ideal) ei))
          (GraphSage.srcRow (by norm_num) (srcIx (F := Ideal) ei)) H := by
  unfold agg256
  refine (GraphSage.aggregate_eq (by norm_num) _ rfl rfl rfl rfl _ rfl rfl rfl rfl rfl _
    (fun j => GraphSage.Consts.ofBits_zero) _ _ _).trans ?_
  funext i
  exact zero_add _

/-- Ones added at the destination indices, then the maximum with one: `max (deg, 1)`. -/
theorem dmax_eq (ei : EdgeIx) (i : Fin 50000) :
    dmax (F := Ideal) ei (ix1 i) = GraphSage.degMax (GraphSage.incOf 50000 (dstIx (F := Ideal) ei)) i := by
  unfold dmax
  rw [maximumf_apply]
  have hdeg := GraphSage.degree_eq scatter_S50000_S800000x1_S800000_n_0_0_1 rfl rfl rfl rfl
    (broadcastInDim S50000 ![] bcast_S_S50000 (constant (F := Ideal) S_ .f32 0x00000000#32))
    (fun _ => GraphSage.Consts.ofBits_zero)
    (broadcastInDim S800000 ![] bcast_S_S800000 (constant (F := Ideal) S_ .f32 0x3F800000#32))
    (fun _ => GraphSage.Consts.ofBits_one.trans EReal.coe_one)
    (dstIx (F := Ideal) ei) i
  have hone : (broadcastInDim S50000 ![] bcast_S_S50000 (constant (F := Ideal) S_ .f32 0x3F800000#32)) (ix1 i)
      = (1 : EReal) := GraphSage.Consts.ofBits_one.trans EReal.coe_one
  rw [hone]
  refine (congrArg (fun t : EReal => max t 1) hdeg).trans ?_
  rw [zero_add]
  rfl

/-- The first layer's linear part is the specification's. -/
theorem lin1_eq (x : FVec Ideal S50000x128 .f32) (ei : EdgeIx) (wl wr : FVec Ideal S128x256 .f32) (b : FVec Ideal S256 .f32) :
    lin1 (F := Ideal) x ei wl wr b
      = GraphSage.rLin (GraphSage.incOf 50000 (dstIx (F := Ideal) ei))
          (GraphSage.srcRow (by norm_num) (srcIx (F := Ideal) ei)) x wl wr b := by
  refine (ref_lin1 _ x _ wl wr b).trans ?_
  unfold GraphSage.rLin
  refine congrArg (fun A => GraphSage.linRef A x wl wr b) (funext fun j => ?_)
  rw [agg128_eq, dmax_eq ei (j 0)]

/-- The second layer's linear part is the specification's. -/
theorem lin2_eq (x : FVec Ideal S50000x256 .f32) (ei : EdgeIx) (wl wr : FVec Ideal S256x128 .f32) (b : FVec Ideal S128 .f32) :
    lin2 (F := Ideal) x ei wl wr b
      = GraphSage.rLin (GraphSage.incOf 50000 (dstIx (F := Ideal) ei))
          (GraphSage.srcRow (by norm_num) (srcIx (F := Ideal) ei)) x wl wr b := by
  refine (ref_lin2 _ x _ wl wr b).trans ?_
  unfold GraphSage.rLin
  refine congrArg (fun A => GraphSage.linRef A x wl wr b) (funext fun j => ?_)
  rw [agg256_eq, dmax_eq ei (j 0)]

/-- The third layer's linear part is the specification's. -/
theorem lin3_eq (x : FVec Ideal S50000x128 .f32) (ei : EdgeIx) (wl wr : FVec Ideal S128x64 .f32) (b : FVec Ideal S64 .f32) :
    lin3 (F := Ideal) x ei wl wr b
      = GraphSage.rLin (GraphSage.incOf 50000 (dstIx (F := Ideal) ei))
          (GraphSage.srcRow (by norm_num) (srcIx (F := Ideal) ei)) x wl wr b := by
  refine (ref_lin3 _ x _ wl wr b).trans ?_
  unfold GraphSage.rLin
  refine congrArg (fun A => GraphSage.linRef A x wl wr b) (funext fun j => ?_)
  rw [agg128_eq, dmax_eq ei (j 0)]

/-- The layers' normalisations and positive parts are the specification's. -/
theorem h1_eq (L : FVec Ideal S50000x256 .f32) (g be : FVec Ideal S256 .f32) :
    h1 (F := Ideal) L g be = GraphSage.rNorm L g be := ref_norm1 L g be
theorem h2_eq (L : FVec Ideal S50000x128 .f32) (g be : FVec Ideal S128 .f32) :
    h2 (F := Ideal) L g be = GraphSage.rNorm L g be := ref_norm2 L g be
theorem h3_eq (L : FVec Ideal S50000x64 .f32) (g be : FVec Ideal S64 .f32) :
    h3 (F := Ideal) L g be = GraphSage.rNorm L g be := ref_norm3 L g be

/-- The dense layers are the specification's head. -/
theorem mlpOut_eq (p : FVec Ideal S64x64 .f32) (w1 : FVec Ideal S64x64 .f32) (b1 : FVec Ideal S64 .f32)
    (w2 : FVec Ideal S64x32 .f32) (b2 : FVec Ideal S32 .f32) (w3 : FVec Ideal S32x2 .f32) (b3 : FVec Ideal S2 .f32) :
    mlpOut (F := Ideal) p w1 b1 w2 b2 w3 b3
      = GraphSage.mlp p w1 (fun j => b1 (ix1 (j 1))) w2 (fun j => b2 (ix1 (j 1))) w3 (fun j => b3 (ix1 (j 1))) :=
  ref_mlp p w1 b1 w2 b2 w3 b3

/-- THE REFERENCE'S RESULT: the specification's head applied to the per-graph mean of its node features. -/
theorem refOut_eq (a0 : (⟨S50000x128, .f32⟩ : BufTy).Contents (Elt Ideal))
    (a1 : (⟨S2x800000, .i32⟩ : BufTy).Contents (Elt Ideal))
    (a2 : (⟨S50000, .i32⟩ : BufTy).Contents (Elt Ideal))
    (a3 : (⟨S128x256, .f32⟩ : BufTy).Contents (Elt Ideal))
    (a4 : (⟨S128x256, .f32⟩ : BufTy).Contents (Elt Ideal))
    (a5 : (⟨S256, .f32⟩ : BufTy).Contents (Elt Ideal))
    (a6 : (⟨S256, .f32⟩ : BufTy).Contents (Elt Ideal))
    (a7 : (⟨S256, .f32⟩ : BufTy).Contents (Elt Ideal))
    (a8 : (⟨S256x128, .f32⟩ : BufTy).Contents (Elt Ideal))
    (a9 : (⟨S256x128, .f32⟩ : BufTy).Contents (Elt Ideal))
    (a10 : (⟨S128, .f32⟩ : BufTy).Contents (Elt Ideal))
    (a11 : (⟨S128, .f32⟩ : BufTy).Contents (Elt Ideal))
    (a12 : (⟨S128, .f32⟩ : BufTy).Contents (Elt Ideal))
    (a13 : (⟨S128x64, .f32⟩ : BufTy).Contents (Elt Ideal))
    (a14 : (⟨S128x64, .f32⟩ : BufTy).Contents (Elt Ideal))
    (a15 : (⟨S64, .f32⟩ : BufTy).Contents (Elt Ideal))
    (a16 : (⟨S64, .f32⟩ : BufTy).Contents (Elt Ideal))
    (a17 : (⟨S64, .f32⟩ : BufTy).Contents (Elt Ideal))
    (a18 : (⟨S64x64, .f32⟩ : BufTy).Contents (Elt Ideal))
    (a19 : (⟨S64, .f32⟩ : BufTy).Contents (Elt Ideal))
    (a20 : (⟨S64x32, .f32⟩ : BufTy).Contents (Elt Ideal))
    (a21 : (⟨S32, .f32⟩ : BufTy).Contents (Elt Ideal))
    (a22 : (⟨S32x2, .f32⟩ : BufTy).Contents (Elt Ideal))
    (a23 : (⟨S2, .f32⟩ : BufTy).Contents (Elt Ideal)) :
    refOut (F := Ideal) a0 a1 a2 a3 a4 a5 a6 a7 a8 a9 a10 a11 a12 a13 a14 a15 a16 a17 a18 a19 a20 a21 a22 a23
      = GraphSage.mlp (pooled (F := Ideal) (GraphSage.rFeatures (GraphSage.incOf 50000 (dstIx (F := Ideal) a1))
            (GraphSage.srcRow (by norm_num) (srcIx (F := Ideal) a1)) a0 a3 a4 a5 a6 a7 a8 a9 a10 a11 a12 a13 a14 a15 a16 a17) a2)
          a18 (fun j => a19 (ix1 (j 1))) a20 (fun j => a21 (ix1 (j 1))) a22 (fun j => a23 (ix1 (j 1))) := by
  unfold refOut GraphSage.rFeatures
  rw [mlpOut_eq, lin1_eq, h1_eq, lin2_eq, h2_eq, lin3_eq, h3_eq]

end Cert.ReferenceIdeal.RefValue

end
-- ==== Proof.Finite.lean ====
/-
  Finiteness of the inputs, read back from the precondition.

  The precondition says that, for every floating-point argument array `x`, the conjunction over all
  entries of `|x i| < +∞` holds.  In the extended reals, `|x| = max x (-x)` is `⊤` exactly at the two
  infinite elements `⊥` and `⊤`, so `|x| < ⊤` says that `x` is (the image of) a real number.  Hence
  every entry of every floating-point argument is a real number.
-/
import proofs.«180069_j11596411699546_2_alg».proof.Defs
import proofs.«180069_j11596411699546_2_alg».proof.Proof.Gen.Pre_finite_inputs
import proofs.«180069_j11596411699546_2_alg».proof.Proof.Gen.KernelIdeal
import Idealize.ShloMosaic.PureOps.Ideal
import Idealize.ShloMosaic.Lib.ReduceAll
import proofs.«180069_j11596411699546_2_alg».proof.Proof.Spec

noncomputable section

namespace Cert.Proof.Finite

open Idealize.ShloMosaic Idealize.SL.Sem

/-- The bit pattern of positive infinity denotes the top element of the extended reals. -/
theorem ofBits_inf : Ideal.ofBits .f32 0x7F800000#32 = (⊤ : EReal) := by simp [Ideal.ofBits, Ideal.ieee]

/-- An extended real whose absolute value `max x (-x)` lies strictly below `⊤` is a real number:
    at `⊥` and at `⊤` the absolute value is `⊤`. -/
theorem exists_real_of_abs_lt_top (x : EReal) (h : Ideal.cmp .olt (max x (-x)) ⊤ = 1#1) :
    ∃ r : ℝ, x = (r : EReal) := by
  induction x using EReal.rec with
  | bot => simp [Ideal.cmp] at h
  | coe r => exact ⟨r, rfl⟩
  | top => simp [Ideal.cmp] at h

/-- The rank-zero shape has exactly one index. -/
instance subsingleton_scalarIdx : Subsingleton (⟨0, ![]⟩ : Shape).Idx := ⟨fun a b => funext fun d => d.elim0⟩

/-- If the conjunction over all entries of `|x i| < +∞` is true, every entry of `x` is a real number. -/
theorem isReal_of_all_lt {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (e : Host.reduce IntOp.andi
          (cmpf .olt (Host.absf x) (broadcastInDim s ![] hb (constant ⟨0, ![]⟩ .f32 0x7F800000#32)))
          (constantI ⟨0, ![]⟩ 1 1#1) hr hu ValueIdx.ix0 = 1#1) : GraphSage.IsReal x := by
  intro i
  have hi := Host.reduce_andi_all _ _ hr hu _ e i
  change Ideal.cmp .olt (max (x i) (-(x i))) (Ideal.ofBits .f32 0x7F800000#32) = 1#1 at hi
  rw [ofBits_inf] at hi
  exact exists_real_of_abs_lt_top (x i) hi

open Cert.Pre_finite_inputs in
/-- Under the precondition, every floating-point argument array of the program consists of real numbers
    (on every device): the precondition is the conjunction, over these arrays, of `all (|x| < +∞)`. -/
theorem isReal_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    GraphSage.IsReal (m ((c.tc : Thread Cert.KernelIdeal.nD Cert.KernelIdeal.τ).loc Cert.KernelIdeal.main_arg0))
      ∧ GraphSage.IsReal (m ((c.tc : Thread Cert.KernelIdeal.nD Cert.KernelIdeal.τ).loc Cert.KernelIdeal.main_arg3))
      ∧ GraphSage.IsReal (m ((c.tc : Thread Cert.KernelIdeal.nD Cert.KernelIdeal.τ).loc Cert.KernelIdeal.main_arg4))
      ∧ GraphSage.IsReal (m ((c.tc : Thread Cert.KernelIdeal.nD Cert.KernelIdeal.τ).loc Cert.KernelIdeal.main_arg5))
      ∧ GraphSage.IsReal (m ((c.tc : Thread Cert.KernelIdeal.nD Cert.KernelIdeal.τ).loc Cert.KernelIdeal.main_arg6))
      ∧ GraphSage.IsReal (m ((c.tc : Thread Cert.KernelIdeal.nD Cert.KernelIdeal.τ).loc Cert.KernelIdeal.main_arg7))
      ∧ GraphSage.IsReal (m ((c.tc : Thread Cert.KernelIdeal.nD Cert.KernelIdeal.τ).loc Cert.KernelIdeal.main_arg8))
      ∧ GraphSage.IsReal (m ((c.tc : Thread Cert.KernelIdeal.nD Cert.KernelIdeal.τ).loc Cert.KernelIdeal.main_arg9))
      ∧ GraphSage.IsReal (m ((c.tc : Thread Cert.KernelIdeal.nD Cert.KernelIdeal.τ).loc Cert.KernelIdeal.main_arg10))
      ∧ GraphSage.IsReal (m ((c.tc : Thread Cert.KernelIdeal.nD Cert.KernelIdeal.τ).loc Cert.KernelIdeal.main_arg11))
      ∧ GraphSage.IsReal (m ((c.tc : Thread Cert.KernelIdeal.nD Cert.KernelIdeal.τ).loc Cert.KernelIdeal.main_arg12))
      ∧ GraphSage.IsReal (m ((c.tc : Thread Cert.KernelIdeal.nD Cert.KernelIdeal.τ).loc Cert.KernelIdeal.main_arg13))
      ∧ GraphSage.IsReal (m ((c.tc : Thread Cert.KernelIdeal.nD Cert.KernelIdeal.τ).loc Cert.KernelIdeal.main_arg14))
      ∧ GraphSage.IsReal (m ((c.tc : Thread Cert.KernelIdeal.nD Cert.KernelIdeal.τ).loc Cert.KernelIdeal.main_arg15))
      ∧ GraphSage.IsReal (m ((c.tc : Thread Cert.KernelIdeal.nD Cert.KernelIdeal.τ).loc Cert.KernelIdeal.main_arg16))
      ∧ GraphSage.IsReal (m ((c.tc : Thread Cert.KernelIdeal.nD Cert.KernelIdeal.τ).loc Cert.KernelIdeal.main_arg17))
      ∧ GraphSage.IsReal (m ((c.tc : Thread Cert.KernelIdeal.nD Cert.KernelIdeal.τ).loc Cert.KernelIdeal.main_arg18))
      ∧ GraphSage.IsReal (m ((c.tc : Thread Cert.KernelIdeal.nD Cert.KernelIdeal.τ).loc Cert.KernelIdeal.main_arg19))
      ∧ GraphSage.IsReal (m ((c.tc : Thread Cert.KernelIdeal.nD Cert.KernelIdeal.τ).loc Cert.KernelIdeal.main_arg20))
      ∧ GraphSage.IsReal (m ((c.tc : Thread Cert.KernelIdeal.nD Cert.KernelIdeal.τ).loc Cert.KernelIdeal.main_arg21))
      ∧ GraphSage.IsReal (m ((c.tc : Thread Cert.KernelIdeal.nD Cert.KernelIdeal.τ).loc Cert.KernelIdeal.main_arg22))
      ∧ GraphSage.IsReal (m ((c.tc : Thread Cert.KernelIdeal.nD Cert.KernelIdeal.τ).loc Cert.KernelIdeal.main_arg23)) := by
  have h0 := congrFun (h c) ValueIdx.ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩ := h0
  exact ⟨isReal_of_all_lt _ _ _ _ e0,
    isReal_of_all_lt _ _ _ _ e3,
    isReal_of_all_lt _ _ _ _ e4,
    isReal_of_all_lt _ _ _ _ e5,
    isReal_of_all_lt _ _ _ _ e6,
    isReal_of_all_lt _ _ _ _ e7,
    isReal_of_all_lt _ _ _ _ e8,
    isReal_of_all_lt _ _ _ _ e9,
    isReal_of_all_lt _ _ _ _ e10,
    isReal_of_all_lt _ _ _ _ e11,
    isReal_of_all_lt _ _ _ _ e12,
    isReal_of_all_lt _ _ _ _ e13,
    isReal_of_all_lt _ _ _ _ e14,
    isReal_of_all_lt _ _ _ _ e15,
    isReal_of_all_lt _ _ _ _ e16,
    isReal_of_all_lt _ _ _ _ e17,
    isReal_of_all_lt _ _ _ _ e18,
    isReal_of_all_lt _ _ _ _ e19,
    isReal_of_all_lt _ _ _ _ e20,
    isReal_of_all_lt _ _ _ _ e21,
    isReal_of_all_lt _ _ _ _ e22,
    isReal_of_all_lt _ _ _ _ e23⟩

end Cert.Proof.Finite

end
-- ==== Proof.lean ====
/-
  The certificate: a three-layer graph network with mean aggregation, batch normalisation and a small head,
  computed by nine pipelined regions among host operations, against the same network written with plain array
  operations.  The frames of both kernel programs are the generated ones; the reference's frame is its run.
  The value claim: the kernel program's result is the head applied to the per-graph mean of the node features
  computed its way (scaling after the product, aggregating projected features, a folded normalisation); the
  reference's is the same head and mean over the features computed the plain way; on finite inputs the two
  feature arrays are equal (Net.lean), and the pooling and the head are the same functions on both sides.
-/
import proofs.«180069_j11596411699546_2_alg».proof.Defs
import proofs.«180069_j11596411699546_2_alg».proof.Proof.Gen.Kernel
import proofs.«180069_j11596411699546_2_alg».proof.Proof.Gen.Kernel.Frame
import proofs.«180069_j11596411699546_2_alg».proof.Proof.Gen.KernelIdeal
import proofs.«180069_j11596411699546_2_alg».proof.Proof.Gen.KernelIdeal.Frame
import proofs.«180069_j11596411699546_2_alg».proof.Proof.Gen.ReferenceIdeal
import proofs.«180069_j11596411699546_2_alg».proof.Proof.Gen.Pre_finite_inputs
import proofs.«180069_j11596411699546_2_alg».proof.Proof.KRun
import proofs.«180069_j11596411699546_2_alg».proof.Proof.KChain
import proofs.«180069_j11596411699546_2_alg».proof.Proof.RefRun
import proofs.«180069_j11596411699546_2_alg».proof.Proof.RefValue
import proofs.«180069_j11596411699546_2_alg».proof.Proof.Finite
import proofs.«180069_j11596411699546_2_alg».proof.Proof.Net
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem GraphSage

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The two results agree: the same head over the same per-graph mean of equal node features. -/
theorem value_eq (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) (c : Dev Cert.KernelIdeal.nD) :
    Cert.ReferenceIdeal.RefValue.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
      = Cert.KernelIdeal.Gen.W18 m ρ c (Proc.devRef .tc Cert.KernelIdeal.main_v126) := by
  obtain ⟨h0, h3, h4, h5, h6, h7, h8, h9, h10, h11, h12, h13, h14, h15, h16, h17, -⟩ := Finite.isReal_of_pre m hpre c
  have r0 : IsReal (Cert.KernelIdeal.Gen.W0 m ρ c (Proc.devRef .tc Cert.KernelIdeal.main_arg0)) := h0
  have r3 : IsReal (Cert.KernelIdeal.Gen.W0 m ρ c (Proc.devRef .tc Cert.KernelIdeal.main_arg3)) := h3
  have r4 : IsReal (Cert.KernelIdeal.Gen.W0 m ρ c (Proc.devRef .tc Cert.KernelIdeal.main_arg4)) := h4
  have r5 : IsReal (Cert.KernelIdeal.Gen.W0 m ρ c (Proc.devRef .tc Cert.KernelIdeal.main_arg5)) := h5
  have r6 : IsReal (Cert.KernelIdeal.Gen.W0 m ρ c (Proc.devRef .tc Cert.KernelIdeal.main_arg6)) := h6
  have r7 : IsReal (Cert.KernelIdeal.Gen.W0 m ρ c (Proc.devRef .tc Cert.KernelIdeal.main_arg7)) := h7
  have r8 : IsReal (Cert.KernelIdeal.Gen.W0 m ρ c (Proc.devRef .tc Cert.KernelIdeal.main_arg8)) := h8
  have r9 : IsReal (Cert.KernelIdeal.Gen.W0 m ρ c (Proc.devRef .tc Cert.KernelIdeal.main_arg9)) := h9
  have r10 : IsReal (Cert.KernelIdeal.Gen.W0 m ρ c (Proc.devRef .tc Cert.KernelIdeal.main_arg10)) := h10
  have r11 : IsReal (Cert.KernelIdeal.Gen.W0 m ρ c (Proc.devRef .tc Cert.KernelIdeal.main_arg11)) := h11
  have r12 : IsReal (Cert.KernelIdeal.Gen.W0 m ρ c (Proc.devRef .tc Cert.KernelIdeal.main_arg12)) := h12
  have r13 : IsReal (Cert.KernelIdeal.Gen.W0 m ρ c (Proc.devRef .tc Cert.KernelIdeal.main_arg13)) := h13
  have r14 : IsReal (Cert.KernelIdeal.Gen.W0 m ρ c (Proc.devRef .tc Cert.KernelIdeal.main_arg14)) := h14
  have r15 : IsReal (Cert.KernelIdeal.Gen.W0 m ρ c (Proc.devRef .tc Cert.KernelIdeal.main_arg15)) := h15
  have r16 : IsReal (Cert.KernelIdeal.Gen.W0 m ρ c (Proc.devRef .tc Cert.KernelIdeal.main_arg16)) := h16
  have r17 : IsReal (Cert.KernelIdeal.Gen.W0 m ρ c (Proc.devRef .tc Cert.KernelIdeal.main_arg17)) := h17
  rw [Cert.KernelIdeal.Val.result m ρ c, Cert.KernelIdeal.Val.features m ρ c, Cert.ReferenceIdeal.RefValue.refOut_eq, Cert.KernelIdeal.Val.stage1_v3 m ρ c, Cert.KernelIdeal.Val.stage1_v1 m ρ c,
    kFeatures_eq_rFeatures _ _ _ _ _ _ _ _ _ _ _ _ _ _ _ _ _ _ r0 r3 r4 r5 r6 r7 r8 r9 r10 r11 r12 r13 r14 r15 r16 r17]
  rfl

theorem algebraic : Cert.algebraic_KernelIdeal_ReferenceIdeal := by
  intro m ρ m' ρ' hpre hagree
  refine ⟨fun c => Cert.KernelIdeal.Gen.W18 m ρ c (Proc.devRef .tc Cert.KernelIdeal.main_v126), Cert.KernelIdeal.Val.run_result (F := Ideal) m ρ, ?_⟩
  refine (θ_run Cert.ReferenceIdeal.defs _ _).mono (fun _ h c => ⟨(h c).1.trans ?_, (h c).2⟩) (Cert.ReferenceIdeal.RefValue.run m' ρ')
  obtain ⟨e0, e1, e2, e3, e4, e5, e6, e7, e8, e9, e10, e11, e12, e13, e14, e15, e16, e17, e18, e19, e20, e21, e22, e23⟩ := hagree c
  rw [e0, e1, e2, e3, e4, e5, e6, e7, e8, e9, e10, e11, e12, e13, e14, e15, e16, e17, e18, e19, e20, e21, e22, e23]
  exact value_eq m ρ hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
